-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  IdealRules.sign_bit.Statement Cert.KernelIdeal.S4000x1 .f32
  ∧ IdealRules.sign_bit.Statement Cert.KernelIdeal.S4000x1 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v47_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v47_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x72 : Shape := ⟨2, ![50000, 72]⟩
abbrev S50000x4 : Shape := ⟨2, ![50000, 4]⟩
abbrev S50000x8 : Shape := ⟨2, ![50000, 8]⟩
abbrev S2x1600000 : Shape := ⟨2, ![2, 1600000]⟩
abbrev S146x72 : Shape := ⟨2, ![146, 72]⟩
abbrev S72 : Shape := ⟨1, ![72]⟩
abbrev S72x72 : Shape := ⟨2, ![72, 72]⟩
abbrev S152x72 : Shape := ⟨2, ![152, 72]⟩
abbrev S72x1 : Shape := ⟨2, ![72, 1]⟩
abbrev S1 : Shape := ⟨1, ![1]⟩
abbrev S_ : Shape := ⟨0, ![]⟩

class Facts : Prop where
  bcast_S_S50000x72 : S_.BroadcastsInDim S50000x72 (![] : Fin 0 → Fin S50000x72.rank)
  reducesTo_S50000x72_S_d0_1 : S50000x72.ReducesTo [0, 1] S_
  h_S_ : 0 < S_.numel
  bcast_S_S50000x4 : S_.BroadcastsInDim S50000x4 (![] : Fin 0 → Fin S50000x4.rank)
  reducesTo_S50000x4_S_d0_1 : S50000x4.ReducesTo [0, 1] S_
  bcast_S_S50000x8 : S_.BroadcastsInDim S50000x8 (![] : Fin 0 → Fin S50000x8.rank)
  reducesTo_S50000x8_S_d0_1 : S50000x8.ReducesTo [0, 1] S_
  bcast_S_S146x72 : S_.BroadcastsInDim S146x72 (![] : Fin 0 → Fin S146x72.rank)
  reducesTo_S146x72_S_d0_1 : S146x72.ReducesTo [0, 1] S_
  bcast_S_S72 : S_.BroadcastsInDim S72 (![] : Fin 0 → Fin S72.rank)
  reducesTo_S72_S_d0 : S72.ReducesTo [0] S_
  bcast_S_S72x72 : S_.BroadcastsInDim S72x72 (![] : Fin 0 → Fin S72x72.rank)
  reducesTo_S72x72_S_d0_1 : S72x72.ReducesTo [0, 1] S_
  bcast_S_S152x72 : S_.BroadcastsInDim S152x72 (![] : Fin 0 → Fin S152x72.rank)
  reducesTo_S152x72_S_d0_1 : S152x72.ReducesTo [0, 1] S_
  bcast_S_S72x1 : S_.BroadcastsInDim S72x1 (![] : Fin 0 → Fin S72x1.rank)
  reducesTo_S72x1_S_d0_1 : S72x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1 .f32) (main_v83 : IVec S_ 1) (main_v84 : FVec F S72x1 .f32) (main_cst_32 : FVec F S_ .f32) : IVec S_ 1 :=
  let main_v85 : FVec F S72x1 .f32 := broadcastInDim S72x1 ![] bcast_S_S72x1 main_cst_32
  let main_v86 : IVec S72x1 1 := cmpf .olt main_v84 main_v85
  let main_c_33 : IVec S_ 1 := constantI S_ 1 1#1
  let main_v87 : IVec S_ 1 := (fun x v => Host.reduce IntOp.andi x v reducesTo_S72x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg15 : FVec F S72x72 .f32) (main_arg16 : FVec F S72 .f32) (main_arg17 : FVec F S72x1 .f32) (main_arg18 : FVec F S72x1 .f32) (main_arg19 : FVec F S1 .f32) (main_v63 : IVec S_ 1) (main_v67 : IVec S_ 1) : IVec S_ 1 :=
  let main_v68 : IVec S_ 1 := andi main_v63 main_v67
  let main_v69 : FVec F S72x72 .f32 := Host.absf main_arg15
  let main_cst_26 : FVec F S_ .f32 := constant S_ .f32 0x7F800000#32
  let main_v70 : FVec F S72x72 .f32 := broadcastInDim S72x72 ![] bcast_S_S72x72 main_cst_26
  let main_v71 : IVec S72x72 1 := cmpf .olt main_v69 main_v70
  let main_c_27 : IVec S_ 1 := constantI S_ 1 1#1
  let main_v72 : IVec S_ 1 := (fun x v => Host.reduce IntOp.andi x v reducesTo_S72x72_S_d0_1 h_S_) main_v71 main_c_27
  let main_v73 : IVec S_ 1 := andi main_v68 main_v72
  let main_v74 : FVec F S72 .f32 := Host.absf main_arg16
  let main_cst_28 : FVec F S_ .f32 := constant S_ .f32 0x7F800000#32
  let main_v75 : FVec F S72 .f32 := broadcastInDim S72 ![] bcast_S_S72 main_cst_28
  let main_v76 : IVec S72 1 := cmpf .olt main_v74 main_v75
  let main_c_29 : IVec S_ 1 := constantI S_ 1 1#1
  let main_v77 : IVec S_ 1 := (fun x v => Host.reduce IntOp.andi x v reducesTo_S72_S_d0 h_S_) main_v76 main_c_29
  let main_v78 : IVec S_ 1 := andi main_v73 main_v77
  let main_v79 : FVec F S72x1 .f32 := Host.absf main_arg17
  let main_cst_30 : FVec F S_ .f32 := constant S_ .f32 0x7F800000#32
  let main_v80 : FVec F S72x1 .f32 := broadcastInDim S72x1 ![] bcast_S_S72x1 main_cst_30
  let main_v81 : IVec S72x1 1 := cmpf .olt main_v79 main_v80
  let main_c_31 : IVec S_ 1 := constantI S_ 1 1#1
  let main_v82 : IVec S_ 1 := (fun x v => Host.reduce IntOp.andi x v reducesTo_S72x1_S_d0_1 h_S_) main_v81 main_c_31
  let main_v83 : IVec S_ 1 := andi main_v78 main_v82
  let main_v84 : FVec F S72x1 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S72 .f32) (main_arg13 : FVec F S72x72 .f32) (main_arg14 : FVec F S72 .f32) (main_arg15 : FVec F S72x72 .f32) (main_arg16 : FVec F S72 .f32) (main_arg17 : FVec F S72x1 .f32) (main_arg18 : FVec F S72x1 .f32) (main_arg19 : FVec F S1 .f32) (main_v48 : IVec S_ 1) (main_v49 : FVec F S72 .f32) (main_v50 : FVec F S72 .f32) : IVec S_ 1 :=
  let main_v51 : IVec S72 1 := cmpf .olt main_v49 main_v50
  let main_c_19 : IVec S_ 1 := constantI S_ 1 1#1
  let main_v52 : IVec S_ 1 := (fun x v => Host.reduce IntOp.andi x v reducesTo_S72_S_d0 h_S_) main_v51 main_c_19
  let main_v53 : IVec S_ 1 := andi main_v48 main_v52
  let main_v54 : FVec F S72 .f32 := Host.absf main_arg12
  let main_cst_20 : FVec F S_ .f32 := constant S_ .f32 0x7F800000#32
  let main_v55 : FVec F S72 .f32 := broadcastInDim S72 ![] bcast_S_S72 main_cst_20
  let main_v56 : IVec S72 1 := cmpf .olt main_v54 main_v55
  let main_c_21 : IVec S_ 1 := constantI S_ 1 1#1
  let main_v57 : IVec S_ 1 := (fun x v => Host.reduce IntOp.andi x v reducesTo_S72_S_d0 h_S_) main_v56 main_c_21
  let main_v58 : IVec S_ 1 := andi main_v53 main_v57
  let main_v59 : FVec F S72x72 .f32 := Host.absf main_arg13
  let main_cst_22 : FVec F S_ .f32 := constant S_ .f32 0x7F800000#32
  let main_v60 : FVec F S72x72 .f32 := broadcastInDim S72x72 ![] bcast_S_S72x72 main_cst_22
  let main_v61 : IVec S72x72 1 := cmpf .olt main_v59 main_v60
  let main_c_23 : IVec S_ 1 := constantI S_ 1 1#1
  let main_v62 : IVec S_ 1 := (fun x v => Host.reduce IntOp.andi x v reducesTo_S72x72_S_d0_1 h_S_) main_v61 main_c_23
  let main_v63 : IVec S_ 1 := andi main_v58 main_v62
  let main_v64 : FVec F S72 .f32 := Host.absf main_arg14
  let main_cst_24 : FVec F S_ .f32 := constant S_ .f32 0x7F800000#32
  let main_v65 : FVec F S72 .f32 := broadcastInDim S72 ![] bcast_S_S72 main_cst_24
  let main_v66 : IVec S72 1 := cmpf .olt main_v64 main_v65
  let main_c_25 : IVec S_ 1 := constantI S_ 1 1#1
  let main_v67 : IVec S_ 1 := (fun x v => Host.reduce IntOp.andi x v reducesTo_S72_S_d0 h_S_) main_v66 main_c_25
  fn_part4 (F := F) main_arg15 main_arg16 main_arg17 main_arg18 main_arg19 main_v63 main_v67

def fn_part2 {F : FTy → Type} [FloatOps F] (main_arg8 : FVec F S72 .f32) (main_arg9 : FVec F S152x72 .f32) (main_arg10 : FVec F S72 .f32) (main_arg11 : FVec F S72 .f32) (main_arg12 : FVec F S72 .f32) (main_arg13 : FVec F S72x72 .f32) (main_arg14 : FVec F S72 .f32) (main_arg15 : FVec F S72x72 .f32) (main_arg16 : FVec F S72 .f32) (main_arg17 : FVec F S72x1 .f32) (main_arg18 : FVec F S72x1 .f32) (main_arg19 : FVec F S1 .f32) (main_v33 : IVec S_ 1) : IVec S_ 1 :=
  let main_v34 : FVec F S72 .f32 := Host.absf main_arg8
  let main_cst_12 : FVec F S_ .f32 := constant S_ .f32 0x7F800000#32
  let main_v35 : FVec F S72 .f32 := broadcastInDim S72 ![] bcast_S_S72 main_cst_12
  let main_v36 : IVec S72 1 := cmpf .olt main_v34 main_v35
  let main_c_13 : IVec S_ 1 := constantI S_ 1 1#1
  let main_v37 : IVec S_ 1 := (fun x v => Host.reduce IntOp.andi x v reducesTo_S72_S_d0 h_S_) main_v36 main_c_13
  let main_v38 : IVec S_ 1 := andi main_v33 main_v37
  let main_v39 : FVec F S152x72 .f32 := Host.absf main_arg9
  let main_cst_14 : FVec F S_ .f32 := constant S_ .f32 0x7F800000#32
  let main_v40 : FVec F S152x72 .f32 := broadcastInDim S152x72 ![] bcast_S_S152x72 main_cst_14
  let main_v41 : IVec S152x72 1 := cmpf .olt main_v39 main_v40
  let main_c_15 : IVec S_ 1 := constantI S_ 1 1#1
  let main_v42 : IVec S_ 1 := (fun x v => Host.reduce IntOp.andi x v reducesTo_S152x72_S_d0_1 h_S_) main_v41 main_c_15
  let main_v43 : IVec S_ 1 := andi main_v38 main_v42
  let main_v44 : FVec F S72 .f32 := Host.absf main_arg10
  let main_cst_16 : FVec F S_ .f32 := constant S_ .f32 0x7F800000#32
  let main_v45 : FVec F S72 .f32 := broadcastInDim S72 ![] bcast_S_S72 main_cst_16
  let main_v46 : IVec S72 1 := cmpf .olt main_v44 main_v45
  let main_c_17 : IVec S_ 1 := constantI S_ 1 1#1
  let main_v47 : IVec S_ 1 := (fun x v => Host.reduce IntOp.andi x v reducesTo_S72_S_d0 h_S_) main_v46 main_c_17
  let main_v48 : IVec S_ 1 := andi main_v43 main_v47
  let main_v49 : FVec F S72 .f32 := Host.absf main_arg11
  let main_cst_18 : FVec F S_ .f32 := constant S_ .f32 0x7F800000#32
  let main_v50 : FVec F S72 .f32 := broadcastInDim S72 ![] bcast_S_S72 main_cst_18
  fn_part3 (F := F) main_arg12 main_arg13 main_arg14 main_arg15 main_arg16 main_arg17 main_arg18 main_arg19 main_v48 main_v49 main_v50

def fn_part1 {F : FTy → Type} [FloatOps F] (main_arg5 : FVec F S72 .f32) (main_arg6 : FVec F S72 .f32) (main_arg7 : FVec F S72x72 .f32) (main_arg8 : FVec F S72 .f32) (main_arg9 : FVec F S152x72 .f32) (main_arg10 : FVec F S72 .f32) (main_arg11 : FVec F S72 .f32) (main_arg12 : FVec F S72 .f32) (main_arg13 : FVec F S72x72 .f32) (main_arg14 : FVec F S72 .f32) (main_arg15 : FVec F S72x72 .f32) (main_arg16 : FVec F S72 .f32) (main_arg17 : FVec F S72x1 .f32) (main_arg18 : FVec F S72x1 .f32) (main_arg19 : FVec F S1 .f32) (main_v13 : IVec S_ 1) (main_v16 : IVec S146x72 1) : IVec S_ 1 :=
  let main_c_5 : IVec S_ 1 := constantI S_ 1 1#1
  let main_v17 : IVec S_ 1 := (fun x v => Host.reduce IntOp.andi x v reducesTo_S146x72_S_d0_1 h_S_) main_v16 main_c_5
  let main_v18 : IVec S_ 1 := andi main_v13 main_v17
  let main_v19 : FVec F S72 .f32 := Host.absf main_arg5
  let main_cst_6 : FVec F S_ .f32 := constant S_ .f32 0x7F800000#32
  let main_v20 : FVec F S72 .f32 := broadcastInDim S72 ![] bcast_S_S72 main_cst_6
  let main_v21 : IVec S72 1 := cmpf .olt main_v19 main_v20
  let main_c_7 : IVec S_ 1 := constantI S_ 1 1#1
  let main_v22 : IVec S_ 1 := (fun x v => Host.reduce IntOp.andi x v reducesTo_S72_S_d0 h_S_) main_v21 main_c_7
  let main_v23 : IVec S_ 1 := andi main_v18 main_v22
  let main_v24 : FVec F S72 .f32 := Host.absf main_arg6
  let main_cst_8 : FVec F S_ .f32 := constant S_ .f32 0x7F800000#32
  let main_v25 : FVec F S72 .f32 := broadcastInDim S72 ![] bcast_S_S72 main_cst_8
  let main_v26 : IVec S72 1 := cmpf .olt main_v24 main_v25
  let main_c_9 : IVec S_ 1 := constantI S_ 1 1#1
  let main_v27 : IVec S_ 1 := (fun x v => Host.reduce IntOp.andi x v reducesTo_S72_S_d0 h_S_) main_v26 main_c_9
  let main_v28 : IVec S_ 1 := andi main_v23 main_v27
  let main_v29 : FVec F S72x72 .f32 := Host.absf main_arg7
  let main_cst_10 : FVec F S_ .f32 := constant S_ .f32 0x7F800000#32
  let main_v30 : FVec F S72x72 .f32 := broadcastInDim S72x72 ![] bcast_S_S72x72 main_cst_10
  let main_v31 : IVec S72x72 1 := cmpf .olt main_v29 main_v30
  let main_c_11 : IVec S_ 1 := constantI S_ 1 1#1
  let main_v32 : IVec S_ 1 := (fun x v => Host.reduce IntOp.andi x v reducesTo_S72x72_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x72 .f32) (main_arg1 : FVec F S50000x4 .f32) (main_arg2 : FVec F S50000x8 .f32) (main_arg3 : IVec S2x1600000 32) (main_arg4 : FVec F S146x72 .f32) (main_arg5 : FVec F S72 .f32) (main_arg6 : FVec F S72 .f32) (main_arg7 : FVec F S72x72 .f32) (main_arg8 : FVec F S72 .f32) (main_arg9 : FVec F S152x72 .f32) (main_arg10 : FVec F S72 .f32) (main_arg11 : FVec F S72 .f32) (main_arg12 : FVec F S72 .f32) (main_arg13 : FVec F S72x72 .f32) (main_arg14 : FVec F S72 .f32) (main_arg15 : FVec F S72x72 .f32) (main_arg16 : FVec F S72 .f32) (main_arg17 : FVec F S72x1 .f32) (main_arg18 : FVec F S72x1 .f32) (main_arg19 : FVec F S1 .f32) : IVec S_ 1 :=
  let main_v0 : FVec F S50000x72 .f32 := Host.absf main_arg0
  let main_cst : FVec F S_ .f32 := constant S_ .f32 0x7F800000#32
  let main_v1 : FVec F S50000x72 .f32 := broadcastInDim S50000x72 ![] bcast_S_S50000x72 main_cst
  let main_v2 : IVec S50000x72 1 := cmpf .olt main_v0 main_v1
  let main_c : IVec S_ 1 := constantI S_ 1 1#1
  let main_v3 : IVec S_ 1 := (fun x v => Host.reduce IntOp.andi x v reducesTo_S50000x72_S_d0_1 h_S_) main_v2 main_c
  let main_v4 : FVec F S50000x4 .f32 := Host.absf main_arg1
  let main_cst_0 : FVec F S_ .f32 := constant S_ .f32 0x7F800000#32
  let main_v5 : FVec F S50000x4 .f32 := broadcastInDim S50000x4 ![] bcast_S_S50000x4 main_cst_0
  let main_v6 : IVec S50000x4 1 := cmpf .olt main_v4 main_v5
  let main_c_1 : IVec S_ 1 := constantI S_ 1 1#1
  let main_v7 : IVec S_ 1 := (fun x v => Host.reduce IntOp.andi x v reducesTo_S50000x4_S_d0_1 h_S_) main_v6 main_c_1
  let main_v8 : IVec S_ 1 := andi main_v3 main_v7
  let main_v9 : FVec F S50000x8 .f32 := Host.absf main_arg2
  let main_cst_2 : FVec F S_ .f32 := constant S_ .f32 0x7F800000#32
  let main_v10 : FVec F S50000x8 .f32 := broadcastInDim S50000x8 ![] bcast_S_S50000x8 main_cst_2
  let main_v11 : IVec S50000x8 1 := cmpf .olt main_v9 main_v10
  let main_c_3 : IVec S_ 1 := constantI S_ 1 1#1
  let main_v12 : IVec S_ 1 := (fun x v => Host.reduce IntOp.andi x v reducesTo_S50000x8_S_d0_1 h_S_) main_v11 main_c_3
  let main_v13 : IVec S_ 1 := andi main_v8 main_v12
  let main_v14 : FVec F S146x72 .f32 := Host.absf main_arg4
  let main_cst_4 : FVec F S_ .f32 := constant S_ .f32 0x7F800000#32
  let main_v15 : FVec F S146x72 .f32 := broadcastInDim S146x72 ![] bcast_S_S146x72 main_cst_4
  let main_v16 : IVec S146x72 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x72 : Shape := ⟨2, ![50000, 72]⟩
abbrev S50000x4 : Shape := ⟨2, ![50000, 4]⟩
abbrev S50000x8 : Shape := ⟨2, ![50000, 8]⟩
abbrev S2x1600000 : Shape := ⟨2, ![2, 1600000]⟩
abbrev S146x72 : Shape := ⟨2, ![146, 72]⟩
abbrev S72 : Shape := ⟨1, ![72]⟩
abbrev S72x72 : Shape := ⟨2, ![72, 72]⟩
abbrev S152x72 : Shape := ⟨2, ![152, 72]⟩
abbrev S72x1 : Shape := ⟨2, ![72, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x72 : Shape := ⟨2, ![1600000, 72]⟩
abbrev S1600000x4 : Shape := ⟨2, ![1600000, 4]⟩
abbrev S1x72 : Shape := ⟨2, ![1, 72]⟩
abbrev S4000x72 : Shape := ⟨2, ![4000, 72]⟩
abbrev S4000x4 : Shape := ⟨2, ![4000, 4]⟩
abbrev S4000x1 : Shape := ⟨2, ![4000, 1]⟩
abbrev S4000 : Shape := ⟨1, ![4000]⟩
abbrev S1x1 : Shape := ⟨2, ![1, 1]⟩
abbrev S50000 : Shape := ⟨1, ![50000]⟩
abbrev S50000x1 : Shape := ⟨2, ![50000, 1]⟩
abbrev S8x72 : Shape := ⟨2, ![8, 72]⟩
abbrev S5000x72 : Shape := ⟨2, ![5000, 72]⟩
abbrev S5000x8 : Shape := ⟨2, ![5000, 8]⟩

abbrev nBuf : Space → Nat
  | .hbm => 166
  | .vmem => 59
  | .smem => 0
  | _ => 0

abbrev hbmTy0_0 (i : Nat) : BufTy := match i % 128 with
  | 0 => ⟨S50000x72, .f32⟩
  | 1 => ⟨S50000x4, .f32⟩
  | 2 => ⟨S50000x8, .f32⟩
  | 3 => ⟨S2x1600000, .i32⟩
  | 4 => ⟨S146x72, .f32⟩
  | 5 => ⟨S72, .f32⟩
  | 6 => ⟨S72, .f32⟩
  | 7 => ⟨S72x72, .f32⟩
  | 8 => ⟨S72, .f32⟩
  | 9 => ⟨S152x72, .f32⟩
  | 10 => ⟨S72, .f32⟩
  | 11 => ⟨S72, .f32⟩
  | 12 => ⟨S72, .f32⟩
  | 13 => ⟨S72x72, .f32⟩
  | 14 => ⟨S72, .f32⟩
  | 15 => ⟨S72x72, .f32⟩
  | 16 => ⟨S72, .f32⟩
  | 17 => ⟨S72x1, .f32⟩
  | 18 => ⟨S72x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x72, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x72, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x4, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x4, .f32⟩
  | 60 => ⟨S72x72, .f32⟩
  | 61 => ⟨S72x72, .f32⟩
  | 62 => ⟨S1x72, .f32⟩
  | 63 => ⟨S1x72, .f32⟩
  | 64 => ⟨S1600000x72, .f32⟩
  | 65 => ⟨S1600000x4, .f32⟩
  | 66 => ⟨S_, .f32⟩
  | 67 => ⟨S72, .f32⟩
  | 68 => ⟨S1x72, .f32⟩
  | 69 => ⟨S_, .f32⟩
  | 70 => ⟨S1x72, .f32⟩
  | 71 => ⟨S1x72, .f32⟩
  | 72 => ⟨S_, .i32⟩
  | 73 => ⟨S_, .f32⟩
  | 74 => ⟨S72, .f32⟩
  | 75 => ⟨S1x72, .f32⟩
  | 76 => ⟨S_, .f32⟩
  | 77 => ⟨S1x72, .f32⟩
  | 78 => ⟨S1x72, .f32⟩
  | 79 => ⟨S1600000x72, .f32⟩
  | 80 => ⟨S1600000x72, .f32⟩
  | 81 => ⟨S1600000x72, .f32⟩
  | 82 => ⟨S_, .f32⟩
  | 83 => ⟨S_, .f32⟩
  | 84 => ⟨S_, .f32⟩
  | 85 => ⟨S_, .f32⟩
  | 86 => ⟨S72, .f32⟩
  | 87 => ⟨S1x72, .f32⟩
  | 88 => ⟨S1x72, .f32⟩
  | 89 => ⟨S1x72, .f32⟩
  | 90 => ⟨S_, .f32⟩
  | 91 => ⟨S_, .i1⟩
  | 92 => ⟨S_, .f32⟩
  | 93 => ⟨S_, .f32⟩
  | 94 => ⟨S1x72, .f32⟩
  | 95 => ⟨S1x72, .f32⟩
  | 96 => ⟨S1x72, .f32⟩
  | 97 => ⟨S1x72, .f32⟩
  | 98 => ⟨S1x72, .f32⟩
  | 99 => ⟨S1x1, .f32⟩
  | 100 => ⟨S1x72, .f32⟩
  | 101 => ⟨S1600000x72, .f32⟩
  | 102 => ⟨S1600000x4, .f32⟩
  | 103 => ⟨S_, .f32⟩
  | 104 => ⟨S50000x72, .f32⟩
  | 105 => ⟨S1600000x1, .i32⟩
  | 106 => ⟨S50000x72, .f32⟩
  | 107 => ⟨S_, .f32⟩
  | 108 => ⟨S50000x4, .f32⟩
  | 109 => ⟨S1600000x1, .i32⟩
  | 110 => ⟨S50000x4, .f32⟩
  | 111 => ⟨S_, .f32⟩
  | 112 => ⟨S1600000, .f32⟩
  | 113 => ⟨S_, .f32⟩
  | 114 => ⟨S50000, .f32⟩
  | 115 => ⟨S1600000x1, .i32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x4, .f32⟩
  | 122 => ⟨S50000x4, .f32⟩
  | 123 => ⟨S_, .f32⟩
  | 124 => ⟨S50000x4, .f32⟩
  | 125 => ⟨S50000x4, .f32⟩
  | 126 => ⟨S50000x4, .f32⟩
  | 127 => ⟨S72x72, .f32⟩
  | _ => ⟨S50000x72, .f32⟩

abbrev hbmTy0_1 (i : Nat) : BufTy := match i % 128 with
  | 0 => ⟨S72x72, .f32⟩
  | 1 => ⟨S8x72, .f32⟩
  | 2 => ⟨S1x72, .f32⟩
  | 3 => ⟨S50000x72, .f32⟩
  | 4 => ⟨S_, .f32⟩
  | 5 => ⟨S72, .f32⟩
  | 6 => ⟨S1x72, .f32⟩
  | 7 => ⟨S_, .f32⟩
  | 8 => ⟨S1x72, .f32⟩
  | 9 => ⟨S1x72, .f32⟩
  | 10 => ⟨S_, .i32⟩
  | 11 => ⟨S_, .f32⟩
  | 12 => ⟨S72, .f32⟩
  | 13 => ⟨S1x72, .f32⟩
  | 14 => ⟨S_, .f32⟩
  | 15 => ⟨S1x72, .f32⟩
  | 16 => ⟨S1x72, .f32⟩
  | 17 => ⟨S50000x72, .f32⟩
  | 18 => ⟨S50000x72, .f32⟩
  | 19 => ⟨S50000x72, .f32⟩
  | 20 => ⟨S_, .f32⟩
  | 21 => ⟨S_, .f32⟩
  | 22 => ⟨S_, .f32⟩
  | 23 => ⟨S_, .f32⟩
  | 24 => ⟨S72, .f32⟩
  | 25 => ⟨S1x72, .f32⟩
  | 26 => ⟨S1x72, .f32⟩
  | 27 => ⟨S1x72, .f32⟩
  | 28 => ⟨S_, .f32⟩
  | 29 => ⟨S_, .i1⟩
  | 30 => ⟨S_, .f32⟩
  | 31 => ⟨S_, .f32⟩
  | 32 => ⟨S1x72, .f32⟩
  | 33 => ⟨S1x72, .f32⟩
  | 34 => ⟨S1x72, .f32⟩
  | 35 => ⟨S1x72, .f32⟩
  | 36 => ⟨S1x72, .f32⟩
  | 37 => ⟨S50000x72, .f32⟩
  | _ => ⟨S50000x72, .f32⟩

abbrev hbmTy (i : Nat) : BufTy := match i / 128 with
  | 0 => hbmTy0_0 i
  | 1 => hbmTy0_1 i
  | _ => ⟨S50000x72, .f32⟩

abbrev bufTy : (tb : Table) → Fin (tcTables nBuf tb) → BufTy
  | .hbm, ⟨i, _⟩ => hbmTy i
  | .local _ .vmem, ⟨0, _⟩ => ⟨S4000x72, .f32⟩
  | .local _ .vmem, ⟨1, _⟩ => ⟨S4000x72, .f32⟩
  | .local _ .vmem, ⟨2, _⟩ => ⟨S4000x72, .f32⟩
  | .local _ .vmem, ⟨3, _⟩ => ⟨S4000x72, .f32⟩
  | .local _ .vmem, ⟨4, _⟩ => ⟨S4000x4, .f32⟩
  | .local _ .vmem, ⟨5, _⟩ => ⟨S4000x4, .f32⟩
  | .local _ .vmem, ⟨6, _⟩ => ⟨S4000x4, .f32⟩
  | .local _ .vmem, ⟨7, _⟩ => ⟨S4000x4, .f32⟩
  | .local _ .vmem, ⟨8, _⟩ => ⟨S72x72, .f32⟩
  | .local _ .vmem, ⟨9, _⟩ => ⟨S72x72, .f32⟩
  | .local _ .vmem, ⟨10, _⟩ => ⟨S1x72, .f32⟩
  | .local _ .vmem, ⟨11, _⟩ => ⟨S1x72, .f32⟩
  | .local _ .vmem, ⟨12, _⟩ => ⟨S4000x72, .f32⟩
  | .local _ .vmem, ⟨13, _⟩ => ⟨S4000x72, .f32⟩
  | .local _ .vmem, ⟨14, _⟩ => ⟨S4000x4, .f32⟩
  | .local _ .vmem, ⟨15, _⟩ => ⟨S4000x4, .f32⟩
  | .local _ .vmem, ⟨16, _⟩ => ⟨S4000x72, .f32⟩
  | .local _ .vmem, ⟨17, _⟩ => ⟨S4000x72, .f32⟩
  | .local _ .vmem, ⟨18, _⟩ => ⟨S4000x4, .f32⟩
  | .local _ .vmem, ⟨19, _⟩ => ⟨S4000x4, .f32⟩
  | .local _ .vmem, ⟨20, _⟩ => ⟨S1x72, .f32⟩
  | .local _ .vmem, ⟨21, _⟩ => ⟨S1x72, .f32⟩
  | .local _ .vmem, ⟨22, _⟩ => ⟨S1x72, .f32⟩
  | .local _ .vmem, ⟨23, _⟩ => ⟨S1x72, .f32⟩
  | .local _ .vmem, ⟨24, _⟩ => ⟨S72x72, .f32⟩
  | .local _ .vmem, ⟨25, _⟩ => ⟨S1x72, .f32⟩
  | .local _ .vmem, ⟨26, _⟩ => ⟨S72x1, .f32⟩
  | .local _ .vmem, ⟨27, _⟩ => ⟨S1x1, .f32⟩
  | .local _ .vmem, ⟨28, _⟩ => ⟨S72x72, .f32⟩
  | .local _ .vmem, ⟨29, _⟩ => ⟨S1x72, .f32⟩
  | .local _ .vmem, ⟨30, _⟩ => ⟨S72x1, .f32⟩
  | .local _ .vmem, ⟨31, _⟩ => ⟨S4000x72, .f32⟩
  | .local _ .vmem, ⟨32, _⟩ => ⟨S4000x72, .f32⟩
  | .local _ .vmem, ⟨33, _⟩ => ⟨S4000x4, .f32⟩
  | .local _ .vmem, ⟨34, _⟩ => ⟨S4000x4, .f32⟩
  | .local _ .vmem, ⟨35, _⟩ => ⟨S5000x72, .f32⟩
  | .local _ .vmem, ⟨36, _⟩ => ⟨S5000x72, .f32⟩
  | .local _ .vmem, ⟨37, _⟩ => ⟨S5000x72, .f32⟩
  | .local _ .vmem, ⟨38, _⟩ => ⟨S5000x72, .f32⟩
  | .local _ .vmem, ⟨39, _⟩ => ⟨S5000x8, .f32⟩
  | .local _ .vmem, ⟨40, _⟩ => ⟨S5000x8, .f32⟩
  | .local _ .vmem, ⟨41, _⟩ => ⟨S72x72, .f32⟩
  | .local _ .vmem, ⟨42, _⟩ => ⟨S72x72, .f32⟩
  | .local _ .vmem, ⟨43, _⟩ => ⟨S8x72, .f32⟩
  | .local _ .vmem, ⟨44, _⟩ => ⟨S1x72, .f32⟩
  | .local _ .vmem, ⟨45, _⟩ => ⟨S5000x72, .f32⟩
  | .local _ .vmem, ⟨46, _⟩ => ⟨S5000x72, .f32⟩
  | .local _ .vmem, ⟨47, _⟩ => ⟨S5000x72, .f32⟩
  | .local _ .vmem, ⟨48, _⟩ => ⟨S5000x72, .f32⟩
  | .local _ .vmem, ⟨49, _⟩ => ⟨S5000x72, .f32⟩
  | .local _ .vmem, ⟨50, _⟩ => ⟨S5000x72, .f32⟩
  | .local _ .vmem, ⟨51, _⟩ => ⟨S1x72, .f32⟩
  | .local _ .vmem, ⟨52, _⟩ => ⟨S1x72, .f32⟩
  | .local _ .vmem, ⟨53, _⟩ => ⟨S1x72, .f32⟩
  | .local _ .vmem, ⟨54, _⟩ => ⟨S1x72, .f32⟩
  | .local _ .vmem, ⟨55, _⟩ => ⟨S72x72, .f32⟩
  | .local _ .vmem, ⟨56, _⟩ => ⟨S1x72, .f32⟩
  | .local _ .vmem, ⟨57, _⟩ => ⟨S5000x72, .f32⟩
  | .local _ .vmem, ⟨58, _⟩ => ⟨S5000x72, .f32⟩
  | _, _ => ⟨S50000x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36_0 : Ref sig .tc := ⟨.hbm, 64, rfl⟩
abbrev main_v36_1 : Ref sig .tc := ⟨.hbm, 65, rfl⟩
abbrev main_cst : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_c_8 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_cst_0 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_cst_1 : Ref sig .tc := ⟨.hbm, 83, rfl⟩
abbrev main_call0_v8 : Ref sig .tc := ⟨.hbm, 84, rfl⟩
abbrev main_call0_cst_2 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_v12 : Ref sig .tc := ⟨.hbm, 89, rfl⟩
abbrev main_call0_cst_3 : Ref sig .tc := ⟨.hbm, 90, rfl⟩
abbrev main_call0_v13 : Ref sig .tc := ⟨.hbm, 91, rfl⟩
abbrev main_call0_cst_4 : Ref sig .tc := ⟨.hbm, 92, rfl⟩
abbrev main_call0_call0_v0 : Ref sig .tc := ⟨.hbm, 93, rfl⟩
abbrev main_call0_call0_v1 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47_0 : Ref sig .tc := ⟨.hbm, 101, rfl⟩
abbrev main_v47_1 : Ref sig .tc := ⟨.hbm, 102, rfl⟩
abbrev main_cst_9 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_10 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_11 : Ref sig .tc := ⟨.hbm, 111, rfl⟩
abbrev main_v54 : Ref sig .tc := ⟨.hbm, 112, rfl⟩
abbrev main_cst_12 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_13 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_14 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_cst_15 : Ref sig .tc := ⟨.hbm, 132, rfl⟩
abbrev main_v71 : Ref sig .tc := ⟨.hbm, 133, rfl⟩
abbrev main_v72 : Ref sig .tc := ⟨.hbm, 134, rfl⟩
abbrev main_cst_16 : Ref sig .tc := ⟨.hbm, 135, rfl⟩
abbrev main_v73 : Ref sig .tc := ⟨.hbm, 136, rfl⟩
abbrev main_v74 : Ref sig .tc := ⟨.hbm, 137, rfl⟩
abbrev main_c_17 : Ref sig .tc := ⟨.hbm, 138, rfl⟩
abbrev main_call1_cst : Ref sig .tc := ⟨.hbm, 139, rfl⟩
abbrev main_call1_v0 : Ref sig .tc := ⟨.hbm, 140, rfl⟩
abbrev main_call1_v1 : Ref sig .tc := ⟨.hbm, 141, rfl⟩
abbrev main_call1_cst_0 : Ref sig .tc := ⟨.hbm, 142, rfl⟩
abbrev main_call1_v2 : Ref sig .tc := ⟨.hbm, 143, rfl⟩
abbrev main_call1_v3 : Ref sig .tc := ⟨.hbm, 144, rfl⟩
abbrev main_call1_v4 : Ref sig .tc := ⟨.hbm, 145, rfl⟩
abbrev main_call1_v5 : Ref sig .tc := ⟨.hbm, 146, rfl⟩
abbrev main_call1_v6 : Ref sig .tc := ⟨.hbm, 147, rfl⟩
abbrev main_call1_v7 : Ref sig .tc := ⟨.hbm, 148, rfl⟩
abbrev main_call1_cst_1 : Ref sig .tc := ⟨.hbm, 149, rfl⟩
abbrev main_call1_v8 : Ref sig .tc := ⟨.hbm, 150, rfl⟩
abbrev main_call1_cst_2 : Ref sig .tc := ⟨.hbm, 151, rfl⟩
abbrev main_call1_v9 : Ref sig .tc := ⟨.hbm, 152, rfl⟩
abbrev main_call1_v10 : Ref sig .tc := ⟨.hbm, 153, rfl⟩
abbrev main_call1_v11 : Ref sig .tc := ⟨.hbm, 154, rfl⟩
abbrev main_call1_v12 : Ref sig .tc := ⟨.hbm, 155, rfl⟩
abbrev main_call1_cst_3 : Ref sig .tc := ⟨.hbm, 156, rfl⟩
abbrev main_call1_v13 : Ref sig .tc := ⟨.hbm, 157, rfl⟩
abbrev main_call1_cst_4 : Ref sig .tc := ⟨.hbm, 158, rfl⟩
abbrev main_call1_call0_v0 : Ref sig .tc := ⟨.hbm, 159, rfl⟩
abbrev main_call1_call0_v1 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg14_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg7_1 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg1_1 : Ref sig .tc := ⟨.vmem, 50, rfl⟩
abbrev cc3_stg2_0 : Ref sig .tc := ⟨.vmem, 51, rfl⟩
abbrev cc3_stg3_0 : Ref sig .tc := ⟨.vmem, 52, rfl⟩
abbrev cc3_stg4_0 : Ref sig .tc := ⟨.vmem, 53, rfl⟩
abbrev cc3_stg5_0 : Ref sig .tc := ⟨.vmem, 54, rfl⟩
abbrev cc3_stg6_0 : Ref sig .tc := ⟨.vmem, 55, rfl⟩
abbrev cc3_stg7_0 : Ref sig .tc := ⟨.vmem, 56, rfl⟩
abbrev cc3_stg8_0 : Ref sig .tc := ⟨.vmem, 57, rfl⟩
abbrev cc3_stg8_1 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem13_1 : DmaSem sig := 32
abbrev cc1_sem14_0 : DmaSem sig := 33
abbrev cc1_sem14_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem7_1 : DmaSem sig := 46
abbrev cc3_sem0_0 : DmaSem sig := 47
abbrev cc3_sem0_1 : DmaSem sig := 48
abbrev cc3_sem1_0 : DmaSem sig := 49
abbrev cc3_sem1_1 : DmaSem sig := 50
abbrev cc3_sem2_0 : DmaSem sig := 51
abbrev cc3_sem3_0 : DmaSem sig := 52
abbrev cc3_sem4_0 : DmaSem sig := 53
abbrev cc3_sem5_0 : DmaSem sig := 54
abbrev cc3_sem6_0 : DmaSem sig := 55
abbrev cc3_sem7_0 : DmaSem sig := 56
abbrev cc3_sem8_0 : DmaSem sig := 57
abbrev cc3_sem8_1 : DmaSem sig := 58

abbrev nD : Nat := 1
abbrev τ : Topo := Topo.v7x

variable {F : FTy → Type} [BitOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x72 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S72x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S72x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x72 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x72 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x72 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x72 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x72 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x72 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x72 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x72 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S72x72 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x72 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S72x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S72x72 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x72 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S72x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S4000x72 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S4000x4 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x72 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x72 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S72x72 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S72x72 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x72 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x72 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x72 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x72 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x72 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x72 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x72 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x72 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x72 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S72x72 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x72 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x72 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S146x72_S72x72_0_0 : S146x72.Slices ![0, 0] S72x72
  slices_S146x72_S72x72_72_0 : S146x72.Slices ![72, 0] S72x72
  slices_S146x72_S1x72_144_0 : S146x72.Slices ![144, 0] S1x72
  slices_S146x72_S1x72_145_0 : S146x72.Slices ![145, 0] S1x72
  inb_S4000x72_S4000x72_0_0 : ∀ a, (![0, 0] : Fin 2 → Nat) a + S4000x72.size a ≤ S4000x72.size a
  h_S4000x72 : 0 < S4000x72.numel
  shapeCasts_S4000x72_S4000x72 : S4000x72.ShapeCasts S4000x72
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  slices_S4000x4_o0_0_S4000x1 : S4000x4.Slices ![0, 0] S4000x1
  reduces_S4000x4_S4000 : S4000x4.Reduces [1] S4000
  shapeCasts_S4000_S4000x1 : S4000.ShapeCasts S4000x1
  bitsLt_bf16_f32 : FTy.bits .bf16 < FTy.bits .f32
  inb_S72x72_S72x72_0_0 : ∀ a, (![0, 0] : Fin 2 → Nat) a + S72x72.size a ≤ S72x72.size a
  h_S72x72 : 0 < S72x72.numel
  shapeCasts_S72x72_S72x72 : S72x72.ShapeCasts S72x72
  inb_S1x72_S1x72_0_0 : ∀ a, (![0, 0] : Fin 2 → Nat) a + S1x72.size a ≤ S1x72.size a
  h_S1x72 : 0 < S1x72.numel
  shapeCasts_S1x72_S1x72 : S1x72.ShapeCasts S1x72
  broadcasts_S4000x1_S4000x72 : S4000x1.Broadcasts S4000x72
  broadcasts_S1x72_S4000x72 : S1x72.Broadcasts S4000x72
  reducesTo_S1600000x72_S72_d0 : S1600000x72.ReducesTo [0] S72
  h_S_ : 0 < S_.numel
  bcast_S72_S1x72_1 : S72.BroadcastsInDim S1x72 (![1] : Fin 1 → Fin S1x72.rank)
  bcast_S_S1x72 : S_.BroadcastsInDim S1x72 (![] : Fin 0 → Fin S1x72.rank)
  bcast_S1x72_S1600000x72_0_1 : S1x72.BroadcastsInDim S1600000x72 (![0, 1] : Fin 2 → Fin S1600000x72.rank)
  shapeCasts_S72_S1x72 : S72.ShapeCasts S1x72
  shapeCasts_S1_S1x1 : S1.ShapeCasts S1x1
  inb_S72x1_S72x1_0_0 : ∀ a, (![0, 0] : Fin 2 → Nat) a + S72x1.size a ≤ S72x1.size a
  h_S72x1 : 0 < S72x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x4 : S4000x1.Broadcasts S4000x4
  bcast_S_S50000x72 : S_.BroadcastsInDim S50000x72 (![] : Fin 0 → Fin S50000x72.rank)
  bcast_S_S50000x4 : S_.BroadcastsInDim S50000x4 (![] : Fin 0 → Fin S50000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  slices_S152x72_S72x72_0_0 : S152x72.Slices ![0, 0] S72x72
  slices_S152x72_S72x72_72_0 : S152x72.Slices ![72, 0] S72x72
  slices_S152x72_S8x72_144_0 : S152x72.Slices ![144, 0] S8x72
  inb_S5000x72_S5000x72_0_0 : ∀ a, (![0, 0] : Fin 2 → Nat) a + S5000x72.size a ≤ S5000x72.size a
  h_S5000x72 : 0 < S5000x72.numel
  shapeCasts_S5000x72_S5000x72 : S5000x72.ShapeCasts S5000x72
  inb_S5000x8_S5000x8_0_0 : ∀ a, (![0, 0] : Fin 2 → Nat) a + S5000x8.size a ≤ S5000x8.size a
  h_S5000x8 : 0 < S5000x8.numel
  inb_S8x72_S8x72_0_0 : ∀ a, (![0, 0] : Fin 2 → Nat) a + S8x72.size a ≤ S8x72.size a
  h_S8x72 : 0 < S8x72.numel
  shapeCasts_S8x72_S8x72 : S8x72.ShapeCasts S8x72
  broadcasts_S1x72_S5000x72 : S1x72.Broadcasts S5000x72
  reducesTo_S50000x72_S72_d0 : S50000x72.ReducesTo [0] S72
  bcast_S1x72_S50000x72_0_1 : S1x72.BroadcastsInDim S50000x72 (![0, 1] : Fin 2 → Fin S50000x72.rank)
  gather_S50000x72_S1600000x1_S1600000x72_1_0_n_n_0_1_172_wf : GatherDims.WF S50000x72 S1600000x1 S1600000x72 [1] [0] [] [0] [] 1 ![1, 72]
  gather_S50000x4_S1600000x1_S1600000x4_1_0_n_n_0_1_14_wf : GatherDims.WF S50000x4 S1600000x1 S1600000x4 [1] [0] [] [0] [] 1 ![1, 4]
  dot_S4000x72_S72x72_S4000x72_1_0_0_1_n_n_wf : DotDims.WF S4000x72 S72x72 S4000x72 [1] [0] [0] [1] [] []
  dot_S4000x72_S72x1_S4000x1_1_0_0_1_n_n_wf : DotDims.WF S4000x72 S72x1 S4000x1 [1] [0] [0] [1] [] []
  scatter_S50000x72_S1600000x1_S1600000x72_1_0_0_1_wf : ScatterDims.WF S50000x72 S1600000x1 S1600000x72 [1] [0] [0] 1
  scatter_S50000x4_S1600000x1_S1600000x4_1_0_0_1_wf : ScatterDims.WF S50000x4 S1600000x1 S1600000x4 [1] [0] [0] 1
  scatter_S50000_S1600000x1_S1600000_n_0_0_1_wf : ScatterDims.WF S50000 S1600000x1 S1600000 [] [0] [0] 1
  dot_S5000x72_S72x72_S5000x72_1_0_0_1_n_n_wf : DotDims.WF S5000x72 S72x72 S5000x72 [1] [0] [0] [1] [] []
  dot_S5000x8_S8x72_S5000x72_1_0_0_1_n_n_wf : DotDims.WF S5000x8 S8x72 S5000x72 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x72.size a ≤ S1600000x72.size a
  hwx0_0 : ∀ i : grid0.Coords, EltTy.bits .f32 = 32 ∨ (Rect.block (s := S1600000x72) S4000x72.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x72.size a ≤ S1600000x72.size a
  hwx0_1 : ∀ i : grid0.Coords, EltTy.bits .f32 = 32 ∨ (Rect.block (s := S1600000x72) S4000x72.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x4.size a ≤ S1600000x4.size a
  hwx0_2 : ∀ i : grid0.Coords, EltTy.bits .f32 = 32 ∨ (Rect.block (s := S1600000x4) S4000x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x4.size a ≤ S1600000x4.size a
  hwx0_3 : ∀ i : grid0.Coords, EltTy.bits .f32 = 32 ∨ (Rect.block (s := S1600000x4) S4000x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S72x72.size a ≤ S72x72.size a
  hwx0_4 : ∀ i : grid0.Coords, EltTy.bits .f32 = 32 ∨ (Rect.block (s := S72x72) S72x72.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S72x72.size a ≤ S72x72.size a
  hwx0_5 : ∀ i : grid0.Coords, EltTy.bits .f32 = 32 ∨ (Rect.block (s := S72x72) S72x72.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x72.size a ≤ S1x72.size a
  hwx0_6 : ∀ i : grid0.Coords, EltTy.bits .f32 = 32 ∨ (Rect.block (s := S1x72) S1x72.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x72.size a ≤ S1x72.size a
  hwx0_7 : ∀ i : grid0.Coords, EltTy.bits .f32 = 32 ∨ (Rect.block (s := S1x72) S1x72.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x72.size a ≤ S1600000x72.size a
  hwx0_8 : ∀ i : grid0.Coords, EltTy.bits .f32 = 32 ∨ (Rect.block (s := S1600000x72) S4000x72.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x4.size a ≤ S1600000x4.size a
  hwx0_9 : ∀ i : grid0.Coords, EltTy.bits .f32 = 32 ∨ (Rect.block (s := S1600000x4) S4000x4.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x72.size a ≤ S1600000x72.size a
  hwx1_0 : ∀ i : grid1.Coords, EltTy.bits .f32 = 32 ∨ (Rect.block (s := S1600000x72) S4000x72.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x4.size a ≤ S1600000x4.size a
  hwx1_1 : ∀ i : grid1.Coords, EltTy.bits .f32 = 32 ∨ (Rect.block (s := S1600000x4) S4000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x72.size a ≤ S1x72.size a
  hwx1_2 : ∀ i : grid1.Coords, EltTy.bits .f32 = 32 ∨ (Rect.block (s := S1x72) S1x72.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x72.size a ≤ S1x72.size a
  hwx1_3 : ∀ i : grid1.Coords, EltTy.bits .f32 = 32 ∨ (Rect.block (s := S1x72) S1x72.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x72.size a ≤ S1x72.size a
  hwx1_4 : ∀ i : grid1.Coords, EltTy.bits .f32 = 32 ∨ (Rect.block (s := S1x72) S1x72.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x72.size a ≤ S1x72.size a
  hwx1_5 : ∀ i : grid1.Coords, EltTy.bits .f32 = 32 ∨ (Rect.block (s := S1x72) S1x72.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S72x72.size a ≤ S72x72.size a
  hwx1_6 : ∀ i : grid1.Coords, EltTy.bits .f32 = 32 ∨ (Rect.block (s := S72x72) S72x72.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x72.size a ≤ S1x72.size a
  hwx1_7 : ∀ i : grid1.Coords, EltTy.bits .f32 = 32 ∨ (Rect.block (s := S1x72) S1x72.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S72x1.size a ≤ S72x1.size a
  hwx1_8 : ∀ i : grid1.Coords, EltTy.bits .f32 = 32 ∨ (Rect.block (s := S72x1) S72x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S72x72.size a ≤ S72x72.size a
  hwx1_10 : ∀ i : grid1.Coords, EltTy.bits .f32 = 32 ∨ (Rect.block (s := S72x72) S72x72.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x72.size a ≤ S1x72.size a
  hwx1_11 : ∀ i : grid1.Coords, EltTy.bits .f32 = 32 ∨ (Rect.block (s := S1x72) S1x72.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S72x1.size a ≤ S72x1.size a
  hwx1_12 : ∀ i : grid1.Coords, EltTy.bits .f32 = 32 ∨ (Rect.block (s := S72x1) S72x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S4000x72.size a ≤ S1600000x72.size a
  hwx1_13 : ∀ i : grid1.Coords, EltTy.bits .f32 = 32 ∨ (Rect.block (s := S1600000x72) S4000x72.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S4000x4.size a ≤ S1600000x4.size a
  hwx1_14 : ∀ i : grid1.Coords, EltTy.bits .f32 = 32 ∨ (Rect.block (s := S1600000x4) S4000x4.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x72.size a ≤ S50000x72.size a
  hwx2_0 : ∀ i : grid2.Coords, EltTy.bits .f32 = 32 ∨ (Rect.block (s := S50000x72) S5000x72.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x72.size a ≤ S50000x72.size a
  hwx2_1 : ∀ i : grid2.Coords, EltTy.bits .f32 = 32 ∨ (Rect.block (s := S50000x72) S5000x72.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x8.size a ≤ S50000x8.size a
  hwx2_2 : ∀ i : grid2.Coords, EltTy.bits .f32 = 32 ∨ (Rect.block (s := S50000x8) S5000x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S72x72.size a ≤ S72x72.size a
  hwx2_3 : ∀ i : grid2.Coords, EltTy.bits .f32 = 32 ∨ (Rect.block (s := S72x72) S72x72.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S72x72.size a ≤ S72x72.size a
  hwx2_4 : ∀ i : grid2.Coords, EltTy.bits .f32 = 32 ∨ (Rect.block (s := S72x72) S72x72.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x72.size a ≤ S8x72.size a
  hwx2_5 : ∀ i : grid2.Coords, EltTy.bits .f32 = 32 ∨ (Rect.block (s := S8x72) S8x72.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x72.size a ≤ S1x72.size a
  hwx2_6 : ∀ i : grid2.Coords, EltTy.bits .f32 = 32 ∨ (Rect.block (s := S1x72) S1x72.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x72.size a ≤ S50000x72.size a
  hwx2_7 : ∀ i : grid2.Coords, EltTy.bits .f32 = 32 ∨ (Rect.block (s := S50000x72) S5000x72.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x72.size a ≤ S50000x72.size a
  hwx3_0 : ∀ i : grid3.Coords, EltTy.bits .f32 = 32 ∨ (Rect.block (s := S50000x72) S5000x72.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x72.size a ≤ S50000x72.size a
  hwx3_1 : ∀ i : grid3.Coords, EltTy.bits .f32 = 32 ∨ (Rect.block (s := S50000x72) S5000x72.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x72.size a ≤ S1x72.size a
  hwx3_2 : ∀ i : grid3.Coords, EltTy.bits .f32 = 32 ∨ (Rect.block (s := S1x72) S1x72.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x72.size a ≤ S1x72.size a
  hwx3_3 : ∀ i : grid3.Coords, EltTy.bits .f32 = 32 ∨ (Rect.block (s := S1x72) S1x72.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x72.size a ≤ S1x72.size a
  hwx3_4 : ∀ i : grid3.Coords, EltTy.bits .f32 = 32 ∨ (Rect.block (s := S1x72) S1x72.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x72.size a ≤ S1x72.size a
  hwx3_5 : ∀ i : grid3.Coords, EltTy.bits .f32 = 32 ∨ (Rect.block (s := S1x72) S1x72.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S72x72.size a ≤ S72x72.size a
  hwx3_6 : ∀ i : grid3.Coords, EltTy.bits .f32 = 32 ∨ (Rect.block (s := S72x72) S72x72.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x72.size a ≤ S1x72.size a
  hwx3_7 : ∀ i : grid3.Coords, EltTy.bits .f32 = 32 ∨ (Rect.block (s := S1x72) S1x72.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x72.size a ≤ S50000x72.size a
  hwx3_8 : ∀ i : grid3.Coords, EltTy.bits .f32 = 32 ∨ (Rect.block (s := S50000x72) S5000x72.size (cc3_transform_8 i) (hinb3_8 i)).WholeWords (EltTy.packing .f32)

variable [Facts₀]

def gather_S50000x72_S1600000x1_S1600000x72_1_0_n_n_0_1_172 : GatherDims S50000x72 S1600000x1 S1600000x72 where
  offsetDims := [1]
  collapsedSliceDims := [0]
  operandBatchingDims := []
  startIndicesBatchingDims := []
  startIndexMap := [0]
  indexVectorDim := 1
  sliceSizes := ![1, 72]
  wf := gather_S50000x72_S1600000x1_S1600000x72_1_0_n_n_0_1_172_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def dot_S4000x72_S72x72_S4000x72_1_0_0_1_n_n : DotDims S4000x72 S72x72 S4000x72 where
  lhsContracting := [1]
  rhsContracting := [0]
  lhsNonContracting := [0]
  rhsNonContracting := [1]
  lhsBatch := []
  rhsBatch := []
  wf := dot_S4000x72_S72x72_S4000x72_1_0_0_1_n_n_wf
def dot_S4000x72_S72x1_S4000x1_1_0_0_1_n_n : DotDims S4000x72 S72x1 S4000x1 where
  lhsContracting := [1]
  rhsContracting := [0]
  lhsNonContracting := [0]
  rhsNonContracting := [1]
  lhsBatch := []
  rhsBatch := []
  wf := dot_S4000x72_S72x1_S4000x1_1_0_0_1_n_n_wf
def scatter_S50000x72_S1600000x1_S1600000x72_1_0_0_1 : ScatterDims S50000x72 S1600000x1 S1600000x72 where
  updateWindowDims := [1]
  insertedWindowDims := [0]
  scatterDimsToOperandDims := [0]
  indexVectorDim := 1
  wf := scatter_S50000x72_S1600000x1_S1600000x72_1_0_0_1_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x72_S72x72_S5000x72_1_0_0_1_n_n : DotDims S5000x72 S72x72 S5000x72 where
  lhsContracting := [1]
  rhsContracting := [0]
  lhsNonContracting := [0]
  rhsNonContracting := [1]
  lhsBatch := []
  rhsBatch := []
  wf := dot_S5000x72_S72x72_S5000x72_1_0_0_1_n_n_wf
def dot_S5000x8_S8x72_S5000x72_1_0_0_1_n_n : DotDims S5000x8 S8x72 S5000x72 where
  lhsContracting := [1]
  rhsContracting := [0]
  lhsNonContracting := [0]
  rhsNonContracting := [1]
  lhsBatch := []
  rhsBatch := []
  wf := dot_S5000x8_S8x72_S5000x72_1_0_0_1_n_n_wf

abbrev win0_0 : Pipeline.Window sig grid0 :=
  Pipeline.Window.ofSpec (Memref.whole main_v10) S4000x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x72.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S4000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S4000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S72x72.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S72x72.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x72.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x72.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36_0) S4000x72.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v36_1) S4000x4.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v36_0) S4000x72.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36_1) S4000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x72.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x72.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x72.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x72.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S72x72.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S1x72.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S72x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg15) S72x72.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v46) S1x72.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg17) S72x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v47_0) S4000x72.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v47_1) S4000x4.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_arg0) S5000x72.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x72.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S72x72.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S72x72.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S8x72.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S1x72.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70) S5000x72.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v70) S5000x72.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x72.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x72.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x72.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x72.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x72.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S72x72.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S1x72.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v79) S5000x72.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x72 : Shape := ⟨2, ![50000, 72]⟩
abbrev S50000x4 : Shape := ⟨2, ![50000, 4]⟩
abbrev S50000x8 : Shape := ⟨2, ![50000, 8]⟩
abbrev S2x1600000 : Shape := ⟨2, ![2, 1600000]⟩
abbrev S146x72 : Shape := ⟨2, ![146, 72]⟩
abbrev S72 : Shape := ⟨1, ![72]⟩
abbrev S72x72 : Shape := ⟨2, ![72, 72]⟩
abbrev S152x72 : Shape := ⟨2, ![152, 72]⟩
abbrev S72x1 : Shape := ⟨2, ![72, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S1600000x72 : Shape := ⟨2, ![1600000, 72]⟩
abbrev S1600000x146 : Shape := ⟨2, ![1600000, 146]⟩
abbrev S1x72 : Shape := ⟨2, ![1, 72]⟩
abbrev S1x1 : Shape := ⟨2, ![1, 1]⟩
abbrev S50000 : Shape := ⟨1, ![50000]⟩
abbrev S50000x1 : Shape := ⟨2, ![50000, 1]⟩
abbrev S50000x152 : Shape := ⟨2, ![50000, 152]⟩

abbrev nBuf : Space → Nat
  | .hbm => 282
  | .vmem => 0
  | .smem => 0
  | _ => 0

abbrev hbmTy0_0 (i : Nat) : BufTy := match i % 128 with
  | 0 => ⟨S50000x72, .f32⟩
  | 1 => ⟨S50000x4, .f32⟩
  | 2 => ⟨S50000x8, .f32⟩
  | 3 => ⟨S2x1600000, .i32⟩
  | 4 => ⟨S146x72, .f32⟩
  | 5 => ⟨S72, .f32⟩
  | 6 => ⟨S72, .f32⟩
  | 7 => ⟨S72x72, .f32⟩
  | 8 => ⟨S72, .f32⟩
  | 9 => ⟨S152x72, .f32⟩
  | 10 => ⟨S72, .f32⟩
  | 11 => ⟨S72, .f32⟩
  | 12 => ⟨S72, .f32⟩
  | 13 => ⟨S72x72, .f32⟩
  | 14 => ⟨S72, .f32⟩
  | 15 => ⟨S72x72, .f32⟩
  | 16 => ⟨S72, .f32⟩
  | 17 => ⟨S72x1, .f32⟩
  | 18 => ⟨S72x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x4, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x4, .f32⟩
  | 42 => ⟨S1600000x4, .f32⟩
  | 43 => ⟨S1600000x4, .f32⟩
  | 44 => ⟨S1600000x1, .f32⟩
  | 45 => ⟨S1600000, .f32⟩
  | 46 => ⟨S_, .f32⟩
  | 47 => ⟨S1600000, .f32⟩
  | 48 => ⟨S1600000, .f32⟩
  | 49 => ⟨S_, .f32⟩
  | 50 => ⟨S1600000, .f32⟩
  | 51 => ⟨S1600000, .f32⟩
  | 52 => ⟨S1600000, .f32⟩
  | 53 => ⟨S1600000, .f32⟩
  | 54 => ⟨S_, .f32⟩
  | 55 => ⟨S1600000, .f32⟩
  | 56 => ⟨S1600000, .f32⟩
  | 57 => ⟨S1600000, .f32⟩
  | 58 => ⟨S1600000, .f32⟩
  | 59 => ⟨S1600000x1, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x4, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x4, .f32⟩
  | 78 => ⟨S1600000x4, .f32⟩
  | 79 => ⟨S1600000x1, .f32⟩
  | 80 => ⟨S1600000, .f32⟩
  | 81 => ⟨S_, .f32⟩
  | 82 => ⟨S1600000, .f32⟩
  | 83 => ⟨S1600000, .f32⟩
  | 84 => ⟨S_, .f32⟩
  | 85 => ⟨S1600000, .f32⟩
  | 86 => ⟨S1600000, .f32⟩
  | 87 => ⟨S1600000, .f32⟩
  | 88 => ⟨S1600000, .f32⟩
  | 89 => ⟨S_, .f32⟩
  | 90 => ⟨S1600000, .f32⟩
  | 91 => ⟨S1600000, .f32⟩
  | 92 => ⟨S1600000, .f32⟩
  | 93 => ⟨S1600000, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x72, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x72, .f32⟩
  | 113 => ⟨S1600000x146, .f32⟩
  | 114 => ⟨S1600000x72, .f32⟩
  | 115 => ⟨S_, .f32⟩
  | 116 => ⟨S72, .f32⟩
  | 117 => ⟨S_, .f32⟩
  | 118 => ⟨S72, .f32⟩
  | 119 => ⟨S72, .f32⟩
  | 120 => ⟨S_, .i32⟩
  | 121 => ⟨S_, .f32⟩
  | 122 => ⟨S72, .f32⟩
  | 123 => ⟨S1x72, .f32⟩
  | 124 => ⟨S_, .f32⟩
  | 125 => ⟨S1x72, .f32⟩
  | 126 => ⟨S1x72, .f32⟩
  | 127 => ⟨S1600000x72, .f32⟩
  | _ => ⟨S50000x72, .f32⟩

abbrev hbmTy0_1 (i : Nat) : BufTy := match i % 128 with
  | 0 => ⟨S1600000x72, .f32⟩
  | 1 => ⟨S1600000x72, .f32⟩
  | 2 => ⟨S_, .f32⟩
  | 3 => ⟨S_, .f32⟩
  | 4 => ⟨S_, .f32⟩
  | 5 => ⟨S_, .f32⟩
  | 6 => ⟨S72, .f32⟩
  | 7 => ⟨S72, .f32⟩
  | 8 => ⟨S72, .f32⟩
  | 9 => ⟨S_, .f32⟩
  | 10 => ⟨S_, .i1⟩
  | 11 => ⟨S_, .f32⟩
  | 12 => ⟨S_, .f32⟩
  | 13 => ⟨S72, .f32⟩
  | 14 => ⟨S72, .f32⟩
  | 15 => ⟨S1x72, .f32⟩
  | 16 => ⟨S1600000x72, .f32⟩
  | 17 => ⟨S1600000x72, .f32⟩
  | 18 => ⟨S_, .f32⟩
  | 19 => ⟨S72, .f32⟩
  | 20 => ⟨S72, .f32⟩
  | 21 => ⟨S72, .f32⟩
  | 22 => ⟨S1x72, .f32⟩
  | 23 => ⟨S1600000x72, .f32⟩
  | 24 => ⟨S1600000x72, .f32⟩
  | 25 => ⟨S1x72, .f32⟩
  | 26 => ⟨S1600000x72, .f32⟩
  | 27 => ⟨S1600000x72, .f32⟩
  | 28 => ⟨S1x72, .f32⟩
  | 29 => ⟨S1600000x72, .f32⟩
  | 30 => ⟨S1600000x72, .f32⟩
  | 31 => ⟨S_, .f32⟩
  | 32 => ⟨S1600000x72, .f32⟩
  | 33 => ⟨S1600000x72, .f32⟩
  | 34 => ⟨S1600000x72, .f32⟩
  | 35 => ⟨S1x72, .f32⟩
  | 36 => ⟨S1600000x72, .f32⟩
  | 37 => ⟨S1600000x72, .f32⟩
  | 38 => ⟨S_, .f32⟩
  | 39 => ⟨S1600000x72, .f32⟩
  | 40 => ⟨S1600000x72, .f32⟩
  | 41 => ⟨S1600000x1, .f32⟩
  | 42 => ⟨S1x1, .f32⟩
  | 43 => ⟨S1600000x1, .f32⟩
  | 44 => ⟨S1600000x1, .f32⟩
  | 45 => ⟨S1600000x1, .f32⟩
  | 46 => ⟨S1600000x1, .f32⟩
  | 47 => ⟨S_, .f32⟩
  | 48 => ⟨S1600000x1, .f32⟩
  | 49 => ⟨S1600000x1, .f32⟩
  | 50 => ⟨S_, .f32⟩
  | 51 => ⟨S1600000x1, .f32⟩
  | 52 => ⟨S1600000x1, .f32⟩
  | 53 => ⟨S1600000x72, .f32⟩
  | 54 => ⟨S1600000x72, .f32⟩
  | 55 => ⟨S1600000x72, .f32⟩
  | 56 => ⟨S1x72, .f32⟩
  | 57 => ⟨S1600000x72, .f32⟩
  | 58 => ⟨S1600000x72, .f32⟩
  | 59 => ⟨S_, .f32⟩
  | 60 => ⟨S1600000x72, .f32⟩
  | 61 => ⟨S1600000x72, .f32⟩
  | 62 => ⟨S1600000x1, .f32⟩
  | 63 => ⟨S1600000x4, .f32⟩
  | 64 => ⟨S1600000x4, .f32⟩
  | 65 => ⟨S_, .f32⟩
  | 66 => ⟨S_, .f32⟩
  | 67 => ⟨S_, .f32⟩
  | 68 => ⟨S1600000x4, .f32⟩
  | 69 => ⟨S1600000x4, .f32⟩
  | 70 => ⟨S_, .f32⟩
  | 71 => ⟨S1600000x4, .f32⟩
  | 72 => ⟨S1600000x4, .f32⟩
  | 73 => ⟨S_, .f32⟩
  | 74 => ⟨S1600000, .f32⟩
  | 75 => ⟨S_, .f32⟩
  | 76 => ⟨S50000, .f32⟩
  | 77 => ⟨S1600000x1, .i32⟩
  | 78 => ⟨S50000, .f32⟩
  | 79 => ⟨S_, .f32⟩
  | 80 => ⟨S50000x4, .f32⟩
  | 81 => ⟨S1600000x1, .i32⟩
  | 82 => ⟨S50000x4, .f32⟩
  | 83 => ⟨S_, .f32⟩
  | 84 => ⟨S50000, .f32⟩
  | 85 => ⟨S50000, .f32⟩
  | 86 => ⟨S50000x1, .f32⟩
  | 87 => ⟨S50000x4, .f32⟩
  | 88 => ⟨S50000x4, .f32⟩
  | 89 => ⟨S_, .f32⟩
  | 90 => ⟨S50000x4, .f32⟩
  | 91 => ⟨S50000x4, .f32⟩
  | 92 => ⟨S50000x4, .f32⟩
  | 93 => ⟨S_, .f32⟩
  | 94 => ⟨S50000x72, .f32⟩
  | 95 => ⟨S1600000x1, .i32⟩
  | 96 => ⟨S50000x72, .f32⟩
  | 97 => ⟨S50000x152, .f32⟩
  | 98 => ⟨S50000x72, .f32⟩
  | 99 => ⟨S1x72, .f32⟩
  | 100 => ⟨S50000x72, .f32⟩
  | 101 => ⟨S50000x72, .f32⟩
  | 102 => ⟨S_, .f32⟩
  | 103 => ⟨S72, .f32⟩
  | 104 => ⟨S_, .f32⟩
  | 105 => ⟨S72, .f32⟩
  | 106 => ⟨S72, .f32⟩
  | 107 => ⟨S_, .i32⟩
  | 108 => ⟨S_, .f32⟩
  | 109 => ⟨S72, .f32⟩
  | 110 => ⟨S1x72, .f32⟩
  | 111 => ⟨S_, .f32⟩
  | 112 => ⟨S1x72, .f32⟩
  | 113 => ⟨S1x72, .f32⟩
  | 114 => ⟨S50000x72, .f32⟩
  | 115 => ⟨S50000x72, .f32⟩
  | 116 => ⟨S50000x72, .f32⟩
  | 117 => ⟨S_, .f32⟩
  | 118 => ⟨S_, .f32⟩
  | 119 => ⟨S_, .f32⟩
  | 120 => ⟨S_, .f32⟩
  | 121 => ⟨S72, .f32⟩
  | 122 => ⟨S72, .f32⟩
  | 123 => ⟨S72, .f32⟩
  | 124 => ⟨S_, .f32⟩
  | 125 => ⟨S_, .i1⟩
  | 126 => ⟨S_, .f32⟩
  | 127 => ⟨S_, .f32⟩
  | _ => ⟨S50000x72, .f32⟩

abbrev hbmTy0_2 (i : Nat) : BufTy := match i % 128 with
  | 0 => ⟨S72, .f32⟩
  | 1 => ⟨S72, .f32⟩
  | 2 => ⟨S1x72, .f32⟩
  | 3 => ⟨S50000x72, .f32⟩
  | 4 => ⟨S50000x72, .f32⟩
  | 5 => ⟨S_, .f32⟩
  | 6 => ⟨S72, .f32⟩
  | 7 => ⟨S72, .f32⟩
  | 8 => ⟨S72, .f32⟩
  | 9 => ⟨S1x72, .f32⟩
  | 10 => ⟨S50000x72, .f32⟩
  | 11 => ⟨S50000x72, .f32⟩
  | 12 => ⟨S1x72, .f32⟩
  | 13 => ⟨S50000x72, .f32⟩
  | 14 => ⟨S50000x72, .f32⟩
  | 15 => ⟨S1x72, .f32⟩
  | 16 => ⟨S50000x72, .f32⟩
  | 17 => ⟨S50000x72, .f32⟩
  | 18 => ⟨S_, .f32⟩
  | 19 => ⟨S50000x72, .f32⟩
  | 20 => ⟨S50000x72, .f32⟩
  | 21 => ⟨S50000x72, .f32⟩
  | 22 => ⟨S50000x72, .f32⟩
  | 23 => ⟨S1x72, .f32⟩
  | 24 => ⟨S50000x72, .f32⟩
  | 25 => ⟨S50000x72, .f32⟩
  | _ => ⟨S50000x72, .f32⟩

abbrev hbmTy (i : Nat) : BufTy := match i / 128 with
  | 0 => hbmTy0_0 i
  | 1 => hbmTy0_1 i
  | 2 => hbmTy0_2 i
  | _ => ⟨S50000x72, .f32⟩

abbrev bufTy : (tb : Table) → Fin (tcTables nBuf tb) → BufTy
  | .hbm, ⟨i, _⟩ => hbmTy i
  | _, _ => ⟨S50000x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_c_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_c_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_14 : Ref sig .tc := ⟨.hbm, 104, rfl⟩
abbrev main_v68 : Ref sig .tc := ⟨.hbm, 105, rfl⟩
abbrev main_v69 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_cst_17 : Ref sig .tc := ⟨.hbm, 117, rfl⟩
abbrev main_v78 : Ref sig .tc := ⟨.hbm, 118, rfl⟩
abbrev main_v79 : Ref sig .tc := ⟨.hbm, 119, rfl⟩
abbrev main_c_18 : Ref sig .tc := ⟨.hbm, 120, rfl⟩
abbrev main_call0_cst : Ref sig .tc := ⟨.hbm, 121, rfl⟩
abbrev main_call0_v0 : Ref sig .tc := ⟨.hbm, 122, rfl⟩
abbrev main_call0_v1 : Ref sig .tc := ⟨.hbm, 123, rfl⟩
abbrev main_call0_cst_0 : Ref sig .tc := ⟨.hbm, 124, rfl⟩
abbrev main_call0_v2 : Ref sig .tc := ⟨.hbm, 125, rfl⟩
abbrev main_call0_v3 : Ref sig .tc := ⟨.hbm, 126, rfl⟩
abbrev main_call0_v4 : Ref sig .tc := ⟨.hbm, 127, rfl⟩
abbrev main_call0_v5 : Ref sig .tc := ⟨.hbm, 128, rfl⟩
abbrev main_call0_v6 : Ref sig .tc := ⟨.hbm, 129, rfl⟩
abbrev main_call0_v7 : Ref sig .tc := ⟨.hbm, 130, rfl⟩
abbrev main_call0_cst_1 : Ref sig .tc := ⟨.hbm, 131, rfl⟩
abbrev main_call0_v8 : Ref sig .tc := ⟨.hbm, 132, rfl⟩
abbrev main_call0_cst_2 : Ref sig .tc := ⟨.hbm, 133, rfl⟩
abbrev main_call0_v9 : Ref sig .tc := ⟨.hbm, 134, rfl⟩
abbrev main_call0_v10 : Ref sig .tc := ⟨.hbm, 135, rfl⟩
abbrev main_call0_v11 : Ref sig .tc := ⟨.hbm, 136, rfl⟩
abbrev main_call0_cst_3 : Ref sig .tc := ⟨.hbm, 137, rfl⟩
abbrev main_call0_v12 : Ref sig .tc := ⟨.hbm, 138, rfl⟩
abbrev main_call0_cst_4 : Ref sig .tc := ⟨.hbm, 139, rfl⟩
abbrev main_call0_call0_v0 : Ref sig .tc := ⟨.hbm, 140, rfl⟩
abbrev main_call0_call0_v1 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_19 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_call1_cst : Ref sig .tc := ⟨.hbm, 159, rfl⟩
abbrev main_call1_v0 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_call2_cst : Ref sig .tc := ⟨.hbm, 166, rfl⟩
abbrev main_call2_v0 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_cst_20 : Ref sig .tc := ⟨.hbm, 175, rfl⟩
abbrev main_v108 : Ref sig .tc := ⟨.hbm, 176, rfl⟩
abbrev main_v109 : Ref sig .tc := ⟨.hbm, 177, rfl⟩
abbrev main_cst_21 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_call3_cst : Ref sig .tc := ⟨.hbm, 187, rfl⟩
abbrev main_call3_v0 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_cst_22 : Ref sig .tc := ⟨.hbm, 193, rfl⟩
abbrev main_cst_23 : Ref sig .tc := ⟨.hbm, 194, rfl⟩
abbrev main_call4_v0 : Ref sig .tc := ⟨.hbm, 195, rfl⟩
abbrev main_call4_v1 : Ref sig .tc := ⟨.hbm, 196, rfl⟩
abbrev main_call4_v2 : Ref sig .tc := ⟨.hbm, 197, rfl⟩
abbrev main_call4_v3 : Ref sig .tc := ⟨.hbm, 198, rfl⟩
abbrev main_call4_v4 : Ref sig .tc := ⟨.hbm, 199, rfl⟩
abbrev main_v122 : Ref sig .tc := ⟨.hbm, 200, rfl⟩
abbrev main_cst_24 : Ref sig .tc := ⟨.hbm, 201, rfl⟩
abbrev main_v123 : Ref sig .tc := ⟨.hbm, 202, rfl⟩
abbrev main_cst_25 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_cst_26 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_cst_27 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_cst_28 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_cst_29 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_cst_30 : Ref sig .tc := ⟨.hbm, 230, rfl⟩
abbrev main_v146 : Ref sig .tc := ⟨.hbm, 231, rfl⟩
abbrev main_cst_31 : Ref sig .tc := ⟨.hbm, 232, rfl⟩
abbrev main_v147 : Ref sig .tc := ⟨.hbm, 233, rfl⟩
abbrev main_v148 : Ref sig .tc := ⟨.hbm, 234, rfl⟩
abbrev main_c_32 : Ref sig .tc := ⟨.hbm, 235, rfl⟩
abbrev main_call5_cst : Ref sig .tc := ⟨.hbm, 236, rfl⟩
abbrev main_call5_v0 : Ref sig .tc := ⟨.hbm, 237, rfl⟩
abbrev main_call5_v1 : Ref sig .tc := ⟨.hbm, 238, rfl⟩
abbrev main_call5_cst_0 : Ref sig .tc := ⟨.hbm, 239, rfl⟩
abbrev main_call5_v2 : Ref sig .tc := ⟨.hbm, 240, rfl⟩
abbrev main_call5_v3 : Ref sig .tc := ⟨.hbm, 241, rfl⟩
abbrev main_call5_v4 : Ref sig .tc := ⟨.hbm, 242, rfl⟩
abbrev main_call5_v5 : Ref sig .tc := ⟨.hbm, 243, rfl⟩
abbrev main_call5_v6 : Ref sig .tc := ⟨.hbm, 244, rfl⟩
abbrev main_call5_v7 : Ref sig .tc := ⟨.hbm, 245, rfl⟩
abbrev main_call5_cst_1 : Ref sig .tc := ⟨.hbm, 246, rfl⟩
abbrev main_call5_v8 : Ref sig .tc := ⟨.hbm, 247, rfl⟩
abbrev main_call5_cst_2 : Ref sig .tc := ⟨.hbm, 248, rfl⟩
abbrev main_call5_v9 : Ref sig .tc := ⟨.hbm, 249, rfl⟩
abbrev main_call5_v10 : Ref sig .tc := ⟨.hbm, 250, rfl⟩
abbrev main_call5_v11 : Ref sig .tc := ⟨.hbm, 251, rfl⟩
abbrev main_call5_cst_3 : Ref sig .tc := ⟨.hbm, 252, rfl⟩
abbrev main_call5_v12 : Ref sig .tc := ⟨.hbm, 253, rfl⟩
abbrev main_call5_cst_4 : Ref sig .tc := ⟨.hbm, 254, rfl⟩
abbrev main_call5_call0_v0 : Ref sig .tc := ⟨.hbm, 255, rfl⟩
abbrev main_call5_call0_v1 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_cst_33 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_v163 : Ref sig .tc := ⟨.hbm, 272, rfl⟩
abbrev main_v164 : Ref sig .tc := ⟨.hbm, 273, rfl⟩
abbrev main_call6_cst : Ref sig .tc := ⟨.hbm, 274, rfl⟩
abbrev main_call6_v0 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x4_S1600000x1_0_0 : S1600000x4.Slices ![0, 0] S1600000x1
  shapeCasts_S1600000x1_S1600000 : S1600000x1.ShapeCasts S1600000
  reducesTo_S1600000x4_S1600000_d1 : S1600000x4.ReducesTo [1] S1600000
  h_S_ : 0 < S_.numel
  concatenates_S1600000x72_S1600000x72_S1600000x1_S1600000x1_S1600000x146_d1 : Shape.Concatenates [S1600000x72, S1600000x72, S1600000x1, S1600000x1] S1600000x146 1
  reducesTo_S1600000x72_S72_d0 : S1600000x72.ReducesTo [0] S72
  bcast_S_S72 : S_.BroadcastsInDim S72 (![] : Fin 0 → Fin S72.rank)
  bcast_S72_S1x72_1 : S72.BroadcastsInDim S1x72 (![1] : Fin 1 → Fin S1x72.rank)
  bcast_S_S1x72 : S_.BroadcastsInDim S1x72 (![] : Fin 0 → Fin S1x72.rank)
  bcast_S1x72_S1600000x72_0_1 : S1x72.BroadcastsInDim S1600000x72 (![0, 1] : Fin 2 → Fin S1600000x72.rank)
  bcast_S_S1600000x72 : S_.BroadcastsInDim S1600000x72 (![] : Fin 0 → Fin S1600000x72.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1600000x1_S1600000x72_0_1 : S1600000x1.BroadcastsInDim S1600000x72 (![0, 1] : Fin 2 → Fin S1600000x72.rank)
  bcast_S1600000x1_S1600000x4_0_1 : S1600000x1.BroadcastsInDim S1600000x4 (![0, 1] : Fin 2 → Fin S1600000x4.rank)
  bcast_S_S1600000x4 : S_.BroadcastsInDim S1600000x4 (![] : Fin 0 → Fin S1600000x4.rank)
  bcast_S_S50000 : S_.BroadcastsInDim S50000 (![] : Fin 0 → Fin S50000.rank)
  bcast_S_S50000x4 : S_.BroadcastsInDim S50000x4 (![] : Fin 0 → Fin S50000x4.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S_S50000x72 : S_.BroadcastsInDim S50000x72 (![] : Fin 0 → Fin S50000x72.rank)
  concatenates_S50000x72_S50000x72_S50000x8_S50000x152_d1 : Shape.Concatenates [S50000x72, S50000x72, S50000x8] S50000x152 1
  bcast_S1x72_S50000x72_0_1 : S1x72.BroadcastsInDim S50000x72 (![0, 1] : Fin 2 → Fin S50000x72.rank)
  reducesTo_S50000x72_S72_d0 : S50000x72.ReducesTo [0] S72
  gather_S50000x4_S1600000x1_S1600000x4_1_0_n_n_0_1_14_wf : GatherDims.WF S50000x4 S1600000x1 S1600000x4 [1] [0] [] [0] [] 1 ![1, 4]
  gather_S50000x72_S1600000x1_S1600000x72_1_0_n_n_0_1_172_wf : GatherDims.WF S50000x72 S1600000x1 S1600000x72 [1] [0] [] [0] [] 1 ![1, 72]
  dot_S1600000x146_S146x72_S1600000x72_1_0_0_1_n_n_wf : DotDims.WF S1600000x146 S146x72 S1600000x72 [1] [0] [0] [1] [] []
  dot_S1600000x72_S72x72_S1600000x72_1_0_0_1_n_n_wf : DotDims.WF S1600000x72 S72x72 S1600000x72 [1] [0] [0] [1] [] []
  dot_S1600000x72_S72x1_S1600000x1_1_0_0_1_n_n_wf : DotDims.WF S1600000x72 S72x1 S1600000x1 [1] [0] [0] [1] [] []
  scatter_S50000_S1600000x1_S1600000_n_0_0_1_wf : ScatterDims.WF S50000 S1600000x1 S1600000 [] [0] [0] 1
  scatter_S50000x4_S1600000x1_S1600000x4_1_0_0_1_wf : ScatterDims.WF S50000x4 S1600000x1 S1600000x4 [1] [0] [0] 1
  scatter_S50000x72_S1600000x1_S1600000x72_1_0_0_1_wf : ScatterDims.WF S50000x72 S1600000x1 S1600000x72 [1] [0] [0] 1
  dot_S50000x152_S152x72_S50000x72_1_0_0_1_n_n_wf : DotDims.WF S50000x152 S152x72 S50000x72 [1] [0] [0] [1] [] []
  dot_S50000x72_S72x72_S50000x72_1_0_0_1_n_n_wf : DotDims.WF S50000x72 S72x72 S50000x72 [1] [0] [0] [1] [] []

variable [Facts₀]

def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def gather_S50000x72_S1600000x1_S1600000x72_1_0_n_n_0_1_172 : GatherDims S50000x72 S1600000x1 S1600000x72 where
  offsetDims := [1]
  collapsedSliceDims := [0]
  operandBatchingDims := []
  startIndicesBatchingDims := []
  startIndexMap := [0]
  indexVectorDim := 1
  sliceSizes := ![1, 72]
  wf := gather_S50000x72_S1600000x1_S1600000x72_1_0_n_n_0_1_172_wf
def dot_S1600000x146_S146x72_S1600000x72_1_0_0_1_n_n : DotDims S1600000x146 S146x72 S1600000x72 where
  lhsContracting := [1]
  rhsContracting := [0]
  lhsNonContracting := [0]
  rhsNonContracting := [1]
  lhsBatch := []
  rhsBatch := []
  wf := dot_S1600000x146_S146x72_S1600000x72_1_0_0_1_n_n_wf
def dot_S1600000x72_S72x72_S1600000x72_1_0_0_1_n_n : DotDims S1600000x72 S72x72 S1600000x72 where
  lhsContracting := [1]
  rhsContracting := [0]
  lhsNonContracting := [0]
  rhsNonContracting := [1]
  lhsBatch := []
  rhsBatch := []
  wf := dot_S1600000x72_S72x72_S1600000x72_1_0_0_1_n_n_wf
def dot_S1600000x72_S72x1_S1600000x1_1_0_0_1_n_n : DotDims S1600000x72 S72x1 S1600000x1 where
  lhsContracting := [1]
  rhsContracting := [0]
  lhsNonContracting := [0]
  rhsNonContracting := [1]
  lhsBatch := []
  rhsBatch := []
  wf := dot_S1600000x72_S72x1_S1600000x1_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf
def scatter_S50000x72_S1600000x1_S1600000x72_1_0_0_1 : ScatterDims S50000x72 S1600000x1 S1600000x72 where
  updateWindowDims := [1]
  insertedWindowDims := [0]
  scatterDimsToOperandDims := [0]
  indexVectorDim := 1
  wf := scatter_S50000x72_S1600000x1_S1600000x72_1_0_0_1_wf
def dot_S50000x152_S152x72_S50000x72_1_0_0_1_n_n : DotDims S50000x152 S152x72 S50000x72 where
  lhsContracting := [1]
  rhsContracting := [0]
  lhsNonContracting := [0]
  rhsNonContracting := [1]
  lhsBatch := []
  rhsBatch := []
  wf := dot_S50000x152_S152x72_S50000x72_1_0_0_1_n_n_wf
def dot_S50000x72_S72x72_S50000x72_1_0_0_1_n_n : DotDims S50000x72 S72x72 S50000x72 where
  lhsContracting := [1]
  rhsContracting := [0]
  lhsNonContracting := [0]
  rhsNonContracting := [1]
  lhsBatch := []
  rhsBatch := []
  wf := dot_S50000x72_S72x72_S50000x72_1_0_0_1_n_n_wf

class Facts : Prop extends Facts₀ where

variable [Facts]
-- ==== Proof.KernelRun.lean ====
/-
  The idealized kernel's run with its results NAMED.  @main is twelve segments — eight stretches of host
  operations and four pipelined regions — and the contents of every buffer at each segment boundary are a fold
  from the launch memory: a stretch applies its operations' pure functions, a region replaces its windows'
  arrays by what its write-backs leave.  Every weakly fair execution terminates without a fault, and in the final
  state every buffer that outlives a region holds the last boundary's contents.  The three results and the
  twenty arguments are such buffers; what the last boundary holds at each of them is read in the modules that
  import this one.
-/
import proofs.«128591_j87351044866445_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that is not scoped to a
    region ends at the last segment boundary's contents. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W12 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c b hb => h c _ (mem_uc b hb))

end Cert.KernelIdeal.ValueRun

end
-- ==== Proof.KernelFold.lean ====
/-
  What each pipelined region of the idealized kernel finds in its windows' arrays, and what the program returns,
  read off the fold of buffer contents through @main.  A stretch of host operations applies its operations' pure
  functions to the contents before it; a region leaves in each output window's array what its write-backs fold to
  and every other buffer as it found it.  Each lemma below names ONE buffer at ONE segment boundary as a pure term of
  the buffers at the previous region's exit (or of the launch arguments).
-/
import proofs.«128591_j87351044866445_2_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]
variable (m : (ℓ : Loc nD τ sig) → Buf (Elt F) ℓ) (ρ : Dev nD → PrngReg)

/-! ## The host glue before the first region, as functions of the argument arrays -/

/-- Row `r` of the edge list [2, E] as a vector of E node numbers. -/
def edgeRow0 (edges : (⟨S2x1600000, .i32⟩ : BufTy).Contents (Elt F)) : (⟨S1600000, .i32⟩ : BufTy).Contents (Elt F) :=
  shapeCast S1600000 (extractStridedSlice S1x1600000 ![0, 0] edges slices_S2x1600000_S1x1600000_0_0) shapeCasts_S1x1600000_S1600000
def edgeRow1 (edges : (⟨S2x1600000, .i32⟩ : BufTy).Contents (Elt F)) : (⟨S1600000, .i32⟩ : BufTy).Contents (Elt F) :=
  shapeCast S1600000 (extractStridedSlice S1x1600000 ![1, 0] edges slices_S2x1600000_S1x1600000_1_0) shapeCasts_S1x1600000_S1600000

/-- A vector of node numbers as the column of start indices a row gather takes: a negative number counts from the
    end (N is added to it), the others stand. -/
def startCol (e : (⟨S1600000, .i32⟩ : BufTy).Contents (Elt F)) : (⟨S1600000x1, .i32⟩ : BufTy).Contents (Elt F) :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 50000#32))) e)

/-- The feature rows of the edges' end points `r`. -/
def rows72 (h : (⟨S50000x72, .f32⟩ : BufTy).Contents (Elt F)) (e : (⟨S1600000, .i32⟩ : BufTy).Contents (Elt F)) :
    (⟨S1600000x72, .f32⟩ : BufTy).Contents (Elt F) :=
  Host.gather gather_S50000x72_S1600000x1_S1600000x72_1_0_n_n_0_1_172 h (startCol e)
/-- The coordinate rows of the edges' end points. -/
def rows4 (x : (⟨S50000x4, .f32⟩ : BufTy).Contents (Elt F)) (e : (⟨S1600000, .i32⟩ : BufTy).Contents (Elt F)) :
    (⟨S1600000x4, .f32⟩ : BufTy).Contents (Elt F) :=
  Host.gather gather_S50000x4_S1600000x1_S1600000x4_1_0_n_n_0_1_14 x (startCol e)

/-- The launch contents of an argument, as the fold's first valuation reads it. -/
abbrev arg (c : Dev nD) (b : Ref sig .tc) : Buf (Elt F) ((c : Thread nD τ).loc b) := W0 m ρ c (Proc.devRef .tc b)

set_option maxHeartbeats 1000000 in
theorem in0_0 (c : Dev nD) : V1 m ρ c main_v10 = rows72 (arg m ρ c main_arg0) (edgeRow0 (arg m ρ c main_arg3)) := by
  show StableHlo.after hostOps0 (W0 m ρ c) (Proc.devRef .tc main_v10) = _
  after_results_simp
  rfl
set_option maxHeartbeats 1000000 in
theorem in0_1 (c : Dev nD) : V1 m ρ c main_v17 = rows72 (arg m ρ c main_arg0) (edgeRow1 (arg m ρ c main_arg3)) := by
  show StableHlo.after hostOps0 (W0 m ρ c) (Proc.devRef .tc main_v17) = _
  after_results_simp
  rfl
set_option maxHeartbeats 1000000 in
theorem in0_2 (c : Dev nD) : V1 m ρ c main_v24 = rows4 (arg m ρ c main_arg1) (edgeRow0 (arg m ρ c main_arg3)) := by
  show StableHlo.after hostOps0 (W0 m ρ c) (Proc.devRef .tc main_v24) = _
  after_results_simp
  rfl
set_option maxHeartbeats 1000000 in
theorem in0_3 (c : Dev nD) : V1 m ρ c main_v31 = rows4 (arg m ρ c main_arg1) (edgeRow1 (arg m ρ c main_arg3)) := by
  show StableHlo.after hostOps0 (W0 m ρ c) (Proc.devRef .tc main_v31) = _
  after_results_simp
  rfl
set_option maxHeartbeats 1000000 in
theorem in0_4 (c : Dev nD) : V1 m ρ c main_v32 = extractStridedSlice S72x72 ![0, 0] (arg m ρ c main_arg4) slices_S146x72_S72x72_0_0 := by
  show StableHlo.after hostOps0 (W0 m ρ c) (Proc.devRef .tc main_v32) = _
  after_results_simp
  try rfl
set_option maxHeartbeats 1000000 in
theorem in0_5 (c : Dev nD) : V1 m ρ c main_v33 = extractStridedSlice S72x72 ![72, 0] (arg m ρ c main_arg4) slices_S146x72_S72x72_72_0 := by
  show StableHlo.after hostOps0 (W0 m ρ c) (Proc.devRef .tc main_v33) = _
  after_results_simp
  try rfl
set_option maxHeartbeats 1000000 in
theorem in0_6 (c : Dev nD) : V1 m ρ c main_v34 = extractStridedSlice S1x72 ![144, 0] (arg m ρ c main_arg4) slices_S146x72_S1x72_144_0 := by
  show StableHlo.after hostOps0 (W0 m ρ c) (Proc.devRef .tc main_v34) = _
  after_results_simp
  try rfl
set_option maxHeartbeats 1000000 in
theorem in0_7 (c : Dev nD) : V1 m ρ c main_v35 = extractStridedSlice S1x72 ![145, 0] (arg m ρ c main_arg4) slices_S146x72_S1x72_145_0 := by
  show StableHlo.after hostOps0 (W0 m ρ c) (Proc.devRef .tc main_v35) = _
  after_results_simp
  try rfl

/-! ## Between the first and the second region: the column means and variances of the first region's result -/

/-- The contents a buffer has at the first region's exit. -/
abbrev at2 (c : Dev nD) (b : Ref sig .tc) : Buf (Elt F) ((c : Thread nD τ).loc b) := W2 m ρ c (Proc.devRef .tc b)

/-- The column sums of an [E, 72] array, kept as one row [1, 72], over the number of rows. -/
def colMeanE (z : (⟨S1600000x72, .f32⟩ : BufTy).Contents (Elt F)) : (⟨S1x72, .f32⟩ : BufTy).Contents (Elt F) :=
  Host.divf (broadcastInDim S1x72 ![1] bcast_S72_S1x72_1 (Host.reduceAdd z (constant S_ .f32 0x00000000#32) reducesTo_S1600000x72_S72_d0 h_S_))
    (broadcastInDim S1x72 ![] bcast_S_S1x72 (constant S_ .f32 0x49C35000#32))

/-- The column sums of the squared deviations from the column means, a vector [72]. -/
def colSqDevE (z : (⟨S1600000x72, .f32⟩ : BufTy).Contents (Elt F)) : (⟨S72, .f32⟩ : BufTy).Contents (Elt F) :=
  Host.reduceAdd
    (mulf (subf z (broadcastInDim S1600000x72 ![0, 1] bcast_S1x72_S1600000x72_0_1 (colMeanE z)))
      (subf z (broadcastInDim S1600000x72 ![0, 1] bcast_S1x72_S1600000x72_0_1 (colMeanE z))))
    (constant S_ .f32 0x00000000#32) reducesTo_S1600000x72_S72_d0 h_S_

/-- The number of rows less the degrees of freedom taken off (none here: the count `d` is the constant 0). -/
def dofE (d : (⟨S_, .i32⟩ : BufTy).Contents (Elt F)) : (⟨S_, .f32⟩ : BufTy).Contents (Elt F) :=
  subf (constant S_ .f32 0x49C35000#32) (sitofp .f32 d)

/-- The column variances kept as one row [1, 72]: the sums of squared deviations over the degrees of freedom where
    that count is positive, a fixed pattern elsewhere. -/
def colVarE (z : (⟨S1600000x72, .f32⟩ : BufTy).Contents (Elt F)) (d : (⟨S_, .i32⟩ : BufTy).Contents (Elt F)) :
    (⟨S1x72, .f32⟩ : BufTy).Contents (Elt F) :=
  select (broadcastInDim S1x72 ![] bcast_S_S1x72 (cmpf .ogt (dofE d) (constant S_ .f32 0x00000000#32)))
    (Host.divf (broadcastInDim S1x72 ![1] bcast_S72_S1x72_1 (colSqDevE z)) (broadcastInDim S1x72 ![] bcast_S_S1x72 (dofE d)))
    (broadcastInDim S1x72 ![] bcast_S_S1x72 (id (constant S_ .f32 0x7FC00000#32)))

set_option maxHeartbeats 1000000 in
theorem in1_2 (c : Dev nD) : V5 m ρ c main_v40 = colMeanE (at2 m ρ c main_v36_0) := by
  show StableHlo.after hostOps1_2 (StableHlo.after hostOps1_1 (StableHlo.after hostOps1 (W2 m ρ c))) (Proc.devRef .tc main_v40) = _
  after_results_simp
  rfl

set_option maxHeartbeats 1000000 in
theorem in1_3 (c : Dev nD) : V5 m ρ c main_v41 = colVarE (at2 m ρ c main_v36_0) (constantI S_ 32 0#32) := by
  show StableHlo.after hostOps1_2 (StableHlo.after hostOps1_1 (StableHlo.after hostOps1 (W2 m ρ c))) (Proc.devRef .tc main_v41) = _
  after_results_simp
  rfl

/-! ## Buffers carried unchanged -/

/-- A buffer no region stages and no later stretch writes keeps the contents the first stretch left. -/
theorem at2_of_ne (c : Dev nD) (b : Ref sig .tc) (hb : ∀ w, Pipeline.arrRef spec0 w ≠ b) : at2 m ρ c b = V1 m ρ c b :=
  W2_of_ne m ρ c b hb
set_option maxHeartbeats 1000000 in
theorem at2_arg5 (c : Dev nD) : at2 m ρ c main_arg5 = arg m ρ c main_arg5 := by
  refine (W2_of_ne m ρ c main_arg5 (by decide)).trans ?_
  show StableHlo.after hostOps0 (W0 m ρ c) (Proc.devRef .tc main_arg5) = _
  after_results_simp
set_option maxHeartbeats 1000000 in
theorem at2_arg6 (c : Dev nD) : at2 m ρ c main_arg6 = arg m ρ c main_arg6 := by
  refine (W2_of_ne m ρ c main_arg6 (by decide)).trans ?_
  show StableHlo.after hostOps0 (W0 m ρ c) (Proc.devRef .tc main_arg6) = _
  after_results_simp
set_option maxHeartbeats 1000000 in
theorem at2_arg8 (c : Dev nD) : at2 m ρ c main_arg8 = arg m ρ c main_arg8 := by
  refine (W2_of_ne m ρ c main_arg8 (by decide)).trans ?_
  show StableHlo.after hostOps0 (W0 m ρ c) (Proc.devRef .tc main_arg8) = _
  after_results_simp
set_option maxHeartbeats 1000000 in
theorem at2_arg19 (c : Dev nD) : at2 m ρ c main_arg19 = arg m ρ c main_arg19 := by
  refine (W2_of_ne m ρ c main_arg19 (by decide)).trans ?_
  show StableHlo.after hostOps0 (W0 m ρ c) (Proc.devRef .tc main_arg19) = _
  after_results_simp
set_option maxHeartbeats 1000000 in
theorem at2_arg16 (c : Dev nD) : at2 m ρ c main_arg16 = arg m ρ c main_arg16 := by
  refine (W2_of_ne m ρ c main_arg16 (by decide)).trans ?_
  show StableHlo.after hostOps0 (W0 m ρ c) (Proc.devRef .tc main_arg16) = _
  after_results_simp
set_option maxHeartbeats 1000000 in
theorem at2_arg7 (c : Dev nD) : at2 m ρ c main_arg7 = arg m ρ c main_arg7 := by
  refine (W2_of_ne m ρ c main_arg7 (by decide)).trans ?_
  show StableHlo.after hostOps0 (W0 m ρ c) (Proc.devRef .tc main_arg7) = _
  after_results_simp
set_option maxHeartbeats 1000000 in
theorem at2_arg18 (c : Dev nD) : at2 m ρ c main_arg18 = arg m ρ c main_arg18 := by
  refine (W2_of_ne m ρ c main_arg18 (by decide)).trans ?_
  show StableHlo.after hostOps0 (W0 m ρ c) (Proc.devRef .tc main_arg18) = _
  after_results_simp
set_option maxHeartbeats 1000000 in
theorem at2_arg15 (c : Dev nD) : at2 m ρ c main_arg15 = arg m ρ c main_arg15 := by
  refine (W2_of_ne m ρ c main_arg15 (by decide)).trans ?_
  show StableHlo.after hostOps0 (W0 m ρ c) (Proc.devRef .tc main_arg15) = _
  after_results_simp
set_option maxHeartbeats 1000000 in
theorem at2_arg17 (c : Dev nD) : at2 m ρ c main_arg17 = arg m ρ c main_arg17 := by
  refine (W2_of_ne m ρ c main_arg17 (by decide)).trans ?_
  show StableHlo.after hostOps0 (W0 m ρ c) (Proc.devRef .tc main_arg17) = _
  after_results_simp
set_option maxHeartbeats 1000000 in
theorem at2_arg0 (c : Dev nD) : at2 m ρ c main_arg0 = arg m ρ c main_arg0 := by
  refine (W2_of_ne m ρ c main_arg0 (by decide)).trans ?_
  show StableHlo.after hostOps0 (W0 m ρ c) (Proc.devRef .tc main_arg0) = _
  after_results_simp
set_option maxHeartbeats 1000000 in
theorem at2_arg2 (c : Dev nD) : at2 m ρ c main_arg2 = arg m ρ c main_arg2 := by
  refine (W2_of_ne m ρ c main_arg2 (by decide)).trans ?_
  show StableHlo.after hostOps0 (W0 m ρ c) (Proc.devRef .tc main_arg2) = _
  after_results_simp
set_option maxHeartbeats 1000000 in
theorem at2_arg9 (c : Dev nD) : at2 m ρ c main_arg9 = arg m ρ c main_arg9 := by
  refine (W2_of_ne m ρ c main_arg9 (by decide)).trans ?_
  show StableHlo.after hostOps0 (W0 m ρ c) (Proc.devRef .tc main_arg9) = _
  after_results_simp
set_option maxHeartbeats 1000000 in
theorem at2_arg10 (c : Dev nD) : at2 m ρ c main_arg10 = arg m ρ c main_arg10 := by
  refine (W2_of_ne m ρ c main_arg10 (by decide)).trans ?_
  show StableHlo.after hostOps0 (W0 m ρ c) (Proc.devRef .tc main_arg10) = _
  after_results_simp
set_option maxHeartbeats 1000000 in
theorem at2_arg1 (c : Dev nD) : at2 m ρ c main_arg1 = arg m ρ c main_arg1 := by
  refine (W2_of_ne m ρ c main_arg1 (by decide)).trans ?_
  show StableHlo.after hostOps0 (W0 m ρ c) (Proc.devRef .tc main_arg1) = _
  after_results_simp
set_option maxHeartbeats 1000000 in
theorem at2_arg3 (c : Dev nD) : at2 m ρ c main_arg3 = arg m ρ c main_arg3 := by
  refine (W2_of_ne m ρ c main_arg3 (by decide)).trans ?_
  show StableHlo.after hostOps0 (W0 m ρ c) (Proc.devRef .tc main_arg3) = _
  after_results_simp
set_option maxHeartbeats 1000000 in
theorem at2_arg11 (c : Dev nD) : at2 m ρ c main_arg11 = arg m ρ c main_arg11 := by
  refine (W2_of_ne m ρ c main_arg11 (by decide)).trans ?_
  show StableHlo.after hostOps0 (W0 m ρ c) (Proc.devRef .tc main_arg11) = _
  after_results_simp
set_option maxHeartbeats 1000000 in
theorem at2_arg12 (c : Dev nD) : at2 m ρ c main_arg12 = arg m ρ c main_arg12 := by
  refine (W2_of_ne m ρ c main_arg12 (by decide)).trans ?_
  show StableHlo.after hostOps0 (W0 m ρ c) (Proc.devRef .tc main_arg12) = _
  after_results_simp
set_option maxHeartbeats 1000000 in
theorem at2_arg13 (c : Dev nD) : at2 m ρ c main_arg13 = arg m ρ c main_arg13 := by
  refine (W2_of_ne m ρ c main_arg13 (by decide)).trans ?_
  show StableHlo.after hostOps0 (W0 m ρ c) (Proc.devRef .tc main_arg13) = _
  after_results_simp
set_option maxHeartbeats 1000000 in
theorem at2_arg14 (c : Dev nD) : at2 m ρ c main_arg14 = arg m ρ c main_arg14 := by
  refine (W2_of_ne m ρ c main_arg14 (by decide)).trans ?_
  show StableHlo.after hostOps0 (W0 m ρ c) (Proc.devRef .tc main_arg14) = _
  after_results_simp
set_option maxHeartbeats 1000000 in
theorem at2_v1 (c : Dev nD) : at2 m ρ c main_v1 = edgeRow0 (arg m ρ c main_arg3) := by
  refine (W2_of_ne m ρ c main_v1 (by decide)).trans ?_
  show StableHlo.after hostOps0 (W0 m ρ c) (Proc.devRef .tc main_v1) = _
  after_results_simp
  rfl

/-! ## What the second region finds -/

/-- The first region's two results. -/
theorem at2_z (c : Dev nD) : at2 m ρ c main_v36_0 = (dat0 (V1 m ρ) c).arrAt 8 cfg0.N := W2_arr m ρ c 8
theorem at2_xdiff (c : Dev nD) : at2 m ρ c main_v36_1 = (dat0 (V1 m ρ) c).arrAt 9 cfg0.N := W2_arr m ρ c 9
set_option maxHeartbeats 1000000 in
theorem in1_0 (c : Dev nD) : V5 m ρ c main_v36_0 = at2 m ρ c main_v36_0 := by
  show StableHlo.after hostOps1_2 (StableHlo.after hostOps1_1 (StableHlo.after hostOps1 (W2 m ρ c))) (Proc.devRef .tc main_v36_0) = _
  after_results_simp
set_option maxHeartbeats 1000000 in
theorem in1_1 (c : Dev nD) : V5 m ρ c main_v36_1 = at2 m ρ c main_v36_1 := by
  show StableHlo.after hostOps1_2 (StableHlo.after hostOps1_1 (StableHlo.after hostOps1 (W2 m ρ c))) (Proc.devRef .tc main_v36_1) = _
  after_results_simp
set_option maxHeartbeats 1000000 in
theorem in1_4 (c : Dev nD) : V5 m ρ c main_v42 = shapeCast S1x72 (arg m ρ c main_arg5) shapeCasts_S72_S1x72 := by
  show StableHlo.after hostOps1_2 (StableHlo.after hostOps1_1 (StableHlo.after hostOps1 (W2 m ρ c))) (Proc.devRef .tc main_v42) = _
  after_results_simp
  rw [show W2 m ρ c (Proc.devRef .tc main_arg5) = arg m ρ c main_arg5 from at2_arg5 m ρ c]
  rfl
set_option maxHeartbeats 1000000 in
theorem in1_5 (c : Dev nD) : V5 m ρ c main_v43 = shapeCast S1x72 (arg m ρ c main_arg6) shapeCasts_S72_S1x72 := by
  show StableHlo.after hostOps1_2 (StableHlo.after hostOps1_1 (StableHlo.after hostOps1 (W2 m ρ c))) (Proc.devRef .tc main_v43) = _
  after_results_simp
  rw [show W2 m ρ c (Proc.devRef .tc main_arg6) = arg m ρ c main_arg6 from at2_arg6 m ρ c]
  rfl
set_option maxHeartbeats 1000000 in
theorem in1_7 (c : Dev nD) : V5 m ρ c main_v44 = shapeCast S1x72 (arg m ρ c main_arg8) shapeCasts_S72_S1x72 := by
  show StableHlo.after hostOps1_2 (StableHlo.after hostOps1_1 (StableHlo.after hostOps1 (W2 m ρ c))) (Proc.devRef .tc main_v44) = _
  after_results_simp
  rw [show W2 m ρ c (Proc.devRef .tc main_arg8) = arg m ρ c main_arg8 from at2_arg8 m ρ c]
  rfl
set_option maxHeartbeats 1000000 in
theorem in1_9 (c : Dev nD) : V5 m ρ c main_v45 = shapeCast S1x1 (arg m ρ c main_arg19) shapeCasts_S1_S1x1 := by
  show StableHlo.after hostOps1_2 (StableHlo.after hostOps1_1 (StableHlo.after hostOps1 (W2 m ρ c))) (Proc.devRef .tc main_v45) = _
  after_results_simp
  rw [show W2 m ρ c (Proc.devRef .tc main_arg19) = arg m ρ c main_arg19 from at2_arg19 m ρ c]
  rfl
set_option maxHeartbeats 1000000 in
theorem in1_11 (c : Dev nD) : V5 m ρ c main_v46 = shapeCast S1x72 (arg m ρ c main_arg16) shapeCasts_S72_S1x72 := by
  show StableHlo.after hostOps1_2 (StableHlo.after hostOps1_1 (StableHlo.after hostOps1 (W2 m ρ c))) (Proc.devRef .tc main_v46) = _
  after_results_simp
  rw [show W2 m ρ c (Proc.devRef .tc main_arg16) = arg m ρ c main_arg16 from at2_arg16 m ρ c]
  rfl
set_option maxHeartbeats 1000000 in
theorem in1_6 (c : Dev nD) : V5 m ρ c main_arg7 = arg m ρ c main_arg7 := by
  refine Eq.trans ?_ (at2_arg7 m ρ c)
  show StableHlo.after hostOps1_2 (StableHlo.after hostOps1_1 (StableHlo.after hostOps1 (W2 m ρ c))) (Proc.devRef .tc main_arg7) = _
  after_results_simp
set_option maxHeartbeats 1000000 in
theorem in1_8 (c : Dev nD) : V5 m ρ c main_arg18 = arg m ρ c main_arg18 := by
  refine Eq.trans ?_ (at2_arg18 m ρ c)
  show StableHlo.after hostOps1_2 (StableHlo.after hostOps1_1 (StableHlo.after hostOps1 (W2 m ρ c))) (Proc.devRef .tc main_arg18) = _
  after_results_simp
set_option maxHeartbeats 1000000 in
theorem in1_10 (c : Dev nD) : V5 m ρ c main_arg15 = arg m ρ c main_arg15 := by
  refine Eq.trans ?_ (at2_arg15 m ρ c)
  show StableHlo.after hostOps1_2 (StableHlo.after hostOps1_1 (StableHlo.after hostOps1 (W2 m ρ c))) (Proc.devRef .tc main_arg15) = _
  after_results_simp
set_option maxHeartbeats 1000000 in
theorem in1_12 (c : Dev nD) : V5 m ρ c main_arg17 = arg m ρ c main_arg17 := by
  refine Eq.trans ?_ (at2_arg17 m ρ c)
  show StableHlo.after hostOps1_2 (StableHlo.after hostOps1_1 (StableHlo.after hostOps1 (W2 m ρ c))) (Proc.devRef .tc main_arg17) = _
  after_results_simp

/-! ## After the second region: the sums over the edges entering a node, and the new coordinates -/

/-- The contents a buffer has at the second region's exit. -/
abbrev at6 (c : Dev nD) (b : Ref sig .tc) : Buf (Elt F) ((c : Thread nD τ).loc b) := W6 m ρ c (Proc.devRef .tc b)

/-- The second region's two results. -/
theorem at6_m (c : Dev nD) : at6 m ρ c main_v47_0 = (dat1 (V5 m ρ) c).arrAt 13 cfg1.N := W6_arr m ρ c 13
theorem at6_trans (c : Dev nD) : at6 m ρ c main_v47_1 = (dat1 (V5 m ρ) c).arrAt 14 cfg1.N := W6_arr m ρ c 14
set_option maxHeartbeats 1000000 in
theorem at6_arg0 (c : Dev nD) : at6 m ρ c main_arg0 = arg m ρ c main_arg0 := by
  refine (W6_of_ne m ρ c main_arg0 (by decide)).trans ?_
  refine Eq.trans ?_ (at2_arg0 m ρ c)
  show StableHlo.after hostOps1_2 (StableHlo.after hostOps1_1 (StableHlo.after hostOps1 (W2 m ρ c))) (Proc.devRef .tc main_arg0) = _
  after_results_simp
set_option maxHeartbeats 1000000 in
theorem at6_arg2 (c : Dev nD) : at6 m ρ c main_arg2 = arg m ρ c main_arg2 := by
  refine (W6_of_ne m ρ c main_arg2 (by decide)).trans ?_
  refine Eq.trans ?_ (at2_arg2 m ρ c)
  show StableHlo.after hostOps1_2 (StableHlo.after hostOps1_1 (StableHlo.after hostOps1 (W2 m ρ c))) (Proc.devRef .tc main_arg2) = _
  after_results_simp
set_option maxHeartbeats 1000000 in
theorem at6_arg9 (c : Dev nD) : at6 m ρ c main_arg9 = arg m ρ c main_arg9 := by
  refine (W6_of_ne m ρ c main_arg9 (by decide)).trans ?_
  refine Eq.trans ?_ (at2_arg9 m ρ c)
  show StableHlo.after hostOps1_2 (StableHlo.after hostOps1_1 (StableHlo.after hostOps1 (W2 m ρ c))) (Proc.devRef .tc main_arg9) = _
  after_results_simp
set_option maxHeartbeats 1000000 in
theorem at6_arg10 (c : Dev nD) : at6 m ρ c main_arg10 = arg m ρ c main_arg10 := by
  refine (W6_of_ne m ρ c main_arg10 (by decide)).trans ?_
  refine Eq.trans ?_ (at2_arg10 m ρ c)
  show StableHlo.after hostOps1_2 (StableHlo.after hostOps1_1 (StableHlo.after hostOps1 (W2 m ρ c))) (Proc.devRef .tc main_arg10) = _
  after_results_simp
set_option maxHeartbeats 1000000 in
theorem at6_arg1 (c : Dev nD) : at6 m ρ c main_arg1 = arg m ρ c main_arg1 := by
  refine (W6_of_ne m ρ c main_arg1 (by decide)).trans ?_
  refine Eq.trans ?_ (at2_arg1 m ρ c)
  show StableHlo.after hostOps1_2 (StableHlo.after hostOps1_1 (StableHlo.after hostOps1 (W2 m ρ c))) (Proc.devRef .tc main_arg1) = _
  after_results_simp
set_option maxHeartbeats 1000000 in
theorem at6_arg11 (c : Dev nD) : at6 m ρ c main_arg11 = arg m ρ c main_arg11 := by
  refine (W6_of_ne m ρ c main_arg11 (by decide)).trans ?_
  refine Eq.trans ?_ (at2_arg11 m ρ c)
  show StableHlo.after hostOps1_2 (StableHlo.after hostOps1_1 (StableHlo.after hostOps1 (W2 m ρ c))) (Proc.devRef .tc main_arg11) = _
  after_results_simp
set_option maxHeartbeats 1000000 in
theorem at6_arg12 (c : Dev nD) : at6 m ρ c main_arg12 = arg m ρ c main_arg12 := by
  refine (W6_of_ne m ρ c main_arg12 (by decide)).trans ?_
  refine Eq.trans ?_ (at2_arg12 m ρ c)
  show StableHlo.after hostOps1_2 (StableHlo.after hostOps1_1 (StableHlo.after hostOps1 (W2 m ρ c))) (Proc.devRef .tc main_arg12) = _
  after_results_simp
set_option maxHeartbeats 1000000 in
theorem at6_arg13 (c : Dev nD) : at6 m ρ c main_arg13 = arg m ρ c main_arg13 := by
  refine (W6_of_ne m ρ c main_arg13 (by decide)).trans ?_
  refine Eq.trans ?_ (at2_arg13 m ρ c)
  show StableHlo.after hostOps1_2 (StableHlo.after hostOps1_1 (StableHlo.after hostOps1 (W2 m ρ c))) (Proc.devRef .tc main_arg13) = _
  after_results_simp
set_option maxHeartbeats 1000000 in
theorem at6_arg14 (c : Dev nD) : at6 m ρ c main_arg14 = arg m ρ c main_arg14 := by
  refine (W6_of_ne m ρ c main_arg14 (by decide)).trans ?_
  refine Eq.trans ?_ (at2_arg14 m ρ c)
  show StableHlo.after hostOps1_2 (StableHlo.after hostOps1_1 (StableHlo.after hostOps1 (W2 m ρ c))) (Proc.devRef .tc main_arg14) = _
  after_results_simp
set_option maxHeartbeats 1000000 in
theorem at6_v1 (c : Dev nD) : at6 m ρ c main_v1 = edgeRow0 (arg m ρ c main_arg3) := by
  refine (W6_of_ne m ρ c main_v1 (by decide)).trans ?_
  refine Eq.trans ?_ (at2_v1 m ρ c)
  show StableHlo.after hostOps1_2 (StableHlo.after hostOps1_1 (StableHlo.after hostOps1 (W2 m ρ c))) (Proc.devRef .tc main_v1) = _
  after_results_simp

/-- A vector of E node numbers as the column of start indices a scatter takes. -/
def scatterCol (e : (⟨S1600000, .i32⟩ : BufTy).Contents (Elt F)) : (⟨S1600000x1, .i32⟩ : BufTy).Contents (Elt F) :=
  broadcastInDim S1600000x1 ![0] bcast_S1600000_S1600000x1_0 e
/-- For each node, the sum of the rows [72] of the edges whose first end point it is. -/
def segSum72 (e : (⟨S1600000, .i32⟩ : BufTy).Contents (Elt F)) (u : (⟨S1600000x72, .f32⟩ : BufTy).Contents (Elt F)) :
    (⟨S50000x72, .f32⟩ : BufTy).Contents (Elt F) :=
  Host.scatterAdd scatter_S50000x72_S1600000x1_S1600000x72_1_0_0_1
    (broadcastInDim S50000x72 ![] bcast_S_S50000x72 (constant S_ .f32 0x00000000#32)) (scatterCol e) u
/-- The same for rows [4]. -/
def segSum4 (e : (⟨S1600000, .i32⟩ : BufTy).Contents (Elt F)) (u : (⟨S1600000x4, .f32⟩ : BufTy).Contents (Elt F)) :
    (⟨S50000x4, .f32⟩ : BufTy).Contents (Elt F) :=
  Host.scatterAdd scatter_S50000x4_S1600000x1_S1600000x4_1_0_0_1
    (broadcastInDim S50000x4 ![] bcast_S_S50000x4 (constant S_ .f32 0x00000000#32)) (scatterCol e) u
/-- For each node, the number of edges whose first end point it is (a sum of ones). -/
def segCount (e : (⟨S1600000, .i32⟩ : BufTy).Contents (Elt F)) : (⟨S50000, .f32⟩ : BufTy).Contents (Elt F) :=
  Host.scatterAdd scatter_S50000_S1600000x1_S1600000_n_0_0_1
    (broadcastInDim S50000 ![] bcast_S_S50000 (constant S_ .f32 0x00000000#32)) (scatterCol e)
    (broadcastInDim S1600000 ![] bcast_S_S1600000 (constant S_ .f32 0x3F800000#32))
/-- The new coordinates: the old ones plus the summed translations over the count (at least one), times one. -/
def newCoords (x : (⟨S50000x4, .f32⟩ : BufTy).Contents (Elt F)) (ts : (⟨S50000x4, .f32⟩ : BufTy).Contents (Elt F))
    (cnt : (⟨S50000, .f32⟩ : BufTy).Contents (Elt F)) : (⟨S50000x4, .f32⟩ : BufTy).Contents (Elt F) :=
  addf x (mulf (Host.divf ts (broadcastInDim S50000x4 ![0, 1] bcast_S50000x1_S50000x4_0_1 (broadcastInDim S50000x1 ![0] bcast_S50000_S50000x1_0
      (maximumf cnt (broadcastInDim S50000 ![] bcast_S_S50000 (constant S_ .f32 0x3F800000#32))))))
    (broadcastInDim S50000x4 ![] bcast_S_S50000x4 (constant S_ .f32 0x3F800000#32)))
set_option maxHeartbeats 1000000 in
theorem in2_0 (c : Dev nD) : V7 m ρ c main_arg0 = arg m ρ c main_arg0 := by
  show StableHlo.after hostOps2 (W6 m ρ c) (Proc.devRef .tc main_arg0) = _
  after_results_simp
  rw [show W6 m ρ c (Proc.devRef .tc main_arg0) = _ from at6_arg0 m ρ c]
  try rfl
set_option maxHeartbeats 1000000 in
theorem in2_1 (c : Dev nD) : V7 m ρ c main_v50 = segSum72 (edgeRow0 (arg m ρ c main_arg3)) (at6 m ρ c main_v47_0) := by
  show StableHlo.after hostOps2 (W6 m ρ c) (Proc.devRef .tc main_v50) = _
  after_results_simp
  rw [show W6 m ρ c (Proc.devRef .tc main_v1) = _ from at6_v1 m ρ c]
  try rfl
set_option maxHeartbeats 1000000 in
theorem in2_2 (c : Dev nD) : V7 m ρ c main_arg2 = arg m ρ c main_arg2 := by
  show StableHlo.after hostOps2 (W6 m ρ c) (Proc.devRef .tc main_arg2) = _
  after_results_simp
  rw [show W6 m ρ c (Proc.devRef .tc main_arg2) = _ from at6_arg2 m ρ c]
  try rfl
set_option maxHeartbeats 1000000 in
theorem in2_3 (c : Dev nD) : V7 m ρ c main_v66 = extractStridedSlice S72x72 ![0, 0] (arg m ρ c main_arg9) slices_S152x72_S72x72_0_0 := by
  show StableHlo.after hostOps2 (W6 m ρ c) (Proc.devRef .tc main_v66) = _
  after_results_simp
  rw [show W6 m ρ c (Proc.devRef .tc main_arg9) = _ from at6_arg9 m ρ c]
  try rfl
set_option maxHeartbeats 1000000 in
theorem in2_4 (c : Dev nD) : V7 m ρ c main_v67 = extractStridedSlice S72x72 ![72, 0] (arg m ρ c main_arg9) slices_S152x72_S72x72_72_0 := by
  show StableHlo.after hostOps2 (W6 m ρ c) (Proc.devRef .tc main_v67) = _
  after_results_simp
  rw [show W6 m ρ c (Proc.devRef .tc main_arg9) = _ from at6_arg9 m ρ c]
  try rfl
set_option maxHeartbeats 1000000 in
theorem in2_5 (c : Dev nD) : V7 m ρ c main_v68 = extractStridedSlice S8x72 ![144, 0] (arg m ρ c main_arg9) slices_S152x72_S8x72_144_0 := by
  show StableHlo.after hostOps2 (W6 m ρ c) (Proc.devRef .tc main_v68) = _
  after_results_simp
  rw [show W6 m ρ c (Proc.devRef .tc main_arg9) = _ from at6_arg9 m ρ c]
  try rfl
set_option maxHeartbeats 1000000 in
theorem in2_6 (c : Dev nD) : V7 m ρ c main_v69 = shapeCast S1x72 (arg m ρ c main_arg10) shapeCasts_S72_S1x72 := by
  show StableHlo.after hostOps2 (W6 m ρ c) (Proc.devRef .tc main_v69) = _
  after_results_simp
  rw [show W6 m ρ c (Proc.devRef .tc main_arg10) = _ from at6_arg10 m ρ c]
  try rfl
set_option maxHeartbeats 1000000 in
theorem at7_xout (c : Dev nD) : V7 m ρ c main_v65 = newCoords (arg m ρ c main_arg1) (segSum4 (edgeRow0 (arg m ρ c main_arg3)) (at6 m ρ c main_v47_1)) (segCount (edgeRow0 (arg m ρ c main_arg3))) := by
  show StableHlo.after hostOps2 (W6 m ρ c) (Proc.devRef .tc main_v65) = _
  after_results_simp
  rw [show W6 m ρ c (Proc.devRef .tc main_v1) = _ from at6_v1 m ρ c, show W6 m ρ c (Proc.devRef .tc main_arg1) = _ from at6_arg1 m ρ c]
  try rfl
set_option maxHeartbeats 1000000 in
theorem at7_arg11 (c : Dev nD) : V7 m ρ c main_arg11 = arg m ρ c main_arg11 := by
  show StableHlo.after hostOps2 (W6 m ρ c) (Proc.devRef .tc main_arg11) = _
  after_results_simp
  rw [show W6 m ρ c (Proc.devRef .tc main_arg11) = _ from at6_arg11 m ρ c]
  try rfl
set_option maxHeartbeats 1000000 in
theorem at7_arg12 (c : Dev nD) : V7 m ρ c main_arg12 = arg m ρ c main_arg12 := by
  show StableHlo.after hostOps2 (W6 m ρ c) (Proc.devRef .tc main_arg12) = _
  after_results_simp
  rw [show W6 m ρ c (Proc.devRef .tc main_arg12) = _ from at6_arg12 m ρ c]
  try rfl
set_option maxHeartbeats 1000000 in
theorem at7_arg13 (c : Dev nD) : V7 m ρ c main_arg13 = arg m ρ c main_arg13 := by
  show StableHlo.after hostOps2 (W6 m ρ c) (Proc.devRef .tc main_arg13) = _
  after_results_simp
  rw [show W6 m ρ c (Proc.devRef .tc main_arg13) = _ from at6_arg13 m ρ c]
  try rfl
set_option maxHeartbeats 1000000 in
theorem at7_arg14 (c : Dev nD) : V7 m ρ c main_arg14 = arg m ρ c main_arg14 := by
  show StableHlo.after hostOps2 (W6 m ρ c) (Proc.devRef .tc main_arg14) = _
  after_results_simp
  rw [show W6 m ρ c (Proc.devRef .tc main_arg14) = _ from at6_arg14 m ρ c]
  try rfl
set_option maxHeartbeats 1000000 in
theorem at7_m (c : Dev nD) : V7 m ρ c main_v47_0 = at6 m ρ c main_v47_0 := by
  show StableHlo.after hostOps2 (W6 m ρ c) (Proc.devRef .tc main_v47_0) = _
  after_results_simp
  skip
  try rfl

/-! ## After the third region: the column means and variances of its result, and what the program returns -/

/-- The contents a buffer has at the third region's exit. -/
abbrev at8 (c : Dev nD) (b : Ref sig .tc) : Buf (Elt F) ((c : Thread nD τ).loc b) := W8 m ρ c (Proc.devRef .tc b)

/-- The third region's result. -/
theorem at8_zh (c : Dev nD) : at8 m ρ c main_v70 = (dat2 (V7 m ρ) c).arrAt 7 cfg2.N := W8_arr m ρ c 7
/-- The node features are one of the third region's inputs: it leaves them as it found them. -/
theorem at8_arg0 (c : Dev nD) : at8 m ρ c main_arg0 = arg m ρ c main_arg0 :=
  (W8_arr m ρ c 0).trans (((dat2 (V7 m ρ) c).arrAt_in 0 rfl _).trans ((A_eq2 (V7 m ρ) c 0).trans (in2_0 m ρ c)))
theorem at8_arg11 (c : Dev nD) : at8 m ρ c main_arg11 = arg m ρ c main_arg11 :=
  (W8_of_ne m ρ c main_arg11 (by decide)).trans (at7_arg11 m ρ c)
theorem at8_arg12 (c : Dev nD) : at8 m ρ c main_arg12 = arg m ρ c main_arg12 :=
  (W8_of_ne m ρ c main_arg12 (by decide)).trans (at7_arg12 m ρ c)
theorem at8_arg13 (c : Dev nD) : at8 m ρ c main_arg13 = arg m ρ c main_arg13 :=
  (W8_of_ne m ρ c main_arg13 (by decide)).trans (at7_arg13 m ρ c)
theorem at8_arg14 (c : Dev nD) : at8 m ρ c main_arg14 = arg m ρ c main_arg14 :=
  (W8_of_ne m ρ c main_arg14 (by decide)).trans (at7_arg14 m ρ c)
theorem at8_xout (c : Dev nD) : at8 m ρ c main_v65 = newCoords (arg m ρ c main_arg1) (segSum4 (edgeRow0 (arg m ρ c main_arg3)) (at6 m ρ c main_v47_1)) (segCount (edgeRow0 (arg m ρ c main_arg3))) :=
  (W8_of_ne m ρ c main_v65 (by decide)).trans (at7_xout m ρ c)
theorem at8_m (c : Dev nD) : at8 m ρ c main_v47_0 = at6 m ρ c main_v47_0 :=
  (W8_of_ne m ρ c main_v47_0 (by decide)).trans (at7_m m ρ c)

/-- The column sums of an [N, 72] array, kept as one row [1, 72], over the number of rows. -/
def colMeanN (z : (⟨S50000x72, .f32⟩ : BufTy).Contents (Elt F)) : (⟨S1x72, .f32⟩ : BufTy).Contents (Elt F) :=
  Host.divf (broadcastInDim S1x72 ![1] bcast_S72_S1x72_1 (Host.reduceAdd z (constant S_ .f32 0x00000000#32) reducesTo_S50000x72_S72_d0 h_S_))
    (broadcastInDim S1x72 ![] bcast_S_S1x72 (constant S_ .f32 0x47435000#32))
def colSqDevN (z : (⟨S50000x72, .f32⟩ : BufTy).Contents (Elt F)) : (⟨S72, .f32⟩ : BufTy).Contents (Elt F) :=
  Host.reduceAdd
    (mulf (subf z (broadcastInDim S50000x72 ![0, 1] bcast_S1x72_S50000x72_0_1 (colMeanN z)))
      (subf z (broadcastInDim S50000x72 ![0, 1] bcast_S1x72_S50000x72_0_1 (colMeanN z))))
    (constant S_ .f32 0x00000000#32) reducesTo_S50000x72_S72_d0 h_S_
def dofN (d : (⟨S_, .i32⟩ : BufTy).Contents (Elt F)) : (⟨S_, .f32⟩ : BufTy).Contents (Elt F) :=
  subf (constant S_ .f32 0x47435000#32) (sitofp .f32 d)
def colVarN (z : (⟨S50000x72, .f32⟩ : BufTy).Contents (Elt F)) (d : (⟨S_, .i32⟩ : BufTy).Contents (Elt F)) :
    (⟨S1x72, .f32⟩ : BufTy).Contents (Elt F) :=
  select (broadcastInDim S1x72 ![] bcast_S_S1x72 (cmpf .ogt (dofN d) (constant S_ .f32 0x00000000#32)))
    (Host.divf (broadcastInDim S1x72 ![1] bcast_S72_S1x72_1 (colSqDevN z)) (broadcastInDim S1x72 ![] bcast_S_S1x72 (dofN d)))
    (broadcastInDim S1x72 ![] bcast_S_S1x72 (id (constant S_ .f32 0x7FC00000#32)))
set_option maxHeartbeats 1000000 in
theorem in3_0 (c : Dev nD) : V11 m ρ c main_v70 = at8 m ρ c main_v70 := by
  show StableHlo.after hostOps3_2 (StableHlo.after hostOps3_1 (StableHlo.after hostOps3 (W8 m ρ c))) (Proc.devRef .tc main_v70) = _
  after_results_simp
  skip
  try rfl
set_option maxHeartbeats 1000000 in
theorem in3_1 (c : Dev nD) : V11 m ρ c main_arg0 = arg m ρ c main_arg0 := by
  show StableHlo.after hostOps3_2 (StableHlo.after hostOps3_1 (StableHlo.after hostOps3 (W8 m ρ c))) (Proc.devRef .tc main_arg0) = _
  after_results_simp
  rw [show W8 m ρ c (Proc.devRef .tc main_arg0) = _ from at8_arg0 m ρ c]
  try rfl
set_option maxHeartbeats 1000000 in
theorem in3_2 (c : Dev nD) : V11 m ρ c main_v74 = colMeanN (at8 m ρ c main_v70) := by
  show StableHlo.after hostOps3_2 (StableHlo.after hostOps3_1 (StableHlo.after hostOps3 (W8 m ρ c))) (Proc.devRef .tc main_v74) = _
  after_results_simp
  skip
  try rfl
set_option maxHeartbeats 1000000 in
theorem in3_3 (c : Dev nD) : V11 m ρ c main_v75 = colVarN (at8 m ρ c main_v70) (constantI S_ 32 0#32) := by
  show StableHlo.after hostOps3_2 (StableHlo.after hostOps3_1 (StableHlo.after hostOps3 (W8 m ρ c))) (Proc.devRef .tc main_v75) = _
  after_results_simp
  skip
  try rfl
set_option maxHeartbeats 1000000 in
theorem in3_4 (c : Dev nD) : V11 m ρ c main_v76 = shapeCast S1x72 (arg m ρ c main_arg11) shapeCasts_S72_S1x72 := by
  show StableHlo.after hostOps3_2 (StableHlo.after hostOps3_1 (StableHlo.after hostOps3 (W8 m ρ c))) (Proc.devRef .tc main_v76) = _
  after_results_simp
  rw [show W8 m ρ c (Proc.devRef .tc main_arg11) = _ from at8_arg11 m ρ c]
  try rfl
set_option maxHeartbeats 1000000 in
theorem in3_5 (c : Dev nD) : V11 m ρ c main_v77 = shapeCast S1x72 (arg m ρ c main_arg12) shapeCasts_S72_S1x72 := by
  show StableHlo.after hostOps3_2 (StableHlo.after hostOps3_1 (StableHlo.after hostOps3 (W8 m ρ c))) (Proc.devRef .tc main_v77) = _
  after_results_simp
  rw [show W8 m ρ c (Proc.devRef .tc main_arg12) = _ from at8_arg12 m ρ c]
  try rfl
set_option maxHeartbeats 1000000 in
theorem in3_6 (c : Dev nD) : V11 m ρ c main_arg13 = arg m ρ c main_arg13 := by
  show StableHlo.after hostOps3_2 (StableHlo.after hostOps3_1 (StableHlo.after hostOps3 (W8 m ρ c))) (Proc.devRef .tc main_arg13) = _
  after_results_simp
  rw [show W8 m ρ c (Proc.devRef .tc main_arg13) = _ from at8_arg13 m ρ c]
  try rfl
set_option maxHeartbeats 1000000 in
theorem in3_7 (c : Dev nD) : V11 m ρ c main_v78 = shapeCast S1x72 (arg m ρ c main_arg14) shapeCasts_S72_S1x72 := by
  show StableHlo.after hostOps3_2 (StableHlo.after hostOps3_1 (StableHlo.after hostOps3 (W8 m ρ c))) (Proc.devRef .tc main_v78) = _
  after_results_simp
  rw [show W8 m ρ c (Proc.devRef .tc main_arg14) = _ from at8_arg14 m ρ c]
  try rfl
set_option maxHeartbeats 1000000 in
theorem at11_xout (c : Dev nD) : V11 m ρ c main_v65 = at8 m ρ c main_v65 := by
  show StableHlo.after hostOps3_2 (StableHlo.after hostOps3_1 (StableHlo.after hostOps3 (W8 m ρ c))) (Proc.devRef .tc main_v65) = _
  after_results_simp
  skip
  try rfl
set_option maxHeartbeats 1000000 in
theorem at11_m (c : Dev nD) : V11 m ρ c main_v47_0 = at8 m ρ c main_v47_0 := by
  show StableHlo.after hostOps3_2 (StableHlo.after hostOps3_1 (StableHlo.after hostOps3 (W8 m ρ c))) (Proc.devRef .tc main_v47_0) = _
  after_results_simp
  skip
  try rfl

/-! ## The three results at the last boundary -/

theorem res_h (c : Dev nD) : W12 m ρ c (Proc.devRef .tc main_v79) = (dat3 (V11 m ρ) c).arrAt 8 cfg3.N := W12_arr m ρ c 8
theorem res_x (c : Dev nD) : W12 m ρ c (Proc.devRef .tc main_v65)
    = newCoords (arg m ρ c main_arg1) (segSum4 (edgeRow0 (arg m ρ c main_arg3)) (at6 m ρ c main_v47_1)) (segCount (edgeRow0 (arg m ρ c main_arg3))) :=
  (W12_of_ne m ρ c main_v65 (by decide)).trans ((at11_xout m ρ c).trans (at8_xout m ρ c))
theorem res_m (c : Dev nD) : W12 m ρ c (Proc.devRef .tc main_v47_0) = (dat1 (V5 m ρ) c).arrAt 13 cfg1.N :=
  (W12_of_ne m ρ c main_v47_0 (by decide)).trans ((at11_m m ρ c).trans ((at8_m m ρ c).trans (at6_m m ρ c)))

end Cert.KernelIdeal.Fold

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«128591_j87351044866445_2_alg».proof.Proof.LibPlainContract
import proofs.«128591_j87351044866445_2_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.SpecEdge.lean ====
/-
  The two edge stages of an equivariant graph layer, entry by entry, at exact (extended real) values.

  Every edge e carries the features hi[e], hj[e] (72 numbers each) and the coordinates xi[e], xj[e] (4 numbers each)
  of its two end nodes.

  Stage one (the linear stage):
      xdiff[e, k] = xi[e, k] − xj[e, k]
      z[e, c]     = ((hi·Whi)[e, c] + (hj·Whj)[e, c]) + ψ(normsq e)·Wn[0, c] + ψ(dotsq e)·Wd[0, c]
  with  mink f   = 2·f 0 − Σ_k f k           (a Minkowski-type form of four products),
        normsq e = mink (k ↦ (xi[e,k] − xj[e,k])²),     dotsq e = mink (k ↦ xi[e,k]·xj[e,k]),
        ψ v      = sign v · log(|v| + 1).

  Stage two (the multilayer stage), from z, xdiff and per-column statistics mean, var and an affine pair gamma, beta:
      zn   = ((z − mean)·rsqrt(var + eps))·gamma + beta,     e1 = max(zn, 0),     e2 = max(e1·We2 + be2, 0),
      m    = e2 · logistic((e2·Wm)[e, 0] + bm[0, 0]),
      hx1  = max(m·Wx1 + bx1, 0),
      trans[e, k] = min(100, max(−100, xdiff[e, k]·(hx1·Wx2)[e, 0])).

  Every function is generic in the number N of edges (rows): entry (e, ·) of a result reads only row e of the
  edge-indexed operands, which is what makes a block of rows of the result the same function of the blocks of rows.
  The float literals 2, 1, eps, −100, 100 are kept as their single-precision patterns.
-/
import Idealize.ShloMosaic.PureOps.Ideal.Laws
import Idealize.ShloMosaic.Lib.ValueIdx
import proofs.«128591_j87351044866445_2_alg».proof.Proof.LibDenseRows

noncomputable section

namespace Cert.SpecEdge

open Idealize.ShloMosaic Idealize.ShloMosaic.ValueIdx Cert.Dense

variable {N : Nat}

/-! ## Scalars -/

/-- The signed logarithm sign v · log(|v| + 1); |v| is max v (−v), and 1 its single-precision pattern. -/
def psi (v : EReal) : EReal :=
  Ideal.sign v * Ideal.log (max v (-v) + Ideal.ofBits .f32 0x3F800000#32)

/-- Twice the first of four numbers minus their sum (2 as its single-precision pattern). -/
def mink (f : Fin 4 → EReal) : EReal :=
  Ideal.ofBits .f32 0x40000000#32 * f 0 - ∑ k : Fin 4, f k

/-! ## Stage one -/

/-- The coordinate difference of an edge's two ends. -/
def xdiff (xi xj : Mat N 4) : Mat N 4 := fun i => xi i - xj i

/-- mink of the squared coordinate differences of edge e. -/
def normsq (xi xj : Mat N 4) (e : Fin N) : EReal :=
  mink fun k => (xi (ix2 e k) - xj (ix2 e k)) * (xi (ix2 e k) - xj (ix2 e k))

/-- mink of the coordinate products of edge e. -/
def dotsq (xi xj : Mat N 4) (e : Fin N) : EReal :=
  mink fun k => xi (ix2 e k) * xj (ix2 e k)

/-- The linear stage: the two feature products added, then the two signed-logarithm columns times their weight rows. -/
def edgeLin (hi hj : Mat N 72) (xi xj : Mat N 4) (Whi Whj : Mat 72 72) (Wn Wd : Mat 1 72) : Mat N 72 := fun i =>
  ((mm hi Whi i + mm hj Whj i) + psi (normsq xi xj (rowOf i)) * Wn (ix2 (0 : Fin 1) (colOf i)))
    + psi (dotsq xi xj (rowOf i)) * Wd (ix2 (0 : Fin 1) (colOf i))

theorem xdiff_apply (xi xj : Mat N 4) (e : Fin N) (k : Fin 4) :
    xdiff xi xj (ix2 e k) = xi (ix2 e k) - xj (ix2 e k) := rfl

theorem edgeLin_apply (hi hj : Mat N 72) (xi xj : Mat N 4) (Whi Whj : Mat 72 72) (Wn Wd : Mat 1 72)
    (e : Fin N) (c : Fin 72) :
    edgeLin hi hj xi xj Whi Whj Wn Wd (ix2 e c)
      = ((∑ k : Fin 72, hi (ix2 e k) * Whi (ix2 k c) + ∑ k : Fin 72, hj (ix2 e k) * Whj (ix2 k c))
          + psi (normsq xi xj e) * Wn (ix2 (0 : Fin 1) c)) + psi (dotsq xi xj e) * Wd (ix2 (0 : Fin 1) c) := rfl

/-! ## Stage two -/

/-- The normalisation: ((z − mean)·rsqrt(var + eps))·gamma + beta, the four rows laid along every row of z. -/
def normed (z : Mat N 72) (mean var gamma beta : Mat 1 72) : Mat N 72 := fun i =>
  ((z i - mean (ix2 (0 : Fin 1) (colOf i)))
      * Ideal.rsqrt (var (ix2 (0 : Fin 1) (colOf i)) + Ideal.ofBits .f32 0x3727C5AC#32))
    * gamma (ix2 (0 : Fin 1) (colOf i)) + beta (ix2 (0 : Fin 1) (colOf i))

/-- The rectifier. -/
def relu (A : Mat N 72) : Mat N 72 := fun i => max (A i) 0

/-- The hidden features e2 = max(max(zn, 0)·We2 + be2, 0). -/
def hidden (z : Mat N 72) (mean var gamma beta : Mat 1 72) (We2 : Mat 72 72) (be2 : Mat 1 72) : Mat N 72 :=
  actRow (mm (relu (normed z mean var gamma beta)) We2) be2

/-- The gated message m = e2 · logistic((e2·Wm)[e, 0] + bm[0, 0]). -/
def message (e2 : Mat N 72) (Wm : Mat 72 1) (bm : Mat 1 1) : Mat N 72 := fun i =>
  e2 i * Ideal.logistic (mm e2 Wm (ix2 (rowOf i) (0 : Fin 1)) + bm (ix2 (0 : Fin 1) (0 : Fin 1)))

/-- The clipped translation min(100, max(−100, xdiff · ((max(m·Wx1 + bx1, 0))·Wx2)[e, 0])). -/
def translation (m : Mat N 72) (xd : Mat N 4) (Wx1 : Mat 72 72) (bx1 : Mat 1 72) (Wx2 : Mat 72 1) : Mat N 4 := fun i =>
  min (Ideal.ofBits .f32 0x42C80000#32)
    (max (Ideal.ofBits .f32 0xC2C80000#32)
      (xd i * mm (actRow (mm m Wx1) bx1) Wx2 (ix2 (rowOf i) (0 : Fin 1))))

/-- The multilayer stage's first result: the message of the hidden features. -/
def edgeMsg (z : Mat N 72) (mean var gamma beta : Mat 1 72) (We2 : Mat 72 72) (be2 : Mat 1 72) (Wm : Mat 72 1)
    (bm : Mat 1 1) : Mat N 72 :=
  message (hidden z mean var gamma beta We2 be2) Wm bm

/-- The multilayer stage's second result: the translation of that message. -/
def edgeTrans (z : Mat N 72) (xd : Mat N 4) (mean var gamma beta : Mat 1 72) (We2 : Mat 72 72) (be2 : Mat 1 72)
    (Wm : Mat 72 1) (bm : Mat 1 1) (Wx1 : Mat 72 72) (bx1 : Mat 1 72) (Wx2 : Mat 72 1) : Mat N 4 :=
  translation (edgeMsg z mean var gamma beta We2 be2 Wm bm) xd Wx1 bx1 Wx2

theorem normed_apply (z : Mat N 72) (mean var gamma beta : Mat 1 72) (e : Fin N) (c : Fin 72) :
    normed z mean var gamma beta (ix2 e c)
      = ((z (ix2 e c) - mean (ix2 (0 : Fin 1) c))
          * Ideal.rsqrt (var (ix2 (0 : Fin 1) c) + Ideal.ofBits .f32 0x3727C5AC#32))
        * gamma (ix2 (0 : Fin 1) c) + beta (ix2 (0 : Fin 1) c) := rfl

theorem relu_apply (A : Mat N 72) (i : (⟨2, ![N, 72]⟩ : Shape).Idx) : relu A i = max (A i) 0 := rfl

theorem message_apply (e2 : Mat N 72) (Wm : Mat 72 1) (bm : Mat 1 1) (e : Fin N) (c : Fin 72) :
    message e2 Wm bm (ix2 e c)
      = e2 (ix2 e c) * Ideal.logistic (mm e2 Wm (ix2 e (0 : Fin 1)) + bm (ix2 (0 : Fin 1) (0 : Fin 1))) := rfl

theorem translation_apply (m : Mat N 72) (xd : Mat N 4) (Wx1 : Mat 72 72) (bx1 : Mat 1 72) (Wx2 : Mat 72 1)
    (e : Fin N) (k : Fin 4) :
    translation m xd Wx1 bx1 Wx2 (ix2 e k)
      = min (Ideal.ofBits .f32 0x42C80000#32)
          (max (Ideal.ofBits .f32 0xC2C80000#32)
            (xd (ix2 e k) * mm (actRow (mm m Wx1) bx1) Wx2 (ix2 e (0 : Fin 1)))) := rfl

end Cert.SpecEdge

end
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Region0Pay.lean ====
/-
  The linear edge stage's tiled body, read entry by entry at exact (extended real) values.

  One block of 4000 edges: the body loads the blocks hi, hj [4000, 72], xi, xj [4000, 4] and the whole weights
  Whi, Whj [72, 72], Wn, Wd [1, 72], and stores z [4000, 72] and the coordinate difference [4000, 4]. Read at entry
  (p, q) what it stores is the linear stage of the specification on those 4000 rows: the two matrix-unit products
  into a zero accumulator are plain sums over the contracted index (the narrowing of their operands is the identity
  at exact values), the form 2·f₀ − Σ f is a slice of column 0, a splat 2 and a lane sum, the sign is a select on
  |v| > 0 over a select on v < 0, and the one-row weights and the one-column signed logarithms are broadcast over the
  block.
-/
import proofs.«128591_j87351044866445_2_alg».proof.Proof.Gen.KernelIdeal.Skeleton
import proofs.«128591_j87351044866445_2_alg».proof.Proof.SpecEdge
import proofs.«128591_j87351044866445_2_alg».proof.Proof.LibColumn
import proofs.«128591_j87351044866445_2_alg».proof.Proof.LibKeepdims
import Idealize.ShloMosaic.Lib.Pipeline.Value

noncomputable section

namespace Cert.Region0

open Cert.KernelIdeal Cert.KernelIdeal.Gen Idealize.ShloMosaic Idealize.ShloMosaic.ValueIdx Cert.Dense Cert.SpecEdge

/-! ## Two column shapes -/

/-- Twice column 0 of a four-column block minus the lane sum of the block, kept as a column: mink of the row. -/
theorem minkCol_apply (v : FVec Ideal ⟨2, ![4000, 4]⟩ .f32)
    (hsl : (⟨2, ![4000, 4]⟩ : Shape).Slices ![0, 0] ⟨2, ![4000, 1]⟩)
    (hred : Shape.Reduces ⟨2, ![4000, 4]⟩ [1] ⟨1, ![4000]⟩) (hφ : FKind.Formats .f32)
    (hacc : (0x00000000#32 : BitVec 32) = 0x00000000#32)
    (hsc : (⟨1, ![4000]⟩ : Shape).ShapeCasts ⟨2, ![4000, 1]⟩) (p : Fin 4000) (u : Fin 1) :
    subf (mulf (broadcast ⟨2, ![4000, 1]⟩ (Scalar.ofBits (F := Ideal) .f32 0x40000000#32))
          (extractStridedSlice ⟨2, ![4000, 1]⟩ ![0, 0] v hsl))
        (shapeCast ⟨2, ![4000, 1]⟩ (multiReduction .add [1] ⟨1, ![4000]⟩ v 0x00000000#32 hred hφ hacc) hsc) (ix2 p u)
      = mink fun k => v (ix2 p k) := by
  show Ideal.ofBits .f32 0x40000000#32 * extractStridedSlice ⟨2, ![4000, 1]⟩ ![0, 0] v hsl (ix2 p u)
      - shapeCast ⟨2, ![4000, 1]⟩ (multiReduction .add [1] ⟨1, ![4000]⟩ v 0x00000000#32 hred hφ hacc) hsc (ix2 p u) = _
  rw [extractStridedSlice_apply ![0, 0] v hsl (ix2 p u) (ix2 p (0 : Fin 4)) (fun a => by
        match a with
        | ⟨0, _⟩ => exact (Nat.zero_add _).symm
        | ⟨1, _⟩ => show (0 : Nat) = 0 + u.val; omega),
    Cert.LibColumn.shapeCast_a_a1_apply, Cert.LibColumn.laneSum_apply]
  rfl

/-- The sign (a select on |w| > 0 over a select on w < 0) times log(|w| + 1), at one entry: the signed logarithm. -/
theorem psiCol_apply {s : Shape} (w : FVec Ideal s .f32) (j : s.Idx) :
    mulf (select (cmpf .ogt (absf w) (broadcast s (Scalar.ofBits (F := Ideal) .f32 0x00000000#32)))
          (select (cmpf .olt w (constant s .f32 0x00000000#32)) (constant s .f32 0xBF800000#32)
            (constant s .f32 0x3F800000#32)) w)
        (log (addf (absf w) (broadcast s (Scalar.ofBits (F := Ideal) .f32 0x3F800000#32)))) j
      = psi (w j) :=
  congrArg (· * Ideal.log (max (w j) (-(w j)) + Ideal.ofBits .f32 0x3F800000#32)) (Ideal.jnp_sign_eq_sign_f32 (w j))

/-! ## The body's pieces -/

theorem pay4_eq (x : Vec Ideal S4000x4 .f32) : k0_pay4 x = x := by
  unfold k0_pay4; exact shapeCast_self _ _
theorem pay5_eq (x : Vec Ideal S4000x4 .f32) : k0_pay5 x = x := by
  unfold k0_pay5; exact shapeCast_self _ _
theorem pay2_eq (x : Vec Ideal S4000x72 .f32) : k0_pay2 x = x := by
  unfold k0_pay2; exact shapeCast_self _ _
theorem pay3_eq (x : Vec Ideal S4000x72 .f32) : k0_pay3 x = x := by
  unfold k0_pay3; exact shapeCast_self _ _

/-- The stored coordinate difference. -/
theorem diff_pay (x2 x3 : Vec Ideal S4000x4 .f32) : k0_pay6 x2 x3 = xdiff x2 x3 := by
  unfold k0_pay6
  rw [pay4_eq, pay5_eq]
  rfl

/-- The column of coordinate products: dotsq of the row. -/
theorem dotCol_apply (x2 x3 : Vec Ideal S4000x4 .f32) (p : Fin 4000) (u : Fin 1) :
    k0_pay7 x2 x3 (ix2 p u) = dotsq x2 x3 p := by
  unfold k0_pay7
  refine (minkCol_apply _ _ _ _ _ _ p u).trans ?_
  rw [pay4_eq, pay5_eq]
  rfl

/-- The column of squared differences, signed-logarithmed: psi of normsq of the row. -/
theorem normCol_apply (x2 x3 : Vec Ideal S4000x4 .f32) (p : Fin 4000) (u : Fin 1) :
    k0_pay8 x2 x3 (ix2 p u) = psi (normsq x2 x3 p) := by
  unfold k0_pay8
  refine (psiCol_apply _ (ix2 p u)).trans (congrArg psi ?_)
  refine (minkCol_apply _ _ _ _ _ _ p u).trans ?_
  rw [diff_pay]
  rfl

/-- The column of coordinate products, signed-logarithmed, as the body assembles it from its sign, its absolute
    value and its zero splat. -/
theorem dotPsiCol_apply (x2 x3 : Vec Ideal S4000x4 .f32) (p : Fin 4000) (u : Fin 1) :
    mulf (select (cmpf .ogt (k0_pay10 x2 x3) (k0_pay11 (F := Ideal))) (k0_pay9 x2 x3) (k0_pay7 x2 x3))
        (log (addf (absf (k0_pay7 x2 x3)) (broadcast S4000x1 (Scalar.ofBits (F := Ideal) .f32 0x3F800000#32)))) (ix2 p u)
      = psi (dotsq x2 x3 p) :=
  (psiCol_apply (k0_pay7 x2 x3) (ix2 p u)).trans (congrArg psi (dotCol_apply x2 x3 p u))

theorem dims_plain : dot_S4000x72_S72x72_S4000x72_1_0_0_1_n_n = DotDims.plain 4000 72 72 := rfl

/-! ## What the body stores -/

/-- The stored z block is the linear stage of the loaded blocks. -/
theorem z_pay (x0 x1 : Vec Ideal S4000x72 .f32) (x2 x3 : Vec Ideal S4000x4 .f32) (x4 x5 : Vec Ideal S72x72 .f32)
    (x6 x7 : Vec Ideal S1x72 .f32) :
    k0_pay1 (k0_pay2 x0) (k0_pay3 x1) (k0_pay7 x2 x3) (k0_pay8 x2 x3) (k0_pay9 x2 x3) (k0_pay10 x2 x3)
        (k0_pay11 (F := Ideal)) x4 x5 x6 x7 = edgeLin x0 x1 x2 x3 x4 x5 x6 x7 := by
  funext i
  obtain ⟨p, q, rfl⟩ : ∃ (p : Fin 4000) (q : Fin 72), i = ix2 p q := ⟨i 0, i 1, eq_ix2 i⟩
  rw [edgeLin_apply, pay2_eq, pay3_eq]
  unfold k0_pay1
  rw [dims_plain]
  refine congrArg₂ (· + ·) (congrArg₂ (· + ·) (congrArg₂ (· + ·) ?_ ?_) (congrArg₂ (· * ·) ?_ ?_))
    (congrArg₂ (· * ·) ?_ ?_)
  · exact (tileProduct_apply 4000 72 72 none _ _ x0 _ p q).trans (by rw [shapeCast_self])
  · exact (tileProduct_apply 4000 72 72 none _ _ x1 _ p q).trans (by rw [shapeCast_self])
  · exact (Cert.Lib.Keepdims.broadcastTo_a1_ab_apply _ _ p q).trans (normCol_apply x2 x3 p 0)
  · exact Cert.LibLreluRows.rowDown_apply _ _ x6 p q
  · exact (Cert.Lib.Keepdims.broadcastTo_a1_ab_apply _ _ p q).trans (dotPsiCol_apply x2 x3 p 0)
  · exact Cert.LibLreluRows.rowDown_apply _ _ x7 p q

end Cert.Region0

end
-- ==== Proof.Region0Rows.lean ====
/-
  The linear edge stage reads each edge's row only.

  Entry (e, c) of the linear stage, and entry (e, k) of the coordinate difference, read the edge-indexed operands on
  row e alone. So if row r of four smaller arrays is row e of four larger ones, and the weights are the same, the
  stage on the smaller arrays at (r, c) is the stage on the larger ones at (e, c): a block of rows of the result is
  the stage of the blocks of rows.
-/
import proofs.«128591_j87351044866445_2_alg».proof.Proof.SpecEdge

noncomputable section

namespace Cert.SpecEdge

open Idealize.ShloMosaic Idealize.ShloMosaic.ValueIdx Cert.Dense

variable {N M : Nat}

theorem xdiff_rows (A2 A3 : Mat N 4) (B2 B3 : Mat M 4) (r : Fin M) (e : Fin N)
    (h2 : ∀ k : Fin 4, B2 (ix2 r k) = A2 (ix2 e k)) (h3 : ∀ k : Fin 4, B3 (ix2 r k) = A3 (ix2 e k)) (k : Fin 4) :
    xdiff B2 B3 (ix2 r k) = xdiff A2 A3 (ix2 e k) := by
  rw [xdiff_apply, xdiff_apply, h2, h3]

theorem edgeLin_rows (A0 A1 : Mat N 72) (A2 A3 : Mat N 4) (W4 W5 : Mat 72 72) (W6 W7 : Mat 1 72)
    (B0 B1 : Mat M 72) (B2 B3 : Mat M 4) (B4 B5 : Mat 72 72) (B6 B7 : Mat 1 72) (r : Fin M) (e : Fin N)
    (h0 : ∀ k : Fin 72, B0 (ix2 r k) = A0 (ix2 e k)) (h1 : ∀ k : Fin 72, B1 (ix2 r k) = A1 (ix2 e k))
    (h2 : ∀ k : Fin 4, B2 (ix2 r k) = A2 (ix2 e k)) (h3 : ∀ k : Fin 4, B3 (ix2 r k) = A3 (ix2 e k))
    (h4 : B4 = W4) (h5 : B5 = W5) (h6 : B6 = W6) (h7 : B7 = W7) (c : Fin 72) :
    edgeLin B0 B1 B2 B3 B4 B5 B6 B7 (ix2 r c) = edgeLin A0 A1 A2 A3 W4 W5 W6 W7 (ix2 e c) := by
  subst h4 h5 h6 h7
  have hn : normsq B2 B3 r = normsq A2 A3 e := by unfold normsq; simp only [h2, h3]
  have hd : dotsq B2 B3 r = dotsq A2 A3 e := by unfold dotsq; simp only [h2, h3]
  rw [edgeLin_apply, edgeLin_apply, hn, hd]
  simp only [h0, h1]

end Cert.SpecEdge

end
-- ==== Proof.Region0Windows.lean ====
/-
  The linear edge stage's windows, read at a grid point.

  The grid has 400 points. At point t the four edge-indexed input windows and the two output windows are at block
  (t, 0) — rows 4000·t … 4000·t + 3999 of their arrays — and the four weight windows at block (0, 0), the whole array
  (the printed index maps, decided once over the grid). So an input block read at row r is the array read at row
  4000·t + r, and a weight block is its array.
-/
import proofs.«128591_j87351044866445_2_alg».proof.Proof.Gen.KernelIdeal.Frame

import Idealize.ShloMosaic.Lib.Pipeline.Value
import Idealize.ShloMosaic.Lib.ValueIdx

noncomputable section

namespace Cert.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)

theorem t_lt0 (t : Fin cfg0.N) : t.val < 400 := by
  have h := t.isLt
  have hN : cfg0.N = 400 := N_0
  omega

/-- Window 0's block at point t is rows 4000·t … of its array. -/
theorem blk0_0 (c : Dev nD) (t : Fin cfg0.N) (r : Fin 4000) (e : Fin 1600000) (he : e.val = t.val * 4000 + r.val)
    (k : Fin 72) : iblk0 V c 0 t (ix2 r k) = V c (Pipeline.arrRef spec0 0) (ix2 e k) := by
  have hi := idx0_0 t
  show V c (Pipeline.arrRef spec0 0) (((cfg0.win 0).blk t).view.emb (ix2 r k)) = V c (Pipeline.arrRef spec0 0) (ix2 e k)
  refine congrArg _ (funext fun a => Fin.ext ?_)
  match a with
  | ⟨0, _⟩ => show win0_0.index t (0 : Fin 2) * 4000 + 1 * r.val = e.val; omega
  | ⟨1, _⟩ => show win0_0.index t (1 : Fin 2) * 72 + 1 * k.val = k.val; omega

/-- Window 1's block at point t is rows 4000·t … of its array. -/
theorem blk0_1 (c : Dev nD) (t : Fin cfg0.N) (r : Fin 4000) (e : Fin 1600000) (he : e.val = t.val * 4000 + r.val)
    (k : Fin 72) : iblk0 V c 1 t (ix2 r k) = V c (Pipeline.arrRef spec0 1) (ix2 e k) := by
  have hi := idx0_1 t
  show V c (Pipeline.arrRef spec0 1) (((cfg0.win 1).blk t).view.emb (ix2 r k)) = V c (Pipeline.arrRef spec0 1) (ix2 e k)
  refine congrArg _ (funext fun a => Fin.ext ?_)
  match a with
  | ⟨0, _⟩ => show win0_1.index t (0 : Fin 2) * 4000 + 1 * r.val = e.val; omega
  | ⟨1, _⟩ => show win0_1.index t (1 : Fin 2) * 72 + 1 * k.val = k.val; omega

/-- Window 2's block at point t is rows 4000·t … of its array. -/
theorem blk0_2 (c : Dev nD) (t : Fin cfg0.N) (r : Fin 4000) (e : Fin 1600000) (he : e.val = t.val * 4000 + r.val)
    (k : Fin 4) : iblk0 V c 2 t (ix2 r k) = V c (Pipeline.arrRef spec0 2) (ix2 e k) := by
  have hi := idx0_2 t
  show V c (Pipeline.arrRef spec0 2) (((cfg0.win 2).blk t).view.emb (ix2 r k)) = V c (Pipeline.arrRef spec0 2) (ix2 e k)
  refine congrArg _ (funext fun a => Fin.ext ?_)
  match a with
  | ⟨0, _⟩ => show win0_2.index t (0 : Fin 2) * 4000 + 1 * r.val = e.val; omega
  | ⟨1, _⟩ => show win0_2.index t (1 : Fin 2) * 4 + 1 * k.val = k.val; omega

/-- Window 3's block at point t is rows 4000·t … of its array. -/
theorem blk0_3 (c : Dev nD) (t : Fin cfg0.N) (r : Fin 4000) (e : Fin 1600000) (he : e.val = t.val * 4000 + r.val)
    (k : Fin 4) : iblk0 V c 3 t (ix2 r k) = V c (Pipeline.arrRef spec0 3) (ix2 e k) := by
  have hi := idx0_3 t
  show V c (Pipeline.arrRef spec0 3) (((cfg0.win 3).blk t).view.emb (ix2 r k)) = V c (Pipeline.arrRef spec0 3) (ix2 e k)
  refine congrArg _ (funext fun a => Fin.ext ?_)
  match a with
  | ⟨0, _⟩ => show win0_3.index t (0 : Fin 2) * 4000 + 1 * r.val = e.val; omega
  | ⟨1, _⟩ => show win0_3.index t (1 : Fin 2) * 4 + 1 * k.val = k.val; omega

/-- Window 4's block at every point is its whole array. -/
theorem blk0_4 (c : Dev nD) (t : Fin cfg0.N) : iblk0 V c 4 t = V c (Pipeline.arrRef spec0 4) := by
  have hi := idx0_4 t
  refine funext fun (y : S72x72.Idx) => ?_
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 72 + 1 * (y 0).val = (y 0).val; omega
  | ⟨1, _⟩ => show win0_4.index t (1 : Fin 2) * 72 + 1 * (y 1).val = (y 1).val; omega

/-- Window 5's block at every point is its whole array. -/
theorem blk0_5 (c : Dev nD) (t : Fin cfg0.N) : iblk0 V c 5 t = V c (Pipeline.arrRef spec0 5) := by
  have hi := idx0_5 t
  refine funext fun (y : S72x72.Idx) => ?_
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 72 + 1 * (y 0).val = (y 0).val; omega
  | ⟨1, _⟩ => show win0_5.index t (1 : Fin 2) * 72 + 1 * (y 1).val = (y 1).val; omega

/-- Window 6's block at every point is its whole array. -/
theorem blk0_6 (c : Dev nD) (t : Fin cfg0.N) : iblk0 V c 6 t = V c (Pipeline.arrRef spec0 6) := by
  have hi := idx0_6 t
  refine funext fun (y : S1x72.Idx) => ?_
  show V c (Pipeline.arrRef spec0 6) (((cfg0.win 6).blk t).view.emb y) = V c (Pipeline.arrRef spec0 6) y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 72 + 1 * (y 1).val = (y 1).val; omega

/-- Window 7's block at every point is its whole array. -/
theorem blk0_7 (c : Dev nD) (t : Fin cfg0.N) : iblk0 V c 7 t = V c (Pipeline.arrRef spec0 7) := by
  have hi := idx0_7 t
  refine funext fun (y : S1x72.Idx) => ?_
  show V c (Pipeline.arrRef spec0 7) (((cfg0.win 7).blk t).view.emb y) = V c (Pipeline.arrRef spec0 7) y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 72 + 1 * (y 1).val = (y 1).val; omega

end Cert.Region0

end
-- ==== Proof.Region0Blocks.lean ====
/-
  The linear edge stage's two result arrays after its grid of 400 blocks of 4000 edges.

  At grid point t the body is handed rows 4000·t … 4000·t + 3999 of the four edge-indexed operands and the whole of
  the four weights, and what it stores is the linear stage of those blocks. The stage reads each edge's row only, so
  that is rows 4000·t … of the stage of the whole arrays: point t writes back block t of one whole-array function.
  Row e lies in the block of point e / 4000, so the 400 blocks cover the array, and it ends holding that function.
-/
import proofs.«128591_j87351044866445_2_alg».proof.Proof.Gen.KernelIdeal.Frame
import proofs.«128591_j87351044866445_2_alg».proof.Proof.Region0Pay
import proofs.«128591_j87351044866445_2_alg».proof.Proof.Region0Rows
import proofs.«128591_j87351044866445_2_alg».proof.Proof.Region0Windows
import Idealize.ShloMosaic.Lib.Pipeline.Value

noncomputable section

namespace Cert.Region0

open Cert.KernelIdeal Cert.KernelIdeal.Gen Idealize.ShloMosaic Idealize.ShloMosaic.TcCoe Idealize.ShloMosaic.ValueIdx Idealize.SL.Sem
open Idealize.ShloMosaic.Pipeline (Dat)
open Cert.Dense Cert.SpecEdge

variable (V : (c : Dev nD) → (b : Ref sig .tc) → Buf (Elt Ideal) ((c : Thread nD τ).loc b))

theorem hz : (![0, 0] : Fin 2 → Nat) = fun _ => 0 := funext fun a => by fin_cases a <;> rfl

set_option maxHeartbeats 1000000 in
/-- What point t writes back to the z array is block t of the linear stage of the region's input arrays. -/
theorem flushed8_eq (c : Dev nD) (t : Fin cfg0.N) :
    (dat0 (F := Ideal) V c).flushed 8 t = ((cfg0.win 8).blk t).view.read (Elt Ideal)
      (edgeLin (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7))) := by
  show (cfg0.win 8).cut (grid0.coords t) ((dat0 V c).after 8 t) = _
  rw [after0_8]
  unfold out0_8
  rw [View.canon_unit_zero hz]
  simp only [View.ld_unit_zero (S := S4000x72) hz, View.ld_unit_zero (S := S4000x4) hz, View.ld_unit_zero (S := S72x72) hz, View.ld_unit_zero (S := S1x72) hz]
  rw [z_pay]
  have hi := idx0_8 t
  have ht := t_lt0 t
  refine funext fun (j : S4000x72.Idx) => ?_
  obtain ⟨r, q, rfl⟩ : ∃ (r : Fin 4000) (q : Fin 72), j = ix2 r q := ⟨j 0, j 1, eq_ix2 j⟩
  have hr := r.isLt
  obtain ⟨e, he⟩ : ∃ e : Fin 1600000, e.val = t.val * 4000 + r.val := ⟨⟨t.val * 4000 + r.val, by omega⟩, rfl⟩
  have hemb : ((cfg0.win 8).blk t).view.emb (ix2 r q) = ix2 e q := by
    refine funext fun a => Fin.ext ?_
    match a with
    | ⟨0, _⟩ => show win0_8.index t (0 : Fin 2) * 4000 + 1 * r.val = e.val; omega
    | ⟨1, _⟩ => show win0_8.index t (1 : Fin 2) * 72 + 1 * q.val = q.val; omega
  show edgeLin (iblk0 V c 0 t) (iblk0 V c 1 t) (iblk0 V c 2 t) (iblk0 V c 3 t) (iblk0 V c 4 t) (iblk0 V c 5 t) (iblk0 V c 6 t) (iblk0 V c 7 t) (ix2 r q)
    = (edgeLin (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7))) (((cfg0.win 8).blk t).view.emb (ix2 r q))
  rw [hemb]
  exact edgeLin_rows (N := 1600000) (M := 4000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7))
    (iblk0 V c 0 t) (iblk0 V c 1 t) (iblk0 V c 2 t) (iblk0 V c 3 t) (iblk0 V c 4 t) (iblk0 V c 5 t) (iblk0 V c 6 t) (iblk0 V c 7 t) r e
    (blk0_0 V c t r e he) (blk0_1 V c t r e he) (blk0_2 V c t r e he) (blk0_3 V c t r e he)
    (blk0_4 V c t) (blk0_5 V c t) (blk0_6 V c t) (blk0_7 V c t)
    q

/-- An index of the array is in point t's block iff each coordinate is in the block's range on its axis. -/
theorem mem_blk8 (t : Fin cfg0.N) (i : S1600000x72.Idx) :
    i ∈ ((cfg0.win 8).blk t).view.set ↔ ∀ a : Fin 2, win0_8.index t a * S4000x72.size a ≤ (i a).val ∧ (i a).val < win0_8.index t a * S4000x72.size a + S4000x72.size a := by
  show i ∈ ((View.whole main_v36_0).slice (win0_8.rect t)).set ↔ _
  rw [View.set_slice_whole, Rect.mem_set_unit]
  exact Iff.rfl

/-- Row e is covered by the point e / 4000. -/
theorem cover8 (i : S1600000x72.Idx) : ∃ t : Fin cfg0.N, (cfg0.win 8).flush t = true ∧ i ∈ ((cfg0.win 8).blk t).view.set := by
  have hi0 : (i 0).val < 1600000 := (i 0).isLt
  have hi1 : (i 1).val < 72 := (i 1).isLt
  have hN : cfg0.N = 400 := N_0
  refine ⟨⟨(i 0).val / 4000, by rw [hN]; omega⟩, flush0_8 _, ?_⟩
  rw [mem_blk8]
  obtain ⟨a8, b8⟩ := idx0_8 ⟨(i 0).val / 4000, by rw [hN]; omega⟩
  intro a
  match a with
  | ⟨0, _⟩ => show win0_8.index _ (0 : Fin 2) * 4000 ≤ (i 0).val ∧ (i 0).val < win0_8.index _ (0 : Fin 2) * 4000 + 4000; rw [a8]; show (i 0).val / 4000 * 4000 ≤ (i 0).val ∧ (i 0).val < (i 0).val / 4000 * 4000 + 4000; omega
  | ⟨1, _⟩ => show win0_8.index _ (1 : Fin 2) * 72 ≤ (i 1).val ∧ (i 1).val < win0_8.index _ (1 : Fin 2) * 72 + 72; rw [b8]; omega

/-- THE z ARRAY after the region: the linear stage of the region's eight input arrays. -/
theorem z_final (c : Dev nD) :
    (dat0 (F := Ideal) V c).arrAt 8 cfg0.N
      = edgeLin (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) :=
  (dat0 (F := Ideal) V c).arrAt_eq_of_cover 8 _ (fun t _ => flushed8_eq V c t) cover8

/-- What point t writes back to the coordinate-difference array is block t of the difference of the two coordinate arrays. -/
theorem flushed9_eq (c : Dev nD) (t : Fin cfg0.N) :
    (dat0 (F := Ideal) V c).flushed 9 t = ((cfg0.win 9).blk t).view.read (Elt Ideal)
      (xdiff (V c (Pipeline.arrRef spec0 2)) (V c (Pipeline.arrRef spec0 3))) := by
  show (cfg0.win 9).cut (grid0.coords t) ((dat0 V c).after 9 t) = _
  rw [after0_9]
  unfold out0_9
  rw [View.canon_unit_zero hz]
  simp only [View.ld_unit_zero (S := S4000x4) hz]
  rw [diff_pay]
  have hi := idx0_9 t
  have ht := t_lt0 t
  refine funext fun (j : S4000x4.Idx) => ?_
  obtain ⟨r, q, rfl⟩ : ∃ (r : Fin 4000) (q : Fin 4), j = ix2 r q := ⟨j 0, j 1, eq_ix2 j⟩
  have hr := r.isLt
  obtain ⟨e, he⟩ : ∃ e : Fin 1600000, e.val = t.val * 4000 + r.val := ⟨⟨t.val * 4000 + r.val, by omega⟩, rfl⟩
  have hemb : ((cfg0.win 9).blk t).view.emb (ix2 r q) = ix2 e q := by
    refine funext fun a => Fin.ext ?_
    match a with
    | ⟨0, _⟩ => show win0_9.index t (0 : Fin 2) * 4000 + 1 * r.val = e.val; omega
    | ⟨1, _⟩ => show win0_9.index t (1 : Fin 2) * 4 + 1 * q.val = q.val; omega
  show xdiff (iblk0 V c 2 t) (iblk0 V c 3 t) (ix2 r q)
    = (xdiff (V c (Pipeline.arrRef spec0 2)) (V c (Pipeline.arrRef spec0 3))) (((cfg0.win 9).blk t).view.emb (ix2 r q))
  rw [hemb]
  exact xdiff_rows (V c (Pipeline.arrRef spec0 2)) (V c (Pipeline.arrRef spec0 3)) (iblk0 V c 2 t) (iblk0 V c 3 t) r e
    (blk0_2 V c t r e he) (blk0_3 V c t r e he)
    q

/-- An index of the array is in point t's block iff each coordinate is in the block's range on its axis. -/
theorem mem_blk9 (t : Fin cfg0.N) (i : S1600000x4.Idx) :
    i ∈ ((cfg0.win 9).blk t).view.set ↔ ∀ a : Fin 2, win0_9.index t a * S4000x4.size a ≤ (i a).val ∧ (i a).val < win0_9.index t a * S4000x4.size a + S4000x4.size a := by
  show i ∈ ((View.whole main_v36_1).slice (win0_9.rect t)).set ↔ _
  rw [View.set_slice_whole, Rect.mem_set_unit]
  exact Iff.rfl

/-- Row e is covered by the point e / 4000. -/
theorem cover9 (i : S1600000x4.Idx) : ∃ t : Fin cfg0.N, (cfg0.win 9).flush t = true ∧ i ∈ ((cfg0.win 9).blk t).view.set := by
  have hi0 : (i 0).val < 1600000 := (i 0).isLt
  have hi1 : (i 1).val < 4 := (i 1).isLt
  have hN : cfg0.N = 400 := N_0
  refine ⟨⟨(i 0).val / 4000, by rw [hN]; omega⟩, flush0_9 _, ?_⟩
  rw [mem_blk9]
  obtain ⟨a8, b8⟩ := idx0_9 ⟨(i 0).val / 4000, by rw [hN]; omega⟩
  intro a
  match a with
  | ⟨0, _⟩ => show win0_9.index _ (0 : Fin 2) * 4000 ≤ (i 0).val ∧ (i 0).val < win0_9.index _ (0 : Fin 2) * 4000 + 4000; rw [a8]; show (i 0).val / 4000 * 4000 ≤ (i 0).val ∧ (i 0).val < (i 0).val / 4000 * 4000 + 4000; omega
  | ⟨1, _⟩ => show win0_9.index _ (1 : Fin 2) * 4 ≤ (i 1).val ∧ (i 1).val < win0_9.index _ (1 : Fin 2) * 4 + 4; rw [b8]; omega

/-- THE COORDINATE-DIFFERENCE ARRAY after the region: the difference of the two coordinate arrays. -/
theorem xdiff_final (c : Dev nD) :
    (dat0 (F := Ideal) V c).arrAt 9 cfg0.N
      = xdiff (V c (Pipeline.arrRef spec0 2)) (V c (Pipeline.arrRef spec0 3)) :=
  (dat0 (F := Ideal) V c).arrAt_eq_of_cover 9 _ (fun t _ => flushed9_eq V c t) cover9

end Cert.Region0

end
-- ==== Proof.Region1Pay.lean ====
/-
  The multilayer edge stage's tiled body, read entry by entry at exact (extended real) values.

  One block of 4000 edges: the body loads the blocks z [4000, 72] and xdiff [4000, 4], the four statistics rows
  mean, var, gamma, beta [1, 72] and the weights We2 [72, 72], be2 [1, 72], Wm [72, 1], bm [1, 1], Wx1 [72, 72],
  bx1 [1, 72], Wx2 [72, 1], and stores the gated message [4000, 72] and the clipped translation [4000, 4]. Read at an
  entry what it stores is the multilayer stage of the specification on those 4000 rows: each matrix-unit product
  into a zero accumulator is the plain sum over the contracted index, a one-row operand is broadcast down the rows,
  and a one-column result is broadcast along them.
-/
import proofs.«128591_j87351044866445_2_alg».proof.Proof.Gen.KernelIdeal.Skeleton
import proofs.«128591_j87351044866445_2_alg».proof.Proof.SpecEdge
import proofs.«128591_j87351044866445_2_alg».proof.Proof.LibColumn
import proofs.«128591_j87351044866445_2_alg».proof.Proof.LibKeepdims
import Idealize.ShloMosaic.Lib.Pipeline.Value

noncomputable section

namespace Cert.Region1

open Cert.KernelIdeal Cert.KernelIdeal.Gen Idealize.ShloMosaic Idealize.ShloMosaic.ValueIdx Cert.Dense Cert.SpecEdge

theorem dims72 : dot_S4000x72_S72x72_S4000x72_1_0_0_1_n_n = DotDims.plain 4000 72 72 := rfl
theorem dims1 : dot_S4000x72_S72x1_S4000x1_1_0_0_1_n_n = DotDims.plain 4000 72 1 := rfl

/-- The normalised and rectified block, at one entry. -/
theorem e1_apply (hs0 : S4000x72.ShapeCasts S4000x72) (hs1 : S1x72.ShapeCasts S1x72) (hb : S1x72.Broadcasts S4000x72)
    (x0 : Vec Ideal S4000x72 .f32) (x2 x3 x4 x5 : Vec Ideal S1x72 .f32) (p : Fin 4000) (k : Fin 72) :
    maximumf
        (addf
          (mulf
            (mulf (subf (shapeCast S4000x72 x0 hs0) (broadcastTo S4000x72 (shapeCast S1x72 x2 hs1) hb))
              (broadcastTo S4000x72
                (rsqrt (addf (shapeCast S1x72 x3 hs1) (broadcast S1x72 (Scalar.ofBits (F := Ideal) .f32 0x3727C5AC#32))))
                hb))
            (broadcastTo S4000x72 (shapeCast S1x72 x4 hs1) hb))
          (broadcastTo S4000x72 (shapeCast S1x72 x5 hs1) hb))
        (broadcast S4000x72 (Scalar.ofBits (F := Ideal) .f32 0x00000000#32)) (ix2 p k)
      = relu (normed x0 x2 x3 x4 x5) (ix2 p k) := by
  rw [relu_apply, normed_apply]
  refine congrArg₂ max (congrArg₂ (· + ·) (congrArg₂ (· * ·) (congrArg₂ (· * ·) (congrArg₂ (· - ·) ?_ ?_) ?_) ?_) ?_)
    Ideal.ofBits_zero_f32
  · exact congrFun (shapeCast_self x0 hs0) _
  · exact Cert.LibLreluRows.rowDown_apply hs1 hb x2 p k
  · refine (broadcastTo_1b_ab_apply _ hb p k).trans ?_
    exact congrArg (fun v => Ideal.rsqrt (v + Ideal.ofBits .f32 0x3727C5AC#32)) (congrFun (shapeCast_self x3 hs1) _)
  · exact Cert.LibLreluRows.rowDown_apply hs1 hb x4 p k
  · exact Cert.LibLreluRows.rowDown_apply hs1 hb x5 p k

/-- The hidden features of the block. -/
theorem hidden_pay (x0 : Vec Ideal S4000x72 .f32) (x2 x3 x4 x5 : Vec Ideal S1x72 .f32) (x6 : Vec Ideal S72x72 .f32)
    (x7 : Vec Ideal S1x72 .f32) : k1_pay3 x0 x2 x3 x4 x5 x6 x7 = hidden x0 x2 x3 x4 x5 x6 x7 := by
  funext i
  obtain ⟨p, c, rfl⟩ : ∃ (p : Fin 4000) (c : Fin 72), i = ix2 p c := ⟨i 0, i 1, eq_ix2 i⟩
  unfold SpecEdge.hidden
  rw [actRow_apply, mm_apply]
  unfold k1_pay3
  rw [dims72]
  refine congrArg₂ max (congrArg₂ (· + ·) ?_ ?_) Ideal.ofBits_zero_f32
  · refine (tileProduct_apply 4000 72 72 none _ _ _ x6 p c).trans ?_
    exact Finset.sum_congr rfl fun k _ => congrArg (· * x6 (ix2 k c)) (e1_apply _ _ _ x0 x2 x3 x4 x5 p k)
  · exact Cert.LibLreluRows.rowDown_apply _ _ x7 p c

/-- The gate's pre-activation column of the block: the hidden features times the gate weights. -/
theorem gate_pay (x0 : Vec Ideal S4000x72 .f32) (x2 x3 x4 x5 : Vec Ideal S1x72 .f32) (x6 : Vec Ideal S72x72 .f32)
    (x7 : Vec Ideal S1x72 .f32) (x8 : Vec Ideal S72x1 .f32) :
    k1_pay4 x0 x2 x3 x4 x5 x6 x7 x8 = mm (hidden x0 x2 x3 x4 x5 x6 x7) x8 := by
  funext i
  obtain ⟨p, u, rfl⟩ : ∃ (p : Fin 4000) (u : Fin 1), i = ix2 p u := ⟨i 0, i 1, eq_ix2 i⟩
  unfold k1_pay4
  rw [dims1, hidden_pay, mm_apply]
  exact tileProduct_apply 4000 72 1 none _ _ (hidden x0 x2 x3 x4 x5 x6 x7) x8 p u

/-- The gated message of a block of hidden features e2 with pre-activation column g, at one entry. -/
theorem msg_apply (e2 : FVec Ideal S4000x72 .f32) (g : FVec Ideal S4000x1 .f32) (bm : Vec Ideal S1x1 .f32)
    (p : Fin 4000) (c : Fin 72) :
    k1_pay1 e2 g bm (ix2 p c)
      = e2 (ix2 p c) * Ideal.logistic (g (ix2 p (0 : Fin 1)) + bm (ix2 (0 : Fin 1) (0 : Fin 1))) := by
  unfold k1_pay1
  refine congrArg₂ (· * ·) rfl ?_
  refine (Cert.Lib.Keepdims.broadcastTo_a1_ab_apply _ _ p c).trans ?_
  exact congrArg (fun v => Ideal.logistic (g (ix2 p (0 : Fin 1)) + v))
    (Cert.LibLreluRows.rowDown_apply _ _ bm p (0 : Fin 1))

/-- The stored message block is the message of the loaded blocks. -/
theorem m_pay (x0 : Vec Ideal S4000x72 .f32) (x2 x3 x4 x5 : Vec Ideal S1x72 .f32) (x6 : Vec Ideal S72x72 .f32)
    (x7 : Vec Ideal S1x72 .f32) (x8 : Vec Ideal S72x1 .f32) (x9 : Vec Ideal S1x1 .f32) :
    k1_pay1 (k1_pay3 x0 x2 x3 x4 x5 x6 x7) (k1_pay4 x0 x2 x3 x4 x5 x6 x7 x8) x9
      = edgeMsg x0 x2 x3 x4 x5 x6 x7 x8 x9 := by
  funext i
  obtain ⟨p, c, rfl⟩ : ∃ (p : Fin 4000) (c : Fin 72), i = ix2 p c := ⟨i 0, i 1, eq_ix2 i⟩
  rw [msg_apply, gate_pay, hidden_pay]
  rfl

/-- The clipped translation of a message block M := the gated message of (e2, g, bm), at one entry. -/
theorem trans_apply (e2 : FVec Ideal S4000x72 .f32) (g : FVec Ideal S4000x1 .f32) (bm : Vec Ideal S1x1 .f32)
    (Wx1 : Vec Ideal S72x72 .f32) (bx1 : Vec Ideal S1x72 .f32) (Wx2 : Vec Ideal S72x1 .f32) (xd : Vec Ideal S4000x4 .f32)
    (p : Fin 4000) (k : Fin 4) :
    k1_pay2 e2 g bm Wx1 bx1 Wx2 xd (ix2 p k) = translation (k1_pay1 e2 g bm) xd Wx1 bx1 Wx2 (ix2 p k) := by
  rw [translation_apply]
  unfold k1_pay2
  rw [dims72, dims1]
  refine congrArg₂ min rfl (congrArg₂ max rfl (congrArg₂ (· * ·) ?_ ?_))
  · exact congrFun (shapeCast_self _ _) _
  · refine (Cert.Lib.Keepdims.broadcastTo_a1_ab_apply _ _ p k).trans ?_
    refine (tileProduct_apply 4000 72 1 none _ _ _ Wx2 p (0 : Fin 1)).trans ?_
    rw [mm_apply]
    refine Finset.sum_congr rfl fun j _ => congrArg (· * Wx2 (ix2 j (0 : Fin 1))) ?_
    rw [actRow_apply, mm_apply]
    refine congrArg₂ max (congrArg₂ (· + ·) ?_ ?_) Ideal.ofBits_zero_f32
    · exact tileProduct_apply 4000 72 72 none _ _ (k1_pay1 e2 g bm) Wx1 p j
    · exact Cert.LibLreluRows.rowDown_apply _ _ bx1 p j

/-- The stored translation block is the translation of the loaded blocks. -/
theorem trans_pay (x0 : Vec Ideal S4000x72 .f32) (x1 : Vec Ideal S4000x4 .f32) (x2 x3 x4 x5 : Vec Ideal S1x72 .f32)
    (x6 : Vec Ideal S72x72 .f32) (x7 : Vec Ideal S1x72 .f32) (x8 : Vec Ideal S72x1 .f32) (x9 : Vec Ideal S1x1 .f32)
    (x10 : Vec Ideal S72x72 .f32) (x11 : Vec Ideal S1x72 .f32) (x12 : Vec Ideal S72x1 .f32) :
    k1_pay2 (k1_pay3 x0 x2 x3 x4 x5 x6 x7) (k1_pay4 x0 x2 x3 x4 x5 x6 x7 x8) x9 x10 x11 x12 x1
      = edgeTrans x0 x1 x2 x3 x4 x5 x6 x7 x8 x9 x10 x11 x12 := by
  funext i
  obtain ⟨p, k, rfl⟩ : ∃ (p : Fin 4000) (k : Fin 4), i = ix2 p k := ⟨i 0, i 1, eq_ix2 i⟩
  rw [trans_apply, m_pay]
  rfl

end Cert.Region1

end
-- ==== Proof.Region1Rows.lean ====
/-
  The multilayer edge stage reads each edge's row only.

  Entry (e, ·) of the normalisation, of the hidden features, of the gated message and of the clipped translation read
  the edge-indexed operands z and xdiff on row e alone (every other operand is a weight). So if row r of the smaller
  z and xdiff is row e of the larger ones, and the weights are the same, the stage on the smaller arrays at row r is
  the stage on the larger ones at row e: a block of rows of the result is the stage of the blocks of rows.
-/
import proofs.«128591_j87351044866445_2_alg».proof.Proof.SpecEdge

noncomputable section

namespace Cert.SpecEdge

open Idealize.ShloMosaic Idealize.ShloMosaic.ValueIdx Cert.Dense

variable {N M : Nat}

theorem hidden_rows (A0 : Mat N 72) (B0 : Mat M 72) (mean var gamma beta : Mat 1 72) (We2 : Mat 72 72) (be2 : Mat 1 72)
    (r : Fin M) (e : Fin N) (h0 : ∀ k : Fin 72, B0 (ix2 r k) = A0 (ix2 e k)) (c : Fin 72) :
    SpecEdge.hidden B0 mean var gamma beta We2 be2 (ix2 r c) = SpecEdge.hidden A0 mean var gamma beta We2 be2 (ix2 e c) := by
  unfold SpecEdge.hidden
  rw [actRow_apply, actRow_apply, mm_apply, mm_apply]
  simp only [relu_apply, normed_apply, h0]

theorem message_rows (EA : Mat N 72) (EB : Mat M 72) (Wm : Mat 72 1) (bm : Mat 1 1) (r : Fin M) (e : Fin N)
    (hE : ∀ k : Fin 72, EB (ix2 r k) = EA (ix2 e k)) (c : Fin 72) :
    message EB Wm bm (ix2 r c) = message EA Wm bm (ix2 e c) := by
  rw [message_apply, message_apply, mm_apply, mm_apply]
  simp only [hE]

theorem translation_rows (MA : Mat N 72) (MB : Mat M 72) (XA : Mat N 4) (XB : Mat M 4) (Wx1 : Mat 72 72) (bx1 : Mat 1 72)
    (Wx2 : Mat 72 1) (r : Fin M) (e : Fin N) (hM : ∀ k : Fin 72, MB (ix2 r k) = MA (ix2 e k))
    (hX : ∀ k : Fin 4, XB (ix2 r k) = XA (ix2 e k)) (k : Fin 4) :
    translation MB XB Wx1 bx1 Wx2 (ix2 r k) = translation MA XA Wx1 bx1 Wx2 (ix2 e k) := by
  rw [translation_apply, translation_apply, mm_apply, mm_apply]
  simp only [actRow_apply, mm_apply, hM, hX]

theorem edgeMsg_rows (A0 : Mat N 72) (W2 W3 W4 W5 : Mat 1 72) (W6 : Mat 72 72) (W7 : Mat 1 72) (W8 : Mat 72 1) (W9 : Mat 1 1)
    (B0 : Mat M 72) (B2 B3 B4 B5 : Mat 1 72) (B6 : Mat 72 72) (B7 : Mat 1 72) (B8 : Mat 72 1) (B9 : Mat 1 1)
    (r : Fin M) (e : Fin N) (h0 : ∀ k : Fin 72, B0 (ix2 r k) = A0 (ix2 e k))
    (h2 : B2 = W2) (h3 : B3 = W3) (h4 : B4 = W4) (h5 : B5 = W5) (h6 : B6 = W6) (h7 : B7 = W7) (h8 : B8 = W8)
    (h9 : B9 = W9) (c : Fin 72) :
    edgeMsg B0 B2 B3 B4 B5 B6 B7 B8 B9 (ix2 r c) = edgeMsg A0 W2 W3 W4 W5 W6 W7 W8 W9 (ix2 e c) := by
  subst h2 h3 h4 h5 h6 h7 h8 h9
  unfold edgeMsg
  exact message_rows _ _ B8 B9 r e (fun k => hidden_rows A0 B0 B2 B3 B4 B5 B6 B7 r e h0 k) c

theorem edgeTrans_rows (A0 : Mat N 72) (A1 : Mat N 4) (W2 W3 W4 W5 : Mat 1 72) (W6 : Mat 72 72) (W7 : Mat 1 72)
    (W8 : Mat 72 1) (W9 : Mat 1 1) (W10 : Mat 72 72) (W11 : Mat 1 72) (W12 : Mat 72 1)
    (B0 : Mat M 72) (B1 : Mat M 4) (B2 B3 B4 B5 : Mat 1 72) (B6 : Mat 72 72) (B7 : Mat 1 72) (B8 : Mat 72 1) (B9 : Mat 1 1)
    (B10 : Mat 72 72) (B11 : Mat 1 72) (B12 : Mat 72 1)
    (r : Fin M) (e : Fin N) (h0 : ∀ k : Fin 72, B0 (ix2 r k) = A0 (ix2 e k)) (h1 : ∀ k : Fin 4, B1 (ix2 r k) = A1 (ix2 e k))
    (h2 : B2 = W2) (h3 : B3 = W3) (h4 : B4 = W4) (h5 : B5 = W5) (h6 : B6 = W6) (h7 : B7 = W7) (h8 : B8 = W8)
    (h9 : B9 = W9) (h10 : B10 = W10) (h11 : B11 = W11) (h12 : B12 = W12) (k : Fin 4) :
    edgeTrans B0 B1 B2 B3 B4 B5 B6 B7 B8 B9 B10 B11 B12 (ix2 r k)
      = edgeTrans A0 A1 W2 W3 W4 W5 W6 W7 W8 W9 W10 W11 W12 (ix2 e k) := by
  subst h10 h11 h12
  unfold edgeTrans
  exact translation_rows _ _ A1 B1 B10 B11 B12 r e
    (fun c => edgeMsg_rows A0 W2 W3 W4 W5 W6 W7 W8 W9 B0 B2 B3 B4 B5 B6 B7 B8 B9 r e h0 h2 h3 h4 h5 h6 h7 h8 h9 c) h1 k

end Cert.SpecEdge

end
-- ==== Proof.Region1Windows.lean ====
/-
  The multilayer edge stage's windows, read at a grid point.

  The grid has 400 points. At point t the two edge-indexed input windows (z and the coordinate difference) and the two
  output windows are at block (t, 0) — rows 4000·t … 4000·t + 3999 of their arrays — and the eleven weight windows at
  block (0, 0), the whole array (the printed index maps, decided once over the grid). So an input block read at row r
  is the array read at row 4000·t + r, and a weight block is its array.
-/
import proofs.«128591_j87351044866445_2_alg».proof.Proof.Gen.KernelIdeal.Frame

import Idealize.ShloMosaic.Lib.Pipeline.Value
import Idealize.ShloMosaic.Lib.ValueIdx

noncomputable section

namespace Cert.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_13 : ∀ t : Fin cfg1.N, win1_13.index t (0 : Fin 2) = t.val ∧ win1_13.index t (1 : Fin 2) = 0 :=
  (by decide +kernel : ∀ t : Fin grid1.N, _)
theorem idx1_14 : ∀ t : Fin cfg1.N, win1_14.index t (0 : Fin 2) = t.val ∧ win1_14.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)

theorem t_lt1 (t : Fin cfg1.N) : t.val < 400 := by
  have h := t.isLt
  have hN : cfg1.N = 400 := N_1
  omega

/-- Window 0's block at point t is rows 4000·t … of its array. -/
theorem blk1_0 (c : Dev nD) (t : Fin cfg1.N) (r : Fin 4000) (e : Fin 1600000) (he : e.val = t.val * 4000 + r.val)
    (k : Fin 72) : iblk1 V c 0 t (ix2 r k) = V c (Pipeline.arrRef spec1 0) (ix2 e k) := by
  have hi := idx1_0 t
  show V c (Pipeline.arrRef spec1 0) (((cfg1.win 0).blk t).view.emb (ix2 r k)) = V c (Pipeline.arrRef spec1 0) (ix2 e k)
  refine congrArg _ (funext fun a => Fin.ext ?_)
  match a with
  | ⟨0, _⟩ => show win1_0.index t (0 : Fin 2) * 4000 + 1 * r.val = e.val; omega
  | ⟨1, _⟩ => show win1_0.index t (1 : Fin 2) * 72 + 1 * k.val = k.val; omega

/-- Window 1's block at point t is rows 4000·t … of its array. -/
theorem blk1_1 (c : Dev nD) (t : Fin cfg1.N) (r : Fin 4000) (e : Fin 1600000) (he : e.val = t.val * 4000 + r.val)
    (k : Fin 4) : iblk1 V c 1 t (ix2 r k) = V c (Pipeline.arrRef spec1 1) (ix2 e k) := by
  have hi := idx1_1 t
  show V c (Pipeline.arrRef spec1 1) (((cfg1.win 1).blk t).view.emb (ix2 r k)) = V c (Pipeline.arrRef spec1 1) (ix2 e k)
  refine congrArg _ (funext fun a => Fin.ext ?_)
  match a with
  | ⟨0, _⟩ => show win1_1.index t (0 : Fin 2) * 4000 + 1 * r.val = e.val; omega
  | ⟨1, _⟩ => show win1_1.index t (1 : Fin 2) * 4 + 1 * k.val = k.val; omega

/-- Window 2's block at every point is its whole array. -/
theorem blk1_2 (c : Dev nD) (t : Fin cfg1.N) : iblk1 V c 2 t = V c (Pipeline.arrRef spec1 2) := by
  have hi := idx1_2 t
  refine funext fun (y : S1x72.Idx) => ?_
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 72 + 1 * (y 1).val = (y 1).val; omega

/-- Window 3's block at every point is its whole array. -/
theorem blk1_3 (c : Dev nD) (t : Fin cfg1.N) : iblk1 V c 3 t = V c (Pipeline.arrRef spec1 3) := by
  have hi := idx1_3 t
  refine funext fun (y : S1x72.Idx) => ?_
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 72 + 1 * (y 1).val = (y 1).val; omega

/-- Window 4's block at every point is its whole array. -/
theorem blk1_4 (c : Dev nD) (t : Fin cfg1.N) : iblk1 V c 4 t = V c (Pipeline.arrRef spec1 4) := by
  have hi := idx1_4 t
  refine funext fun (y : S1x72.Idx) => ?_
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 72 + 1 * (y 1).val = (y 1).val; omega

/-- Window 5's block at every point is its whole array. -/
theorem blk1_5 (c : Dev nD) (t : Fin cfg1.N) : iblk1 V c 5 t = V c (Pipeline.arrRef spec1 5) := by
  have hi := idx1_5 t
  refine funext fun (y : S1x72.Idx) => ?_
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 72 + 1 * (y 1).val = (y 1).val; omega

/-- Window 6's block at every point is its whole array. -/
theorem blk1_6 (c : Dev nD) (t : Fin cfg1.N) : iblk1 V c 6 t = V c (Pipeline.arrRef spec1 6) := by
  have hi := idx1_6 t
  refine funext fun (y : S72x72.Idx) => ?_
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 72 + 1 * (y 0).val = (y 0).val; omega
  | ⟨1, _⟩ => show win1_6.index t (1 : Fin 2) * 72 + 1 * (y 1).val = (y 1).val; omega

/-- Window 7's block at every point is its whole array. -/
theorem blk1_7 (c : Dev nD) (t : Fin cfg1.N) : iblk1 V c 7 t = V c (Pipeline.arrRef spec1 7) := by
  have hi := idx1_7 t
  refine funext fun (y : S1x72.Idx) => ?_
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 72 + 1 * (y 1).val = (y 1).val; omega

/-- Window 8's block at every point is its whole array. -/
theorem blk1_8 (c : Dev nD) (t : Fin cfg1.N) : iblk1 V c 8 t = V c (Pipeline.arrRef spec1 8) := by
  have hi := idx1_8 t
  refine funext fun (y : S72x1.Idx) => ?_
  show V c (Pipeline.arrRef spec1 8) (((cfg1.win 8).blk t).view.emb y) = V c (Pipeline.arrRef spec1 8) y
  refine congrArg _ (funext fun a => Fin.ext ?_)
  match a with
  | ⟨0, _⟩ => show win1_8.index t (0 : Fin 2) * 72 + 1 * (y 0).val = (y 0).val; omega
  | ⟨1, _⟩ => show win1_8.index t (1 : Fin 2) * 1 + 1 * (y 1).val = (y 1).val; omega

/-- Window 9's block at every point is its whole array. -/
theorem blk1_9 (c : Dev nD) (t : Fin cfg1.N) : iblk1 V c 9 t = V c (Pipeline.arrRef spec1 9) := by
  have hi := idx1_9 t
  refine funext fun (y : S1x1.Idx) => ?_
  show V c (Pipeline.arrRef spec1 9) (((cfg1.win 9).blk t).view.emb y) = V c (Pipeline.arrRef spec1 9) y
  refine congrArg _ (funext fun a => Fin.ext ?_)
  match a with
  | ⟨0, _⟩ => show win1_9.index t (0 : Fin 2) * 1 + 1 * (y 0).val = (y 0).val; omega
  | ⟨1, _⟩ => show win1_9.index t (1 : Fin 2) * 1 + 1 * (y 1).val = (y 1).val; omega

/-- Window 10's block at every point is its whole array. -/
theorem blk1_10 (c : Dev nD) (t : Fin cfg1.N) : iblk1 V c 10 t = V c (Pipeline.arrRef spec1 10) := by
  have hi := idx1_10 t
  refine funext fun (y : S72x72.Idx) => ?_
  show V c (Pipeline.arrRef spec1 10) (((cfg1.win 10).blk t).view.emb y) = V c (Pipeline.arrRef spec1 10) y
  refine congrArg _ (funext fun a => Fin.ext ?_)
  match a with
  | ⟨0, _⟩ => show win1_10.index t (0 : Fin 2) * 72 + 1 * (y 0).val = (y 0).val; omega
  | ⟨1, _⟩ => show win1_10.index t (1 : Fin 2) * 72 + 1 * (y 1).val = (y 1).val; omega

/-- Window 11's block at every point is its whole array. -/
theorem blk1_11 (c : Dev nD) (t : Fin cfg1.N) : iblk1 V c 11 t = V c (Pipeline.arrRef spec1 11) := by
  have hi := idx1_11 t
  refine funext fun (y : S1x72.Idx) => ?_
  show V c (Pipeline.arrRef spec1 11) (((cfg1.win 11).blk t).view.emb y) = V c (Pipeline.arrRef spec1 11) y
  refine congrArg _ (funext fun a => Fin.ext ?_)
  match a with
  | ⟨0, _⟩ => show win1_11.index t (0 : Fin 2) * 1 + 1 * (y 0).val = (y 0).val; omega
  | ⟨1, _⟩ => show win1_11.index t (1 : Fin 2) * 72 + 1 * (y 1).val = (y 1).val; omega

/-- Window 12's block at every point is its whole array. -/
theorem blk1_12 (c : Dev nD) (t : Fin cfg1.N) : iblk1 V c 12 t = V c (Pipeline.arrRef spec1 12) := by
  have hi := idx1_12 t
  refine funext fun (y : S72x1.Idx) => ?_
  show V c (Pipeline.arrRef spec1 12) (((cfg1.win 12).blk t).view.emb y) = V c (Pipeline.arrRef spec1 12) y
  refine congrArg _ (funext fun a => Fin.ext ?_)
  match a with
  | ⟨0, _⟩ => show win1_12.index t (0 : Fin 2) * 72 + 1 * (y 0).val = (y 0).val; omega
  | ⟨1, _⟩ => show win1_12.index t (1 : Fin 2) * 1 + 1 * (y 1).val = (y 1).val; omega

end Cert.Region1

end
-- ==== Proof.Region1Blocks.lean ====
/-
  The multilayer edge stage's two result arrays after its grid of 400 blocks of 4000 edges.

  At grid point t the body is handed rows 4000·t … 4000·t + 3999 of z and of the coordinate difference and the whole
  of the eleven weights, and what it stores is the multilayer stage of those blocks. The stage reads each edge's row
  only, so that is rows 4000·t … of the stage of the whole arrays: point t writes back block t of one whole-array
  function. Row e lies in the block of point e / 4000, so the 400 blocks cover the array, and it ends holding that
  function.
-/
import proofs.«128591_j87351044866445_2_alg».proof.Proof.Gen.KernelIdeal.Frame
import proofs.«128591_j87351044866445_2_alg».proof.Proof.Region1Pay
import proofs.«128591_j87351044866445_2_alg».proof.Proof.Region1Rows
import proofs.«128591_j87351044866445_2_alg».proof.Proof.Region1Windows
import Idealize.ShloMosaic.Lib.Pipeline.Value
import Idealize.ShloMosaic.Lib.ValueIdx

noncomputable section

namespace Cert.Region1

open Cert.KernelIdeal Cert.KernelIdeal.Gen Idealize.ShloMosaic Idealize.ShloMosaic.TcCoe Idealize.ShloMosaic.ValueIdx Idealize.SL.Sem
open Idealize.ShloMosaic.Pipeline (Dat)
open Cert.Dense Cert.SpecEdge

variable (V : (c : Dev nD) → (b : Ref sig .tc) → Buf (Elt Ideal) ((c : Thread nD τ).loc b))

theorem hz : (![0, 0] : Fin 2 → Nat) = fun _ => 0 := funext fun a => by fin_cases a <;> rfl

set_option maxHeartbeats 2000000 in
/-- What point t writes back to the message array is block t of the gated message of the region's input arrays. -/
theorem flushed13_eq (c : Dev nD) (t : Fin cfg1.N) :
    (dat1 (F := Ideal) V c).flushed 13 t = ((cfg1.win 13).blk t).view.read (Elt Ideal)
      (edgeMsg (V c (Pipeline.arrRef spec1 0)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9))) := by
  show (cfg1.win 13).cut (grid1.coords t) ((dat1 V c).after 13 t) = _
  rw [after1_13]
  unfold out1_13
  rw [View.canon_unit_zero hz]
  simp only [View.ld_unit_zero (S := S4000x72) hz, View.ld_unit_zero (S := S1x72) hz, View.ld_unit_zero (S := S72x72) hz, View.ld_unit_zero (S := S72x1) hz, View.ld_unit_zero (S := S1x1) hz]
  rw [m_pay]
  have hi := idx1_13 t
  have ht := t_lt1 t
  refine funext fun (j : S4000x72.Idx) => ?_
  obtain ⟨r, q, rfl⟩ : ∃ (r : Fin 4000) (q : Fin 72), j = ix2 r q := ⟨j 0, j 1, eq_ix2 j⟩
  have hr := r.isLt
  obtain ⟨e, he⟩ : ∃ e : Fin 1600000, e.val = t.val * 4000 + r.val := ⟨⟨t.val * 4000 + r.val, by omega⟩, rfl⟩
  have hemb : ((cfg1.win 13).blk t).view.emb (ix2 r q) = ix2 e q := by
    refine funext fun a => Fin.ext ?_
    match a with
    | ⟨0, _⟩ => show win1_13.index t (0 : Fin 2) * 4000 + 1 * r.val = e.val; omega
    | ⟨1, _⟩ => show win1_13.index t (1 : Fin 2) * 72 + 1 * q.val = q.val; omega
  show edgeMsg (iblk1 V c 0 t) (iblk1 V c 2 t) (iblk1 V c 3 t) (iblk1 V c 4 t) (iblk1 V c 5 t) (iblk1 V c 6 t) (iblk1 V c 7 t) (iblk1 V c 8 t) (iblk1 V c 9 t) (ix2 r q)
    = (edgeMsg (V c (Pipeline.arrRef spec1 0)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9))) (((cfg1.win 13).blk t).view.emb (ix2 r q))
  rw [hemb]
  exact edgeMsg_rows (N := 1600000) (M := 4000) (V c (Pipeline.arrRef spec1 0)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9))
    (iblk1 V c 0 t) (iblk1 V c 2 t) (iblk1 V c 3 t) (iblk1 V c 4 t) (iblk1 V c 5 t) (iblk1 V c 6 t) (iblk1 V c 7 t) (iblk1 V c 8 t) (iblk1 V c 9 t) r e
    (blk1_0 V c t r e he) (blk1_2 V c t) (blk1_3 V c t) (blk1_4 V c t) (blk1_5 V c t) (blk1_6 V c t) (blk1_7 V c t) (blk1_8 V c t) (blk1_9 V c t)
    q

/-- An index of the array is in point t's block iff each coordinate is in the block's range on its axis. -/
theorem mem_blk13 (t : Fin cfg1.N) (i : S1600000x72.Idx) :
    i ∈ ((cfg1.win 13).blk t).view.set ↔ ∀ a : Fin 2, win1_13.index t a * S4000x72.size a ≤ (i a).val ∧ (i a).val < win1_13.index t a * S4000x72.size a + S4000x72.size a := by
  show i ∈ ((View.whole main_v47_0).slice (win1_13.rect t)).set ↔ _
  rw [View.set_slice_whole, Rect.mem_set_unit]
  exact Iff.rfl

/-- Row e is covered by the point e / 4000. -/
theorem cover13 (i : S1600000x72.Idx) : ∃ t : Fin cfg1.N, (cfg1.win 13).flush t = true ∧ i ∈ ((cfg1.win 13).blk t).view.set := by
  have hi0 : (i 0).val < 1600000 := (i 0).isLt
  have hi1 : (i 1).val < 72 := (i 1).isLt
  have hN : cfg1.N = 400 := N_1
  refine ⟨⟨(i 0).val / 4000, by rw [hN]; omega⟩, flush1_13 _, ?_⟩
  rw [mem_blk13]
  obtain ⟨a8, b8⟩ := idx1_13 ⟨(i 0).val / 4000, by rw [hN]; omega⟩
  intro a
  match a with
  | ⟨0, _⟩ => show win1_13.index _ (0 : Fin 2) * 4000 ≤ (i 0).val ∧ (i 0).val < win1_13.index _ (0 : Fin 2) * 4000 + 4000; rw [a8]; show (i 0).val / 4000 * 4000 ≤ (i 0).val ∧ (i 0).val < (i 0).val / 4000 * 4000 + 4000; omega
  | ⟨1, _⟩ => show win1_13.index _ (1 : Fin 2) * 72 ≤ (i 1).val ∧ (i 1).val < win1_13.index _ (1 : Fin 2) * 72 + 72; rw [b8]; omega

/-- THE MESSAGE ARRAY after the region: the gated message of the region's input arrays. -/
theorem m_final (c : Dev nD) :
    (dat1 (F := Ideal) V c).arrAt 13 cfg1.N
      = edgeMsg (V c (Pipeline.arrRef spec1 0)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) :=
  (dat1 (F := Ideal) V c).arrAt_eq_of_cover 13 _ (fun t _ => flushed13_eq V c t) cover13

set_option maxHeartbeats 2000000 in
/-- What point t writes back to the translation array is block t of the clipped translation of the region's input arrays. -/
theorem flushed14_eq (c : Dev nD) (t : Fin cfg1.N) :
    (dat1 (F := Ideal) V c).flushed 14 t = ((cfg1.win 14).blk t).view.read (Elt Ideal)
      (edgeTrans (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12))) := by
  show (cfg1.win 14).cut (grid1.coords t) ((dat1 V c).after 14 t) = _
  rw [after1_14]
  unfold out1_14
  rw [View.canon_unit_zero hz]
  simp only [View.ld_unit_zero (S := S4000x72) hz, View.ld_unit_zero (S := S4000x4) hz, View.ld_unit_zero (S := S1x72) hz, View.ld_unit_zero (S := S72x72) hz, View.ld_unit_zero (S := S72x1) hz, View.ld_unit_zero (S := S1x1) hz]
  rw [trans_pay]
  have hi := idx1_14 t
  have ht := t_lt1 t
  refine funext fun (j : S4000x4.Idx) => ?_
  obtain ⟨r, q, rfl⟩ : ∃ (r : Fin 4000) (q : Fin 4), j = ix2 r q := ⟨j 0, j 1, eq_ix2 j⟩
  have hr := r.isLt
  obtain ⟨e, he⟩ : ∃ e : Fin 1600000, e.val = t.val * 4000 + r.val := ⟨⟨t.val * 4000 + r.val, by omega⟩, rfl⟩
  have hemb : ((cfg1.win 14).blk t).view.emb (ix2 r q) = ix2 e q := by
    refine funext fun a => Fin.ext ?_
    match a with
    | ⟨0, _⟩ => show win1_14.index t (0 : Fin 2) * 4000 + 1 * r.val = e.val; omega
    | ⟨1, _⟩ => show win1_14.index t (1 : Fin 2) * 4 + 1 * q.val = q.val; omega
  show edgeTrans (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (ix2 r q)
    = (edgeTrans (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12))) (((cfg1.win 14).blk t).view.emb (ix2 r q))
  rw [hemb]
  exact edgeTrans_rows (N := 1600000) (M := 4000) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12))
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) r e
    (blk1_0 V c t r e he) (blk1_1 V c t r e he) (blk1_2 V c t) (blk1_3 V c t) (blk1_4 V c t) (blk1_5 V c t) (blk1_6 V c t) (blk1_7 V c t) (blk1_8 V c t) (blk1_9 V c t) (blk1_10 V c t) (blk1_11 V c t) (blk1_12 V c t)
    q

/-- An index of the array is in point t's block iff each coordinate is in the block's range on its axis. -/
theorem mem_blk14 (t : Fin cfg1.N) (i : S1600000x4.Idx) :
    i ∈ ((cfg1.win 14).blk t).view.set ↔ ∀ a : Fin 2, win1_14.index t a * S4000x4.size a ≤ (i a).val ∧ (i a).val < win1_14.index t a * S4000x4.size a + S4000x4.size a := by
  show i ∈ ((View.whole main_v47_1).slice (win1_14.rect t)).set ↔ _
  rw [View.set_slice_whole, Rect.mem_set_unit]
  exact Iff.rfl

/-- Row e is covered by the point e / 4000. -/
theorem cover14 (i : S1600000x4.Idx) : ∃ t : Fin cfg1.N, (cfg1.win 14).flush t = true ∧ i ∈ ((cfg1.win 14).blk t).view.set := by
  have hi0 : (i 0).val < 1600000 := (i 0).isLt
  have hi1 : (i 1).val < 4 := (i 1).isLt
  have hN : cfg1.N = 400 := N_1
  refine ⟨⟨(i 0).val / 4000, by rw [hN]; omega⟩, flush1_14 _, ?_⟩
  rw [mem_blk14]
  obtain ⟨a8, b8⟩ := idx1_14 ⟨(i 0).val / 4000, by rw [hN]; omega⟩
  intro a
  match a with
  | ⟨0, _⟩ => show win1_14.index _ (0 : Fin 2) * 4000 ≤ (i 0).val ∧ (i 0).val < win1_14.index _ (0 : Fin 2) * 4000 + 4000; rw [a8]; show (i 0).val / 4000 * 4000 ≤ (i 0).val ∧ (i 0).val < (i 0).val / 4000 * 4000 + 4000; omega
  | ⟨1, _⟩ => show win1_14.index _ (1 : Fin 2) * 4 ≤ (i 1).val ∧ (i 1).val < win1_14.index _ (1 : Fin 2) * 4 + 4; rw [b8]; omega

/-- THE TRANSLATION ARRAY after the region: the clipped translation of the region's input arrays. -/
theorem trans_final (c : Dev nD) :
    (dat1 (F := Ideal) V c).arrAt 14 cfg1.N
      = edgeTrans (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) :=
  (dat1 (F := Ideal) V c).arrAt_eq_of_cover 14 _ (fun t _ => flushed14_eq V c t) cover14

end Cert.Region1

end
-- ==== Proof.SpecNode.lean ====
/-
  The two node stages of the graph layer as whole-array functions, entry by entry, at exact (extended real) values.

    nodeLinear h agg attr Wh Wagg Wattr b      entry (p, q) =
        ((Σ_k h[p, k] · Wh[k, q]  +  Σ_k agg[p, k] · Wagg[k, q])  +  Σ_k attr[p, k] · Wattr[k, q])  +  b[0, q]

    normRelu z mean var gamma beta             entry (p, k) =
        max (((z[p, k] − mean[0, k]) · rsqrt (var[0, k] + eps)) · gamma[0, k] + beta[0, k], 0)

    nodeUpdate z h mean var gamma beta W b     entry (p, q) =
        h[p, q]  +  (Σ_k (normRelu z mean var gamma beta)[p, k] · W[k, q]  +  b[0, q])

  over 50000 rows of 72 features (the third operand of the first stage has 8 columns). mean, var, gamma, beta and the
  biases are one-row matrices read at row 0; eps is one fixed single-precision word, never evaluated. Every sum and
  every bracket is written in the order the stages take them.
-/
import Idealize.ShloMosaic.PureOps.Ideal.Laws
import Idealize.ShloMosaic.Lib.ValueIdx
import proofs.«128591_j87351044866445_2_alg».proof.Proof.LibDenseRows

noncomputable section

namespace Cert.NodeSpec

open Idealize.ShloMosaic Idealize.ShloMosaic.ValueIdx Cert.Dense

/-- The first node stage: three matrix products added left to right, then a one-row bias along every row. -/
def nodeLinear (h agg : Mat 50000 72) (attr : Mat 50000 8) (Wh Wagg : Mat 72 72) (Wattr : Mat 8 72) (b : Mat 1 72) :
    Mat 50000 72 :=
  addRowRow (fun i => (mm h Wh i + mm agg Wagg i) + mm attr Wattr i) b

theorem nodeLinear_apply (h agg : Mat 50000 72) (attr : Mat 50000 8) (Wh Wagg : Mat 72 72) (Wattr : Mat 8 72)
    (b : Mat 1 72) (p : Fin 50000) (q : Fin 72) :
    nodeLinear h agg attr Wh Wagg Wattr b (ix2 p q)
      = ((∑ k : Fin 72, h (ix2 p k) * Wh (ix2 k q) + ∑ k : Fin 72, agg (ix2 p k) * Wagg (ix2 k q))
          + ∑ k : Fin 8, attr (ix2 p k) * Wattr (ix2 k q)) + b (ix2 (0 : Fin 1) q) := rfl

/-- Column-wise normalization by a given mean and variance, scale and shift, then the rectifier. -/
def normRelu (z : Mat 50000 72) (mean var gamma beta : Mat 1 72) : Mat 50000 72 := fun i =>
  max (((z i - mean (ix2 (0 : Fin 1) (colOf i)))
          * Ideal.rsqrt (var (ix2 (0 : Fin 1) (colOf i)) + Ideal.ofBits .f32 0x3727C5AC#32))
        * gamma (ix2 (0 : Fin 1) (colOf i)) + beta (ix2 (0 : Fin 1) (colOf i))) 0

theorem normRelu_apply (z : Mat 50000 72) (mean var gamma beta : Mat 1 72) (p : Fin 50000) (k : Fin 72) :
    normRelu z mean var gamma beta (ix2 p k)
      = max (((z (ix2 p k) - mean (ix2 (0 : Fin 1) k))
              * Ideal.rsqrt (var (ix2 (0 : Fin 1) k) + Ideal.ofBits .f32 0x3727C5AC#32))
            * gamma (ix2 (0 : Fin 1) k) + beta (ix2 (0 : Fin 1) k)) 0 := rfl

/-- The second node stage: the normalized, rectified rows times a weight matrix, plus a one-row bias, added to h. -/
def nodeUpdate (z h : Mat 50000 72) (mean var gamma beta : Mat 1 72) (W : Mat 72 72) (b : Mat 1 72) : Mat 50000 72 :=
  fun i => h i + addRowRow (mm (normRelu z mean var gamma beta) W) b i

theorem nodeUpdate_apply (z h : Mat 50000 72) (mean var gamma beta : Mat 1 72) (W : Mat 72 72) (b : Mat 1 72)
    (p : Fin 50000) (q : Fin 72) :
    nodeUpdate z h mean var gamma beta W b (ix2 p q)
      = h (ix2 p q) + (∑ k : Fin 72, normRelu z mean var gamma beta (ix2 p k) * W (ix2 k q) + b (ix2 (0 : Fin 1) q)) :=
  rfl

end Cert.NodeSpec

end
-- ==== Proof.Region2Payload.lean ====
/-
  The first node stage's tile at one entry.

  The tiled body takes a block of 5000 rows of h, agg and attr and the three whole weight matrices, multiplies each
  block by its matrix on the matrix unit (operands narrowed to half precision, which at exact values changes nothing;
  accumulator zero), adds the three products left to right and adds the one-row bias broadcast down the rows. At entry
  (p, q) of the block that is

      ((Σ_k h[p, k] · Wh[k, q] + Σ_k agg[p, k] · Wagg[k, q]) + Σ_k attr[p, k] · Wattr[k, q]) + b[0, q],

  and when row p of the three blocks is row P of three whole arrays, it is entry (P, q) of nodeLinear of those arrays.
-/
import proofs.«128591_j87351044866445_2_alg».proof.Proof.Gen.KernelIdeal.Skeleton
import proofs.«128591_j87351044866445_2_alg».proof.Proof.LibDenseRows
import proofs.«128591_j87351044866445_2_alg».proof.Proof.SpecNode

noncomputable section

namespace Cert.NodeLin

open Idealize.ShloMosaic Idealize.ShloMosaic.ValueIdx Cert.Dense Cert.NodeSpec
open Cert.KernelIdeal Cert.KernelIdeal.Gen

/-- The body's stored value at entry (p, q) of the block. -/
theorem payload_apply (v0 v1 : Vec Ideal S5000x72 .f32) (v3 : Vec Ideal S5000x8 .f32) (v7 v10 : Vec Ideal S72x72 .f32)
    (v13 : Vec Ideal S8x72 .f32) (v21 : Vec Ideal S1x72 .f32) (p : Fin 5000) (q : Fin 72) :
    k2_pay1 (F := Ideal) v0 v1 v3 v7 v10 v13 v21 (ix2 p q)
      = ((∑ k : Fin 72, v0 (ix2 p k) * v7 (ix2 k q) + ∑ k : Fin 72, v1 (ix2 p k) * v10 (ix2 k q))
          + ∑ k : Fin 8, v3 (ix2 p k) * v13 (ix2 k q)) + v21 (ix2 (0 : Fin 1) q) := by
  unfold k2_pay1
  show ((matmul (DotDims.plain 5000 72 72) none (truncf .bf16 v0 bitsLt_bf16_f32)
            (truncf .bf16 (shapeCast S72x72 v7 shapeCasts_S72x72_S72x72) bitsLt_bf16_f32)
            (constant (F := Ideal) S5000x72 .f32 0x00000000#32) (ix2 p q)
          + matmul (DotDims.plain 5000 72 72) none
            (truncf .bf16 (shapeCast S5000x72 v1 shapeCasts_S5000x72_S5000x72) bitsLt_bf16_f32)
            (truncf .bf16 (shapeCast S72x72 v10 shapeCasts_S72x72_S72x72) bitsLt_bf16_f32)
            (constant (F := Ideal) S5000x72 .f32 0x00000000#32) (ix2 p q))
        + matmul (DotDims.plain 5000 8 72) none (truncf .bf16 v3 bitsLt_bf16_f32)
            (truncf .bf16 (shapeCast S8x72 v13 shapeCasts_S8x72_S8x72) bitsLt_bf16_f32)
            (constant (F := Ideal) S5000x72 .f32 0x00000000#32) (ix2 p q))
      + broadcastTo S5000x72 (shapeCast S1x72 v21 shapeCasts_S1x72_S1x72) broadcasts_S1x72_S5000x72 (ix2 p q) = _
  rw [tileProduct_apply, tileProduct_apply, tileProduct_apply, Cert.LibLreluRows.rowDown_apply]
  simp only [shapeCast_self]

/-- When row p of the three row blocks is row P of three whole arrays, entry (p, q) of the tile is entry (P, q) of
    nodeLinear of the whole arrays. -/
theorem tile_apply (A0 A1 : Mat 50000 72) (A2 : Mat 50000 8) (W3 W4 : Mat 72 72) (W5 : Mat 8 72) (b6 : Mat 1 72)
    (x0 x1 : Vec Ideal S5000x72 .f32) (x2 : Vec Ideal S5000x8 .f32) (x3 x4 : Vec Ideal S72x72 .f32)
    (x5 : Vec Ideal S8x72 .f32) (x6 : Vec Ideal S1x72 .f32) (P : Fin 50000) (p : Fin 5000)
    (h0 : ∀ k : Fin 72, x0 (ix2 p k) = A0 (ix2 P k)) (h1 : ∀ k : Fin 72, x1 (ix2 p k) = A1 (ix2 P k))
    (h2 : ∀ k : Fin 8, x2 (ix2 p k) = A2 (ix2 P k))
    (h3 : ∀ (k : Fin 72) (q : Fin 72), x3 (ix2 k q) = W3 (ix2 k q))
    (h4 : ∀ (k : Fin 72) (q : Fin 72), x4 (ix2 k q) = W4 (ix2 k q))
    (h5 : ∀ (k : Fin 8) (q : Fin 72), x5 (ix2 k q) = W5 (ix2 k q))
    (h6 : ∀ q : Fin 72, x6 (ix2 (0 : Fin 1) q) = b6 (ix2 (0 : Fin 1) q)) (q : Fin 72) :
    k2_pay1 (F := Ideal) x0 x1 x2 x3 x4 x5 x6 (ix2 p q) = nodeLinear A0 A1 A2 W3 W4 W5 b6 (ix2 P q) := by
  rw [payload_apply, nodeLinear_apply]
  simp only [h0, h1, h2, h3, h4, h5, h6]

end Cert.NodeLin

end
-- ==== Proof.Region2.lean ====
/-
  The first node stage as a whole array.

  The stage runs over ten grid points; point t takes rows 5000·t … 5000·t + 4999 of h, agg and attr (and the whole
  weight matrices and bias, the same at every point) and writes back rows 5000·t … 5000·t + 4999 of the result. The
  tile's entry (p, q) is entry (5000·t + p, q) of nodeLinear of the whole input arrays, so each written block is a
  block of that one array; row r is written by point r / 5000, so the blocks cover the result, which therefore ends
  holding nodeLinear of the input arrays as the stage found them.
-/
import proofs.«128591_j87351044866445_2_alg».proof.Proof.Gen.KernelIdeal.Frame
import proofs.«128591_j87351044866445_2_alg».proof.Proof.Region2Payload
import Idealize.ShloMosaic.Lib.Pipeline.Value
import Idealize.ShloMosaic.Lib.Tactic

noncomputable section

namespace Cert.NodeLin

open Idealize.ShloMosaic Idealize.ShloMosaic.TcCoe Idealize.SL.Sem Idealize.ShloMosaic.ValueIdx
open Idealize.ShloMosaic.Pipeline (Dat)
open Cert.Dense Cert.NodeSpec Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three row windows and the result window sit at block row t, column 0;
    the weight and bias windows at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- Row p of point t's block of h is row 5000·t + p of h. -/
theorem iblk0_apply (c : Dev nD) (t : Fin cfg2.N) (p : Fin 5000) (k : Fin 72) (P : Fin 50000)
    (hP : P.val = t.val * 5000 + p.val) :
    (iblk2 (F := Ideal) V c 0 t : Vec Ideal S5000x72 .f32) (ix2 p k)
      = (V c (Pipeline.arrRef spec2 0) : Mat 50000 72) (ix2 P k) := by
  obtain ⟨⟨e0, e1⟩, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = P.val; rw [e0, hP]; omega
  | ⟨1, _⟩ => show win2_0.index t (1 : Fin 2) * 72 + 1 * k.val = k.val; rw [e1]; omega

/-- Row p of point t's block of agg is row 5000·t + p of agg. -/
theorem iblk1_apply (c : Dev nD) (t : Fin cfg2.N) (p : Fin 5000) (k : Fin 72) (P : Fin 50000)
    (hP : P.val = t.val * 5000 + p.val) :
    (iblk2 (F := Ideal) V c 1 t : Vec Ideal S5000x72 .f32) (ix2 p k)
      = (V c (Pipeline.arrRef spec2 1) : Mat 50000 72) (ix2 P k) := by
  obtain ⟨-, ⟨e0, e1⟩, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * p.val = P.val; rw [e0, hP]; omega
  | ⟨1, _⟩ => show win2_1.index t (1 : Fin 2) * 72 + 1 * k.val = k.val; rw [e1]; omega

/-- Row p of point t's block of attr is row 5000·t + p of attr. -/
theorem iblk2_apply (c : Dev nD) (t : Fin cfg2.N) (p : Fin 5000) (k : Fin 8) (P : Fin 50000)
    (hP : P.val = t.val * 5000 + p.val) :
    (iblk2 (F := Ideal) V c 2 t : Vec Ideal S5000x8 .f32) (ix2 p k)
      = (V c (Pipeline.arrRef spec2 2) : Mat 50000 8) (ix2 P k) := by
  obtain ⟨-, -, ⟨e0, e1⟩, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 5000 + 1 * p.val = P.val; rw [e0, hP]; omega
  | ⟨1, _⟩ => show win2_2.index t (1 : Fin 2) * 8 + 1 * k.val = k.val; rw [e1]; omega

/-- Every point's block of a weight matrix or of the bias is the whole array. -/
theorem iblk3_apply (c : Dev nD) (t : Fin cfg2.N) (k q : Fin 72) :
    (iblk2 (F := Ideal) V c 3 t : Vec Ideal S72x72 .f32) (ix2 k q)
      = (V c (Pipeline.arrRef spec2 3) : Mat 72 72) (ix2 k q) := by
  obtain ⟨-, -, -, ⟨e0, e1⟩, -⟩ := idx_facts t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 72 + 1 * k.val = k.val; rw [e0]; omega
  | ⟨1, _⟩ => show win2_3.index t (1 : Fin 2) * 72 + 1 * q.val = q.val; rw [e1]; omega

theorem iblk4_apply (c : Dev nD) (t : Fin cfg2.N) (k q : Fin 72) :
    (iblk2 (F := Ideal) V c 4 t : Vec Ideal S72x72 .f32) (ix2 k q)
      = (V c (Pipeline.arrRef spec2 4) : Mat 72 72) (ix2 k q) := by
  obtain ⟨-, -, -, -, ⟨e0, e1⟩, -⟩ := idx_facts t
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 72 + 1 * k.val = k.val; rw [e0]; omega
  | ⟨1, _⟩ => show win2_4.index t (1 : Fin 2) * 72 + 1 * q.val = q.val; rw [e1]; omega

theorem iblk5_apply (c : Dev nD) (t : Fin cfg2.N) (k : Fin 8) (q : Fin 72) :
    (iblk2 (F := Ideal) V c 5 t : Vec Ideal S8x72 .f32) (ix2 k q)
      = (V c (Pipeline.arrRef spec2 5) : Mat 8 72) (ix2 k q) := by
  obtain ⟨-, -, -, -, -, ⟨e0, e1⟩, -⟩ := idx_facts t
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 8 + 1 * k.val = k.val; rw [e0]; omega
  | ⟨1, _⟩ => show win2_5.index t (1 : Fin 2) * 72 + 1 * q.val = q.val; rw [e1]; omega

theorem iblk6_apply (c : Dev nD) (t : Fin cfg2.N) (q : Fin 72) :
    (iblk2 (F := Ideal) V c 6 t : Vec Ideal S1x72 .f32) (ix2 (0 : Fin 1) q)
      = (V c (Pipeline.arrRef spec2 6) : Mat 1 72) (ix2 (0 : Fin 1) q) := by
  obtain ⟨-, -, -, -, -, -, ⟨e0, e1⟩, -⟩ := idx_facts t
  unfold iblk2
  rw [View.read_apply]
  show V c (Pipeline.arrRef spec2 6) _ = V c (Pipeline.arrRef spec2 6) _
  congr 1
  funext a
  apply Fin.ext
  match a with
  | ⟨0, _⟩ => show win2_6.index t (0 : Fin 2) * 1 + 1 * 0 = 0; rw [e0]
  | ⟨1, _⟩ => show win2_6.index t (1 : Fin 2) * 72 + 1 * q.val = q.val; rw [e1]; omega

/-- Entry (p, q) of point t's block of the result array is entry (5000·t + p, q) of the array. -/
theorem emb7_apply (t : Fin cfg2.N) (p : Fin 5000) (q : Fin 72) (P : Fin 50000) (hP : P.val = t.val * 5000 + p.val) :
    (((cfg2.win 7).blk t).view.emb (ix2 p q) : S50000x72.Idx) = ix2 P q := by
  obtain ⟨-, -, -, -, -, -, -, ⟨e0, e1⟩⟩ := idx_facts t
  funext a
  apply Fin.ext
  match a with
  | ⟨0, _⟩ => show win2_7.index t (0 : Fin 2) * 5000 + 1 * p.val = P.val; rw [e0, hP]; omega
  | ⟨1, _⟩ => show win2_7.index t (1 : Fin 2) * 72 + 1 * q.val = q.val; rw [e1]; omega

/-- What point t writes back is block t of nodeLinear of the input arrays as the stage finds them. -/
theorem flushed_eq (c : Dev nD) (t : Fin cfg2.N) :
    (dat2 (F := Ideal) V c).flushed 7 t
      = ((cfg2.win 7).blk t).view.read (Elt Ideal)
          (nodeLinear (V c (Pipeline.arrRef spec2 0)) (V c (Pipeline.arrRef spec2 1)) (V c (Pipeline.arrRef spec2 2))
            (V c (Pipeline.arrRef spec2 3)) (V c (Pipeline.arrRef spec2 4)) (V c (Pipeline.arrRef spec2 5))
            (V c (Pipeline.arrRef spec2 6))) := by
  show (cfg2.win 7).cut (grid2.coords t) ((dat2 V c).after 7 t) = _
  rw [after2_7]
  unfold out2_7
  rw [View.canon_unit_zero hz]
  simp only [View.ld_unit_zero (S := S5000x72) hz, View.ld_unit_zero (S := S5000x8) hz,
    View.ld_unit_zero (S := S72x72) hz, View.ld_unit_zero (S := S8x72) hz, View.ld_unit_zero (S := S1x72) hz]
  funext j
  obtain ⟨p, q, rfl⟩ : ∃ (p : Fin 5000) (q : Fin 72), j = ix2 p q := ⟨j 0, j 1, eq_ix2 j⟩
  have hN : cfg2.N = 10 := N_2
  have hP : t.val * 5000 + p.val < 50000 := by have := t.isLt; have := p.isLt; omega
  show k2_pay1 (F := Ideal) (iblk2 V c 0 t) (iblk2 V c 1 t) (iblk2 V c 2 t) (iblk2 V c 3 t) (iblk2 V c 4 t)
        (iblk2 V c 5 t) (iblk2 V c 6 t) (ix2 p q)
      = nodeLinear (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) (((cfg2.win 7).blk t).view.emb (ix2 p q))
  rw [emb7_apply t p q ⟨t.val * 5000 + p.val, hP⟩ rfl]
  exact tile_apply (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (iblk2 V c 0 t) (iblk2 V c 1 t) (iblk2 V c 2 t) (iblk2 V c 3 t) (iblk2 V c 4 t)
    (iblk2 V c 5 t) (iblk2 V c 6 t) ⟨t.val * 5000 + p.val, hP⟩ p
    (fun k => iblk0_apply V c t p k _ rfl) (fun k => iblk1_apply V c t p k _ rfl) (fun k => iblk2_apply V c t p k _ rfl)
    (fun k q => iblk3_apply V c t k q) (fun k q => iblk4_apply V c t k q) (fun k q => iblk5_apply V c t k q)
    (fun q => iblk6_apply V c t q) q

/-- An index of the result array is in point t's block iff each coordinate is in the block's range on its axis. -/
theorem mem_blk (t : Fin cfg2.N) (i : S50000x72.Idx) :
    i ∈ ((cfg2.win 7).blk t).view.set
      ↔ ∀ a : Fin 2, win2_7.index t a * S5000x72.size a ≤ (i a).val
          ∧ (i a).val < win2_7.index t a * S5000x72.size a + S5000x72.size a := by
  show i ∈ ((View.whole main_v70).slice (win2_7.rect t)).set ↔ _
  rw [View.set_slice_whole, Rect.mem_set_unit]
  exact Iff.rfl

/-- Row r of the result is written by point r / 5000. -/
theorem cover (i : S50000x72.Idx) :
    ∃ t : Fin cfg2.N, (cfg2.win 7).flush t = true ∧ i ∈ ((cfg2.win 7).blk t).view.set := by
  have hi0 : (i 0).val < 50000 := (i 0).isLt
  have hi1 : (i 1).val < 72 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, ⟨e0, e1⟩⟩ := idx_facts t
  refine ⟨t, flush2_7 t, ?_⟩
  rw [mem_blk]
  intro a
  match a with
  | ⟨0, _⟩ =>
    show win2_7.index t (0 : Fin 2) * 5000 ≤ (i 0).val ∧ (i 0).val < win2_7.index t (0 : Fin 2) * 5000 + 5000
    rw [e0, ht]; omega
  | ⟨1, _⟩ =>
    show win2_7.index t (1 : Fin 2) * 72 ≤ (i 1).val ∧ (i 1).val < win2_7.index t (1 : Fin 2) * 72 + 72
    rw [e1]; omega

/-- THE RESULT ARRAY of the first node stage: nodeLinear of the input arrays as the stage finds them. -/
theorem array_eq (c : Dev nD) :
    (dat2 (F := Ideal) V c).arrAt 7 cfg2.N
      = nodeLinear (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) :=
  (dat2 (F := Ideal) V c).arrAt_eq_of_cover 7 _ (fun t _ => flushed_eq V c t) cover

end Cert.NodeLin

end
-- ==== Proof.Region3Payload.lean ====
/-
  The second node stage's tile at one entry.

  The tiled body takes a block of 5000 rows of z and of h, the one-row mean, variance, scale and shift, a whole weight
  matrix and a one-row bias. It normalizes the block column by column, (z − mean) · rsqrt(var + eps), scales and shifts
  it, rectifies it against zero, multiplies the result by the weight matrix on the matrix unit (operands narrowed to
  half precision, which at exact values changes nothing; accumulator zero), adds the bias broadcast down the rows, and
  adds that onto the block of h. At entry (p, q) of the block that is

      h[p, q] + (Σ_k max (((z[p, k] − mean[0, k]) · rsqrt(var[0, k] + eps)) · gamma[0, k] + beta[0, k], 0) · W[k, q] + b[0, q]),

  and when row p of the two row blocks is row P of two whole arrays, it is entry (P, q) of nodeUpdate of those arrays.
-/
import proofs.«128591_j87351044866445_2_alg».proof.Proof.Gen.KernelIdeal.Skeleton
import proofs.«128591_j87351044866445_2_alg».proof.Proof.LibDenseRows
import proofs.«128591_j87351044866445_2_alg».proof.Proof.SpecNode

noncomputable section

namespace Cert.NodeOut

open Idealize.ShloMosaic Idealize.ShloMosaic.ValueIdx Cert.Dense Cert.NodeSpec
open Cert.KernelIdeal Cert.KernelIdeal.Gen

/-- The normalized, scaled, shifted and rectified block, as the body computes it before the product. -/
def normTile (v0 : Vec Ideal S5000x72 .f32) (v2 v4 v6 v8 : Vec Ideal S1x72 .f32) : FVec Ideal S5000x72 .f32 :=
  maximumf
    (addf
      (mulf
        (mulf
          (subf (shapeCast S5000x72 v0 shapeCasts_S5000x72_S5000x72)
            (broadcastTo S5000x72 (shapeCast S1x72 v2 shapeCasts_S1x72_S1x72) broadcasts_S1x72_S5000x72))
          (broadcastTo S5000x72
            (rsqrt (addf (shapeCast S1x72 v4 shapeCasts_S1x72_S1x72)
              (broadcast S1x72 (Scalar.ofBits (F := Ideal) .f32 0x3727C5AC#32))))
            broadcasts_S1x72_S5000x72))
        (broadcastTo S5000x72 (shapeCast S1x72 v6 shapeCasts_S1x72_S1x72) broadcasts_S1x72_S5000x72))
      (broadcastTo S5000x72 (shapeCast S1x72 v8 shapeCasts_S1x72_S1x72) broadcasts_S1x72_S5000x72))
    (broadcast S5000x72 (Scalar.ofBits (F := Ideal) .f32 0x00000000#32))

/-- The normalized block at entry (p, k). -/
theorem normTile_apply (v0 : Vec Ideal S5000x72 .f32) (v2 v4 v6 v8 : Vec Ideal S1x72 .f32) (p : Fin 5000) (k : Fin 72) :
    normTile v0 v2 v4 v6 v8 (ix2 p k)
      = max (((v0 (ix2 p k) - v2 (ix2 (0 : Fin 1) k))
              * Ideal.rsqrt (v4 (ix2 (0 : Fin 1) k) + Ideal.ofBits .f32 0x3727C5AC#32))
            * v6 (ix2 (0 : Fin 1) k) + v8 (ix2 (0 : Fin 1) k)) 0 := by
  unfold normTile
  rw [tileRelu_apply]
  refine congrArg (fun z => max z 0) ?_
  show ((shapeCast S5000x72 v0 shapeCasts_S5000x72_S5000x72 (ix2 p k)
          - broadcastTo S5000x72 (shapeCast S1x72 v2 shapeCasts_S1x72_S1x72) broadcasts_S1x72_S5000x72 (ix2 p k))
        * broadcastTo S5000x72
            (rsqrt (addf (shapeCast S1x72 v4 shapeCasts_S1x72_S1x72)
              (broadcast S1x72 (Scalar.ofBits (F := Ideal) .f32 0x3727C5AC#32))))
            broadcasts_S1x72_S5000x72 (ix2 p k))
      * broadcastTo S5000x72 (shapeCast S1x72 v6 shapeCasts_S1x72_S1x72) broadcasts_S1x72_S5000x72 (ix2 p k)
      + broadcastTo S5000x72 (shapeCast S1x72 v8 shapeCasts_S1x72_S1x72) broadcasts_S1x72_S5000x72 (ix2 p k) = _
  rw [Cert.LibLreluRows.rowDown_apply, Cert.LibLreluRows.rowDown_apply, Cert.LibLreluRows.rowDown_apply,
    broadcastTo_1b_ab_apply, shapeCast_self, shapeCast_self]
  rfl

/-- The body's stored value at entry (p, q) of the block. -/
theorem payload_apply (v0 : Vec Ideal S5000x72 .f32) (v2 v4 v6 v8 : Vec Ideal S1x72 .f32) (v24 : Vec Ideal S72x72 .f32)
    (v27 : Vec Ideal S1x72 .f32) (v31 : Vec Ideal S5000x72 .f32) (p : Fin 5000) (q : Fin 72) :
    k3_pay1 (F := Ideal) v0 v2 v4 v6 v8 v24 v27 v31 (ix2 p q)
      = v31 (ix2 p q) + (∑ k : Fin 72, normTile v0 v2 v4 v6 v8 (ix2 p k) * v24 (ix2 k q) + v27 (ix2 (0 : Fin 1) q)) := by
  unfold k3_pay1
  show v31 (ix2 p q)
      + (matmul (DotDims.plain 5000 72 72) none (truncf .bf16 (normTile v0 v2 v4 v6 v8) bitsLt_bf16_f32)
            (truncf .bf16 v24 bitsLt_bf16_f32) (constant (F := Ideal) S5000x72 .f32 0x00000000#32) (ix2 p q)
          + broadcastTo S5000x72 (shapeCast S1x72 v27 shapeCasts_S1x72_S1x72) broadcasts_S1x72_S5000x72 (ix2 p q)) = _
  rw [tileProduct_apply, Cert.LibLreluRows.rowDown_apply]

/-- When row p of the two row blocks is row P of two whole arrays, entry (p, q) of the tile is entry (P, q) of
    nodeUpdate of the whole arrays. -/
theorem tile_apply (Z H : Mat 50000 72) (M S G B : Mat 1 72) (W : Mat 72 72) (b : Mat 1 72)
    (x0 x1 : Vec Ideal S5000x72 .f32) (x2 x3 x4 x5 : Vec Ideal S1x72 .f32) (x6 : Vec Ideal S72x72 .f32)
    (x7 : Vec Ideal S1x72 .f32) (P : Fin 50000) (p : Fin 5000)
    (h0 : ∀ k : Fin 72, x0 (ix2 p k) = Z (ix2 P k)) (h1 : ∀ k : Fin 72, x1 (ix2 p k) = H (ix2 P k))
    (h2 : ∀ k : Fin 72, x2 (ix2 (0 : Fin 1) k) = M (ix2 (0 : Fin 1) k))
    (h3 : ∀ k : Fin 72, x3 (ix2 (0 : Fin 1) k) = S (ix2 (0 : Fin 1) k))
    (h4 : ∀ k : Fin 72, x4 (ix2 (0 : Fin 1) k) = G (ix2 (0 : Fin 1) k))
    (h5 : ∀ k : Fin 72, x5 (ix2 (0 : Fin 1) k) = B (ix2 (0 : Fin 1) k))
    (h6 : ∀ (k : Fin 72) (q : Fin 72), x6 (ix2 k q) = W (ix2 k q))
    (h7 : ∀ q : Fin 72, x7 (ix2 (0 : Fin 1) q) = b (ix2 (0 : Fin 1) q)) (q : Fin 72) :
    k3_pay1 (F := Ideal) x0 x2 x3 x4 x5 x6 x7 x1 (ix2 p q) = nodeUpdate Z H M S G B W b (ix2 P q) := by
  rw [payload_apply, nodeUpdate_apply]
  simp only [normTile_apply, normRelu_apply, h0, h1, h2, h3, h4, h5, h6, h7]

end Cert.NodeOut

end
-- ==== Proof.Region3.lean ====
/-
  The second node stage as a whole array.

  The stage runs over ten grid points; point t takes rows 5000·t … 5000·t + 4999 of z and of h (and the one-row mean,
  variance, scale, shift and bias and the whole weight matrix, the same at every point) and writes back rows
  5000·t … 5000·t + 4999 of the result. The tile's entry (p, q) is entry (5000·t + p, q) of nodeUpdate of the whole
  input arrays, so each written block is a block of that one array; row r is written by point r / 5000, so the blocks
  cover the result, which therefore ends holding nodeUpdate of the input arrays as the stage found them.
-/
import proofs.«128591_j87351044866445_2_alg».proof.Proof.Gen.KernelIdeal.Frame
import proofs.«128591_j87351044866445_2_alg».proof.Proof.Region3Payload
import Idealize.ShloMosaic.Lib.Pipeline.Value
import Idealize.ShloMosaic.Lib.Tactic

noncomputable section

namespace Cert.NodeOut

open Idealize.ShloMosaic Idealize.ShloMosaic.TcCoe Idealize.SL.Sem Idealize.ShloMosaic.ValueIdx
open Idealize.ShloMosaic.Pipeline (Dat)
open Cert.Dense Cert.NodeSpec Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two row windows and the result window sit at block row t, column 0;
    the one-row windows and the weight window at block (0, 0). -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = t.val ∧ win3_8.index t (1 : Fin 2) = 0) :=
  (by decide +kernel : ∀ t : Fin grid3.N, _)

/-- Row p of point t's block of z is row 5000·t + p of z. -/
theorem iblk0_apply (c : Dev nD) (t : Fin cfg3.N) (p : Fin 5000) (k : Fin 72) (P : Fin 50000)
    (hP : P.val = t.val * 5000 + p.val) :
    (iblk3 (F := Ideal) V c 0 t : Vec Ideal S5000x72 .f32) (ix2 p k)
      = (V c (Pipeline.arrRef spec3 0) : Mat 50000 72) (ix2 P k) := by
  obtain ⟨e0, e1⟩ := (idx_facts t).1
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = P.val; rw [e0, hP]; omega
  | ⟨1, _⟩ => show win3_0.index t (1 : Fin 2) * 72 + 1 * k.val = k.val; rw [e1]; omega

/-- Row p of point t's block of h is row 5000·t + p of h. -/
theorem iblk1_apply (c : Dev nD) (t : Fin cfg3.N) (p : Fin 5000) (k : Fin 72) (P : Fin 50000)
    (hP : P.val = t.val * 5000 + p.val) :
    (iblk3 (F := Ideal) V c 1 t : Vec Ideal S5000x72 .f32) (ix2 p k)
      = (V c (Pipeline.arrRef spec3 1) : Mat 50000 72) (ix2 P k) := by
  obtain ⟨e0, e1⟩ := (idx_facts t).2.1
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * p.val = P.val; rw [e0, hP]; omega
  | ⟨1, _⟩ => show win3_1.index t (1 : Fin 2) * 72 + 1 * k.val = k.val; rw [e1]; omega

/-- Every point's block of a one-row array or of the weight matrix is the whole array. -/
theorem iblk2_apply (c : Dev nD) (t : Fin cfg3.N) (q : Fin 72) :
    (iblk3 (F := Ideal) V c 2 t : Vec Ideal S1x72 .f32) (ix2 (0 : Fin 1) q)
      = (V c (Pipeline.arrRef spec3 2) : Mat 1 72) (ix2 (0 : Fin 1) q) := by
  obtain ⟨e0, e1⟩ := (idx_facts t).2.2.1
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; rw [e0]
  | ⟨1, _⟩ => show win3_2.index t (1 : Fin 2) * 72 + 1 * q.val = q.val; rw [e1]; omega

theorem iblk3_apply (c : Dev nD) (t : Fin cfg3.N) (q : Fin 72) :
    (iblk3 (F := Ideal) V c 3 t : Vec Ideal S1x72 .f32) (ix2 (0 : Fin 1) q)
      = (V c (Pipeline.arrRef spec3 3) : Mat 1 72) (ix2 (0 : Fin 1) q) := by
  obtain ⟨e0, e1⟩ := (idx_facts t).2.2.2.1
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * 0 = 0; rw [e0]
  | ⟨1, _⟩ => show win3_3.index t (1 : Fin 2) * 72 + 1 * q.val = q.val; rw [e1]; omega

theorem iblk4_apply (c : Dev nD) (t : Fin cfg3.N) (q : Fin 72) :
    (iblk3 (F := Ideal) V c 4 t : Vec Ideal S1x72 .f32) (ix2 (0 : Fin 1) q)
      = (V c (Pipeline.arrRef spec3 4) : Mat 1 72) (ix2 (0 : Fin 1) q) := by
  obtain ⟨e0, e1⟩ := (idx_facts t).2.2.2.2.1
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * 0 = 0; rw [e0]
  | ⟨1, _⟩ => show win3_4.index t (1 : Fin 2) * 72 + 1 * q.val = q.val; rw [e1]; omega

theorem iblk5_apply (c : Dev nD) (t : Fin cfg3.N) (q : Fin 72) :
    (iblk3 (F := Ideal) V c 5 t : Vec Ideal S1x72 .f32) (ix2 (0 : Fin 1) q)
      = (V c (Pipeline.arrRef spec3 5) : Mat 1 72) (ix2 (0 : Fin 1) q) := by
  obtain ⟨e0, e1⟩ := (idx_facts t).2.2.2.2.2.1
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 1 + 1 * 0 = 0; rw [e0]
  | ⟨1, _⟩ => show win3_5.index t (1 : Fin 2) * 72 + 1 * q.val = q.val; rw [e1]; omega

theorem iblk6_apply (c : Dev nD) (t : Fin cfg3.N) (k q : Fin 72) :
    (iblk3 (F := Ideal) V c 6 t : Vec Ideal S72x72 .f32) (ix2 k q)
      = (V c (Pipeline.arrRef spec3 6) : Mat 72 72) (ix2 k q) := by
  obtain ⟨e0, e1⟩ := (idx_facts t).2.2.2.2.2.2.1
  unfold iblk3
  rw [View.read_apply]
  show V c (Pipeline.arrRef spec3 6) _ = V c (Pipeline.arrRef spec3 6) _
  congr 1
  funext a
  apply Fin.ext
  match a with
  | ⟨0, _⟩ => show win3_6.index t (0 : Fin 2) * 72 + 1 * k.val = k.val; rw [e0]; omega
  | ⟨1, _⟩ => show win3_6.index t (1 : Fin 2) * 72 + 1 * q.val = q.val; rw [e1]; omega

theorem iblk7_apply (c : Dev nD) (t : Fin cfg3.N) (q : Fin 72) :
    (iblk3 (F := Ideal) V c 7 t : Vec Ideal S1x72 .f32) (ix2 (0 : Fin 1) q)
      = (V c (Pipeline.arrRef spec3 7) : Mat 1 72) (ix2 (0 : Fin 1) q) := by
  obtain ⟨e0, e1⟩ := (idx_facts t).2.2.2.2.2.2.2.1
  unfold iblk3
  rw [View.read_apply]
  show V c (Pipeline.arrRef spec3 7) _ = V c (Pipeline.arrRef spec3 7) _
  congr 1
  funext a
  apply Fin.ext
  match a with
  | ⟨0, _⟩ => show win3_7.index t (0 : Fin 2) * 1 + 1 * 0 = 0; rw [e0]
  | ⟨1, _⟩ => show win3_7.index t (1 : Fin 2) * 72 + 1 * q.val = q.val; rw [e1]; omega

/-- Entry (p, q) of point t's block of the result array is entry (5000·t + p, q) of the array. -/
theorem emb8_apply (t : Fin cfg3.N) (p : Fin 5000) (q : Fin 72) (P : Fin 50000) (hP : P.val = t.val * 5000 + p.val) :
    (((cfg3.win 8).blk t).view.emb (ix2 p q) : S50000x72.Idx) = ix2 P q := by
  obtain ⟨e0, e1⟩ := (idx_facts t).2.2.2.2.2.2.2.2
  funext a
  apply Fin.ext
  match a with
  | ⟨0, _⟩ => show win3_8.index t (0 : Fin 2) * 5000 + 1 * p.val = P.val; rw [e0, hP]; omega
  | ⟨1, _⟩ => show win3_8.index t (1 : Fin 2) * 72 + 1 * q.val = q.val; rw [e1]; omega

/-- What point t writes back is block t of nodeUpdate of the input arrays as the stage finds them. -/
theorem flushed_eq (c : Dev nD) (t : Fin cfg3.N) :
    (dat3 (F := Ideal) V c).flushed 8 t
      = ((cfg3.win 8).blk t).view.read (Elt Ideal)
          (nodeUpdate (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7))) := by
  show (cfg3.win 8).cut (grid3.coords t) ((dat3 V c).after 8 t) = _
  rw [after3_8]
  unfold out3_8
  rw [View.canon_unit_zero hz]
  simp only [View.ld_unit_zero (S := S5000x72) hz, View.ld_unit_zero (S := S72x72) hz, View.ld_unit_zero (S := S1x72) hz]
  funext j
  obtain ⟨p, q, rfl⟩ : ∃ (p : Fin 5000) (q : Fin 72), j = ix2 p q := ⟨j 0, j 1, eq_ix2 j⟩
  have hN : cfg3.N = 10 := N_3
  have hP : t.val * 5000 + p.val < 50000 := by have := t.isLt; have := p.isLt; omega
  show k3_pay1 (F := Ideal) (iblk3 V c 0 t) (iblk3 V c 2 t) (iblk3 V c 3 t) (iblk3 V c 4 t) (iblk3 V c 5 t)
        (iblk3 V c 6 t) (iblk3 V c 7 t) (iblk3 V c 1 t) (ix2 p q)
      = nodeUpdate (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (((cfg3.win 8).blk t).view.emb (ix2 p q))
  rw [emb8_apply t p q ⟨t.val * 5000 + p.val, hP⟩ rfl]
  exact tile_apply (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7))
    (iblk3 V c 0 t) (iblk3 V c 1 t) (iblk3 V c 2 t) (iblk3 V c 3 t) (iblk3 V c 4 t) (iblk3 V c 5 t) (iblk3 V c 6 t)
    (iblk3 V c 7 t) ⟨t.val * 5000 + p.val, hP⟩ p
    (fun k => iblk0_apply V c t p k _ rfl) (fun k => iblk1_apply V c t p k _ rfl)
    (fun k => iblk2_apply V c t k) (fun k => iblk3_apply V c t k) (fun k => iblk4_apply V c t k)
    (fun k => iblk5_apply V c t k) (fun k q => iblk6_apply V c t k q) (fun q => iblk7_apply V c t q) q

/-- An index of the result array is in point t's block iff each coordinate is in the block's range on its axis. -/
theorem mem_blk (t : Fin cfg3.N) (i : S50000x72.Idx) :
    i ∈ ((cfg3.win 8).blk t).view.set
      ↔ ∀ a : Fin 2, win3_8.index t a * S5000x72.size a ≤ (i a).val
          ∧ (i a).val < win3_8.index t a * S5000x72.size a + S5000x72.size a := by
  show i ∈ ((View.whole main_v79).slice (win3_8.rect t)).set ↔ _
  rw [View.set_slice_whole, Rect.mem_set_unit]
  exact Iff.rfl

/-- Row r of the result is written by point r / 5000. -/
theorem cover (i : S50000x72.Idx) :
    ∃ t : Fin cfg3.N, (cfg3.win 8).flush t = true ∧ i ∈ ((cfg3.win 8).blk t).view.set := by
  have hi0 : (i 0).val < 50000 := (i 0).isLt
  have hi1 : (i 1).val < 72 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e0, e1⟩ := (idx_facts t).2.2.2.2.2.2.2.2
  refine ⟨t, flush3_8 t, ?_⟩
  rw [mem_blk]
  intro a
  match a with
  | ⟨0, _⟩ =>
    show win3_8.index t (0 : Fin 2) * 5000 ≤ (i 0).val ∧ (i 0).val < win3_8.index t (0 : Fin 2) * 5000 + 5000
    rw [e0, ht]; omega
  | ⟨1, _⟩ =>
    show win3_8.index t (1 : Fin 2) * 72 ≤ (i 1).val ∧ (i 1).val < win3_8.index t (1 : Fin 2) * 72 + 72
    rw [e1]; omega

/-- THE RESULT ARRAY of the second node stage: nodeUpdate of the input arrays as the stage finds them. -/
theorem array_eq (c : Dev nD) :
    (dat3 (F := Ideal) V c).arrAt 8 cfg3.N
      = nodeUpdate (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) :=
  (dat3 (F := Ideal) V c).arrAt_eq_of_cover 8 _ (fun t _ => flushed_eq V c t) cover

end Cert.NodeOut

end
-- ==== Proof.KernelValue.lean ====
/-
  The idealized kernel's three results as ONE function of its twenty argument arrays.  The first region writes, edge by
  edge, the first linear layer of the edge network over the gathered end-point rows and the two Minkowski features; the
  second normalizes it with its column statistics, finishes the edge network, gates the message and forms the clipped
  translation; segment sums over the edges entering each node feed the third region's linear layer, and the fourth
  normalizes, rectifies, projects and adds the residual.  Each region's array is its closed form at the contents the
  region finds (the four region modules); what it finds is read off the fold of buffer contents (the fold module).
-/
import proofs.«128591_j87351044866445_2_alg».proof.Proof.KernelFold
import proofs.«128591_j87351044866445_2_alg».proof.Proof.Region0Blocks
import proofs.«128591_j87351044866445_2_alg».proof.Proof.Region1Blocks
import proofs.«128591_j87351044866445_2_alg».proof.Proof.Region2
import proofs.«128591_j87351044866445_2_alg».proof.Proof.Region3

set_option maxRecDepth 16384

noncomputable section

namespace Cert.KernelIdeal.Whole

open Cert.KernelIdeal Cert.KernelIdeal.Gen Cert.KernelIdeal.Fold
open Idealize.ShloMosaic Idealize.ShloMosaic.TcCoe Idealize.SL.Sem Idealize.ShloMosaic.StableHlo
open Cert.Dense Cert.SpecEdge Cert.NodeSpec

/-- The twenty argument arrays, by the roles the layer gives them. -/
structure Args where
  h : (⟨S50000x72, .f32⟩ : BufTy).Contents (Elt Ideal)
  x : (⟨S50000x4, .f32⟩ : BufTy).Contents (Elt Ideal)
  attr : (⟨S50000x8, .f32⟩ : BufTy).Contents (Elt Ideal)
  edges : (⟨S2x1600000, .i32⟩ : BufTy).Contents (Elt Ideal)
  We1 : (⟨S146x72, .f32⟩ : BufTy).Contents (Elt Ideal)
  ge : (⟨S72, .f32⟩ : BufTy).Contents (Elt Ideal)
  be : (⟨S72, .f32⟩ : BufTy).Contents (Elt Ideal)
  We2 : (⟨S72x72, .f32⟩ : BufTy).Contents (Elt Ideal)
  be2 : (⟨S72, .f32⟩ : BufTy).Contents (Elt Ideal)
  Wh1 : (⟨S152x72, .f32⟩ : BufTy).Contents (Elt Ideal)
  bh1 : (⟨S72, .f32⟩ : BufTy).Contents (Elt Ideal)
  gh : (⟨S72, .f32⟩ : BufTy).Contents (Elt Ideal)
  bhh : (⟨S72, .f32⟩ : BufTy).Contents (Elt Ideal)
  Wh2 : (⟨S72x72, .f32⟩ : BufTy).Contents (Elt Ideal)
  bh2 : (⟨S72, .f32⟩ : BufTy).Contents (Elt Ideal)
  Wx1 : (⟨S72x72, .f32⟩ : BufTy).Contents (Elt Ideal)
  bx1 : (⟨S72, .f32⟩ : BufTy).Contents (Elt Ideal)
  Wx2 : (⟨S72x1, .f32⟩ : BufTy).Contents (Elt Ideal)
  Wm : (⟨S72x1, .f32⟩ : BufTy).Contents (Elt Ideal)
  bm : (⟨S1, .f32⟩ : BufTy).Contents (Elt Ideal)

/-- A vector [72] as a one-row matrix [1, 72]. -/
abbrev rs (v : (⟨S72, .f32⟩ : BufTy).Contents (Elt Ideal)) : (⟨S1x72, .f32⟩ : BufTy).Contents (Elt Ideal) := shapeCast S1x72 v shapeCasts_S72_S1x72

variable (a : Args)

/-- The first linear layer of the edge network, one row per edge. -/
def zK : (⟨S1600000x72, .f32⟩ : BufTy).Contents (Elt Ideal) :=
  edgeLin (rows72 a.h (edgeRow0 a.edges)) (rows72 a.h (edgeRow1 a.edges)) (rows4 a.x (edgeRow0 a.edges)) (rows4 a.x (edgeRow1 a.edges))
    (extractStridedSlice S72x72 ![0, 0] a.We1 slices_S146x72_S72x72_0_0) (extractStridedSlice S72x72 ![72, 0] a.We1 slices_S146x72_S72x72_72_0)
    (extractStridedSlice S1x72 ![144, 0] a.We1 slices_S146x72_S1x72_144_0) (extractStridedSlice S1x72 ![145, 0] a.We1 slices_S146x72_S1x72_145_0)
/-- The coordinate differences along the edges. -/
def xdK : (⟨S1600000x4, .f32⟩ : BufTy).Contents (Elt Ideal) :=
  xdiff (rows4 a.x (edgeRow0 a.edges)) (rows4 a.x (edgeRow1 a.edges))
/-- The gated messages. -/
def mK : (⟨S1600000x72, .f32⟩ : BufTy).Contents (Elt Ideal) :=
  edgeMsg (zK a) (colMeanE (zK a)) (colVarE (zK a) (constantI S_ 32 0#32)) (rs a.ge) (rs a.be) a.We2 (rs a.be2) a.Wm (shapeCast S1x1 a.bm shapeCasts_S1_S1x1)
/-- The clipped translations. -/
def trK : (⟨S1600000x4, .f32⟩ : BufTy).Contents (Elt Ideal) :=
  edgeTrans (zK a) (xdK a) (colMeanE (zK a)) (colVarE (zK a) (constantI S_ 32 0#32)) (rs a.ge) (rs a.be) a.We2 (rs a.be2) a.Wm (shapeCast S1x1 a.bm shapeCasts_S1_S1x1)
    a.Wx1 (rs a.bx1) a.Wx2
/-- The new coordinates. -/
def xoutK : (⟨S50000x4, .f32⟩ : BufTy).Contents (Elt Ideal) :=
  newCoords a.x (segSum4 (edgeRow0 a.edges) (trK a)) (segCount (edgeRow0 a.edges))
/-- The first linear layer of the node network. -/
def zhK : (⟨S50000x72, .f32⟩ : BufTy).Contents (Elt Ideal) :=
  nodeLinear a.h (segSum72 (edgeRow0 a.edges) (mK a)) a.attr
    (extractStridedSlice S72x72 ![0, 0] a.Wh1 slices_S152x72_S72x72_0_0) (extractStridedSlice S72x72 ![72, 0] a.Wh1 slices_S152x72_S72x72_72_0)
    (extractStridedSlice S8x72 ![144, 0] a.Wh1 slices_S152x72_S8x72_144_0) (rs a.bh1)
/-- The new node features. -/
def houtK : (⟨S50000x72, .f32⟩ : BufTy).Contents (Elt Ideal) :=
  nodeUpdate (zhK a) a.h (colMeanN (zhK a)) (colVarN (zhK a) (constantI S_ 32 0#32)) (rs a.gh) (rs a.bhh) a.Wh2 (rs a.bh2)

/-! ## Equal arguments give equal arrays -/

theorem edgeLin_congr {a0 b0 : Mat 1600000 72} {a1 b1 : Mat 1600000 72} {a2 b2 : Mat 1600000 4} {a3 b3 : Mat 1600000 4} {a4 b4 : Mat 72 72} {a5 b5 : Mat 72 72} {a6 b6 : Mat 1 72} {a7 b7 : Mat 1 72}
    (h0 : a0 = b0) (h1 : a1 = b1) (h2 : a2 = b2) (h3 : a3 = b3) (h4 : a4 = b4) (h5 : a5 = b5) (h6 : a6 = b6) (h7 : a7 = b7) :
    edgeLin a0 a1 a2 a3 a4 a5 a6 a7 = edgeLin b0 b1 b2 b3 b4 b5 b6 b7 := by
  subst h0 h1 h2 h3 h4 h5 h6 h7; rfl

theorem xdiff_congr {a0 b0 : Mat 1600000 4} {a1 b1 : Mat 1600000 4}
    (h0 : a0 = b0) (h1 : a1 = b1) :
    xdiff a0 a1 = xdiff b0 b1 := by
  subst h0 h1; rfl

theorem edgeMsg_congr {a0 b0 : Mat 1600000 72} {a1 b1 : Mat 1 72} {a2 b2 : Mat 1 72} {a3 b3 : Mat 1 72} {a4 b4 : Mat 1 72} {a5 b5 : Mat 72 72} {a6 b6 : Mat 1 72} {a7 b7 : Mat 72 1} {a8 b8 : Mat 1 1}
    (h0 : a0 = b0) (h1 : a1 = b1) (h2 : a2 = b2) (h3 : a3 = b3) (h4 : a4 = b4) (h5 : a5 = b5) (h6 : a6 = b6) (h7 : a7 = b7) (h8 : a8 = b8) :
    edgeMsg a0 a1 a2 a3 a4 a5 a6 a7 a8 = edgeMsg b0 b1 b2 b3 b4 b5 b6 b7 b8 := by
  subst h0 h1 h2 h3 h4 h5 h6 h7 h8; rfl

theorem edgeTrans_congr {a0 b0 : Mat 1600000 72} {a1 b1 : Mat 1600000 4} {a2 b2 : Mat 1 72} {a3 b3 : Mat 1 72} {a4 b4 : Mat 1 72} {a5 b5 : Mat 1 72} {a6 b6 : Mat 72 72} {a7 b7 : Mat 1 72} {a8 b8 : Mat 72 1} {a9 b9 : Mat 1 1} {a10 b10 : Mat 72 72} {a11 b11 : Mat 1 72} {a12 b12 : Mat 72 1}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) :
    edgeTrans a0 a1 a2 a3 a4 a5 a6 a7 a8 a9 a10 a11 a12 = edgeTrans b0 b1 b2 b3 b4 b5 b6 b7 b8 b9 b10 b11 b12 := by
  subst h0 h1 h2 h3 h4 h5 h6 h7 h8 h9 h10 h11 h12; rfl

theorem nodeLinear_congr {a0 b0 : Mat 50000 72} {a1 b1 : Mat 50000 72} {a2 b2 : Mat 50000 8} {a3 b3 : Mat 72 72} {a4 b4 : Mat 72 72} {a5 b5 : Mat 8 72} {a6 b6 : Mat 1 72}
    (h0 : a0 = b0) (h1 : a1 = b1) (h2 : a2 = b2) (h3 : a3 = b3) (h4 : a4 = b4) (h5 : a5 = b5) (h6 : a6 = b6) :
    nodeLinear a0 a1 a2 a3 a4 a5 a6 = nodeLinear b0 b1 b2 b3 b4 b5 b6 := by
  subst h0 h1 h2 h3 h4 h5 h6; rfl

theorem nodeUpdate_congr {a0 b0 : Mat 50000 72} {a1 b1 : Mat 50000 72} {a2 b2 : Mat 1 72} {a3 b3 : Mat 1 72} {a4 b4 : Mat 1 72} {a5 b5 : Mat 1 72} {a6 b6 : Mat 72 72} {a7 b7 : Mat 1 72}
    (h0 : a0 = b0) (h1 : a1 = b1) (h2 : a2 = b2) (h3 : a3 = b3) (h4 : a4 = b4) (h5 : a5 = b5) (h6 : a6 = b6) (h7 : a7 = b7) :
    nodeUpdate a0 a1 a2 a3 a4 a5 a6 a7 = nodeUpdate b0 b1 b2 b3 b4 b5 b6 b7 := by
  subst h0 h1 h2 h3 h4 h5 h6 h7; rfl

/-! ## The kernel's run computes them -/

variable (m : (ℓ : Loc nD τ sig) → Buf (Elt Ideal) ℓ) (ρ : Dev nD → PrngReg)

/-- The argument arrays as launched on core `c`. -/
def argsOf (c : Dev nD) : Args where
  h := arg m ρ c main_arg0
  x := arg m ρ c main_arg1
  attr := arg m ρ c main_arg2
  edges := arg m ρ c main_arg3
  We1 := arg m ρ c main_arg4
  ge := arg m ρ c main_arg5
  be := arg m ρ c main_arg6
  We2 := arg m ρ c main_arg7
  be2 := arg m ρ c main_arg8
  Wh1 := arg m ρ c main_arg9
  bh1 := arg m ρ c main_arg10
  gh := arg m ρ c main_arg11
  bhh := arg m ρ c main_arg12
  Wh2 := arg m ρ c main_arg13
  bh2 := arg m ρ c main_arg14
  Wx1 := arg m ρ c main_arg15
  bx1 := arg m ρ c main_arg16
  Wx2 := arg m ρ c main_arg17
  Wm := arg m ρ c main_arg18
  bm := arg m ρ c main_arg19

theorem z_val (c : Dev nD) : at2 m ρ c main_v36_0 = zK (argsOf m ρ c) :=
  (at2_z m ρ c).trans ((Cert.Region0.z_final (V1 m ρ) c).trans
    (edgeLin_congr (in0_0 m ρ c) (in0_1 m ρ c) (in0_2 m ρ c) (in0_3 m ρ c) (in0_4 m ρ c) (in0_5 m ρ c) (in0_6 m ρ c) (in0_7 m ρ c)))

theorem xd_val (c : Dev nD) : at2 m ρ c main_v36_1 = xdK (argsOf m ρ c) :=
  (at2_xdiff m ρ c).trans ((Cert.Region0.xdiff_final (V1 m ρ) c).trans (xdiff_congr (in0_2 m ρ c) (in0_3 m ρ c)))

/-- The column statistics the second region is handed are those of the first region's array. -/
theorem mean_val (c : Dev nD) : V5 m ρ c main_v40 = colMeanE (zK (argsOf m ρ c)) :=
  (in1_2 m ρ c).trans (congrArg colMeanE (z_val m ρ c))
theorem var_val (c : Dev nD) : V5 m ρ c main_v41 = colVarE (zK (argsOf m ρ c)) (constantI S_ 32 0#32) :=
  (in1_3 m ρ c).trans (congrArg (fun z => colVarE z (constantI S_ 32 0#32)) (z_val m ρ c))

theorem m_val (c : Dev nD) : at6 m ρ c main_v47_0 = mK (argsOf m ρ c) :=
  (at6_m m ρ c).trans ((Cert.Region1.m_final (V5 m ρ) c).trans
    (edgeMsg_congr ((in1_0 m ρ c).trans (z_val m ρ c)) (mean_val m ρ c) (var_val m ρ c) (in1_4 m ρ c) (in1_5 m ρ c) (in1_6 m ρ c)
      (in1_7 m ρ c) (in1_8 m ρ c) (in1_9 m ρ c)))

theorem tr_val (c : Dev nD) : at6 m ρ c main_v47_1 = trK (argsOf m ρ c) :=
  (at6_trans m ρ c).trans ((Cert.Region1.trans_final (V5 m ρ) c).trans
    (edgeTrans_congr ((in1_0 m ρ c).trans (z_val m ρ c)) ((in1_1 m ρ c).trans (xd_val m ρ c)) (mean_val m ρ c) (var_val m ρ c)
      (in1_4 m ρ c) (in1_5 m ρ c) (in1_6 m ρ c) (in1_7 m ρ c) (in1_8 m ρ c) (in1_9 m ρ c) (in1_10 m ρ c) (in1_11 m ρ c) (in1_12 m ρ c)))

theorem zh_val (c : Dev nD) : at8 m ρ c main_v70 = zhK (argsOf m ρ c) :=
  (at8_zh m ρ c).trans ((Cert.NodeLin.array_eq (V7 m ρ) c).trans
    (nodeLinear_congr (in2_0 m ρ c) ((in2_1 m ρ c).trans (congrArg (segSum72 (edgeRow0 (arg m ρ c main_arg3))) (m_val m ρ c)))
      (in2_2 m ρ c) (in2_3 m ρ c) (in2_4 m ρ c) (in2_5 m ρ c) (in2_6 m ρ c)))

/-- The first result: the new node features. -/
theorem kernel_h (c : Dev nD) : W12 m ρ c (Proc.devRef .tc main_v79) = houtK (argsOf m ρ c) :=
  (res_h m ρ c).trans ((Cert.NodeOut.array_eq (V11 m ρ) c).trans
    (nodeUpdate_congr ((in3_0 m ρ c).trans (zh_val m ρ c)) (in3_1 m ρ c)
      ((in3_2 m ρ c).trans (congrArg colMeanN (zh_val m ρ c)))
      ((in3_3 m ρ c).trans (congrArg (fun z => colVarN z (constantI S_ 32 0#32)) (zh_val m ρ c)))
      (in3_4 m ρ c) (in3_5 m ρ c) (in3_6 m ρ c) (in3_7 m ρ c)))

/-- The second result: the new coordinates. -/
theorem kernel_x (c : Dev nD) : W12 m ρ c (Proc.devRef .tc main_v65) = xoutK (argsOf m ρ c) :=
  (res_x m ρ c).trans (congrArg (fun t => newCoords (arg m ρ c main_arg1) (segSum4 (edgeRow0 (arg m ρ c main_arg3)) t) (segCount (edgeRow0 (arg m ρ c main_arg3))))
    (tr_val m ρ c))

/-- The third result: the messages. -/
theorem kernel_m (c : Dev nD) : W12 m ρ c (Proc.devRef .tc main_v47_0) = mK (argsOf m ρ c) :=
  (res_m m ρ c).trans ((at6_m m ρ c).symm.trans (m_val m ρ c))

end Cert.KernelIdeal.Whole

end
-- ==== Proof.RefRun.lean ====
/- The reference program's @main as a list of its 262 host operations (the outlined functions' operations written
   at their call sites over the calls' buffer records), cut into 33 consecutive stages, and its run: every weakly fair
   execution terminates with each buffer at the operations' fold over the launch contents. The stages' lists of written
   buffers say which buffers a suffix of the program leaves alone. -/
import proofs.«128591_j87351044866445_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## Lists: a property of two lists holds of their concatenation -/

theorem forall_append' {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

section Writes

variable {τ : Topo} {sig : RefSig} {Val : EltTy → Type}

/-- An operation that writes the one buffer `y` writes inside any list of references holding `y`. -/
theorem wsub {op : HloOp τ sig Val} {y : Ref sig .tc} {Wl : List (Ref sig .tc)} (hw : op.writes = {Proc.devRef .tc y}) (hy : y ∈ Wl) :
    op.writes ⊆ (Wl.map (Proc.devRef (τ := τ) .tc)).toFinset := by
  rw [hw, Finset.singleton_subset_iff, List.mem_toFinset]; exact List.mem_map_of_mem hy

/-- Two lines writing inside two lists of references: their concatenation writes inside the lists' concatenation. -/
theorem writes_append {l₁ l₂ : List (HloOp τ sig Val)} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_iff_forall_mem.mpr fun op hop => by
    rw [List.map_append, List.toFinset_append]
    rcases List.mem_append.mp hop with h | h
    · exact (List.forall_iff_forall_mem.mp h₁ op h).trans Finset.subset_union_left
    · exact (List.forall_iff_forall_mem.mp h₂ op h).trans Finset.subset_union_right

/-- The fold over two lines in a row. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

end Writes

variable {F : FTy → Type} [FloatOps F]

/-! ## The operations, stage by stage -/

/-- Operations 1 … 2 of 262 (statements 1 … 2 of @main). -/
abbrev opsS0 : List (HloOp τ sig (Elt F)) :=
  [ unary main_arg3 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000 ]
/-- The buffers they write, in order. -/
abbrev W0 : List (Ref sig .tc) := [main_v0, main_v1]
theorem opsS0_sub : (opsS0 : List (HloOp τ sig (Elt F))).Forall fun op => op.bufs ⊆ tcRefs τ sig :=
  ⟨unary_bufs_sub .., reshape_bufs_sub ..⟩
theorem opsS0_fresh : (opsS0 : List (HloOp τ sig (Elt F))).Forall fun op => op.fresh = ∅ :=
  ⟨rfl, rfl⟩
theorem opsS0_writes : (opsS0 : List (HloOp τ sig (Elt F))).Forall fun op => op.writes ⊆ (W0.map (Proc.devRef (τ := τ) .tc)).toFinset :=
  ⟨wsub (y := main_v0) rfl (by decide), wsub (y := main_v1) rfl (by decide)⟩

/-- Operations 3 … 4 of 262 (statements 3 … 4 of @main). -/
abbrev opsS1 : List (HloOp τ sig (Elt F)) :=
  [ unary main_arg3 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]
/-- The buffers they write, in order. -/
abbrev W1 : List (Ref sig .tc) := [main_v2, main_v3]
theorem opsS1_sub : (opsS1 : List (HloOp τ sig (Elt F))).Forall fun op => op.bufs ⊆ tcRefs τ sig :=
  ⟨unary_bufs_sub .., reshape_bufs_sub ..⟩
theorem opsS1_fresh : (opsS1 : List (HloOp τ sig (Elt F))).Forall fun op => op.fresh = ∅ :=
  ⟨rfl, rfl⟩
theorem opsS1_writes : (opsS1 : List (HloOp τ sig (Elt F))).Forall fun op => op.writes ⊆ (W1.map (Proc.devRef (τ := τ) .tc)).toFinset :=
  ⟨wsub (y := main_v2) rfl (by decide), wsub (y := main_v3) rfl (by decide)⟩

/-- Operations 5 … 13 of 262 (statements 5 … 13 of @main). -/
abbrev opsS2 : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg1 main_v9 main_v10 ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)) ]
/-- The buffers they write, in order. -/
abbrev W2 : List (Ref sig .tc) := [main_c, main_v4, main_v5, main_c_0, main_v6, main_v7, main_v8, main_v9, main_v10]
theorem opsS2_sub : (opsS2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem opsS2_fresh : (opsS2 : List (HloOp τ sig (Elt F))).Forall fun op => op.fresh = ∅ :=
  ⟨rfl, rfl, rfl, rfl, rfl, rfl, rfl, rfl, rfl⟩
theorem opsS2_writes : (opsS2 : List (HloOp τ sig (Elt F))).Forall fun op => op.writes ⊆ (W2.map (Proc.devRef (τ := τ) .tc)).toFinset :=
  ⟨wsub (y := main_c) rfl (by decide), wsub (y := main_v4) rfl (by decide), wsub (y := main_v5) rfl (by decide), wsub (y := main_c_0) rfl (by decide), wsub (y := main_v6) rfl (by decide), wsub (y := main_v7) rfl (by decide), wsub (y := main_v8) rfl (by decide), wsub (y := main_v9) rfl (by decide), wsub (y := main_v10) rfl (by decide)⟩

/-- Operations 14 … 22 of 262 (statements 14 … 22 of @main). -/
abbrev opsS3 : List (HloOp τ sig (Elt F)) :=
  [ nullary main_c_1 (constantI S_ 32 0#32),
    unary main_c_1 main_v11 (broadcastInDim S1600000 ![] bcast_S_S1600000 : (⟨S_, .i32⟩ : BufTy).Contents (Elt F) → (⟨S1600000, .i32⟩ : BufTy).Contents (Elt F)),
    binary main_v3 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v13 (broadcastInDim S1600000 ![] bcast_S_S1600000 : (⟨S_, .i32⟩ : BufTy).Contents (Elt F) → (⟨S1600000, .i32⟩ : BufTy).Contents (Elt F)),
    binary main_v3 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v3 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_arg1 main_v16 main_v17 ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)) ]
/-- The buffers they write, in order. -/
abbrev W3 : List (Ref sig .tc) := [main_c_1, main_v11, main_v12, main_c_2, main_v13, main_v14, main_v15, main_v16, main_v17]
theorem opsS3_sub : (opsS3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem opsS3_fresh : (opsS3 : List (HloOp τ sig (Elt F))).Forall fun op => op.fresh = ∅ :=
  ⟨rfl, rfl, rfl, rfl, rfl, rfl, rfl, rfl, rfl⟩
theorem opsS3_writes : (opsS3 : List (HloOp τ sig (Elt F))).Forall fun op => op.writes ⊆ (W3.map (Proc.devRef (τ := τ) .tc)).toFinset :=
  ⟨wsub (y := main_c_1) rfl (by decide), wsub (y := main_v11) rfl (by decide), wsub (y := main_v12) rfl (by decide), wsub (y := main_c_2) rfl (by decide), wsub (y := main_v13) rfl (by decide), wsub (y := main_v14) rfl (by decide), wsub (y := main_v15) rfl (by decide), wsub (y := main_v16) rfl (by decide), wsub (y := main_v17) rfl (by decide)⟩

/-- Operations 23 … 23 of 262 (statements 23 … 23 of @main). -/
abbrev opsS4 : List (HloOp τ sig (Elt F)) :=
  [ binary main_v10 main_v17 main_v18 (subf : (⟨S1600000x4, .f32⟩ : BufTy).Contents (Elt F) → (⟨S1600000x4, .f32⟩ : BufTy).Contents (Elt F) → (⟨S1600000x4, .f32⟩ : BufTy).Contents (Elt F)) ]
/-- The buffers they write, in order. -/
abbrev W4 : List (Ref sig .tc) := [main_v18]
theorem opsS4_sub : (opsS4 : List (HloOp τ sig (Elt F))).Forall fun op => op.bufs ⊆ tcRefs τ sig :=
  binary_bufs_sub ..
theorem opsS4_fresh : (opsS4 : List (HloOp τ sig (Elt F))).Forall fun op => op.fresh = ∅ :=
  rfl
theorem opsS4_writes : (opsS4 : List (HloOp τ sig (Elt F))).Forall fun op => op.writes ⊆ (W4.map (Proc.devRef (τ := τ) .tc)).toFinset :=
  wsub (y := main_v18) rfl (by decide)

/-- Operations 24 … 39 of 262 (statements 24 … 39 of @main). -/
abbrev opsS5 : List (HloOp τ sig (Elt F)) :=
  [ binary main_v18 main_v18 main_v19 (mulf : (⟨S1600000x4, .f32⟩ : BufTy).Contents (Elt F) → (⟨S1600000x4, .f32⟩ : BufTy).Contents (Elt F) → (⟨S1600000x4, .f32⟩ : BufTy).Contents (Elt F)),
    unary main_v19 main_v20 ((extractStridedSlice S1600000x1 ![0, 0] · slices_S1600000x4_S1600000x1_0_0) : (⟨S1600000x4, .f32⟩ : BufTy).Contents (Elt F) → (⟨S1600000x1, .f32⟩ : BufTy).Contents (Elt F)),
    reshape main_v20 main_v21 rfl shapeCasts_S1600000x1_S1600000,
    nullary main_cst (constant S_ .f32 0x40000000#32),
    unary main_cst main_v22 (broadcastInDim S1600000 ![] bcast_S_S1600000 : (⟨S_, .f32⟩ : BufTy).Contents (Elt F) → (⟨S1600000, .f32⟩ : BufTy).Contents (Elt F)),
    binary main_v22 main_v21 main_v23 (mulf : (⟨S1600000, .f32⟩ : BufTy).Contents (Elt F) → (⟨S1600000, .f32⟩ : BufTy).Contents (Elt F) → (⟨S1600000, .f32⟩ : BufTy).Contents (Elt F)),
    nullary main_cst_3 (constant S_ .f32 0x00000000#32),
    binary main_v19 main_cst_3 main_v24 ((fun x v => Host.reduceAdd x v reducesTo_S1600000x4_S1600000_d1 h_S_) : (⟨S1600000x4, .f32⟩ : BufTy).Contents (Elt F) → (⟨S_, .f32⟩ : BufTy).Contents (Elt F) → (⟨S1600000, .f32⟩ : BufTy).Contents (Elt F)),
    binary main_v23 main_v24 main_v25 (subf : (⟨S1600000, .f32⟩ : BufTy).Contents (Elt F) → (⟨S1600000, .f32⟩ : BufTy).Contents (Elt F) → (⟨S1600000, .f32⟩ : BufTy).Contents (Elt F)),
    unary main_v25 main_v26 (Host.sign : (⟨S1600000, .f32⟩ : BufTy).Contents (Elt F) → (⟨S1600000, .f32⟩ : BufTy).Contents (Elt F)),
    unary main_v25 main_v27 (Host.absf : (⟨S1600000, .f32⟩ : BufTy).Contents (Elt F) → (⟨S1600000, .f32⟩ : BufTy).Contents (Elt F)),
    nullary main_cst_4 (constant S_ .f32 0x3F800000#32),
    unary main_cst_4 main_v28 (broadcastInDim S1600000 ![] bcast_S_S1600000 : (⟨S_, .f32⟩ : BufTy).Contents (Elt F) → (⟨S1600000, .f32⟩ : BufTy).Contents (Elt F)),
    binary main_v27 main_v28 main_v29 (addf : (⟨S1600000, .f32⟩ : BufTy).Contents (Elt F) → (⟨S1600000, .f32⟩ : BufTy).Contents (Elt F) → (⟨S1600000, .f32⟩ : BufTy).Contents (Elt F)),
    unary main_v29 main_v30 (Host.log : (⟨S1600000, .f32⟩ : BufTy).Contents (Elt F) → (⟨S1600000, .f32⟩ : BufTy).Contents (Elt F)),
    binary main_v26 main_v30 main_v31 (mulf : (⟨S1600000, .f32⟩ : BufTy).Contents (Elt F) → (⟨S1600000, .f32⟩ : BufTy).Contents (Elt F) → (⟨S1600000, .f32⟩ : BufTy).Contents (Elt F)) ]
/-- The buffers they write, in order. -/
abbrev W5 : List (Ref sig .tc) := [main_v19, main_v20, main_v21, main_cst, main_v22, main_v23, main_cst_3, main_v24, main_v25, main_v26, main_v27, main_cst_4, main_v28, main_v29, main_v30, main_v31]
theorem opsS5_sub : (opsS5 : List (HloOp τ sig (Elt F))).Forall fun op => op.bufs ⊆ tcRefs τ sig :=
  ⟨binary_bufs_sub .., unary_bufs_sub .., reshape_bufs_sub .., nullary_bufs_sub .., unary_bufs_sub .., binary_bufs_sub .., nullary_bufs_sub .., binary_bufs_sub .., binary_bufs_sub .., unary_bufs_sub .., unary_bufs_sub .., nullary_bufs_sub .., unary_bufs_sub .., binary_bufs_sub .., unary_bufs_sub .., binary_bufs_sub ..⟩
theorem opsS5_fresh : (opsS5 : List (HloOp τ sig (Elt F))).Forall fun op => op.fresh = ∅ :=
  ⟨rfl, rfl, rfl, rfl, rfl, rfl, rfl, rfl, rfl, rfl, rfl, rfl, rfl, rfl, rfl, rfl⟩
theorem opsS5_writes : (opsS5 : List (HloOp τ sig (Elt F))).Forall fun op => op.writes ⊆ (W5.map (Proc.devRef (τ := τ) .tc)).toFinset :=
  ⟨wsub (y := main_v19) rfl (by decide), wsub (y := main_v20) rfl (by decide), wsub (y := main_v21) rfl (by decide), wsub (y := main_cst) rfl (by decide), wsub (y := main_v22) rfl (by decide), wsub (y := main_v23) rfl (by decide), wsub (y := main_cst_3) rfl (by decide), wsub (y := main_v24) rfl (by decide), wsub (y := main_v25) rfl (by decide), wsub (y := main_v26) rfl (by decide), wsub (y := main_v27) rfl (by decide), wsub (y := main_cst_4) rfl (by decide), wsub (y := main_v28) rfl (by decide), wsub (y := main_v29) rfl (by decide), wsub (y := main_v30) rfl (by decide), wsub (y := main_v31) rfl (by decide)⟩

/-- Operations 40 … 49 of 262 (statements 40 … 49 of @main). -/
abbrev opsS6 : List (HloOp τ sig (Elt F)) :=
  [ unary main_v31 main_v32 (broadcastInDim S1600000x1 ![0] bcast_S1600000_S1600000x1_0 : (⟨S1600000, .f32⟩ : BufTy).Contents (Elt F) → (⟨S1600000x1, .f32⟩ : BufTy).Contents (Elt F)),
    nullary main_c_5 (constantI S_ 32 0#32),
    unary main_c_5 main_v33 (broadcastInDim S1600000 ![] bcast_S_S1600000 : (⟨S_, .i32⟩ : BufTy).Contents (Elt F) → (⟨S1600000, .i32⟩ : BufTy).Contents (Elt F)),
    binary main_v1 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v35 (broadcastInDim S1600000 ![] bcast_S_S1600000 : (⟨S_, .i32⟩ : BufTy).Contents (Elt F) → (⟨S1600000, .i32⟩ : BufTy).Contents (Elt F)),
    binary main_v1 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_arg1 main_v38 main_v39 ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)) ]
/-- The buffers they write, in order. -/
abbrev W6 : List (Ref sig .tc) := [main_v32, main_c_5, main_v33, main_v34, main_c_6, main_v35, main_v36, main_v37, main_v38, main_v39]
theorem opsS6_sub : (opsS6 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub ..⟩
theorem opsS6_fresh : (opsS6 : List (HloOp τ sig (Elt F))).Forall fun op => op.fresh = ∅ :=
  ⟨rfl, rfl, rfl, rfl, rfl, rfl, rfl, rfl, rfl, rfl⟩
theorem opsS6_writes : (opsS6 : List (HloOp τ sig (Elt F))).Forall fun op => op.writes ⊆ (W6.map (Proc.devRef (τ := τ) .tc)).toFinset :=
  ⟨wsub (y := main_v32) rfl (by decide), wsub (y := main_c_5) rfl (by decide), wsub (y := main_v33) rfl (by decide), wsub (y := main_v34) rfl (by decide), wsub (y := main_c_6) rfl (by decide), wsub (y := main_v35) rfl (by decide), wsub (y := main_v36) rfl (by decide), wsub (y := main_v37) rfl (by decide), wsub (y := main_v38) rfl (by decide), wsub (y := main_v39) rfl (by decide)⟩

/-- Operations 50 … 58 of 262 (statements 50 … 58 of @main). -/
abbrev opsS7 : List (HloOp τ sig (Elt F)) :=
  [ nullary main_c_7 (constantI S_ 32 0#32),
    unary main_c_7 main_v40 (broadcastInDim S1600000 ![] bcast_S_S1600000 : (⟨S_, .i32⟩ : BufTy).Contents (Elt F) → (⟨S1600000, .i32⟩ : BufTy).Contents (Elt F)),
    binary main_v3 main_v40 main_v41 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v42 (broadcastInDim S1600000 ![] bcast_S_S1600000 : (⟨S_, .i32⟩ : BufTy).Contents (Elt F) → (⟨S1600000, .i32⟩ : BufTy).Contents (Elt F)),
    binary main_v3 main_v42 main_v43 (addi : (⟨S1600000, .i32⟩ : BufTy).Contents (Elt F) → (⟨S1600000, .i32⟩ : BufTy).Contents (Elt F) → (⟨S1600000, .i32⟩ : BufTy).Contents (Elt F)),
    ternary main_v41 main_v43 main_v3 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v44 main_v45 (broadcastInDim S1600000x1 ![0] bcast_S1600000_S1600000x1_0 : (⟨S1600000, .i32⟩ : BufTy).Contents (Elt F) → (⟨S1600000x1, .i32⟩ : BufTy).Contents (Elt F)),
    binary main_arg1 main_v45 main_v46 ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)) ]
/-- The buffers they write, in order. -/
abbrev W7 : List (Ref sig .tc) := [main_c_7, main_v40, main_v41, main_c_8, main_v42, main_v43, main_v44, main_v45, main_v46]
theorem opsS7_sub : (opsS7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem opsS7_fresh : (opsS7 : List (HloOp τ sig (Elt F))).Forall fun op => op.fresh = ∅ :=
  ⟨rfl, rfl, rfl, rfl, rfl, rfl, rfl, rfl, rfl⟩
theorem opsS7_writes : (opsS7 : List (HloOp τ sig (Elt F))).Forall fun op => op.writes ⊆ (W7.map (Proc.devRef (τ := τ) .tc)).toFinset :=
  ⟨wsub (y := main_c_7) rfl (by decide), wsub (y := main_v40) rfl (by decide), wsub (y := main_v41) rfl (by decide), wsub (y := main_c_8) rfl (by decide), wsub (y := main_v42) rfl (by decide), wsub (y := main_v43) rfl (by decide), wsub (y := main_v44) rfl (by decide), wsub (y := main_v45) rfl (by decide), wsub (y := main_v46) rfl (by decide)⟩

/-- Operations 59 … 60 of 262 (statements 59 … 60 of @main). -/
abbrev opsS8 : List (HloOp τ sig (Elt F)) :=
  [ binary main_v39 main_v46 main_v47 (mulf : (⟨S1600000x4, .f32⟩ : BufTy).Contents (Elt F) → (⟨S1600000x4, .f32⟩ : BufTy).Contents (Elt F) → (⟨S1600000x4, .f32⟩ : BufTy).Contents (Elt F)),
    unary main_v47 main_v48 ((extractStridedSlice S1600000x1 ![0, 0] · slices_S1600000x4_S1600000x1_0_0) : (⟨S1600000x4, .f32⟩ : BufTy).Contents (Elt F) → (⟨S1600000x1, .f32⟩ : BufTy).Contents (Elt F)) ]
/-- The buffers they write, in order. -/
abbrev W8 : List (Ref sig .tc) := [main_v47, main_v48]
theorem opsS8_sub : (opsS8 : List (HloOp τ sig (Elt F))).Forall fun op => op.bufs ⊆ tcRefs τ sig :=
  ⟨binary_bufs_sub .., unary_bufs_sub ..⟩
theorem opsS8_fresh : (opsS8 : List (HloOp τ sig (Elt F))).Forall fun op => op.fresh = ∅ :=
  ⟨rfl, rfl⟩
theorem opsS8_writes : (opsS8 : List (HloOp τ sig (Elt F))).Forall fun op => op.writes ⊆ (W8.map (Proc.devRef (τ := τ) .tc)).toFinset :=
  ⟨wsub (y := main_v47) rfl (by decide), wsub (y := main_v48) rfl (by decide)⟩

/-- Operations 61 … 74 of 262 (statements 61 … 74 of @main). -/
abbrev opsS9 : List (HloOp τ sig (Elt F)) :=
  [ reshape main_v48 main_v49 rfl shapeCasts_S1600000x1_S1600000,
    nullary main_cst_9 (constant S_ .f32 0x40000000#32),
    unary main_cst_9 main_v50 (broadcastInDim S1600000 ![] bcast_S_S1600000 : (⟨S_, .f32⟩ : BufTy).Contents (Elt F) → (⟨S1600000, .f32⟩ : BufTy).Contents (Elt F)),
    binary main_v50 main_v49 main_v51 (mulf : (⟨S1600000, .f32⟩ : BufTy).Contents (Elt F) → (⟨S1600000, .f32⟩ : BufTy).Contents (Elt F) → (⟨S1600000, .f32⟩ : BufTy).Contents (Elt F)),
    nullary main_cst_10 (constant S_ .f32 0x00000000#32),
    binary main_v47 main_cst_10 main_v52 ((fun x v => Host.reduceAdd x v reducesTo_S1600000x4_S1600000_d1 h_S_) : (⟨S1600000x4, .f32⟩ : BufTy).Contents (Elt F) → (⟨S_, .f32⟩ : BufTy).Contents (Elt F) → (⟨S1600000, .f32⟩ : BufTy).Contents (Elt F)),
    binary main_v51 main_v52 main_v53 (subf : (⟨S1600000, .f32⟩ : BufTy).Contents (Elt F) → (⟨S1600000, .f32⟩ : BufTy).Contents (Elt F) → (⟨S1600000, .f32⟩ : BufTy).Contents (Elt F)),
    unary main_v53 main_v54 (Host.sign : (⟨S1600000, .f32⟩ : BufTy).Contents (Elt F) → (⟨S1600000, .f32⟩ : BufTy).Contents (Elt F)),
    unary main_v53 main_v55 (Host.absf : (⟨S1600000, .f32⟩ : BufTy).Contents (Elt F) → (⟨S1600000, .f32⟩ : BufTy).Contents (Elt F)),
    nullary main_cst_11 (constant S_ .f32 0x3F800000#32),
    unary main_cst_11 main_v56 (broadcastInDim S1600000 ![] bcast_S_S1600000 : (⟨S_, .f32⟩ : BufTy).Contents (Elt F) → (⟨S1600000, .f32⟩ : BufTy).Contents (Elt F)),
    binary main_v55 main_v56 main_v57 (addf : (⟨S1600000, .f32⟩ : BufTy).Contents (Elt F) → (⟨S1600000, .f32⟩ : BufTy).Contents (Elt F) → (⟨S1600000, .f32⟩ : BufTy).Contents (Elt F)),
    unary main_v57 main_v58 (Host.log : (⟨S1600000, .f32⟩ : BufTy).Contents (Elt F) → (⟨S1600000, .f32⟩ : BufTy).Contents (Elt F)),
    binary main_v54 main_v58 main_v59 (mulf : (⟨S1600000, .f32⟩ : BufTy).Contents (Elt F) → (⟨S1600000, .f32⟩ : BufTy).Contents (Elt F) → (⟨S1600000, .f32⟩ : BufTy).Contents (Elt F)) ]
/-- The buffers they write, in order. -/
abbrev W9 : List (Ref sig .tc) := [main_v49, main_cst_9, main_v50, main_v51, main_cst_10, main_v52, main_v53, main_v54, main_v55, main_cst_11, main_v56, main_v57, main_v58, main_v59]
theorem opsS9_sub : (opsS9 : List (HloOp τ sig (Elt F))).Forall fun op => op.bufs ⊆ tcRefs τ sig :=
  ⟨reshape_bufs_sub .., nullary_bufs_sub .., unary_bufs_sub .., binary_bufs_sub .., nullary_bufs_sub .., binary_bufs_sub .., binary_bufs_sub .., unary_bufs_sub .., unary_bufs_sub .., nullary_bufs_sub .., unary_bufs_sub .., binary_bufs_sub .., unary_bufs_sub .., binary_bufs_sub ..⟩
theorem opsS9_fresh : (opsS9 : List (HloOp τ sig (Elt F))).Forall fun op => op.fresh = ∅ :=
  ⟨rfl, rfl, rfl, rfl, rfl, rfl, rfl, rfl, rfl, rfl, rfl, rfl, rfl, rfl⟩
theorem opsS9_writes : (opsS9 : List (HloOp τ sig (Elt F))).Forall fun op => op.writes ⊆ (W9.map (Proc.devRef (τ := τ) .tc)).toFinset :=
  ⟨wsub (y := main_v49) rfl (by decide), wsub (y := main_cst_9) rfl (by decide), wsub (y := main_v50) rfl (by decide), wsub (y := main_v51) rfl (by decide), wsub (y := main_cst_10) rfl (by decide), wsub (y := main_v52) rfl (by decide), wsub (y := main_v53) rfl (by decide), wsub (y := main_v54) rfl (by decide), wsub (y := main_v55) rfl (by decide), wsub (y := main_cst_11) rfl (by decide), wsub (y := main_v56) rfl (by decide), wsub (y := main_v57) rfl (by decide), wsub (y := main_v58) rfl (by decide), wsub (y := main_v59) rfl (by decide)⟩

/-- Operations 75 … 84 of 262 (statements 75 … 84 of @main). -/
abbrev opsS10 : List (HloOp τ sig (Elt F)) :=
  [ unary main_v59 main_v60 (broadcastInDim S1600000x1 ![0] bcast_S1600000_S1600000x1_0 : (⟨S1600000, .f32⟩ : BufTy).Contents (Elt F) → (⟨S1600000x1, .f32⟩ : BufTy).Contents (Elt F)),
    nullary main_c_12 (constantI S_ 32 0#32),
    unary main_c_12 main_v61 (broadcastInDim S1600000 ![] bcast_S_S1600000 : (⟨S_, .i32⟩ : BufTy).Contents (Elt F) → (⟨S1600000, .i32⟩ : BufTy).Contents (Elt F)),
    binary main_v1 main_v61 main_v62 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 50000#32),
    unary main_c_13 main_v63 (broadcastInDim S1600000 ![] bcast_S_S1600000 : (⟨S_, .i32⟩ : BufTy).Contents (Elt F) → (⟨S1600000, .i32⟩ : BufTy).Contents (Elt F)),
    binary main_v1 main_v63 main_v64 (addi : (⟨S1600000, .i32⟩ : BufTy).Contents (Elt F) → (⟨S1600000, .i32⟩ : BufTy).Contents (Elt F) → (⟨S1600000, .i32⟩ : BufTy).Contents (Elt F)),
    ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v65 main_v66 (broadcastInDim S1600000x1 ![0] bcast_S1600000_S1600000x1_0 : (⟨S1600000, .i32⟩ : BufTy).Contents (Elt F) → (⟨S1600000x1, .i32⟩ : BufTy).Contents (Elt F)),
    binary main_arg0 main_v66 main_v67 ((fun x i => Host.gather gather_S50000x72_S1600000x1_S1600000x72_1_0_n_n_0_1_172 x i) : (⟨S50000x72, .f32⟩ : BufTy).Contents (Elt F) → (⟨S1600000x1, .i32⟩ : BufTy).Contents (Elt F) → (⟨S1600000x72, .f32⟩ : BufTy).Contents (Elt F)) ]
/-- The buffers they write, in order. -/
abbrev W10 : List (Ref sig .tc) := [main_v60, main_c_12, main_v61, main_v62, main_c_13, main_v63, main_v64, main_v65, main_v66, main_v67]
theorem opsS10_sub : (opsS10 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub ..⟩
theorem opsS10_fresh : (opsS10 : List (HloOp τ sig (Elt F))).Forall fun op => op.fresh = ∅ :=
  ⟨rfl, rfl, rfl, rfl, rfl, rfl, rfl, rfl, rfl, rfl⟩
theorem opsS10_writes : (opsS10 : List (HloOp τ sig (Elt F))).Forall fun op => op.writes ⊆ (W10.map (Proc.devRef (τ := τ) .tc)).toFinset :=
  ⟨wsub (y := main_v60) rfl (by decide), wsub (y := main_c_12) rfl (by decide), wsub (y := main_v61) rfl (by decide), wsub (y := main_v62) rfl (by decide), wsub (y := main_c_13) rfl (by decide), wsub (y := main_v63) rfl (by decide), wsub (y := main_v64) rfl (by decide), wsub (y := main_v65) rfl (by decide), wsub (y := main_v66) rfl (by decide), wsub (y := main_v67) rfl (by decide)⟩

/-- Operations 85 … 93 of 262 (statements 85 … 93 of @main). -/
abbrev opsS11 : List (HloOp τ sig (Elt F)) :=
  [ nullary main_c_14 (constantI S_ 32 0#32),
    unary main_c_14 main_v68 (broadcastInDim S1600000 ![] bcast_S_S1600000 : (⟨S_, .i32⟩ : BufTy).Contents (Elt F) → (⟨S1600000, .i32⟩ : BufTy).Contents (Elt F)),
    binary main_v3 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 50000#32),
    unary main_c_15 main_v70 (broadcastInDim S1600000 ![] bcast_S_S1600000 : (⟨S_, .i32⟩ : BufTy).Contents (Elt F) → (⟨S1600000, .i32⟩ : BufTy).Contents (Elt F)),
    binary main_v3 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_v3 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_arg0 main_v73 main_v74 ((fun x i => Host.gather gather_S50000x72_S1600000x1_S1600000x72_1_0_n_n_0_1_172 x i) : (⟨S50000x72, .f32⟩ : BufTy).Contents (Elt F) → (⟨S1600000x1, .i32⟩ : BufTy).Contents (Elt F) → (⟨S1600000x72, .f32⟩ : BufTy).Contents (Elt F)) ]
/-- The buffers they write, in order. -/
abbrev W11 : List (Ref sig .tc) := [main_c_14, main_v68, main_v69, main_c_15, main_v70, main_v71, main_v72, main_v73, main_v74]
theorem opsS11_sub : (opsS11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem opsS11_fresh : (opsS11 : List (HloOp τ sig (Elt F))).Forall fun op => op.fresh = ∅ :=
  ⟨rfl, rfl, rfl, rfl, rfl, rfl, rfl, rfl, rfl⟩
theorem opsS11_writes : (opsS11 : List (HloOp τ sig (Elt F))).Forall fun op => op.writes ⊆ (W11.map (Proc.devRef (τ := τ) .tc)).toFinset :=
  ⟨wsub (y := main_c_14) rfl (by decide), wsub (y := main_v68) rfl (by decide), wsub (y := main_v69) rfl (by decide), wsub (y := main_c_15) rfl (by decide), wsub (y := main_v70) rfl (by decide), wsub (y := main_v71) rfl (by decide), wsub (y := main_v72) rfl (by decide), wsub (y := main_v73) rfl (by decide), wsub (y := main_v74) rfl (by decide)⟩

/-- Operations 94 … 94 of 262 (statements 94 … 94 of @main). -/
abbrev opsS12 : List (HloOp τ sig (Elt F)) :=
  [ nary ![main_v67, main_v74, main_v32, main_v60] main_v75 (fun u => concatenate S1600000x146 1 [⟨S1600000x72, u 0⟩, ⟨S1600000x72, u 1⟩, ⟨S1600000x1, u 2⟩, ⟨S1600000x1, u 3⟩] concatenates_S1600000x72_S1600000x72_S1600000x1_S1600000x1_S1600000x146_d1) ]
/-- The buffers they write, in order. -/
abbrev W12 : List (Ref sig .tc) := [main_v75]
theorem opsS12_sub : (opsS12 : List (HloOp τ sig (Elt F))).Forall fun op => op.bufs ⊆ tcRefs τ sig :=
  nary_bufs_sub ..
theorem opsS12_fresh : (opsS12 : List (HloOp τ sig (Elt F))).Forall fun op => op.fresh = ∅ :=
  rfl
theorem opsS12_writes : (opsS12 : List (HloOp τ sig (Elt F))).Forall fun op => op.writes ⊆ (W12.map (Proc.devRef (τ := τ) .tc)).toFinset :=
  wsub (y := main_v75) rfl (by decide)

/-- Operations 95 … 95 of 262 (statements 95 … 95 of @main). -/
abbrev opsS13 : List (HloOp τ sig (Elt F)) :=
  [ binary main_v75 main_arg4 main_v76 ((fun l r => Host.dotGeneral dot_S1600000x146_S146x72_S1600000x72_1_0_0_1_n_n none l r) : (⟨S1600000x146, .f32⟩ : BufTy).Contents (Elt F) → (⟨S146x72, .f32⟩ : BufTy).Contents (Elt F) → (⟨S1600000x72, .f32⟩ : BufTy).Contents (Elt F)) ]
/-- The buffers they write, in order. -/
abbrev W13 : List (Ref sig .tc) := [main_v76]
theorem opsS13_sub : (opsS13 : List (HloOp τ sig (Elt F))).Forall fun op => op.bufs ⊆ tcRefs τ sig :=
  binary_bufs_sub ..
theorem opsS13_fresh : (opsS13 : List (HloOp τ sig (Elt F))).Forall fun op => op.fresh = ∅ :=
  rfl
theorem opsS13_writes : (opsS13 : List (HloOp τ sig (Elt F))).Forall fun op => op.writes ⊆ (W13.map (Proc.devRef (τ := τ) .tc)).toFinset :=
  wsub (y := main_v76) rfl (by decide)

/-- Operations 96 … 100 of 262 (statements 96 … 100 of @main). -/
abbrev opsS14 : List (HloOp τ sig (Elt F)) :=
  [ nullary main_cst_16 (constant S_ .f32 0x00000000#32),
    binary main_v76 main_cst_16 main_v77 ((fun x v => Host.reduceAdd x v reducesTo_S1600000x72_S72_d0 h_S_) : (⟨S1600000x72, .f32⟩ : BufTy).Contents (Elt F) → (⟨S_, .f32⟩ : BufTy).Contents (Elt F) → (⟨S72, .f32⟩ : BufTy).Contents (Elt F)),
    nullary main_cst_17 (constant S_ .f32 0x49C35000#32),
    unary main_cst_17 main_v78 (broadcastInDim S72 ![] bcast_S_S72 : (⟨S_, .f32⟩ : BufTy).Contents (Elt F) → (⟨S72, .f32⟩ : BufTy).Contents (Elt F)),
    binary main_v77 main_v78 main_v79 (Host.divf : (⟨S72, .f32⟩ : BufTy).Contents (Elt F) → (⟨S72, .f32⟩ : BufTy).Contents (Elt F) → (⟨S72, .f32⟩ : BufTy).Contents (Elt F)) ]
/-- The buffers they write, in order. -/
abbrev W14 : List (Ref sig .tc) := [main_cst_16, main_v77, main_cst_17, main_v78, main_v79]
theorem opsS14_sub : (opsS14 : List (HloOp τ sig (Elt F))).Forall fun op => op.bufs ⊆ tcRefs τ sig :=
  ⟨nullary_bufs_sub .., binary_bufs_sub .., nullary_bufs_sub .., unary_bufs_sub .., binary_bufs_sub ..⟩
theorem opsS14_fresh : (opsS14 : List (HloOp τ sig (Elt F))).Forall fun op => op.fresh = ∅ :=
  ⟨rfl, rfl, rfl, rfl, rfl⟩
theorem opsS14_writes : (opsS14 : List (HloOp τ sig (Elt F))).Forall fun op => op.writes ⊆ (W14.map (Proc.devRef (τ := τ) .tc)).toFinset :=
  ⟨wsub (y := main_cst_16) rfl (by decide), wsub (y := main_v77) rfl (by decide), wsub (y := main_cst_17) rfl (by decide), wsub (y := main_v78) rfl (by decide), wsub (y := main_v79) rfl (by decide)⟩

/-- Operations 101 … 123 of 262 (statements 101 … 102 of @main). -/
abbrev opsS15 : List (HloOp τ sig (Elt F)) :=
  [ nullary main_c_18 (constantI S_ 32 0#32),
    TRef.nullary main_call0.cst (constant S_ .f32 0x00000000#32),
    TRef.binary (.of main_v76 : TRef sig ⟨S1600000x72, .f32⟩) main_call0.cst main_call0.v0 (fun x v => Host.reduceAdd x v reducesTo_S1600000x72_S72_d0 h_S_),
    TRef.unary main_call0.v0 main_call0.v1 (broadcastInDim S1x72 ![1] bcast_S72_S1x72_1),
    TRef.nullary main_call0.cst_0 (constant S_ .f32 0x49C35000#32),
    TRef.unary main_call0.cst_0 main_call0.v2 (broadcastInDim S1x72 ![] bcast_S_S1x72),
    TRef.binary main_call0.v1 main_call0.v2 main_call0.v3 Host.divf,
    TRef.unary main_call0.v3 main_call0.v4 (broadcastInDim S1600000x72 ![0, 1] bcast_S1x72_S1600000x72_0_1),
    TRef.binary (.of main_v76 : TRef sig ⟨S1600000x72, .f32⟩) main_call0.v4 main_call0.v5 subf,
    TRef.binary main_call0.v5 main_call0.v5 main_call0.v6 mulf,
    TRef.unary (.of main_c_18 : TRef sig ⟨S_, .i32⟩) main_call0.v7 (sitofp .f32),
    TRef.nullary main_call0.cst_1 (constant S_ .f32 0x49C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1600000x72_S72_d0 h_S_),
    TRef.unary main_call0.v8 main_call0.v10 (broadcastInDim S72 ![] bcast_S_S72),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S72 ![] bcast_S_S72),
    TRef.ternary main_call0.v12 main_call0.v11 main_call0.call0.v1 main_call0.call0.v2 (fun p a b => select (broadcastInDim S72 ![] bcast_S_S72 p) a b) ]
/-- The buffers they write, in order. -/
abbrev W15 : List (Ref sig .tc) := [main_c_18, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v80]
theorem opsS15_sub : (opsS15 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsS15_fresh : (opsS15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem opsS15_writes : (opsS15 : List (HloOp τ sig (Elt F))).Forall fun op => op.writes ⊆ (W15.map (Proc.devRef (τ := τ) .tc)).toFinset :=
  ⟨wsub (y := main_c_18) rfl (by decide), wsub (y := main_call0_cst) rfl (by decide), wsub (y := main_call0_v0) rfl (by decide), wsub (y := main_call0_v1) rfl (by decide), wsub (y := main_call0_cst_0) rfl (by decide), wsub (y := main_call0_v2) rfl (by decide), wsub (y := main_call0_v3) rfl (by decide), wsub (y := main_call0_v4) rfl (by decide), wsub (y := main_call0_v5) rfl (by decide), wsub (y := main_call0_v6) rfl (by decide), wsub (y := main_call0_v7) rfl (by decide), wsub (y := main_call0_cst_1) rfl (by decide), wsub (y := main_call0_v8) rfl (by decide), wsub (y := main_call0_cst_2) rfl (by decide), wsub (y := main_call0_v9) rfl (by decide), wsub (y := main_call0_v10) rfl (by decide), wsub (y := main_call0_v11) rfl (by decide), wsub (y := main_call0_cst_3) rfl (by decide), wsub (y := main_call0_v12) rfl (by decide), wsub (y := main_call0_cst_4) rfl (by decide), wsub (y := main_call0_call0_v0) rfl (by decide), wsub (y := main_call0_call0_v1) rfl (by decide), wsub (y := main_v80) rfl (by decide)⟩

/-- Operations 124 … 142 of 262 (statements 103 … 119 of @main). -/
abbrev opsS16 : List (HloOp τ sig (Elt F)) :=
  [ unary main_v79 main_v81 (broadcastInDim S1x72 ![1] bcast_S72_S1x72_1 : (⟨S72, .f32⟩ : BufTy).Contents (Elt F) → (⟨S1x72, .f32⟩ : BufTy).Contents (Elt F)),
    unary main_v81 main_v82 (broadcastInDim S1600000x72 ![0, 1] bcast_S1x72_S1600000x72_0_1 : (⟨S1x72, .f32⟩ : BufTy).Contents (Elt F) → (⟨S1600000x72, .f32⟩ : BufTy).Contents (Elt F)),
    binary main_v76 main_v82 main_v83 (subf : (⟨S1600000x72, .f32⟩ : BufTy).Contents (Elt F) → (⟨S1600000x72, .f32⟩ : BufTy).Contents (Elt F) → (⟨S1600000x72, .f32⟩ : BufTy).Contents (Elt F)),
    nullary main_cst_19 (constant S_ .f32 0x3727C5AC#32),
    unary main_cst_19 main_v84 (broadcastInDim S72 ![] bcast_S_S72 : (⟨S_, .f32⟩ : BufTy).Contents (Elt F) → (⟨S72, .f32⟩ : BufTy).Contents (Elt F)),
    binary main_v80 main_v84 main_v85 (addf : (⟨S72, .f32⟩ : BufTy).Contents (Elt F) → (⟨S72, .f32⟩ : BufTy).Contents (Elt F) → (⟨S72, .f32⟩ : BufTy).Contents (Elt F)),
    unary main_v85 main_v86 (Host.rsqrt : (⟨S72, .f32⟩ : BufTy).Contents (Elt F) → (⟨S72, .f32⟩ : BufTy).Contents (Elt F)),
    unary main_v86 main_v87 (broadcastInDim S1x72 ![1] bcast_S72_S1x72_1 : (⟨S72, .f32⟩ : BufTy).Contents (Elt F) → (⟨S1x72, .f32⟩ : BufTy).Contents (Elt F)),
    unary main_v87 main_v88 (broadcastInDim S1600000x72 ![0, 1] bcast_S1x72_S1600000x72_0_1 : (⟨S1x72, .f32⟩ : BufTy).Contents (Elt F) → (⟨S1600000x72, .f32⟩ : BufTy).Contents (Elt F)),
    binary main_v83 main_v88 main_v89 (mulf : (⟨S1600000x72, .f32⟩ : BufTy).Contents (Elt F) → (⟨S1600000x72, .f32⟩ : BufTy).Contents (Elt F) → (⟨S1600000x72, .f32⟩ : BufTy).Contents (Elt F)),
    unary main_arg5 main_v90 (broadcastInDim S1x72 ![1] bcast_S72_S1x72_1 : (⟨S72, .f32⟩ : BufTy).Contents (Elt F) → (⟨S1x72, .f32⟩ : BufTy).Contents (Elt F)),
    unary main_v90 main_v91 (broadcastInDim S1600000x72 ![0, 1] bcast_S1x72_S1600000x72_0_1 : (⟨S1x72, .f32⟩ : BufTy).Contents (Elt F) → (⟨S1600000x72, .f32⟩ : BufTy).Contents (Elt F)),
    binary main_v89 main_v91 main_v92 (mulf : (⟨S1600000x72, .f32⟩ : BufTy).Contents (Elt F) → (⟨S1600000x72, .f32⟩ : BufTy).Contents (Elt F) → (⟨S1600000x72, .f32⟩ : BufTy).Contents (Elt F)),
    unary main_arg6 main_v93 (broadcastInDim S1x72 ![1] bcast_S72_S1x72_1 : (⟨S72, .f32⟩ : BufTy).Contents (Elt F) → (⟨S1x72, .f32⟩ : BufTy).Contents (Elt F)),
    unary main_v93 main_v94 (broadcastInDim S1600000x72 ![0, 1] bcast_S1x72_S1600000x72_0_1 : (⟨S1x72, .f32⟩ : BufTy).Contents (Elt F) → (⟨S1600000x72, .f32⟩ : BufTy).Contents (Elt F)),
    binary main_v92 main_v94 main_v95 (addf : (⟨S1600000x72, .f32⟩ : BufTy).Contents (Elt F) → (⟨S1600000x72, .f32⟩ : BufTy).Contents (Elt F) → (⟨S1600000x72, .f32⟩ : BufTy).Contents (Elt F)),
    TRef.nullary main_call1.cst (constant S_ .f32 0x00000000#32),
    TRef.unary main_call1.cst main_call1.v0 (broadcastInDim S1600000x72 ![] bcast_S_S1600000x72),
    TRef.binary (.of main_v95 : TRef sig ⟨S1600000x72, .f32⟩) main_call1.v0 main_call1.v1 maximumf ]
/-- The buffers they write, in order. -/
abbrev W16 : List (Ref sig .tc) := [main_v81, main_v82, main_v83, main_cst_19, main_v84, main_v85, main_v86, main_v87, main_v88, main_v89, main_v90, main_v91, main_v92, main_v93, main_v94, main_v95, main_call1_cst, main_call1_v0, main_v96]
theorem opsS16_sub : (opsS16 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsS16_fresh : (opsS16 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem opsS16_writes : (opsS16 : List (HloOp τ sig (Elt F))).Forall fun op => op.writes ⊆ (W16.map (Proc.devRef (τ := τ) .tc)).toFinset :=
  ⟨wsub (y := main_v81) rfl (by decide), wsub (y := main_v82) rfl (by decide), wsub (y := main_v83) rfl (by decide), wsub (y := main_cst_19) rfl (by decide), wsub (y := main_v84) rfl (by decide), wsub (y := main_v85) rfl (by decide), wsub (y := main_v86) rfl (by decide), wsub (y := main_v87) rfl (by decide), wsub (y := main_v88) rfl (by decide), wsub (y := main_v89) rfl (by decide), wsub (y := main_v90) rfl (by decide), wsub (y := main_v91) rfl (by decide), wsub (y := main_v92) rfl (by decide), wsub (y := main_v93) rfl (by decide), wsub (y := main_v94) rfl (by decide), wsub (y := main_v95) rfl (by decide), wsub (y := main_call1_cst) rfl (by decide), wsub (y := main_call1_v0) rfl (by decide), wsub (y := main_v96) rfl (by decide)⟩

/-- Operations 143 … 143 of 262 (statements 120 … 120 of @main). -/
abbrev opsS17 : List (HloOp τ sig (Elt F)) :=
  [ binary main_v96 main_arg7 main_v97 ((fun l r => Host.dotGeneral dot_S1600000x72_S72x72_S1600000x72_1_0_0_1_n_n none l r) : (⟨S1600000x72, .f32⟩ : BufTy).Contents (Elt F) → (⟨S72x72, .f32⟩ : BufTy).Contents (Elt F) → (⟨S1600000x72, .f32⟩ : BufTy).Contents (Elt F)) ]
/-- The buffers they write, in order. -/
abbrev W17 : List (Ref sig .tc) := [main_v97]
theorem opsS17_sub : (opsS17 : List (HloOp τ sig (Elt F))).Forall fun op => op.bufs ⊆ tcRefs τ sig :=
  binary_bufs_sub ..
theorem opsS17_fresh : (opsS17 : List (HloOp τ sig (Elt F))).Forall fun op => op.fresh = ∅ :=
  rfl
theorem opsS17_writes : (opsS17 : List (HloOp τ sig (Elt F))).Forall fun op => op.writes ⊆ (W17.map (Proc.devRef (τ := τ) .tc)).toFinset :=
  wsub (y := main_v97) rfl (by decide)

/-- Operations 144 … 149 of 262 (statements 121 … 124 of @main). -/
abbrev opsS18 : List (HloOp τ sig (Elt F)) :=
  [ unary main_arg8 main_v98 (broadcastInDim S1x72 ![1] bcast_S72_S1x72_1 : (⟨S72, .f32⟩ : BufTy).Contents (Elt F) → (⟨S1x72, .f32⟩ : BufTy).Contents (Elt F)),
    unary main_v98 main_v99 (broadcastInDim S1600000x72 ![0, 1] bcast_S1x72_S1600000x72_0_1 : (⟨S1x72, .f32⟩ : BufTy).Contents (Elt F) → (⟨S1600000x72, .f32⟩ : BufTy).Contents (Elt F)),
    binary main_v97 main_v99 main_v100 (addf : (⟨S1600000x72, .f32⟩ : BufTy).Contents (Elt F) → (⟨S1600000x72, .f32⟩ : BufTy).Contents (Elt F) → (⟨S1600000x72, .f32⟩ : BufTy).Contents (Elt F)),
    TRef.nullary main_call2.cst (constant S_ .f32 0x00000000#32),
    TRef.unary main_call2.cst main_call2.v0 (broadcastInDim S1600000x72 ![] bcast_S_S1600000x72),
    TRef.binary (.of main_v100 : TRef sig ⟨S1600000x72, .f32⟩) main_call2.v0 main_call2.v1 maximumf ]
/-- The buffers they write, in order. -/
abbrev W18 : List (Ref sig .tc) := [main_v98, main_v99, main_v100, main_call2_cst, main_call2_v0, main_v101]
theorem opsS18_sub : (opsS18 : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem opsS18_fresh : (opsS18 : List (HloOp τ sig (Elt F))).Forall fun op => op.fresh = ∅ :=
  ⟨rfl, rfl, rfl, rfl, rfl, rfl⟩
theorem opsS18_writes : (opsS18 : List (HloOp τ sig (Elt F))).Forall fun op => op.writes ⊆ (W18.map (Proc.devRef (τ := τ) .tc)).toFinset :=
  ⟨wsub (y := main_v98) rfl (by decide), wsub (y := main_v99) rfl (by decide), wsub (y := main_v100) rfl (by decide), wsub (y := main_call2_cst) rfl (by decide), wsub (y := main_call2_v0) rfl (by decide), wsub (y := main_v101) rfl (by decide)⟩

/-- Operations 150 … 161 of 262 (statements 125 … 136 of @main). -/
abbrev opsS19 : List (HloOp τ sig (Elt F)) :=
  [ binary main_v101 main_arg18 main_v102 ((fun l r => Host.dotGeneral dot_S1600000x72_S72x1_S1600000x1_1_0_0_1_n_n none l r) : (⟨S1600000x72, .f32⟩ : BufTy).Contents (Elt F) → (⟨S72x1, .f32⟩ : BufTy).Contents (Elt F) → (⟨S1600000x1, .f32⟩ : BufTy).Contents (Elt F)),
    unary main_arg19 main_v103 (broadcastInDim S1x1 ![1] bcast_S1_S1x1_1 : (⟨S1, .f32⟩ : BufTy).Contents (Elt F) → (⟨S1x1, .f32⟩ : BufTy).Contents (Elt F)),
    unary main_v103 main_v104 (broadcastInDim S1600000x1 ![0, 1] bcast_S1x1_S1600000x1_0_1 : (⟨S1x1, .f32⟩ : BufTy).Contents (Elt F) → (⟨S1600000x1, .f32⟩ : BufTy).Contents (Elt F)),
    binary main_v102 main_v104 main_v105 (addf : (⟨S1600000x1, .f32⟩ : BufTy).Contents (Elt F) → (⟨S1600000x1, .f32⟩ : BufTy).Contents (Elt F) → (⟨S1600000x1, .f32⟩ : BufTy).Contents (Elt F)),
    unary main_v105 main_v106 (Host.negf : (⟨S1600000x1, .f32⟩ : BufTy).Contents (Elt F) → (⟨S1600000x1, .f32⟩ : BufTy).Contents (Elt F)),
    unary main_v106 main_v107 (Host.exp : (⟨S1600000x1, .f32⟩ : BufTy).Contents (Elt F) → (⟨S1600000x1, .f32⟩ : BufTy).Contents (Elt F)),
    nullary main_cst_20 (constant S_ .f32 0x3F800000#32),
    unary main_cst_20 main_v108 (broadcastInDim S1600000x1 ![] bcast_S_S1600000x1 : (⟨S_, .f32⟩ : BufTy).Contents (Elt F) → (⟨S1600000x1, .f32⟩ : BufTy).Contents (Elt F)),
    binary main_v108 main_v107 main_v109 (addf : (⟨S1600000x1, .f32⟩ : BufTy).Contents (Elt F) → (⟨S1600000x1, .f32⟩ : BufTy).Contents (Elt F) → (⟨S1600000x1, .f32⟩ : BufTy).Contents (Elt F)),
    nullary main_cst_21 (constant S_ .f32 0x3F800000#32),
    unary main_cst_21 main_v110 (broadcastInDim S1600000x1 ![] bcast_S_S1600000x1 : (⟨S_, .f32⟩ : BufTy).Contents (Elt F) → (⟨S1600000x1, .f32⟩ : BufTy).Contents (Elt F)),
    binary main_v110 main_v109 main_v111 (Host.divf : (⟨S1600000x1, .f32⟩ : BufTy).Contents (Elt F) → (⟨S1600000x1, .f32⟩ : BufTy).Contents (Elt F) → (⟨S1600000x1, .f32⟩ : BufTy).Contents (Elt F)) ]
/-- The buffers they write, in order. -/
abbrev W19 : List (Ref sig .tc) := [main_v102, main_v103, main_v104, main_v105, main_v106, main_v107, main_cst_20, main_v108, main_v109, main_cst_21, main_v110, main_v111]
theorem opsS19_sub : (opsS19 : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem opsS19_fresh : (opsS19 : List (HloOp τ sig (Elt F))).Forall fun op => op.fresh = ∅ :=
  ⟨rfl, rfl, rfl, rfl, rfl, rfl, rfl, rfl, rfl, rfl, rfl, rfl⟩
theorem opsS19_writes : (opsS19 : List (HloOp τ sig (Elt F))).Forall fun op => op.writes ⊆ (W19.map (Proc.devRef (τ := τ) .tc)).toFinset :=
  ⟨wsub (y := main_v102) rfl (by decide), wsub (y := main_v103) rfl (by decide), wsub (y := main_v104) rfl (by decide), wsub (y := main_v105) rfl (by decide), wsub (y := main_v106) rfl (by decide), wsub (y := main_v107) rfl (by decide), wsub (y := main_cst_20) rfl (by decide), wsub (y := main_v108) rfl (by decide), wsub (y := main_v109) rfl (by decide), wsub (y := main_cst_21) rfl (by decide), wsub (y := main_v110) rfl (by decide), wsub (y := main_v111) rfl (by decide)⟩

/-- Operations 162 … 163 of 262 (statements 137 … 138 of @main). -/
abbrev opsS20 : List (HloOp τ sig (Elt F)) :=
  [ unary main_v111 main_v112 (broadcastInDim S1600000x72 ![0, 1] bcast_S1600000x1_S1600000x72_0_1 : (⟨S1600000x1, .f32⟩ : BufTy).Contents (Elt F) → (⟨S1600000x72, .f32⟩ : BufTy).Contents (Elt F)),
    binary main_v101 main_v112 main_v113 (mulf : (⟨S1600000x72, .f32⟩ : BufTy).Contents (Elt F) → (⟨S1600000x72, .f32⟩ : BufTy).Contents (Elt F) → (⟨S1600000x72, .f32⟩ : BufTy).Contents (Elt F)) ]
/-- The buffers they write, in order. -/
abbrev W20 : List (Ref sig .tc) := [main_v112, main_v113]
theorem opsS20_sub : (opsS20 : List (HloOp τ sig (Elt F))).Forall fun op => op.bufs ⊆ tcRefs τ sig :=
  ⟨unary_bufs_sub .., binary_bufs_sub ..⟩
theorem opsS20_fresh : (opsS20 : List (HloOp τ sig (Elt F))).Forall fun op => op.fresh = ∅ :=
  ⟨rfl, rfl⟩
theorem opsS20_writes : (opsS20 : List (HloOp τ sig (Elt F))).Forall fun op => op.writes ⊆ (W20.map (Proc.devRef (τ := τ) .tc)).toFinset :=
  ⟨wsub (y := main_v112) rfl (by decide), wsub (y := main_v113) rfl (by decide)⟩

/-- Operations 164 … 171 of 262 (statements 139 … 144 of @main). -/
abbrev opsS21 : List (HloOp τ sig (Elt F)) :=
  [ binary main_v113 main_arg15 main_v114 ((fun l r => Host.dotGeneral dot_S1600000x72_S72x72_S1600000x72_1_0_0_1_n_n none l r) : (⟨S1600000x72, .f32⟩ : BufTy).Contents (Elt F) → (⟨S72x72, .f32⟩ : BufTy).Contents (Elt F) → (⟨S1600000x72, .f32⟩ : BufTy).Contents (Elt F)),
    unary main_arg16 main_v115 (broadcastInDim S1x72 ![1] bcast_S72_S1x72_1 : (⟨S72, .f32⟩ : BufTy).Contents (Elt F) → (⟨S1x72, .f32⟩ : BufTy).Contents (Elt F)),
    unary main_v115 main_v116 (broadcastInDim S1600000x72 ![0, 1] bcast_S1x72_S1600000x72_0_1 : (⟨S1x72, .f32⟩ : BufTy).Contents (Elt F) → (⟨S1600000x72, .f32⟩ : BufTy).Contents (Elt F)),
    binary main_v114 main_v116 main_v117 (addf : (⟨S1600000x72, .f32⟩ : BufTy).Contents (Elt F) → (⟨S1600000x72, .f32⟩ : BufTy).Contents (Elt F) → (⟨S1600000x72, .f32⟩ : BufTy).Contents (Elt F)),
    TRef.nullary main_call3.cst (constant S_ .f32 0x00000000#32),
    TRef.unary main_call3.cst main_call3.v0 (broadcastInDim S1600000x72 ![] bcast_S_S1600000x72),
    TRef.binary (.of main_v117 : TRef sig ⟨S1600000x72, .f32⟩) main_call3.v0 main_call3.v1 maximumf,
    binary main_v118 main_arg17 main_v119 ((fun l r => Host.dotGeneral dot_S1600000x72_S72x1_S1600000x1_1_0_0_1_n_n none l r) : (⟨S1600000x72, .f32⟩ : BufTy).Contents (Elt F) → (⟨S72x1, .f32⟩ : BufTy).Contents (Elt F) → (⟨S1600000x1, .f32⟩ : BufTy).Contents (Elt F)) ]
/-- The buffers they write, in order. -/
abbrev W21 : List (Ref sig .tc) := [main_v114, main_v115, main_v116, main_v117, main_call3_cst, main_call3_v0, main_v118, main_v119]
theorem opsS21_sub : (opsS21 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub ..⟩
theorem opsS21_fresh : (opsS21 : List (HloOp τ sig (Elt F))).Forall fun op => op.fresh = ∅ :=
  ⟨rfl, rfl, rfl, rfl, rfl, rfl, rfl, rfl⟩
theorem opsS21_writes : (opsS21 : List (HloOp τ sig (Elt F))).Forall fun op => op.writes ⊆ (W21.map (Proc.devRef (τ := τ) .tc)).toFinset :=
  ⟨wsub (y := main_v114) rfl (by decide), wsub (y := main_v115) rfl (by decide), wsub (y := main_v116) rfl (by decide), wsub (y := main_v117) rfl (by decide), wsub (y := main_call3_cst) rfl (by decide), wsub (y := main_call3_v0) rfl (by decide), wsub (y := main_v118) rfl (by decide), wsub (y := main_v119) rfl (by decide)⟩

/-- Operations 172 … 181 of 262 (statements 145 … 149 of @main). -/
abbrev opsS22 : List (HloOp τ sig (Elt F)) :=
  [ unary main_v119 main_v120 (broadcastInDim S1600000x4 ![0, 1] bcast_S1600000x1_S1600000x4_0_1 : (⟨S1600000x1, .f32⟩ : BufTy).Contents (Elt F) → (⟨S1600000x4, .f32⟩ : BufTy).Contents (Elt F)),
    binary main_v18 main_v120 main_v121 (mulf : (⟨S1600000x4, .f32⟩ : BufTy).Contents (Elt F) → (⟨S1600000x4, .f32⟩ : BufTy).Contents (Elt F) → (⟨S1600000x4, .f32⟩ : BufTy).Contents (Elt F)),
    nullary main_cst_22 (constant S_ .f32 0xC2C80000#32),
    nullary main_cst_23 (constant S_ .f32 0x42C80000#32),
    TRef.unary (.of main_cst_22 : TRef sig ⟨S_, .f32⟩) main_call4.v0 id,
    TRef.unary main_call4.v0 main_call4.v1 (broadcastInDim S1600000x4 ![] bcast_S_S1600000x4),
    TRef.binary main_call4.v1 (.of main_v121 : TRef sig ⟨S1600000x4, .f32⟩) main_call4.v2 maximumf,
    TRef.unary (.of main_cst_23 : TRef sig ⟨S_, .f32⟩) main_call4.v3 id,
    TRef.unary main_call4.v3 main_call4.v4 (broadcastInDim S1600000x4 ![] bcast_S_S1600000x4),
    TRef.binary main_call4.v4 main_call4.v2 main_call4.v5 minimumf ]
/-- The buffers they write, in order. -/
abbrev W22 : List (Ref sig .tc) := [main_v120, main_v121, main_cst_22, main_cst_23, main_call4_v0, main_call4_v1, main_call4_v2, main_call4_v3, main_call4_v4, main_v122]
theorem opsS22_sub : (opsS22 : List (HloOp τ sig (Elt F))).Forall fun op => op.bufs ⊆ tcRefs τ sig :=
  ⟨unary_bufs_sub .., binary_bufs_sub .., nullary_bufs_sub .., nullary_bufs_sub .., unary_bufs_sub .., unary_bufs_sub .., binary_bufs_sub .., unary_bufs_sub .., unary_bufs_sub .., binary_bufs_sub ..⟩
theorem opsS22_fresh : (opsS22 : List (HloOp τ sig (Elt F))).Forall fun op => op.fresh = ∅ :=
  ⟨rfl, rfl, rfl, rfl, rfl, rfl, rfl, rfl, rfl, rfl⟩
theorem opsS22_writes : (opsS22 : List (HloOp τ sig (Elt F))).Forall fun op => op.writes ⊆ (W22.map (Proc.devRef (τ := τ) .tc)).toFinset :=
  ⟨wsub (y := main_v120) rfl (by decide), wsub (y := main_v121) rfl (by decide), wsub (y := main_cst_22) rfl (by decide), wsub (y := main_cst_23) rfl (by decide), wsub (y := main_call4_v0) rfl (by decide), wsub (y := main_call4_v1) rfl (by decide), wsub (y := main_call4_v2) rfl (by decide), wsub (y := main_call4_v3) rfl (by decide), wsub (y := main_call4_v4) rfl (by decide), wsub (y := main_v122) rfl (by decide)⟩

/-- Operations 182 … 187 of 262 (statements 150 … 155 of @main). -/
abbrev opsS23 : List (HloOp τ sig (Elt F)) :=
  [ nullary main_cst_24 (constant S_ .f32 0x3F800000#32),
    unary main_cst_24 main_v123 (broadcastInDim S1600000 ![] bcast_S_S1600000 : (⟨S_, .f32⟩ : BufTy).Contents (Elt F) → (⟨S1600000, .f32⟩ : BufTy).Contents (Elt F)),
    nullary main_cst_25 (constant S_ .f32 0x00000000#32),
    unary main_cst_25 main_v124 (broadcastInDim S50000 ![] bcast_S_S50000 : (⟨S_, .f32⟩ : BufTy).Contents (Elt F) → (⟨S50000, .f32⟩ : BufTy).Contents (Elt F)),
    unary main_v1 main_v125 (broadcastInDim S1600000x1 ![0] bcast_S1600000_S1600000x1_0 : (⟨S1600000, .i32⟩ : BufTy).Contents (Elt F) → (⟨S1600000x1, .i32⟩ : BufTy).Contents (Elt F)),
    ternary main_v124 main_v125 main_v123 main_v126 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)) ]
/-- The buffers they write, in order. -/
abbrev W23 : List (Ref sig .tc) := [main_cst_24, main_v123, main_cst_25, main_v124, main_v125, main_v126]
theorem opsS23_sub : (opsS23 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
theorem opsS23_fresh : (opsS23 : List (HloOp τ sig (Elt F))).Forall fun op => op.fresh = ∅ :=
  ⟨rfl, rfl, rfl, rfl, rfl, rfl⟩
theorem opsS23_writes : (opsS23 : List (HloOp τ sig (Elt F))).Forall fun op => op.writes ⊆ (W23.map (Proc.devRef (τ := τ) .tc)).toFinset :=
  ⟨wsub (y := main_cst_24) rfl (by decide), wsub (y := main_v123) rfl (by decide), wsub (y := main_cst_25) rfl (by decide), wsub (y := main_v124) rfl (by decide), wsub (y := main_v125) rfl (by decide), wsub (y := main_v126) rfl (by decide)⟩

/-- Operations 188 … 191 of 262 (statements 156 … 159 of @main). -/
abbrev opsS24 : List (HloOp τ sig (Elt F)) :=
  [ nullary main_cst_26 (constant S_ .f32 0x00000000#32),
    unary main_cst_26 main_v127 (broadcastInDim S50000x4 ![] bcast_S_S50000x4 : (⟨S_, .f32⟩ : BufTy).Contents (Elt F) → (⟨S50000x4, .f32⟩ : BufTy).Contents (Elt F)),
    unary main_v1 main_v128 (broadcastInDim S1600000x1 ![0] bcast_S1600000_S1600000x1_0 : (⟨S1600000, .i32⟩ : BufTy).Contents (Elt F) → (⟨S1600000x1, .i32⟩ : BufTy).Contents (Elt F)),
    ternary main_v127 main_v128 main_v122 main_v129 ((fun x i u => Host.scatterAdd scatter_S50000x4_S1600000x1_S1600000x4_1_0_0_1 x i u) : (⟨S50000x4, .f32⟩ : BufTy).Contents (Elt F) → (⟨S1600000x1, .i32⟩ : BufTy).Contents (Elt F) → (⟨S1600000x4, .f32⟩ : BufTy).Contents (Elt F) → (⟨S50000x4, .f32⟩ : BufTy).Contents (Elt F)) ]
/-- The buffers they write, in order. -/
abbrev W24 : List (Ref sig .tc) := [main_cst_26, main_v127, main_v128, main_v129]
theorem opsS24_sub : (opsS24 : List (HloOp τ sig (Elt F))).Forall fun op => op.bufs ⊆ tcRefs τ sig :=
  ⟨nullary_bufs_sub .., unary_bufs_sub .., unary_bufs_sub .., ternary_bufs_sub ..⟩
theorem opsS24_fresh : (opsS24 : List (HloOp τ sig (Elt F))).Forall fun op => op.fresh = ∅ :=
  ⟨rfl, rfl, rfl, rfl⟩
theorem opsS24_writes : (opsS24 : List (HloOp τ sig (Elt F))).Forall fun op => op.writes ⊆ (W24.map (Proc.devRef (τ := τ) .tc)).toFinset :=
  ⟨wsub (y := main_cst_26) rfl (by decide), wsub (y := main_v127) rfl (by decide), wsub (y := main_v128) rfl (by decide), wsub (y := main_v129) rfl (by decide)⟩

/-- Operations 192 … 201 of 262 (statements 160 … 169 of @main). -/
abbrev opsS25 : List (HloOp τ sig (Elt F)) :=
  [ nullary main_cst_27 (constant S_ .f32 0x3F800000#32),
    unary main_cst_27 main_v130 (broadcastInDim S50000 ![] bcast_S_S50000 : (⟨S_, .f32⟩ : BufTy).Contents (Elt F) → (⟨S50000, .f32⟩ : BufTy).Contents (Elt F)),
    binary main_v126 main_v130 main_v131 (maximumf : (⟨S50000, .f32⟩ : BufTy).Contents (Elt F) → (⟨S50000, .f32⟩ : BufTy).Contents (Elt F) → (⟨S50000, .f32⟩ : BufTy).Contents (Elt F)),
    unary main_v131 main_v132 (broadcastInDim S50000x1 ![0] bcast_S50000_S50000x1_0 : (⟨S50000, .f32⟩ : BufTy).Contents (Elt F) → (⟨S50000x1, .f32⟩ : BufTy).Contents (Elt F)),
    unary main_v132 main_v133 (broadcastInDim S50000x4 ![0, 1] bcast_S50000x1_S50000x4_0_1 : (⟨S50000x1, .f32⟩ : BufTy).Contents (Elt F) → (⟨S50000x4, .f32⟩ : BufTy).Contents (Elt F)),
    binary main_v129 main_v133 main_v134 (Host.divf : (⟨S50000x4, .f32⟩ : BufTy).Contents (Elt F) → (⟨S50000x4, .f32⟩ : BufTy).Contents (Elt F) → (⟨S50000x4, .f32⟩ : BufTy).Contents (Elt F)),
    nullary main_cst_28 (constant S_ .f32 0x3F800000#32),
    unary main_cst_28 main_v135 (broadcastInDim S50000x4 ![] bcast_S_S50000x4 : (⟨S_, .f32⟩ : BufTy).Contents (Elt F) → (⟨S50000x4, .f32⟩ : BufTy).Contents (Elt F)),
    binary main_v134 main_v135 main_v136 (mulf : (⟨S50000x4, .f32⟩ : BufTy).Contents (Elt F) → (⟨S50000x4, .f32⟩ : BufTy).Contents (Elt F) → (⟨S50000x4, .f32⟩ : BufTy).Contents (Elt F)),
    binary main_arg1 main_v136 main_v137 (addf : (⟨S50000x4, .f32⟩ : BufTy).Contents (Elt F) → (⟨S50000x4, .f32⟩ : BufTy).Contents (Elt F) → (⟨S50000x4, .f32⟩ : BufTy).Contents (Elt F)) ]
/-- The buffers they write, in order. -/
abbrev W25 : List (Ref sig .tc) := [main_cst_27, main_v130, main_v131, main_v132, main_v133, main_v134, main_cst_28, main_v135, main_v136, main_v137]
theorem opsS25_sub : (opsS25 : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., binary_bufs_sub .., binary_bufs_sub ..⟩
theorem opsS25_fresh : (opsS25 : List (HloOp τ sig (Elt F))).Forall fun op => op.fresh = ∅ :=
  ⟨rfl, rfl, rfl, rfl, rfl, rfl, rfl, rfl, rfl, rfl⟩
theorem opsS25_writes : (opsS25 : List (HloOp τ sig (Elt F))).Forall fun op => op.writes ⊆ (W25.map (Proc.devRef (τ := τ) .tc)).toFinset :=
  ⟨wsub (y := main_cst_27) rfl (by decide), wsub (y := main_v130) rfl (by decide), wsub (y := main_v131) rfl (by decide), wsub (y := main_v132) rfl (by decide), wsub (y := main_v133) rfl (by decide), wsub (y := main_v134) rfl (by decide), wsub (y := main_cst_28) rfl (by decide), wsub (y := main_v135) rfl (by decide), wsub (y := main_v136) rfl (by decide), wsub (y := main_v137) rfl (by decide)⟩

/-- Operations 202 … 205 of 262 (statements 170 … 173 of @main). -/
abbrev opsS26 : List (HloOp τ sig (Elt F)) :=
  [ nullary main_cst_29 (constant S_ .f32 0x00000000#32),
    unary main_cst_29 main_v138 (broadcastInDim S50000x72 ![] bcast_S_S50000x72 : (⟨S_, .f32⟩ : BufTy).Contents (Elt F) → (⟨S50000x72, .f32⟩ : BufTy).Contents (Elt F)),
    unary main_v1 main_v139 (broadcastInDim S1600000x1 ![0] bcast_S1600000_S1600000x1_0 : (⟨S1600000, .i32⟩ : BufTy).Contents (Elt F) → (⟨S1600000x1, .i32⟩ : BufTy).Contents (Elt F)),
    ternary main_v138 main_v139 main_v113 main_v140 ((fun x i u => Host.scatterAdd scatter_S50000x72_S1600000x1_S1600000x72_1_0_0_1 x i u) : (⟨S50000x72, .f32⟩ : BufTy).Contents (Elt F) → (⟨S1600000x1, .i32⟩ : BufTy).Contents (Elt F) → (⟨S1600000x72, .f32⟩ : BufTy).Contents (Elt F) → (⟨S50000x72, .f32⟩ : BufTy).Contents (Elt F)) ]
/-- The buffers they write, in order. -/
abbrev W26 : List (Ref sig .tc) := [main_cst_29, main_v138, main_v139, main_v140]
theorem opsS26_sub : (opsS26 : List (HloOp τ sig (Elt F))).Forall fun op => op.bufs ⊆ tcRefs τ sig :=
  ⟨nullary_bufs_sub .., unary_bufs_sub .., unary_bufs_sub .., ternary_bufs_sub ..⟩
theorem opsS26_fresh : (opsS26 : List (HloOp τ sig (Elt F))).Forall fun op => op.fresh = ∅ :=
  ⟨rfl, rfl, rfl, rfl⟩
theorem opsS26_writes : (opsS26 : List (HloOp τ sig (Elt F))).Forall fun op => op.writes ⊆ (W26.map (Proc.devRef (τ := τ) .tc)).toFinset :=
  ⟨wsub (y := main_cst_29) rfl (by decide), wsub (y := main_v138) rfl (by decide), wsub (y := main_v139) rfl (by decide), wsub (y := main_v140) rfl (by decide)⟩

/-- Operations 206 … 210 of 262 (statements 174 … 178 of @main). -/
abbrev opsS27 : List (HloOp τ sig (Elt F)) :=
  [ nary ![main_arg0, main_v140, main_arg2] main_v141 (fun u => concatenate S50000x152 1 [⟨S50000x72, u 0⟩, ⟨S50000x72, u 1⟩, ⟨S50000x8, u 2⟩] concatenates_S50000x72_S50000x72_S50000x8_S50000x152_d1),
    binary main_v141 main_arg9 main_v142 ((fun l r => Host.dotGeneral dot_S50000x152_S152x72_S50000x72_1_0_0_1_n_n none l r) : (⟨S50000x152, .f32⟩ : BufTy).Contents (Elt F) → (⟨S152x72, .f32⟩ : BufTy).Contents (Elt F) → (⟨S50000x72, .f32⟩ : BufTy).Contents (Elt F)),
    unary main_arg10 main_v143 (broadcastInDim S1x72 ![1] bcast_S72_S1x72_1 : (⟨S72, .f32⟩ : BufTy).Contents (Elt F) → (⟨S1x72, .f32⟩ : BufTy).Contents (Elt F)),
    unary main_v143 main_v144 (broadcastInDim S50000x72 ![0, 1] bcast_S1x72_S50000x72_0_1 : (⟨S1x72, .f32⟩ : BufTy).Contents (Elt F) → (⟨S50000x72, .f32⟩ : BufTy).Contents (Elt F)),
    binary main_v142 main_v144 main_v145 (addf : (⟨S50000x72, .f32⟩ : BufTy).Contents (Elt F) → (⟨S50000x72, .f32⟩ : BufTy).Contents (Elt F) → (⟨S50000x72, .f32⟩ : BufTy).Contents (Elt F)) ]
/-- The buffers they write, in order. -/
abbrev W27 : List (Ref sig .tc) := [main_v141, main_v142, main_v143, main_v144, main_v145]
theorem opsS27_sub : (opsS27 : List (HloOp τ sig (Elt F))).Forall fun op => op.bufs ⊆ tcRefs τ sig :=
  ⟨nary_bufs_sub .., binary_bufs_sub .., unary_bufs_sub .., unary_bufs_sub .., binary_bufs_sub ..⟩
theorem opsS27_fresh : (opsS27 : List (HloOp τ sig (Elt F))).Forall fun op => op.fresh = ∅ :=
  ⟨rfl, rfl, rfl, rfl, rfl⟩
theorem opsS27_writes : (opsS27 : List (HloOp τ sig (Elt F))).Forall fun op => op.writes ⊆ (W27.map (Proc.devRef (τ := τ) .tc)).toFinset :=
  ⟨wsub (y := main_v141) rfl (by decide), wsub (y := main_v142) rfl (by decide), wsub (y := main_v143) rfl (by decide), wsub (y := main_v144) rfl (by decide), wsub (y := main_v145) rfl (by decide)⟩

/-- Operations 211 … 212 of 262 (statements 179 … 180 of @main). -/
abbrev opsS28 : List (HloOp τ sig (Elt F)) :=
  [ nullary main_cst_30 (constant S_ .f32 0x00000000#32),
    binary main_v145 main_cst_30 main_v146 ((fun x v => Host.reduceAdd x v reducesTo_S50000x72_S72_d0 h_S_) : (⟨S50000x72, .f32⟩ : BufTy).Contents (Elt F) → (⟨S_, .f32⟩ : BufTy).Contents (Elt F) → (⟨S72, .f32⟩ : BufTy).Contents (Elt F)) ]
/-- The buffers they write, in order. -/
abbrev W28 : List (Ref sig .tc) := [main_cst_30, main_v146]
theorem opsS28_sub : (opsS28 : List (HloOp τ sig (Elt F))).Forall fun op => op.bufs ⊆ tcRefs τ sig :=
  ⟨nullary_bufs_sub .., binary_bufs_sub ..⟩
theorem opsS28_fresh : (opsS28 : List (HloOp τ sig (Elt F))).Forall fun op => op.fresh = ∅ :=
  ⟨rfl, rfl⟩
theorem opsS28_writes : (opsS28 : List (HloOp τ sig (Elt F))).Forall fun op => op.writes ⊆ (W28.map (Proc.devRef (τ := τ) .tc)).toFinset :=
  ⟨wsub (y := main_cst_30) rfl (by decide), wsub (y := main_v146) rfl (by decide)⟩

/-- Operations 213 … 215 of 262 (statements 181 … 183 of @main). -/
abbrev opsS29 : List (HloOp τ sig (Elt F)) :=
  [ nullary main_cst_31 (constant S_ .f32 0x47435000#32),
    unary main_cst_31 main_v147 (broadcastInDim S72 ![] bcast_S_S72 : (⟨S_, .f32⟩ : BufTy).Contents (Elt F) → (⟨S72, .f32⟩ : BufTy).Contents (Elt F)),
    binary main_v146 main_v147 main_v148 (Host.divf : (⟨S72, .f32⟩ : BufTy).Contents (Elt F) → (⟨S72, .f32⟩ : BufTy).Contents (Elt F) → (⟨S72, .f32⟩ : BufTy).Contents (Elt F)) ]
/-- The buffers they write, in order. -/
abbrev W29 : List (Ref sig .tc) := [main_cst_31, main_v147, main_v148]
theorem opsS29_sub : (opsS29 : List (HloOp τ sig (Elt F))).Forall fun op => op.bufs ⊆ tcRefs τ sig :=
  ⟨nullary_bufs_sub .., unary_bufs_sub .., binary_bufs_sub ..⟩
theorem opsS29_fresh : (opsS29 : List (HloOp τ sig (Elt F))).Forall fun op => op.fresh = ∅ :=
  ⟨rfl, rfl, rfl⟩
theorem opsS29_writes : (opsS29 : List (HloOp τ sig (Elt F))).Forall fun op => op.writes ⊆ (W29.map (Proc.devRef (τ := τ) .tc)).toFinset :=
  ⟨wsub (y := main_cst_31) rfl (by decide), wsub (y := main_v147) rfl (by decide), wsub (y := main_v148) rfl (by decide)⟩

/-- Operations 216 … 238 of 262 (statements 184 … 185 of @main). -/
abbrev opsS30 : List (HloOp τ sig (Elt F)) :=
  [ nullary main_c_32 (constantI S_ 32 0#32),
    TRef.nullary main_call5.cst (constant S_ .f32 0x00000000#32),
    TRef.binary (.of main_v145 : TRef sig ⟨S50000x72, .f32⟩) main_call5.cst main_call5.v0 (fun x v => Host.reduceAdd x v reducesTo_S50000x72_S72_d0 h_S_),
    TRef.unary main_call5.v0 main_call5.v1 (broadcastInDim S1x72 ![1] bcast_S72_S1x72_1),
    TRef.nullary main_call5.cst_0 (constant S_ .f32 0x47435000#32),
    TRef.unary main_call5.cst_0 main_call5.v2 (broadcastInDim S1x72 ![] bcast_S_S1x72),
    TRef.binary main_call5.v1 main_call5.v2 main_call5.v3 Host.divf,
    TRef.unary main_call5.v3 main_call5.v4 (broadcastInDim S50000x72 ![0, 1] bcast_S1x72_S50000x72_0_1),
    TRef.binary (.of main_v145 : TRef sig ⟨S50000x72, .f32⟩) main_call5.v4 main_call5.v5 subf,
    TRef.binary main_call5.v5 main_call5.v5 main_call5.v6 mulf,
    TRef.unary (.of main_c_32 : TRef sig ⟨S_, .i32⟩) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x72_S72_d0 h_S_),
    TRef.unary main_call5.v8 main_call5.v10 (broadcastInDim S72 ![] bcast_S_S72),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S72 ![] bcast_S_S72),
    TRef.ternary main_call5.v12 main_call5.v11 main_call5.call0.v1 main_call5.call0.v2 (fun p a b => select (broadcastInDim S72 ![] bcast_S_S72 p) a b) ]
/-- The buffers they write, in order. -/
abbrev W30 : List (Ref sig .tc) := [main_c_32, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v149]
theorem opsS30_sub : (opsS30 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsS30_fresh : (opsS30 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem opsS30_writes : (opsS30 : List (HloOp τ sig (Elt F))).Forall fun op => op.writes ⊆ (W30.map (Proc.devRef (τ := τ) .tc)).toFinset :=
  ⟨wsub (y := main_c_32) rfl (by decide), wsub (y := main_call5_cst) rfl (by decide), wsub (y := main_call5_v0) rfl (by decide), wsub (y := main_call5_v1) rfl (by decide), wsub (y := main_call5_cst_0) rfl (by decide), wsub (y := main_call5_v2) rfl (by decide), wsub (y := main_call5_v3) rfl (by decide), wsub (y := main_call5_v4) rfl (by decide), wsub (y := main_call5_v5) rfl (by decide), wsub (y := main_call5_v6) rfl (by decide), wsub (y := main_call5_v7) rfl (by decide), wsub (y := main_call5_cst_1) rfl (by decide), wsub (y := main_call5_v8) rfl (by decide), wsub (y := main_call5_cst_2) rfl (by decide), wsub (y := main_call5_v9) rfl (by decide), wsub (y := main_call5_v10) rfl (by decide), wsub (y := main_call5_v11) rfl (by decide), wsub (y := main_call5_cst_3) rfl (by decide), wsub (y := main_call5_v12) rfl (by decide), wsub (y := main_call5_cst_4) rfl (by decide), wsub (y := main_call5_call0_v0) rfl (by decide), wsub (y := main_call5_call0_v1) rfl (by decide), wsub (y := main_v149) rfl (by decide)⟩

/-- Operations 239 … 257 of 262 (statements 186 … 202 of @main). -/
abbrev opsS31 : List (HloOp τ sig (Elt F)) :=
  [ unary main_v148 main_v150 (broadcastInDim S1x72 ![1] bcast_S72_S1x72_1 : (⟨S72, .f32⟩ : BufTy).Contents (Elt F) → (⟨S1x72, .f32⟩ : BufTy).Contents (Elt F)),
    unary main_v150 main_v151 (broadcastInDim S50000x72 ![0, 1] bcast_S1x72_S50000x72_0_1 : (⟨S1x72, .f32⟩ : BufTy).Contents (Elt F) → (⟨S50000x72, .f32⟩ : BufTy).Contents (Elt F)),
    binary main_v145 main_v151 main_v152 (subf : (⟨S50000x72, .f32⟩ : BufTy).Contents (Elt F) → (⟨S50000x72, .f32⟩ : BufTy).Contents (Elt F) → (⟨S50000x72, .f32⟩ : BufTy).Contents (Elt F)),
    nullary main_cst_33 (constant S_ .f32 0x3727C5AC#32),
    unary main_cst_33 main_v153 (broadcastInDim S72 ![] bcast_S_S72 : (⟨S_, .f32⟩ : BufTy).Contents (Elt F) → (⟨S72, .f32⟩ : BufTy).Contents (Elt F)),
    binary main_v149 main_v153 main_v154 (addf : (⟨S72, .f32⟩ : BufTy).Contents (Elt F) → (⟨S72, .f32⟩ : BufTy).Contents (Elt F) → (⟨S72, .f32⟩ : BufTy).Contents (Elt F)),
    unary main_v154 main_v155 (Host.rsqrt : (⟨S72, .f32⟩ : BufTy).Contents (Elt F) → (⟨S72, .f32⟩ : BufTy).Contents (Elt F)),
    unary main_v155 main_v156 (broadcastInDim S1x72 ![1] bcast_S72_S1x72_1 : (⟨S72, .f32⟩ : BufTy).Contents (Elt F) → (⟨S1x72, .f32⟩ : BufTy).Contents (Elt F)),
    unary main_v156 main_v157 (broadcastInDim S50000x72 ![0, 1] bcast_S1x72_S50000x72_0_1 : (⟨S1x72, .f32⟩ : BufTy).Contents (Elt F) → (⟨S50000x72, .f32⟩ : BufTy).Contents (Elt F)),
    binary main_v152 main_v157 main_v158 (mulf : (⟨S50000x72, .f32⟩ : BufTy).Contents (Elt F) → (⟨S50000x72, .f32⟩ : BufTy).Contents (Elt F) → (⟨S50000x72, .f32⟩ : BufTy).Contents (Elt F)),
    unary main_arg11 main_v159 (broadcastInDim S1x72 ![1] bcast_S72_S1x72_1 : (⟨S72, .f32⟩ : BufTy).Contents (Elt F) → (⟨S1x72, .f32⟩ : BufTy).Contents (Elt F)),
    unary main_v159 main_v160 (broadcastInDim S50000x72 ![0, 1] bcast_S1x72_S50000x72_0_1 : (⟨S1x72, .f32⟩ : BufTy).Contents (Elt F) → (⟨S50000x72, .f32⟩ : BufTy).Contents (Elt F)),
    binary main_v158 main_v160 main_v161 (mulf : (⟨S50000x72, .f32⟩ : BufTy).Contents (Elt F) → (⟨S50000x72, .f32⟩ : BufTy).Contents (Elt F) → (⟨S50000x72, .f32⟩ : BufTy).Contents (Elt F)),
    unary main_arg12 main_v162 (broadcastInDim S1x72 ![1] bcast_S72_S1x72_1 : (⟨S72, .f32⟩ : BufTy).Contents (Elt F) → (⟨S1x72, .f32⟩ : BufTy).Contents (Elt F)),
    unary main_v162 main_v163 (broadcastInDim S50000x72 ![0, 1] bcast_S1x72_S50000x72_0_1 : (⟨S1x72, .f32⟩ : BufTy).Contents (Elt F) → (⟨S50000x72, .f32⟩ : BufTy).Contents (Elt F)),
    binary main_v161 main_v163 main_v164 (addf : (⟨S50000x72, .f32⟩ : BufTy).Contents (Elt F) → (⟨S50000x72, .f32⟩ : BufTy).Contents (Elt F) → (⟨S50000x72, .f32⟩ : BufTy).Contents (Elt F)),
    TRef.nullary main_call6.cst (constant S_ .f32 0x00000000#32),
    TRef.unary main_call6.cst main_call6.v0 (broadcastInDim S50000x72 ![] bcast_S_S50000x72),
    TRef.binary (.of main_v164 : TRef sig ⟨S50000x72, .f32⟩) main_call6.v0 main_call6.v1 maximumf ]
/-- The buffers they write, in order. -/
abbrev W31 : List (Ref sig .tc) := [main_v150, main_v151, main_v152, main_cst_33, main_v153, main_v154, main_v155, main_v156, main_v157, main_v158, main_v159, main_v160, main_v161, main_v162, main_v163, main_v164, main_call6_cst, main_call6_v0, main_v165]
theorem opsS31_sub : (opsS31 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsS31_fresh : (opsS31 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem opsS31_writes : (opsS31 : List (HloOp τ sig (Elt F))).Forall fun op => op.writes ⊆ (W31.map (Proc.devRef (τ := τ) .tc)).toFinset :=
  ⟨wsub (y := main_v150) rfl (by decide), wsub (y := main_v151) rfl (by decide), wsub (y := main_v152) rfl (by decide), wsub (y := main_cst_33) rfl (by decide), wsub (y := main_v153) rfl (by decide), wsub (y := main_v154) rfl (by decide), wsub (y := main_v155) rfl (by decide), wsub (y := main_v156) rfl (by decide), wsub (y := main_v157) rfl (by decide), wsub (y := main_v158) rfl (by decide), wsub (y := main_v159) rfl (by decide), wsub (y := main_v160) rfl (by decide), wsub (y := main_v161) rfl (by decide), wsub (y := main_v162) rfl (by decide), wsub (y := main_v163) rfl (by decide), wsub (y := main_v164) rfl (by decide), wsub (y := main_call6_cst) rfl (by decide), wsub (y := main_call6_v0) rfl (by decide), wsub (y := main_v165) rfl (by decide)⟩

/-- Operations 258 … 262 of 262 (statements 203 … 207 of @main). -/
abbrev opsS32 : List (HloOp τ sig (Elt F)) :=
  [ binary main_v165 main_arg13 main_v166 ((fun l r => Host.dotGeneral dot_S50000x72_S72x72_S50000x72_1_0_0_1_n_n none l r) : (⟨S50000x72, .f32⟩ : BufTy).Contents (Elt F) → (⟨S72x72, .f32⟩ : BufTy).Contents (Elt F) → (⟨S50000x72, .f32⟩ : BufTy).Contents (Elt F)),
    binary main_arg0 main_v166 main_v167 (addf : (⟨S50000x72, .f32⟩ : BufTy).Contents (Elt F) → (⟨S50000x72, .f32⟩ : BufTy).Contents (Elt F) → (⟨S50000x72, .f32⟩ : BufTy).Contents (Elt F)),
    unary main_arg14 main_v168 (broadcastInDim S1x72 ![1] bcast_S72_S1x72_1 : (⟨S72, .f32⟩ : BufTy).Contents (Elt F) → (⟨S1x72, .f32⟩ : BufTy).Contents (Elt F)),
    unary main_v168 main_v169 (broadcastInDim S50000x72 ![0, 1] bcast_S1x72_S50000x72_0_1 : (⟨S1x72, .f32⟩ : BufTy).Contents (Elt F) → (⟨S50000x72, .f32⟩ : BufTy).Contents (Elt F)),
    binary main_v167 main_v169 main_v170 (addf : (⟨S50000x72, .f32⟩ : BufTy).Contents (Elt F) → (⟨S50000x72, .f32⟩ : BufTy).Contents (Elt F) → (⟨S50000x72, .f32⟩ : BufTy).Contents (Elt F)) ]
/-- The buffers they write, in order. -/
abbrev W32 : List (Ref sig .tc) := [main_v166, main_v167, main_v168, main_v169, main_v170]
theorem opsS32_sub : (opsS32 : List (HloOp τ sig (Elt F))).Forall fun op => op.bufs ⊆ tcRefs τ sig :=
  ⟨binary_bufs_sub .., binary_bufs_sub .., unary_bufs_sub .., unary_bufs_sub .., binary_bufs_sub ..⟩
theorem opsS32_fresh : (opsS32 : List (HloOp τ sig (Elt F))).Forall fun op => op.fresh = ∅ :=
  ⟨rfl, rfl, rfl, rfl, rfl⟩
theorem opsS32_writes : (opsS32 : List (HloOp τ sig (Elt F))).Forall fun op => op.writes ⊆ (W32.map (Proc.devRef (τ := τ) .tc)).toFinset :=
  ⟨wsub (y := main_v166) rfl (by decide), wsub (y := main_v167) rfl (by decide), wsub (y := main_v168) rfl (by decide), wsub (y := main_v169) rfl (by decide), wsub (y := main_v170) rfl (by decide)⟩

/-! ## The suffixes of the program, and the program -/

abbrev suf33 : List (HloOp τ sig (Elt F)) := []
abbrev sufW33 : List (Ref sig .tc) := []
theorem suf33_sub : (suf33 : List (HloOp τ sig (Elt F))).Forall fun op => op.bufs ⊆ tcRefs τ sig := trivial
theorem suf33_fresh : (suf33 : List (HloOp τ sig (Elt F))).Forall fun op => op.fresh = ∅ := trivial
theorem suf33_writes : (suf33 : List (HloOp τ sig (Elt F))).Forall fun op => op.writes ⊆ (sufW33.map (Proc.devRef (τ := τ) .tc)).toFinset := trivial
/-- Stage 32 and everything after it. -/
abbrev suf32 : List (HloOp τ sig (Elt F)) := opsS32 ++ suf33
abbrev sufW32 : List (Ref sig .tc) := W32 ++ sufW33
theorem suf32_sub : (suf32 : List (HloOp τ sig (Elt F))).Forall fun op => op.bufs ⊆ tcRefs τ sig := forall_append' opsS32_sub suf33_sub
theorem suf32_fresh : (suf32 : List (HloOp τ sig (Elt F))).Forall fun op => op.fresh = ∅ := forall_append' opsS32_fresh suf33_fresh
theorem suf32_writes : (suf32 : List (HloOp τ sig (Elt F))).Forall fun op => op.writes ⊆ (sufW32.map (Proc.devRef (τ := τ) .tc)).toFinset :=
  writes_append opsS32_writes suf33_writes
/-- Stage 31 and everything after it. -/
abbrev suf31 : List (HloOp τ sig (Elt F)) := opsS31 ++ suf32
abbrev sufW31 : List (Ref sig .tc) := W31 ++ sufW32
theorem suf31_sub : (suf31 : List (HloOp τ sig (Elt F))).Forall fun op => op.bufs ⊆ tcRefs τ sig := forall_append' opsS31_sub suf32_sub
theorem suf31_fresh : (suf31 : List (HloOp τ sig (Elt F))).Forall fun op => op.fresh = ∅ := forall_append' opsS31_fresh suf32_fresh
theorem suf31_writes : (suf31 : List (HloOp τ sig (Elt F))).Forall fun op => op.writes ⊆ (sufW31.map (Proc.devRef (τ := τ) .tc)).toFinset :=
  writes_append opsS31_writes suf32_writes
/-- Stage 30 and everything after it. -/
abbrev suf30 : List (HloOp τ sig (Elt F)) := opsS30 ++ suf31
abbrev sufW30 : List (Ref sig .tc) := W30 ++ sufW31
theorem suf30_sub : (suf30 : List (HloOp τ sig (Elt F))).Forall fun op => op.bufs ⊆ tcRefs τ sig := forall_append' opsS30_sub suf31_sub
theorem suf30_fresh : (suf30 : List (HloOp τ sig (Elt F))).Forall fun op => op.fresh = ∅ := forall_append' opsS30_fresh suf31_fresh
theorem suf30_writes : (suf30 : List (HloOp τ sig (Elt F))).Forall fun op => op.writes ⊆ (sufW30.map (Proc.devRef (τ := τ) .tc)).toFinset :=
  writes_append opsS30_writes suf31_writes
/-- Stage 29 and everything after it. -/
abbrev suf29 : List (HloOp τ sig (Elt F)) := opsS29 ++ suf30
abbrev sufW29 : List (Ref sig .tc) := W29 ++ sufW30
theorem suf29_sub : (suf29 : List (HloOp τ sig (Elt F))).Forall fun op => op.bufs ⊆ tcRefs τ sig := forall_append' opsS29_sub suf30_sub
theorem suf29_fresh : (suf29 : List (HloOp τ sig (Elt F))).Forall fun op => op.fresh = ∅ := forall_append' opsS29_fresh suf30_fresh
theorem suf29_writes : (suf29 : List (HloOp τ sig (Elt F))).Forall fun op => op.writes ⊆ (sufW29.map (Proc.devRef (τ := τ) .tc)).toFinset :=
  writes_append opsS29_writes suf30_writes
/-- Stage 28 and everything after it. -/
abbrev suf28 : List (HloOp τ sig (Elt F)) := opsS28 ++ suf29
abbrev sufW28 : List (Ref sig .tc) := W28 ++ sufW29
theorem suf28_sub : (suf28 : List (HloOp τ sig (Elt F))).Forall fun op => op.bufs ⊆ tcRefs τ sig := forall_append' opsS28_sub suf29_sub
theorem suf28_fresh : (suf28 : List (HloOp τ sig (Elt F))).Forall fun op => op.fresh = ∅ := forall_append' opsS28_fresh suf29_fresh
theorem suf28_writes : (suf28 : List (HloOp τ sig (Elt F))).Forall fun op => op.writes ⊆ (sufW28.map (Proc.devRef (τ := τ) .tc)).toFinset :=
  writes_append opsS28_writes suf29_writes
/-- Stage 27 and everything after it. -/
abbrev suf27 : List (HloOp τ sig (Elt F)) := opsS27 ++ suf28
abbrev sufW27 : List (Ref sig .tc) := W27 ++ sufW28
theorem suf27_sub : (suf27 : List (HloOp τ sig (Elt F))).Forall fun op => op.bufs ⊆ tcRefs τ sig := forall_append' opsS27_sub suf28_sub
theorem suf27_fresh : (suf27 : List (HloOp τ sig (Elt F))).Forall fun op => op.fresh = ∅ := forall_append' opsS27_fresh suf28_fresh
theorem suf27_writes : (suf27 : List (HloOp τ sig (Elt F))).Forall fun op => op.writes ⊆ (sufW27.map (Proc.devRef (τ := τ) .tc)).toFinset :=
  writes_append opsS27_writes suf28_writes
/-- Stage 26 and everything after it. -/
abbrev suf26 : List (HloOp τ sig (Elt F)) := opsS26 ++ suf27
abbrev sufW26 : List (Ref sig .tc) := W26 ++ sufW27
theorem suf26_sub : (suf26 : List (HloOp τ sig (Elt F))).Forall fun op => op.bufs ⊆ tcRefs τ sig := forall_append' opsS26_sub suf27_sub
theorem suf26_fresh : (suf26 : List (HloOp τ sig (Elt F))).Forall fun op => op.fresh = ∅ := forall_append' opsS26_fresh suf27_fresh
theorem suf26_writes : (suf26 : List (HloOp τ sig (Elt F))).Forall fun op => op.writes ⊆ (sufW26.map (Proc.devRef (τ := τ) .tc)).toFinset :=
  writes_append opsS26_writes suf27_writes
/-- Stage 25 and everything after it. -/
abbrev suf25 : List (HloOp τ sig (Elt F)) := opsS25 ++ suf26
abbrev sufW25 : List (Ref sig .tc) := W25 ++ sufW26
theorem suf25_sub : (suf25 : List (HloOp τ sig (Elt F))).Forall fun op => op.bufs ⊆ tcRefs τ sig := forall_append' opsS25_sub suf26_sub
theorem suf25_fresh : (suf25 : List (HloOp τ sig (Elt F))).Forall fun op => op.fresh = ∅ := forall_append' opsS25_fresh suf26_fresh
theorem suf25_writes : (suf25 : List (HloOp τ sig (Elt F))).Forall fun op => op.writes ⊆ (sufW25.map (Proc.devRef (τ := τ) .tc)).toFinset :=
  writes_append opsS25_writes suf26_writes
/-- Stage 24 and everything after it. -/
abbrev suf24 : List (HloOp τ sig (Elt F)) := opsS24 ++ suf25
abbrev sufW24 : List (Ref sig .tc) := W24 ++ sufW25
theorem suf24_sub : (suf24 : List (HloOp τ sig (Elt F))).Forall fun op => op.bufs ⊆ tcRefs τ sig := forall_append' opsS24_sub suf25_sub
theorem suf24_fresh : (suf24 : List (HloOp τ sig (Elt F))).Forall fun op => op.fresh = ∅ := forall_append' opsS24_fresh suf25_fresh
theorem suf24_writes : (suf24 : List (HloOp τ sig (Elt F))).Forall fun op => op.writes ⊆ (sufW24.map (Proc.devRef (τ := τ) .tc)).toFinset :=
  writes_append opsS24_writes suf25_writes
/-- Stage 23 and everything after it. -/
abbrev suf23 : List (HloOp τ sig (Elt F)) := opsS23 ++ suf24
abbrev sufW23 : List (Ref sig .tc) := W23 ++ sufW24
theorem suf23_sub : (suf23 : List (HloOp τ sig (Elt F))).Forall fun op => op.bufs ⊆ tcRefs τ sig := forall_append' opsS23_sub suf24_sub
theorem suf23_fresh : (suf23 : List (HloOp τ sig (Elt F))).Forall fun op => op.fresh = ∅ := forall_append' opsS23_fresh suf24_fresh
theorem suf23_writes : (suf23 : List (HloOp τ sig (Elt F))).Forall fun op => op.writes ⊆ (sufW23.map (Proc.devRef (τ := τ) .tc)).toFinset :=
  writes_append opsS23_writes suf24_writes
/-- Stage 22 and everything after it. -/
abbrev suf22 : List (HloOp τ sig (Elt F)) := opsS22 ++ suf23
abbrev sufW22 : List (Ref sig .tc) := W22 ++ sufW23
theorem suf22_sub : (suf22 : List (HloOp τ sig (Elt F))).Forall fun op => op.bufs ⊆ tcRefs τ sig := forall_append' opsS22_sub suf23_sub
theorem suf22_fresh : (suf22 : List (HloOp τ sig (Elt F))).Forall fun op => op.fresh = ∅ := forall_append' opsS22_fresh suf23_fresh
theorem suf22_writes : (suf22 : List (HloOp τ sig (Elt F))).Forall fun op => op.writes ⊆ (sufW22.map (Proc.devRef (τ := τ) .tc)).toFinset :=
  writes_append opsS22_writes suf23_writes
/-- Stage 21 and everything after it. -/
abbrev suf21 : List (HloOp τ sig (Elt F)) := opsS21 ++ suf22
abbrev sufW21 : List (Ref sig .tc) := W21 ++ sufW22
theorem suf21_sub : (suf21 : List (HloOp τ sig (Elt F))).Forall fun op => op.bufs ⊆ tcRefs τ sig := forall_append' opsS21_sub suf22_sub
theorem suf21_fresh : (suf21 : List (HloOp τ sig (Elt F))).Forall fun op => op.fresh = ∅ := forall_append' opsS21_fresh suf22_fresh
theorem suf21_writes : (suf21 : List (HloOp τ sig (Elt F))).Forall fun op => op.writes ⊆ (sufW21.map (Proc.devRef (τ := τ) .tc)).toFinset :=
  writes_append opsS21_writes suf22_writes
/-- Stage 20 and everything after it. -/
abbrev suf20 : List (HloOp τ sig (Elt F)) := opsS20 ++ suf21
abbrev sufW20 : List (Ref sig .tc) := W20 ++ sufW21
theorem suf20_sub : (suf20 : List (HloOp τ sig (Elt F))).Forall fun op => op.bufs ⊆ tcRefs τ sig := forall_append' opsS20_sub suf21_sub
theorem suf20_fresh : (suf20 : List (HloOp τ sig (Elt F))).Forall fun op => op.fresh = ∅ := forall_append' opsS20_fresh suf21_fresh
theorem suf20_writes : (suf20 : List (HloOp τ sig (Elt F))).Forall fun op => op.writes ⊆ (sufW20.map (Proc.devRef (τ := τ) .tc)).toFinset :=
  writes_append opsS20_writes suf21_writes
/-- Stage 19 and everything after it. -/
abbrev suf19 : List (HloOp τ sig (Elt F)) := opsS19 ++ suf20
abbrev sufW19 : List (Ref sig .tc) := W19 ++ sufW20
theorem suf19_sub : (suf19 : List (HloOp τ sig (Elt F))).Forall fun op => op.bufs ⊆ tcRefs τ sig := forall_append' opsS19_sub suf20_sub
theorem suf19_fresh : (suf19 : List (HloOp τ sig (Elt F))).Forall fun op => op.fresh = ∅ := forall_append' opsS19_fresh suf20_fresh
theorem suf19_writes : (suf19 : List (HloOp τ sig (Elt F))).Forall fun op => op.writes ⊆ (sufW19.map (Proc.devRef (τ := τ) .tc)).toFinset :=
  writes_append opsS19_writes suf20_writes
/-- Stage 18 and everything after it. -/
abbrev suf18 : List (HloOp τ sig (Elt F)) := opsS18 ++ suf19
abbrev sufW18 : List (Ref sig .tc) := W18 ++ sufW19
theorem suf18_sub : (suf18 : List (HloOp τ sig (Elt F))).Forall fun op => op.bufs ⊆ tcRefs τ sig := forall_append' opsS18_sub suf19_sub
theorem suf18_fresh : (suf18 : List (HloOp τ sig (Elt F))).Forall fun op => op.fresh = ∅ := forall_append' opsS18_fresh suf19_fresh
theorem suf18_writes : (suf18 : List (HloOp τ sig (Elt F))).Forall fun op => op.writes ⊆ (sufW18.map (Proc.devRef (τ := τ) .tc)).toFinset :=
  writes_append opsS18_writes suf19_writes
/-- Stage 17 and everything after it. -/
abbrev suf17 : List (HloOp τ sig (Elt F)) := opsS17 ++ suf18
abbrev sufW17 : List (Ref sig .tc) := W17 ++ sufW18
theorem suf17_sub : (suf17 : List (HloOp τ sig (Elt F))).Forall fun op => op.bufs ⊆ tcRefs τ sig := forall_append' opsS17_sub suf18_sub
theorem suf17_fresh : (suf17 : List (HloOp τ sig (Elt F))).Forall fun op => op.fresh = ∅ := forall_append' opsS17_fresh suf18_fresh
theorem suf17_writes : (suf17 : List (HloOp τ sig (Elt F))).Forall fun op => op.writes ⊆ (sufW17.map (Proc.devRef (τ := τ) .tc)).toFinset :=
  writes_append opsS17_writes suf18_writes
/-- Stage 16 and everything after it. -/
abbrev suf16 : List (HloOp τ sig (Elt F)) := opsS16 ++ suf17
abbrev sufW16 : List (Ref sig .tc) := W16 ++ sufW17
theorem suf16_sub : (suf16 : List (HloOp τ sig (Elt F))).Forall fun op => op.bufs ⊆ tcRefs τ sig := forall_append' opsS16_sub suf17_sub
theorem suf16_fresh : (suf16 : List (HloOp τ sig (Elt F))).Forall fun op => op.fresh = ∅ := forall_append' opsS16_fresh suf17_fresh
theorem suf16_writes : (suf16 : List (HloOp τ sig (Elt F))).Forall fun op => op.writes ⊆ (sufW16.map (Proc.devRef (τ := τ) .tc)).toFinset :=
  writes_append opsS16_writes suf17_writes
/-- Stage 15 and everything after it. -/
abbrev suf15 : List (HloOp τ sig (Elt F)) := opsS15 ++ suf16
abbrev sufW15 : List (Ref sig .tc) := W15 ++ sufW16
theorem suf15_sub : (suf15 : List (HloOp τ sig (Elt F))).Forall fun op => op.bufs ⊆ tcRefs τ sig := forall_append' opsS15_sub suf16_sub
theorem suf15_fresh : (suf15 : List (HloOp τ sig (Elt F))).Forall fun op => op.fresh = ∅ := forall_append' opsS15_fresh suf16_fresh
theorem suf15_writes : (suf15 : List (HloOp τ sig (Elt F))).Forall fun op => op.writes ⊆ (sufW15.map (Proc.devRef (τ := τ) .tc)).toFinset :=
  writes_append opsS15_writes suf16_writes
/-- Stage 14 and everything after it. -/
abbrev suf14 : List (HloOp τ sig (Elt F)) := opsS14 ++ suf15
abbrev sufW14 : List (Ref sig .tc) := W14 ++ sufW15
theorem suf14_sub : (suf14 : List (HloOp τ sig (Elt F))).Forall fun op => op.bufs ⊆ tcRefs τ sig := forall_append' opsS14_sub suf15_sub
theorem suf14_fresh : (suf14 : List (HloOp τ sig (Elt F))).Forall fun op => op.fresh = ∅ := forall_append' opsS14_fresh suf15_fresh
theorem suf14_writes : (suf14 : List (HloOp τ sig (Elt F))).Forall fun op => op.writes ⊆ (sufW14.map (Proc.devRef (τ := τ) .tc)).toFinset :=
  writes_append opsS14_writes suf15_writes
/-- Stage 13 and everything after it. -/
abbrev suf13 : List (HloOp τ sig (Elt F)) := opsS13 ++ suf14
abbrev sufW13 : List (Ref sig .tc) := W13 ++ sufW14
theorem suf13_sub : (suf13 : List (HloOp τ sig (Elt F))).Forall fun op => op.bufs ⊆ tcRefs τ sig := forall_append' opsS13_sub suf14_sub
theorem suf13_fresh : (suf13 : List (HloOp τ sig (Elt F))).Forall fun op => op.fresh = ∅ := forall_append' opsS13_fresh suf14_fresh
theorem suf13_writes : (suf13 : List (HloOp τ sig (Elt F))).Forall fun op => op.writes ⊆ (sufW13.map (Proc.devRef (τ := τ) .tc)).toFinset :=
  writes_append opsS13_writes suf14_writes
/-- Stage 12 and everything after it. -/
abbrev suf12 : List (HloOp τ sig (Elt F)) := opsS12 ++ suf13
abbrev sufW12 : List (Ref sig .tc) := W12 ++ sufW13
theorem suf12_sub : (suf12 : List (HloOp τ sig (Elt F))).Forall fun op => op.bufs ⊆ tcRefs τ sig := forall_append' opsS12_sub suf13_sub
theorem suf12_fresh : (suf12 : List (HloOp τ sig (Elt F))).Forall fun op => op.fresh = ∅ := forall_append' opsS12_fresh suf13_fresh
theorem suf12_writes : (suf12 : List (HloOp τ sig (Elt F))).Forall fun op => op.writes ⊆ (sufW12.map (Proc.devRef (τ := τ) .tc)).toFinset :=
  writes_append opsS12_writes suf13_writes
/-- Stage 11 and everything after it. -/
abbrev suf11 : List (HloOp τ sig (Elt F)) := opsS11 ++ suf12
abbrev sufW11 : List (Ref sig .tc) := W11 ++ sufW12
theorem suf11_sub : (suf11 : List (HloOp τ sig (Elt F))).Forall fun op => op.bufs ⊆ tcRefs τ sig := forall_append' opsS11_sub suf12_sub
theorem suf11_fresh : (suf11 : List (HloOp τ sig (Elt F))).Forall fun op => op.fresh = ∅ := forall_append' opsS11_fresh suf12_fresh
theorem suf11_writes : (suf11 : List (HloOp τ sig (Elt F))).Forall fun op => op.writes ⊆ (sufW11.map (Proc.devRef (τ := τ) .tc)).toFinset :=
  writes_append opsS11_writes suf12_writes
/-- Stage 10 and everything after it. -/
abbrev suf10 : List (HloOp τ sig (Elt F)) := opsS10 ++ suf11
abbrev sufW10 : List (Ref sig .tc) := W10 ++ sufW11
theorem suf10_sub : (suf10 : List (HloOp τ sig (Elt F))).Forall fun op => op.bufs ⊆ tcRefs τ sig := forall_append' opsS10_sub suf11_sub
theorem suf10_fresh : (suf10 : List (HloOp τ sig (Elt F))).Forall fun op => op.fresh = ∅ := forall_append' opsS10_fresh suf11_fresh
theorem suf10_writes : (suf10 : List (HloOp τ sig (Elt F))).Forall fun op => op.writes ⊆ (sufW10.map (Proc.devRef (τ := τ) .tc)).toFinset :=
  writes_append opsS10_writes suf11_writes
/-- Stage 9 and everything after it. -/
abbrev suf9 : List (HloOp τ sig (Elt F)) := opsS9 ++ suf10
abbrev sufW9 : List (Ref sig .tc) := W9 ++ sufW10
theorem suf9_sub : (suf9 : List (HloOp τ sig (Elt F))).Forall fun op => op.bufs ⊆ tcRefs τ sig := forall_append' opsS9_sub suf10_sub
theorem suf9_fresh : (suf9 : List (HloOp τ sig (Elt F))).Forall fun op => op.fresh = ∅ := forall_append' opsS9_fresh suf10_fresh
theorem suf9_writes : (suf9 : List (HloOp τ sig (Elt F))).Forall fun op => op.writes ⊆ (sufW9.map (Proc.devRef (τ := τ) .tc)).toFinset :=
  writes_append opsS9_writes suf10_writes
/-- Stage 8 and everything after it. -/
abbrev suf8 : List (HloOp τ sig (Elt F)) := opsS8 ++ suf9
abbrev sufW8 : List (Ref sig .tc) := W8 ++ sufW9
theorem suf8_sub : (suf8 : List (HloOp τ sig (Elt F))).Forall fun op => op.bufs ⊆ tcRefs τ sig := forall_append' opsS8_sub suf9_sub
theorem suf8_fresh : (suf8 : List (HloOp τ sig (Elt F))).Forall fun op => op.fresh = ∅ := forall_append' opsS8_fresh suf9_fresh
theorem suf8_writes : (suf8 : List (HloOp τ sig (Elt F))).Forall fun op => op.writes ⊆ (sufW8.map (Proc.devRef (τ := τ) .tc)).toFinset :=
  writes_append opsS8_writes suf9_writes
/-- Stage 7 and everything after it. -/
abbrev suf7 : List (HloOp τ sig (Elt F)) := opsS7 ++ suf8
abbrev sufW7 : List (Ref sig .tc) := W7 ++ sufW8
theorem suf7_sub : (suf7 : List (HloOp τ sig (Elt F))).Forall fun op => op.bufs ⊆ tcRefs τ sig := forall_append' opsS7_sub suf8_sub
theorem suf7_fresh : (suf7 : List (HloOp τ sig (Elt F))).Forall fun op => op.fresh = ∅ := forall_append' opsS7_fresh suf8_fresh
theorem suf7_writes : (suf7 : List (HloOp τ sig (Elt F))).Forall fun op => op.writes ⊆ (sufW7.map (Proc.devRef (τ := τ) .tc)).toFinset :=
  writes_append opsS7_writes suf8_writes
/-- Stage 6 and everything after it. -/
abbrev suf6 : List (HloOp τ sig (Elt F)) := opsS6 ++ suf7
abbrev sufW6 : List (Ref sig .tc) := W6 ++ sufW7
theorem suf6_sub : (suf6 : List (HloOp τ sig (Elt F))).Forall fun op => op.bufs ⊆ tcRefs τ sig := forall_append' opsS6_sub suf7_sub
theorem suf6_fresh : (suf6 : List (HloOp τ sig (Elt F))).Forall fun op => op.fresh = ∅ := forall_append' opsS6_fresh suf7_fresh
theorem suf6_writes : (suf6 : List (HloOp τ sig (Elt F))).Forall fun op => op.writes ⊆ (sufW6.map (Proc.devRef (τ := τ) .tc)).toFinset :=
  writes_append opsS6_writes suf7_writes
/-- Stage 5 and everything after it. -/
abbrev suf5 : List (HloOp τ sig (Elt F)) := opsS5 ++ suf6
abbrev sufW5 : List (Ref sig .tc) := W5 ++ sufW6
theorem suf5_sub : (suf5 : List (HloOp τ sig (Elt F))).Forall fun op => op.bufs ⊆ tcRefs τ sig := forall_append' opsS5_sub suf6_sub
theorem suf5_fresh : (suf5 : List (HloOp τ sig (Elt F))).Forall fun op => op.fresh = ∅ := forall_append' opsS5_fresh suf6_fresh
theorem suf5_writes : (suf5 : List (HloOp τ sig (Elt F))).Forall fun op => op.writes ⊆ (sufW5.map (Proc.devRef (τ := τ) .tc)).toFinset :=
  writes_append opsS5_writes suf6_writes
/-- Stage 4 and everything after it. -/
abbrev suf4 : List (HloOp τ sig (Elt F)) := opsS4 ++ suf5
abbrev sufW4 : List (Ref sig .tc) := W4 ++ sufW5
theorem suf4_sub : (suf4 : List (HloOp τ sig (Elt F))).Forall fun op => op.bufs ⊆ tcRefs τ sig := forall_append' opsS4_sub suf5_sub
theorem suf4_fresh : (suf4 : List (HloOp τ sig (Elt F))).Forall fun op => op.fresh = ∅ := forall_append' opsS4_fresh suf5_fresh
theorem suf4_writes : (suf4 : List (HloOp τ sig (Elt F))).Forall fun op => op.writes ⊆ (sufW4.map (Proc.devRef (τ := τ) .tc)).toFinset :=
  writes_append opsS4_writes suf5_writes
/-- Stage 3 and everything after it. -/
abbrev suf3 : List (HloOp τ sig (Elt F)) := opsS3 ++ suf4
abbrev sufW3 : List (Ref sig .tc) := W3 ++ sufW4
theorem suf3_sub : (suf3 : List (HloOp τ sig (Elt F))).Forall fun op => op.bufs ⊆ tcRefs τ sig := forall_append' opsS3_sub suf4_sub
theorem suf3_fresh : (suf3 : List (HloOp τ sig (Elt F))).Forall fun op => op.fresh = ∅ := forall_append' opsS3_fresh suf4_fresh
theorem suf3_writes : (suf3 : List (HloOp τ sig (Elt F))).Forall fun op => op.writes ⊆ (sufW3.map (Proc.devRef (τ := τ) .tc)).toFinset :=
  writes_append opsS3_writes suf4_writes
/-- Stage 2 and everything after it. -/
abbrev suf2 : List (HloOp τ sig (Elt F)) := opsS2 ++ suf3
abbrev sufW2 : List (Ref sig .tc) := W2 ++ sufW3
theorem suf2_sub : (suf2 : List (HloOp τ sig (Elt F))).Forall fun op => op.bufs ⊆ tcRefs τ sig := forall_append' opsS2_sub suf3_sub
theorem suf2_fresh : (suf2 : List (HloOp τ sig (Elt F))).Forall fun op => op.fresh = ∅ := forall_append' opsS2_fresh suf3_fresh
theorem suf2_writes : (suf2 : List (HloOp τ sig (Elt F))).Forall fun op => op.writes ⊆ (sufW2.map (Proc.devRef (τ := τ) .tc)).toFinset :=
  writes_append opsS2_writes suf3_writes
/-- Stage 1 and everything after it. -/
abbrev suf1 : List (HloOp τ sig (Elt F)) := opsS1 ++ suf2
abbrev sufW1 : List (Ref sig .tc) := W1 ++ sufW2
theorem suf1_sub : (suf1 : List (HloOp τ sig (Elt F))).Forall fun op => op.bufs ⊆ tcRefs τ sig := forall_append' opsS1_sub suf2_sub
theorem suf1_fresh : (suf1 : List (HloOp τ sig (Elt F))).Forall fun op => op.fresh = ∅ := forall_append' opsS1_fresh suf2_fresh
theorem suf1_writes : (suf1 : List (HloOp τ sig (Elt F))).Forall fun op => op.writes ⊆ (sufW1.map (Proc.devRef (τ := τ) .tc)).toFinset :=
  writes_append opsS1_writes suf2_writes
/-- Stage 0 and everything after it. -/
abbrev suf0 : List (HloOp τ sig (Elt F)) := opsS0 ++ suf1
abbrev sufW0 : List (Ref sig .tc) := W0 ++ sufW1
theorem suf0_sub : (suf0 : List (HloOp τ sig (Elt F))).Forall fun op => op.bufs ⊆ tcRefs τ sig := forall_append' opsS0_sub suf1_sub
theorem suf0_fresh : (suf0 : List (HloOp τ sig (Elt F))).Forall fun op => op.fresh = ∅ := forall_append' opsS0_fresh suf1_fresh
theorem suf0_writes : (suf0 : List (HloOp τ sig (Elt F))).Forall fun op => op.writes ⊆ (sufW0.map (Proc.devRef (τ := τ) .tc)).toFinset :=
  writes_append opsS0_writes suf1_writes

/-- @main's 262 operations, in order: the stages one after the other. -/
abbrev ops : List (HloOp τ sig (Elt F)) := suf0

/-- The operations of @main's window 0. -/
abbrev win0 : List (HloOp τ sig (Elt F)) := opsS0 ++ (opsS1 ++ (opsS2 ++ (opsS3 ++ (opsS4 ++ (opsS5 ++ (opsS6 ++ (opsS7 ++ (opsS8))))))))
set_option maxRecDepth 16384 in
set_option maxHeartbeats 4000000 in
/-- The window is that straight line: the outlined functions unfolded at their calls, sequencing reassociated. -/
theorem main_part0_eq (c : Dev nD) : main_part0 (F := F) c = seq win0 := by
  rfl

/-- The operations of @main's window 1. -/
abbrev win1 : List (HloOp τ sig (Elt F)) := opsS9 ++ (opsS10 ++ (opsS11 ++ (opsS12 ++ (opsS13 ++ (opsS14 ++ (opsS15 ++ (opsS16 ++ (opsS17))))))))
set_option maxRecDepth 16384 in
set_option maxHeartbeats 4000000 in
/-- The window is that straight line: the outlined functions unfolded at their calls, sequencing reassociated. -/
theorem main_part1_eq (c : Dev nD) : main_part1 (F := F) c = seq win1 := by
  simp only [main_part1, fn_var.body, fn_var_0.body, fn_where.body, fn_relu.body, fn_relu_1.body, fn_clip.body, bind_assoc, pure_bind]
  rfl

/-- The operations of @main's window 2. -/
abbrev win2 : List (HloOp τ sig (Elt F)) := opsS18 ++ (opsS19 ++ (opsS20 ++ (opsS21 ++ (opsS22 ++ (opsS23 ++ (opsS24 ++ (opsS25 ++ (opsS26 ++ (opsS27 ++ (opsS28))))))))))
set_option maxRecDepth 16384 in
set_option maxHeartbeats 4000000 in
/-- The window is that straight line: the outlined functions unfolded at their calls, sequencing reassociated. -/
theorem main_part2_eq (c : Dev nD) : main_part2 (F := F) c = seq win2 := by
  simp only [main_part2, fn_var.body, fn_var_0.body, fn_where.body, fn_relu.body, fn_relu_1.body, fn_clip.body, bind_assoc, pure_bind]
  rfl

/-- The operations of @main's window 3. -/
abbrev win3 : List (HloOp τ sig (Elt F)) := opsS29 ++ (opsS30 ++ (opsS31 ++ (opsS32)))
set_option maxRecDepth 16384 in
set_option maxHeartbeats 4000000 in
/-- The window is that straight line: the outlined functions unfolded at their calls, sequencing reassociated. -/
theorem main_part3_eq (c : Dev nD) : main_part3 (F := F) c = seq win3 := by
  simp only [main_part3, fn_var.body, fn_var_0.body, fn_where.body, fn_relu.body, fn_relu_1.body, fn_clip.body, bind_assoc, pure_bind]
  rfl

set_option maxRecDepth 16384 in
theorem ops_eq : (ops : List (HloOp τ sig (Elt F))) = win0 ++ (win1 ++ (win2 ++ win3)) := by
  simp only [ops, suf0, suf1, suf2, suf3, suf4, suf5, suf6, suf7, suf8, suf9, suf10, suf11, suf12, suf13, suf14, suf15, suf16, suf17, suf18, suf19, suf20, suf21, suf22, suf23, suf24, suf25, suf26, suf27, suf28, suf29, suf30, suf31, suf32, suf33, win0, win1, win2, win3, List.append_assoc, List.append_nil]

set_option maxRecDepth 16384 in
theorem main_eq (c : Dev nD) : main (F := F) c = seq ops := by
  rw [ops_eq]
  simp only [main, seq_append, ← main_part0_eq c, ← main_part1_eq c, ← main_part2_eq c, ← main_part3_eq c]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := suf0_sub
theorem ops_fresh : (ops : List (HloOp τ sig (Elt F))).Forall fun op => op.fresh = ∅ := suf0_fresh
theorem ops_writes : (ops : List (HloOp τ sig (Elt F))).Forall fun op => op.writes ⊆ (sufW0.map (Proc.devRef (τ := τ) .tc)).toFinset := suf0_writes

/-- On every device, for any float values, from any memory with zero counters: every weakly fair execution of @main
    terminates with each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  run_seq scopedRefs_eq scopedSems_eq defs main (fun _ => ops) main_eq (fun _ => ops_sub) m ρ
    (fun _ op h => List.forall_iff_forall_mem.mp ops_fresh op h)

/-- A buffer no operation writes keeps its contents through the program. -/
theorem kept (W : Valuation τ sig (Elt F)) (r : Ref sig .tc) (h : r ∉ (sufW0 : List (Ref sig .tc))) :
    StableHlo.after ops W (Proc.devRef .tc r) = W (Proc.devRef .tc r) :=
  after_of_writes_sub ops W ops_writes h

theorem arg0_kept (W : Valuation τ sig (Elt F)) : StableHlo.after ops W (Proc.devRef .tc main_arg0) = W (Proc.devRef .tc main_arg0) := kept W main_arg0 (by decide)
theorem arg1_kept (W : Valuation τ sig (Elt F)) : StableHlo.after ops W (Proc.devRef .tc main_arg1) = W (Proc.devRef .tc main_arg1) := kept W main_arg1 (by decide)
theorem arg2_kept (W : Valuation τ sig (Elt F)) : StableHlo.after ops W (Proc.devRef .tc main_arg2) = W (Proc.devRef .tc main_arg2) := kept W main_arg2 (by decide)
theorem arg3_kept (W : Valuation τ sig (Elt F)) : StableHlo.after ops W (Proc.devRef .tc main_arg3) = W (Proc.devRef .tc main_arg3) := kept W main_arg3 (by decide)
theorem arg4_kept (W : Valuation τ sig (Elt F)) : StableHlo.after ops W (Proc.devRef .tc main_arg4) = W (Proc.devRef .tc main_arg4) := kept W main_arg4 (by decide)
theorem arg5_kept (W : Valuation τ sig (Elt F)) : StableHlo.after ops W (Proc.devRef .tc main_arg5) = W (Proc.devRef .tc main_arg5) := kept W main_arg5 (by decide)
theorem arg6_kept (W : Valuation τ sig (Elt F)) : StableHlo.after ops W (Proc.devRef .tc main_arg6) = W (Proc.devRef .tc main_arg6) := kept W main_arg6 (by decide)
theorem arg7_kept (W : Valuation τ sig (Elt F)) : StableHlo.after ops W (Proc.devRef .tc main_arg7) = W (Proc.devRef .tc main_arg7) := kept W main_arg7 (by decide)
theorem arg8_kept (W : Valuation τ sig (Elt F)) : StableHlo.after ops W (Proc.devRef .tc main_arg8) = W (Proc.devRef .tc main_arg8) := kept W main_arg8 (by decide)
theorem arg9_kept (W : Valuation τ sig (Elt F)) : StableHlo.after ops W (Proc.devRef .tc main_arg9) = W (Proc.devRef .tc main_arg9) := kept W main_arg9 (by decide)
theorem arg10_kept (W : Valuation τ sig (Elt F)) : StableHlo.after ops W (Proc.devRef .tc main_arg10) = W (Proc.devRef .tc main_arg10) := kept W main_arg10 (by decide)
theorem arg11_kept (W : Valuation τ sig (Elt F)) : StableHlo.after ops W (Proc.devRef .tc main_arg11) = W (Proc.devRef .tc main_arg11) := kept W main_arg11 (by decide)
theorem arg12_kept (W : Valuation τ sig (Elt F)) : StableHlo.after ops W (Proc.devRef .tc main_arg12) = W (Proc.devRef .tc main_arg12) := kept W main_arg12 (by decide)
theorem arg13_kept (W : Valuation τ sig (Elt F)) : StableHlo.after ops W (Proc.devRef .tc main_arg13) = W (Proc.devRef .tc main_arg13) := kept W main_arg13 (by decide)
theorem arg14_kept (W : Valuation τ sig (Elt F)) : StableHlo.after ops W (Proc.devRef .tc main_arg14) = W (Proc.devRef .tc main_arg14) := kept W main_arg14 (by decide)
theorem arg15_kept (W : Valuation τ sig (Elt F)) : StableHlo.after ops W (Proc.devRef .tc main_arg15) = W (Proc.devRef .tc main_arg15) := kept W main_arg15 (by decide)
theorem arg16_kept (W : Valuation τ sig (Elt F)) : StableHlo.after ops W (Proc.devRef .tc main_arg16) = W (Proc.devRef .tc main_arg16) := kept W main_arg16 (by decide)
theorem arg17_kept (W : Valuation τ sig (Elt F)) : StableHlo.after ops W (Proc.devRef .tc main_arg17) = W (Proc.devRef .tc main_arg17) := kept W main_arg17 (by decide)
theorem arg18_kept (W : Valuation τ sig (Elt F)) : StableHlo.after ops W (Proc.devRef .tc main_arg18) = W (Proc.devRef .tc main_arg18) := kept W main_arg18 (by decide)
theorem arg19_kept (W : Valuation τ sig (Elt F)) : StableHlo.after ops W (Proc.devRef .tc main_arg19) = W (Proc.devRef .tc main_arg19) := kept W main_arg19 (by decide)

/-- The arguments keep their contents. -/
theorem args_kept (W : Valuation τ sig (Elt F)) :
    StableHlo.after ops W (Proc.devRef .tc main_arg0) = W (Proc.devRef .tc main_arg0)
    ∧ StableHlo.after ops W (Proc.devRef .tc main_arg1) = W (Proc.devRef .tc main_arg1)
    ∧ StableHlo.after ops W (Proc.devRef .tc main_arg2) = W (Proc.devRef .tc main_arg2)
    ∧ StableHlo.after ops W (Proc.devRef .tc main_arg3) = W (Proc.devRef .tc main_arg3)
    ∧ StableHlo.after ops W (Proc.devRef .tc main_arg4) = W (Proc.devRef .tc main_arg4)
    ∧ StableHlo.after ops W (Proc.devRef .tc main_arg5) = W (Proc.devRef .tc main_arg5)
    ∧ StableHlo.after ops W (Proc.devRef .tc main_arg6) = W (Proc.devRef .tc main_arg6)
    ∧ StableHlo.after ops W (Proc.devRef .tc main_arg7) = W (Proc.devRef .tc main_arg7)
    ∧ StableHlo.after ops W (Proc.devRef .tc main_arg8) = W (Proc.devRef .tc main_arg8)
    ∧ StableHlo.after ops W (Proc.devRef .tc main_arg9) = W (Proc.devRef .tc main_arg9)
    ∧ StableHlo.after ops W (Proc.devRef .tc main_arg10) = W (Proc.devRef .tc main_arg10)
    ∧ StableHlo.after ops W (Proc.devRef .tc main_arg11) = W (Proc.devRef .tc main_arg11)
    ∧ StableHlo.after ops W (Proc.devRef .tc main_arg12) = W (Proc.devRef .tc main_arg12)
    ∧ StableHlo.after ops W (Proc.devRef .tc main_arg13) = W (Proc.devRef .tc main_arg13)
    ∧ StableHlo.after ops W (Proc.devRef .tc main_arg14) = W (Proc.devRef .tc main_arg14)
    ∧ StableHlo.after ops W (Proc.devRef .tc main_arg15) = W (Proc.devRef .tc main_arg15)
    ∧ StableHlo.after ops W (Proc.devRef .tc main_arg16) = W (Proc.devRef .tc main_arg16)
    ∧ StableHlo.after ops W (Proc.devRef .tc main_arg17) = W (Proc.devRef .tc main_arg17)
    ∧ StableHlo.after ops W (Proc.devRef .tc main_arg18) = W (Proc.devRef .tc main_arg18)
    ∧ StableHlo.after ops W (Proc.devRef .tc main_arg19) = W (Proc.devRef .tc main_arg19) :=
  ⟨arg0_kept W, arg1_kept W, arg2_kept W, arg3_kept W, arg4_kept W, arg5_kept W, arg6_kept W, arg7_kept W, arg8_kept W, arg9_kept W, arg10_kept W, arg11_kept W, arg12_kept W, arg13_kept W, arg14_kept W, arg15_kept W, arg16_kept W, arg17_kept W, arg18_kept W, arg19_kept W⟩

end Cert.ReferenceIdeal.RefRun

end
-- ==== Proof.RefStages.lean ====
/- The reference program's buffers after its run, stage by stage: with the contents after the first k stages
   (`val k`), a buffer no later stage writes holds after the whole program what it holds after stage k, so each stage's
   results are its operations' functions of what the earlier stages left. One equation per stage-boundary buffer gives
   it as the composed term of the earlier boundary buffers and of the arguments. -/
import proofs.«128591_j87351044866445_2_alg».proof.Proof.RefRun

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The contents after the first k stages -/

/-- The contents before the first stage. -/
def val0 (W : Valuation τ sig (Elt F)) : Valuation τ sig (Elt F) := W
theorem after_suf0 (W : Valuation τ sig (Elt F)) : after ops W = after suf0 (val0 W) := rfl

/-- The contents after the first 1 stages. -/
def val1 (W : Valuation τ sig (Elt F)) : Valuation τ sig (Elt F) := after opsS0 (val0 W)
theorem after_suf1 (W : Valuation τ sig (Elt F)) : after ops W = after suf1 (val1 W) :=
  (after_suf0 W).trans (after_app opsS0 suf1 (val0 W))
/-- The contents after the first 2 stages. -/
def val2 (W : Valuation τ sig (Elt F)) : Valuation τ sig (Elt F) := after opsS1 (val1 W)
theorem after_suf2 (W : Valuation τ sig (Elt F)) : after ops W = after suf2 (val2 W) :=
  (after_suf1 W).trans (after_app opsS1 suf2 (val1 W))
/-- The contents after the first 3 stages. -/
def val3 (W : Valuation τ sig (Elt F)) : Valuation τ sig (Elt F) := after opsS2 (val2 W)
theorem after_suf3 (W : Valuation τ sig (Elt F)) : after ops W = after suf3 (val3 W) :=
  (after_suf2 W).trans (after_app opsS2 suf3 (val2 W))
/-- The contents after the first 4 stages. -/
def val4 (W : Valuation τ sig (Elt F)) : Valuation τ sig (Elt F) := after opsS3 (val3 W)
theorem after_suf4 (W : Valuation τ sig (Elt F)) : after ops W = after suf4 (val4 W) :=
  (after_suf3 W).trans (after_app opsS3 suf4 (val3 W))
/-- The contents after the first 5 stages. -/
def val5 (W : Valuation τ sig (Elt F)) : Valuation τ sig (Elt F) := after opsS4 (val4 W)
theorem after_suf5 (W : Valuation τ sig (Elt F)) : after ops W = after suf5 (val5 W) :=
  (after_suf4 W).trans (after_app opsS4 suf5 (val4 W))
/-- The contents after the first 6 stages. -/
def val6 (W : Valuation τ sig (Elt F)) : Valuation τ sig (Elt F) := after opsS5 (val5 W)
theorem after_suf6 (W : Valuation τ sig (Elt F)) : after ops W = after suf6 (val6 W) :=
  (after_suf5 W).trans (after_app opsS5 suf6 (val5 W))
/-- The contents after the first 7 stages. -/
def val7 (W : Valuation τ sig (Elt F)) : Valuation τ sig (Elt F) := after opsS6 (val6 W)
theorem after_suf7 (W : Valuation τ sig (Elt F)) : after ops W = after suf7 (val7 W) :=
  (after_suf6 W).trans (after_app opsS6 suf7 (val6 W))
/-- The contents after the first 8 stages. -/
def val8 (W : Valuation τ sig (Elt F)) : Valuation τ sig (Elt F) := after opsS7 (val7 W)
theorem after_suf8 (W : Valuation τ sig (Elt F)) : after ops W = after suf8 (val8 W) :=
  (after_suf7 W).trans (after_app opsS7 suf8 (val7 W))
/-- The contents after the first 9 stages. -/
def val9 (W : Valuation τ sig (Elt F)) : Valuation τ sig (Elt F) := after opsS8 (val8 W)
theorem after_suf9 (W : Valuation τ sig (Elt F)) : after ops W = after suf9 (val9 W) :=
  (after_suf8 W).trans (after_app opsS8 suf9 (val8 W))
/-- The contents after the first 10 stages. -/
def val10 (W : Valuation τ sig (Elt F)) : Valuation τ sig (Elt F) := after opsS9 (val9 W)
theorem after_suf10 (W : Valuation τ sig (Elt F)) : after ops W = after suf10 (val10 W) :=
  (after_suf9 W).trans (after_app opsS9 suf10 (val9 W))
/-- The contents after the first 11 stages. -/
def val11 (W : Valuation τ sig (Elt F)) : Valuation τ sig (Elt F) := after opsS10 (val10 W)
theorem after_suf11 (W : Valuation τ sig (Elt F)) : after ops W = after suf11 (val11 W) :=
  (after_suf10 W).trans (after_app opsS10 suf11 (val10 W))
/-- The contents after the first 12 stages. -/
def val12 (W : Valuation τ sig (Elt F)) : Valuation τ sig (Elt F) := after opsS11 (val11 W)
theorem after_suf12 (W : Valuation τ sig (Elt F)) : after ops W = after suf12 (val12 W) :=
  (after_suf11 W).trans (after_app opsS11 suf12 (val11 W))
/-- The contents after the first 13 stages. -/
def val13 (W : Valuation τ sig (Elt F)) : Valuation τ sig (Elt F) := after opsS12 (val12 W)
theorem after_suf13 (W : Valuation τ sig (Elt F)) : after ops W = after suf13 (val13 W) :=
  (after_suf12 W).trans (after_app opsS12 suf13 (val12 W))
/-- The contents after the first 14 stages. -/
def val14 (W : Valuation τ sig (Elt F)) : Valuation τ sig (Elt F) := after opsS13 (val13 W)
theorem after_suf14 (W : Valuation τ sig (Elt F)) : after ops W = after suf14 (val14 W) :=
  (after_suf13 W).trans (after_app opsS13 suf14 (val13 W))
/-- The contents after the first 15 stages. -/
def val15 (W : Valuation τ sig (Elt F)) : Valuation τ sig (Elt F) := after opsS14 (val14 W)
theorem after_suf15 (W : Valuation τ sig (Elt F)) : after ops W = after suf15 (val15 W) :=
  (after_suf14 W).trans (after_app opsS14 suf15 (val14 W))
/-- The contents after the first 16 stages. -/
def val16 (W : Valuation τ sig (Elt F)) : Valuation τ sig (Elt F) := after opsS15 (val15 W)
theorem after_suf16 (W : Valuation τ sig (Elt F)) : after ops W = after suf16 (val16 W) :=
  (after_suf15 W).trans (after_app opsS15 suf16 (val15 W))
/-- The contents after the first 17 stages. -/
def val17 (W : Valuation τ sig (Elt F)) : Valuation τ sig (Elt F) := after opsS16 (val16 W)
theorem after_suf17 (W : Valuation τ sig (Elt F)) : after ops W = after suf17 (val17 W) :=
  (after_suf16 W).trans (after_app opsS16 suf17 (val16 W))
/-- The contents after the first 18 stages. -/
def val18 (W : Valuation τ sig (Elt F)) : Valuation τ sig (Elt F) := after opsS17 (val17 W)
theorem after_suf18 (W : Valuation τ sig (Elt F)) : after ops W = after suf18 (val18 W) :=
  (after_suf17 W).trans (after_app opsS17 suf18 (val17 W))
/-- The contents after the first 19 stages. -/
def val19 (W : Valuation τ sig (Elt F)) : Valuation τ sig (Elt F) := after opsS18 (val18 W)
theorem after_suf19 (W : Valuation τ sig (Elt F)) : after ops W = after suf19 (val19 W) :=
  (after_suf18 W).trans (after_app opsS18 suf19 (val18 W))
/-- The contents after the first 20 stages. -/
def val20 (W : Valuation τ sig (Elt F)) : Valuation τ sig (Elt F) := after opsS19 (val19 W)
theorem after_suf20 (W : Valuation τ sig (Elt F)) : after ops W = after suf20 (val20 W) :=
  (after_suf19 W).trans (after_app opsS19 suf20 (val19 W))
/-- The contents after the first 21 stages. -/
def val21 (W : Valuation τ sig (Elt F)) : Valuation τ sig (Elt F) := after opsS20 (val20 W)
theorem after_suf21 (W : Valuation τ sig (Elt F)) : after ops W = after suf21 (val21 W) :=
  (after_suf20 W).trans (after_app opsS20 suf21 (val20 W))
/-- The contents after the first 22 stages. -/
def val22 (W : Valuation τ sig (Elt F)) : Valuation τ sig (Elt F) := after opsS21 (val21 W)
theorem after_suf22 (W : Valuation τ sig (Elt F)) : after ops W = after suf22 (val22 W) :=
  (after_suf21 W).trans (after_app opsS21 suf22 (val21 W))
/-- The contents after the first 23 stages. -/
def val23 (W : Valuation τ sig (Elt F)) : Valuation τ sig (Elt F) := after opsS22 (val22 W)
theorem after_suf23 (W : Valuation τ sig (Elt F)) : after ops W = after suf23 (val23 W) :=
  (after_suf22 W).trans (after_app opsS22 suf23 (val22 W))
/-- The contents after the first 24 stages. -/
def val24 (W : Valuation τ sig (Elt F)) : Valuation τ sig (Elt F) := after opsS23 (val23 W)
theorem after_suf24 (W : Valuation τ sig (Elt F)) : after ops W = after suf24 (val24 W) :=
  (after_suf23 W).trans (after_app opsS23 suf24 (val23 W))
/-- The contents after the first 25 stages. -/
def val25 (W : Valuation τ sig (Elt F)) : Valuation τ sig (Elt F) := after opsS24 (val24 W)
theorem after_suf25 (W : Valuation τ sig (Elt F)) : after ops W = after suf25 (val25 W) :=
  (after_suf24 W).trans (after_app opsS24 suf25 (val24 W))
/-- The contents after the first 26 stages. -/
def val26 (W : Valuation τ sig (Elt F)) : Valuation τ sig (Elt F) := after opsS25 (val25 W)
theorem after_suf26 (W : Valuation τ sig (Elt F)) : after ops W = after suf26 (val26 W) :=
  (after_suf25 W).trans (after_app opsS25 suf26 (val25 W))
/-- The contents after the first 27 stages. -/
def val27 (W : Valuation τ sig (Elt F)) : Valuation τ sig (Elt F) := after opsS26 (val26 W)
theorem after_suf27 (W : Valuation τ sig (Elt F)) : after ops W = after suf27 (val27 W) :=
  (after_suf26 W).trans (after_app opsS26 suf27 (val26 W))
/-- The contents after the first 28 stages. -/
def val28 (W : Valuation τ sig (Elt F)) : Valuation τ sig (Elt F) := after opsS27 (val27 W)
theorem after_suf28 (W : Valuation τ sig (Elt F)) : after ops W = after suf28 (val28 W) :=
  (after_suf27 W).trans (after_app opsS27 suf28 (val27 W))
/-- The contents after the first 29 stages. -/
def val29 (W : Valuation τ sig (Elt F)) : Valuation τ sig (Elt F) := after opsS28 (val28 W)
theorem after_suf29 (W : Valuation τ sig (Elt F)) : after ops W = after suf29 (val29 W) :=
  (after_suf28 W).trans (after_app opsS28 suf29 (val28 W))
/-- The contents after the first 30 stages. -/
def val30 (W : Valuation τ sig (Elt F)) : Valuation τ sig (Elt F) := after opsS29 (val29 W)
theorem after_suf30 (W : Valuation τ sig (Elt F)) : after ops W = after suf30 (val30 W) :=
  (after_suf29 W).trans (after_app opsS29 suf30 (val29 W))
/-- The contents after the first 31 stages. -/
def val31 (W : Valuation τ sig (Elt F)) : Valuation τ sig (Elt F) := after opsS30 (val30 W)
theorem after_suf31 (W : Valuation τ sig (Elt F)) : after ops W = after suf31 (val31 W) :=
  (after_suf30 W).trans (after_app opsS30 suf31 (val30 W))
/-- The contents after the first 32 stages. -/
def val32 (W : Valuation τ sig (Elt F)) : Valuation τ sig (Elt F) := after opsS31 (val31 W)
theorem after_suf32 (W : Valuation τ sig (Elt F)) : after ops W = after suf32 (val32 W) :=
  (after_suf31 W).trans (after_app opsS31 suf32 (val31 W))
/-- The contents after the first 33 stages. -/
def val33 (W : Valuation τ sig (Elt F)) : Valuation τ sig (Elt F) := after opsS32 (val32 W)
theorem after_suf33 (W : Valuation τ sig (Elt F)) : after ops W = after suf33 (val33 W) :=
  (after_suf32 W).trans (after_app opsS32 suf33 (val32 W))

/-- A buffer that stage 0 and the later ones do not write holds after the program what it holds before stage 0. -/
theorem A_val0 (W : Valuation τ sig (Elt F)) (r : Ref sig .tc) (h : r ∉ (sufW0 : List (Ref sig .tc))) :
    after ops W (Proc.devRef .tc r) = val0 W (Proc.devRef .tc r) :=
  (congrFun (after_suf0 W) _).trans (after_of_writes_sub suf0 _ suf0_writes h)
/-- A buffer that stage 1 and the later ones do not write holds after the program what it holds before stage 1. -/
theorem A_val1 (W : Valuation τ sig (Elt F)) (r : Ref sig .tc) (h : r ∉ (sufW1 : List (Ref sig .tc))) :
    after ops W (Proc.devRef .tc r) = val1 W (Proc.devRef .tc r) :=
  (congrFun (after_suf1 W) _).trans (after_of_writes_sub suf1 _ suf1_writes h)
/-- A buffer that stage 2 and the later ones do not write holds after the program what it holds before stage 2. -/
theorem A_val2 (W : Valuation τ sig (Elt F)) (r : Ref sig .tc) (h : r ∉ (sufW2 : List (Ref sig .tc))) :
    after ops W (Proc.devRef .tc r) = val2 W (Proc.devRef .tc r) :=
  (congrFun (after_suf2 W) _).trans (after_of_writes_sub suf2 _ suf2_writes h)
/-- A buffer that stage 3 and the later ones do not write holds after the program what it holds before stage 3. -/
theorem A_val3 (W : Valuation τ sig (Elt F)) (r : Ref sig .tc) (h : r ∉ (sufW3 : List (Ref sig .tc))) :
    after ops W (Proc.devRef .tc r) = val3 W (Proc.devRef .tc r) :=
  (congrFun (after_suf3 W) _).trans (after_of_writes_sub suf3 _ suf3_writes h)
/-- A buffer that stage 4 and the later ones do not write holds after the program what it holds before stage 4. -/
theorem A_val4 (W : Valuation τ sig (Elt F)) (r : Ref sig .tc) (h : r ∉ (sufW4 : List (Ref sig .tc))) :
    after ops W (Proc.devRef .tc r) = val4 W (Proc.devRef .tc r) :=
  (congrFun (after_suf4 W) _).trans (after_of_writes_sub suf4 _ suf4_writes h)
/-- A buffer that stage 5 and the later ones do not write holds after the program what it holds before stage 5. -/
theorem A_val5 (W : Valuation τ sig (Elt F)) (r : Ref sig .tc) (h : r ∉ (sufW5 : List (Ref sig .tc))) :
    after ops W (Proc.devRef .tc r) = val5 W (Proc.devRef .tc r) :=
  (congrFun (after_suf5 W) _).trans (after_of_writes_sub suf5 _ suf5_writes h)
/-- A buffer that stage 6 and the later ones do not write holds after the program what it holds before stage 6. -/
theorem A_val6 (W : Valuation τ sig (Elt F)) (r : Ref sig .tc) (h : r ∉ (sufW6 : List (Ref sig .tc))) :
    after ops W (Proc.devRef .tc r) = val6 W (Proc.devRef .tc r) :=
  (congrFun (after_suf6 W) _).trans (after_of_writes_sub suf6 _ suf6_writes h)
/-- A buffer that stage 7 and the later ones do not write holds after the program what it holds before stage 7. -/
theorem A_val7 (W : Valuation τ sig (Elt F)) (r : Ref sig .tc) (h : r ∉ (sufW7 : List (Ref sig .tc))) :
    after ops W (Proc.devRef .tc r) = val7 W (Proc.devRef .tc r) :=
  (congrFun (after_suf7 W) _).trans (after_of_writes_sub suf7 _ suf7_writes h)
/-- A buffer that stage 8 and the later ones do not write holds after the program what it holds before stage 8. -/
theorem A_val8 (W : Valuation τ sig (Elt F)) (r : Ref sig .tc) (h : r ∉ (sufW8 : List (Ref sig .tc))) :
    after ops W (Proc.devRef .tc r) = val8 W (Proc.devRef .tc r) :=
  (congrFun (after_suf8 W) _).trans (after_of_writes_sub suf8 _ suf8_writes h)
/-- A buffer that stage 9 and the later ones do not write holds after the program what it holds before stage 9. -/
theorem A_val9 (W : Valuation τ sig (Elt F)) (r : Ref sig .tc) (h : r ∉ (sufW9 : List (Ref sig .tc))) :
    after ops W (Proc.devRef .tc r) = val9 W (Proc.devRef .tc r) :=
  (congrFun (after_suf9 W) _).trans (after_of_writes_sub suf9 _ suf9_writes h)
/-- A buffer that stage 10 and the later ones do not write holds after the program what it holds before stage 10. -/
theorem A_val10 (W : Valuation τ sig (Elt F)) (r : Ref sig .tc) (h : r ∉ (sufW10 : List (Ref sig .tc))) :
    after ops W (Proc.devRef .tc r) = val10 W (Proc.devRef .tc r) :=
  (congrFun (after_suf10 W) _).trans (after_of_writes_sub suf10 _ suf10_writes h)
/-- A buffer that stage 11 and the later ones do not write holds after the program what it holds before stage 11. -/
theorem A_val11 (W : Valuation τ sig (Elt F)) (r : Ref sig .tc) (h : r ∉ (sufW11 : List (Ref sig .tc))) :
    after ops W (Proc.devRef .tc r) = val11 W (Proc.devRef .tc r) :=
  (congrFun (after_suf11 W) _).trans (after_of_writes_sub suf11 _ suf11_writes h)
/-- A buffer that stage 12 and the later ones do not write holds after the program what it holds before stage 12. -/
theorem A_val12 (W : Valuation τ sig (Elt F)) (r : Ref sig .tc) (h : r ∉ (sufW12 : List (Ref sig .tc))) :
    after ops W (Proc.devRef .tc r) = val12 W (Proc.devRef .tc r) :=
  (congrFun (after_suf12 W) _).trans (after_of_writes_sub suf12 _ suf12_writes h)
/-- A buffer that stage 13 and the later ones do not write holds after the program what it holds before stage 13. -/
theorem A_val13 (W : Valuation τ sig (Elt F)) (r : Ref sig .tc) (h : r ∉ (sufW13 : List (Ref sig .tc))) :
    after ops W (Proc.devRef .tc r) = val13 W (Proc.devRef .tc r) :=
  (congrFun (after_suf13 W) _).trans (after_of_writes_sub suf13 _ suf13_writes h)
/-- A buffer that stage 14 and the later ones do not write holds after the program what it holds before stage 14. -/
theorem A_val14 (W : Valuation τ sig (Elt F)) (r : Ref sig .tc) (h : r ∉ (sufW14 : List (Ref sig .tc))) :
    after ops W (Proc.devRef .tc r) = val14 W (Proc.devRef .tc r) :=
  (congrFun (after_suf14 W) _).trans (after_of_writes_sub suf14 _ suf14_writes h)
/-- A buffer that stage 15 and the later ones do not write holds after the program what it holds before stage 15. -/
theorem A_val15 (W : Valuation τ sig (Elt F)) (r : Ref sig .tc) (h : r ∉ (sufW15 : List (Ref sig .tc))) :
    after ops W (Proc.devRef .tc r) = val15 W (Proc.devRef .tc r) :=
  (congrFun (after_suf15 W) _).trans (after_of_writes_sub suf15 _ suf15_writes h)
/-- A buffer that stage 16 and the later ones do not write holds after the program what it holds before stage 16. -/
theorem A_val16 (W : Valuation τ sig (Elt F)) (r : Ref sig .tc) (h : r ∉ (sufW16 : List (Ref sig .tc))) :
    after ops W (Proc.devRef .tc r) = val16 W (Proc.devRef .tc r) :=
  (congrFun (after_suf16 W) _).trans (after_of_writes_sub suf16 _ suf16_writes h)
/-- A buffer that stage 17 and the later ones do not write holds after the program what it holds before stage 17. -/
theorem A_val17 (W : Valuation τ sig (Elt F)) (r : Ref sig .tc) (h : r ∉ (sufW17 : List (Ref sig .tc))) :
    after ops W (Proc.devRef .tc r) = val17 W (Proc.devRef .tc r) :=
  (congrFun (after_suf17 W) _).trans (after_of_writes_sub suf17 _ suf17_writes h)
/-- A buffer that stage 18 and the later ones do not write holds after the program what it holds before stage 18. -/
theorem A_val18 (W : Valuation τ sig (Elt F)) (r : Ref sig .tc) (h : r ∉ (sufW18 : List (Ref sig .tc))) :
    after ops W (Proc.devRef .tc r) = val18 W (Proc.devRef .tc r) :=
  (congrFun (after_suf18 W) _).trans (after_of_writes_sub suf18 _ suf18_writes h)
/-- A buffer that stage 19 and the later ones do not write holds after the program what it holds before stage 19. -/
theorem A_val19 (W : Valuation τ sig (Elt F)) (r : Ref sig .tc) (h : r ∉ (sufW19 : List (Ref sig .tc))) :
    after ops W (Proc.devRef .tc r) = val19 W (Proc.devRef .tc r) :=
  (congrFun (after_suf19 W) _).trans (after_of_writes_sub suf19 _ suf19_writes h)
/-- A buffer that stage 20 and the later ones do not write holds after the program what it holds before stage 20. -/
theorem A_val20 (W : Valuation τ sig (Elt F)) (r : Ref sig .tc) (h : r ∉ (sufW20 : List (Ref sig .tc))) :
    after ops W (Proc.devRef .tc r) = val20 W (Proc.devRef .tc r) :=
  (congrFun (after_suf20 W) _).trans (after_of_writes_sub suf20 _ suf20_writes h)
/-- A buffer that stage 21 and the later ones do not write holds after the program what it holds before stage 21. -/
theorem A_val21 (W : Valuation τ sig (Elt F)) (r : Ref sig .tc) (h : r ∉ (sufW21 : List (Ref sig .tc))) :
    after ops W (Proc.devRef .tc r) = val21 W (Proc.devRef .tc r) :=
  (congrFun (after_suf21 W) _).trans (after_of_writes_sub suf21 _ suf21_writes h)
/-- A buffer that stage 22 and the later ones do not write holds after the program what it holds before stage 22. -/
theorem A_val22 (W : Valuation τ sig (Elt F)) (r : Ref sig .tc) (h : r ∉ (sufW22 : List (Ref sig .tc))) :
    after ops W (Proc.devRef .tc r) = val22 W (Proc.devRef .tc r) :=
  (congrFun (after_suf22 W) _).trans (after_of_writes_sub suf22 _ suf22_writes h)
/-- A buffer that stage 23 and the later ones do not write holds after the program what it holds before stage 23. -/
theorem A_val23 (W : Valuation τ sig (Elt F)) (r : Ref sig .tc) (h : r ∉ (sufW23 : List (Ref sig .tc))) :
    after ops W (Proc.devRef .tc r) = val23 W (Proc.devRef .tc r) :=
  (congrFun (after_suf23 W) _).trans (after_of_writes_sub suf23 _ suf23_writes h)
/-- A buffer that stage 24 and the later ones do not write holds after the program what it holds before stage 24. -/
theorem A_val24 (W : Valuation τ sig (Elt F)) (r : Ref sig .tc) (h : r ∉ (sufW24 : List (Ref sig .tc))) :
    after ops W (Proc.devRef .tc r) = val24 W (Proc.devRef .tc r) :=
  (congrFun (after_suf24 W) _).trans (after_of_writes_sub suf24 _ suf24_writes h)
/-- A buffer that stage 25 and the later ones do not write holds after the program what it holds before stage 25. -/
theorem A_val25 (W : Valuation τ sig (Elt F)) (r : Ref sig .tc) (h : r ∉ (sufW25 : List (Ref sig .tc))) :
    after ops W (Proc.devRef .tc r) = val25 W (Proc.devRef .tc r) :=
  (congrFun (after_suf25 W) _).trans (after_of_writes_sub suf25 _ suf25_writes h)
/-- A buffer that stage 26 and the later ones do not write holds after the program what it holds before stage 26. -/
theorem A_val26 (W : Valuation τ sig (Elt F)) (r : Ref sig .tc) (h : r ∉ (sufW26 : List (Ref sig .tc))) :
    after ops W (Proc.devRef .tc r) = val26 W (Proc.devRef .tc r) :=
  (congrFun (after_suf26 W) _).trans (after_of_writes_sub suf26 _ suf26_writes h)
/-- A buffer that stage 27 and the later ones do not write holds after the program what it holds before stage 27. -/
theorem A_val27 (W : Valuation τ sig (Elt F)) (r : Ref sig .tc) (h : r ∉ (sufW27 : List (Ref sig .tc))) :
    after ops W (Proc.devRef .tc r) = val27 W (Proc.devRef .tc r) :=
  (congrFun (after_suf27 W) _).trans (after_of_writes_sub suf27 _ suf27_writes h)
/-- A buffer that stage 28 and the later ones do not write holds after the program what it holds before stage 28. -/
theorem A_val28 (W : Valuation τ sig (Elt F)) (r : Ref sig .tc) (h : r ∉ (sufW28 : List (Ref sig .tc))) :
    after ops W (Proc.devRef .tc r) = val28 W (Proc.devRef .tc r) :=
  (congrFun (after_suf28 W) _).trans (after_of_writes_sub suf28 _ suf28_writes h)
/-- A buffer that stage 29 and the later ones do not write holds after the program what it holds before stage 29. -/
theorem A_val29 (W : Valuation τ sig (Elt F)) (r : Ref sig .tc) (h : r ∉ (sufW29 : List (Ref sig .tc))) :
    after ops W (Proc.devRef .tc r) = val29 W (Proc.devRef .tc r) :=
  (congrFun (after_suf29 W) _).trans (after_of_writes_sub suf29 _ suf29_writes h)
/-- A buffer that stage 30 and the later ones do not write holds after the program what it holds before stage 30. -/
theorem A_val30 (W : Valuation τ sig (Elt F)) (r : Ref sig .tc) (h : r ∉ (sufW30 : List (Ref sig .tc))) :
    after ops W (Proc.devRef .tc r) = val30 W (Proc.devRef .tc r) :=
  (congrFun (after_suf30 W) _).trans (after_of_writes_sub suf30 _ suf30_writes h)
/-- A buffer that stage 31 and the later ones do not write holds after the program what it holds before stage 31. -/
theorem A_val31 (W : Valuation τ sig (Elt F)) (r : Ref sig .tc) (h : r ∉ (sufW31 : List (Ref sig .tc))) :
    after ops W (Proc.devRef .tc r) = val31 W (Proc.devRef .tc r) :=
  (congrFun (after_suf31 W) _).trans (after_of_writes_sub suf31 _ suf31_writes h)
/-- A buffer that stage 32 and the later ones do not write holds after the program what it holds before stage 32. -/
theorem A_val32 (W : Valuation τ sig (Elt F)) (r : Ref sig .tc) (h : r ∉ (sufW32 : List (Ref sig .tc))) :
    after ops W (Proc.devRef .tc r) = val32 W (Proc.devRef .tc r) :=
  (congrFun (after_suf32 W) _).trans (after_of_writes_sub suf32 _ suf32_writes h)
/-- A buffer that stage 33 and the later ones do not write holds after the program what it holds before stage 33. -/
theorem A_val33 (W : Valuation τ sig (Elt F)) (r : Ref sig .tc) (h : r ∉ (sufW33 : List (Ref sig .tc))) :
    after ops W (Proc.devRef .tc r) = val33 W (Proc.devRef .tc r) :=
  (congrFun (after_suf33 W) _).trans (after_of_writes_sub suf33 _ suf33_writes h)

/-! ## Each needed buffer from what its stage reads -/

set_option maxRecDepth 8192 in
set_option maxHeartbeats 2000000 in
theorem stage_main_v1 (V : Valuation τ sig (Elt F)) :
    after (opsS0 : List (HloOp τ sig (Elt F))) V (Proc.devRef .tc main_v1) = (shapeCast S1600000 (extractStridedSlice S1x1600000 ![0, 0] (V (Proc.devRef .tc main_arg3)) slices_S2x1600000_S1x1600000_0_0 : (⟨S1x1600000, .i32⟩ : BufTy).Contents (Elt F)) shapeCasts_S1x1600000_S1600000 : (⟨S1600000, .i32⟩ : BufTy).Contents (Elt F)) := by
  simp only [opsS0]
  after_results_simp
  all_goals rfl
/-- `main_v1` after the program, from what its stage reads. -/
theorem loc_main_v1 (W : Valuation τ sig (Elt F)) :
    after ops W (Proc.devRef .tc main_v1) = (shapeCast S1600000 (extractStridedSlice S1x1600000 ![0, 0] (W (Proc.devRef .tc main_arg3)) slices_S2x1600000_S1x1600000_0_0 : (⟨S1x1600000, .i32⟩ : BufTy).Contents (Elt F)) shapeCasts_S1x1600000_S1600000 : (⟨S1600000, .i32⟩ : BufTy).Contents (Elt F)) := by
  have h := stage_main_v1 (val0 W)
  rw [(A_val0 W main_arg3 (by decide)).symm.trans (kept W main_arg3 (by decide))] at h
  exact (A_val1 W main_v1 (by decide)).trans h

set_option maxRecDepth 8192 in
set_option maxHeartbeats 2000000 in
theorem stage_main_v3 (V : Valuation τ sig (Elt F)) :
    after (opsS1 : List (HloOp τ sig (Elt F))) V (Proc.devRef .tc main_v3) = (shapeCast S1600000 (extractStridedSlice S1x1600000 ![1, 0] (V (Proc.devRef .tc main_arg3)) slices_S2x1600000_S1x1600000_1_0 : (⟨S1x1600000, .i32⟩ : BufTy).Contents (Elt F)) shapeCasts_S1x1600000_S1600000 : (⟨S1600000, .i32⟩ : BufTy).Contents (Elt F)) := by
  simp only [opsS1]
  after_results_simp
  all_goals rfl
/-- `main_v3` after the program, from what its stage reads. -/
theorem loc_main_v3 (W : Valuation τ sig (Elt F)) :
    after ops W (Proc.devRef .tc main_v3) = (shapeCast S1600000 (extractStridedSlice S1x1600000 ![1, 0] (W (Proc.devRef .tc main_arg3)) slices_S2x1600000_S1x1600000_1_0 : (⟨S1x1600000, .i32⟩ : BufTy).Contents (Elt F)) shapeCasts_S1x1600000_S1600000 : (⟨S1600000, .i32⟩ : BufTy).Contents (Elt F)) := by
  have h := stage_main_v3 (val1 W)
  rw [(A_val1 W main_arg3 (by decide)).symm.trans (kept W main_arg3 (by decide))] at h
  exact (A_val2 W main_v3 (by decide)).trans h

set_option maxRecDepth 8192 in
set_option maxHeartbeats 2000000 in
theorem stage_main_v10 (V : Valuation τ sig (Elt F)) :
    after (opsS2 : List (HloOp τ sig (Elt F))) V (Proc.devRef .tc main_v10) = (Host.gather gather_S50000x4_S1600000x1_S1600000x4_1_0_n_n_0_1_14 (V (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (V (Proc.devRef .tc main_v1)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (V (Proc.devRef .tc main_v1)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (V (Proc.devRef .tc main_v1)))) : (⟨S1600000x4, .f32⟩ : BufTy).Contents (Elt F)) := by
  simp only [opsS2]
  after_results_simp
  all_goals rfl
/-- `main_v10` after the program, from what its stage reads. -/
theorem loc_main_v10 (W : Valuation τ sig (Elt F)) :
    after ops W (Proc.devRef .tc main_v10) = (Host.gather gather_S50000x4_S1600000x1_S1600000x4_1_0_n_n_0_1_14 (W (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v1)))) : (⟨S1600000x4, .f32⟩ : BufTy).Contents (Elt F)) := by
  have h := stage_main_v10 (val2 W)
  rw [(A_val2 W main_arg1 (by decide)).symm.trans (kept W main_arg1 (by decide)), ← A_val2 W main_v1 (by decide)] at h
  exact (A_val3 W main_v10 (by decide)).trans h

set_option maxRecDepth 8192 in
set_option maxHeartbeats 2000000 in
theorem stage_main_v17 (V : Valuation τ sig (Elt F)) :
    after (opsS3 : List (HloOp τ sig (Elt F))) V (Proc.devRef .tc main_v17) = (Host.gather gather_S50000x4_S1600000x1_S1600000x4_1_0_n_n_0_1_14 (V (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (V (Proc.devRef .tc main_v3)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (V (Proc.devRef .tc main_v3)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (V (Proc.devRef .tc main_v3)))) : (⟨S1600000x4, .f32⟩ : BufTy).Contents (Elt F)) := by
  simp only [opsS3]
  after_results_simp
  all_goals rfl
/-- `main_v17` after the program, from what its stage reads. -/
theorem loc_main_v17 (W : Valuation τ sig (Elt F)) :
    after ops W (Proc.devRef .tc main_v17) = (Host.gather gather_S50000x4_S1600000x1_S1600000x4_1_0_n_n_0_1_14 (W (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v3)))) : (⟨S1600000x4, .f32⟩ : BufTy).Contents (Elt F)) := by
  have h := stage_main_v17 (val3 W)
  rw [(A_val3 W main_arg1 (by decide)).symm.trans (kept W main_arg1 (by decide)), ← A_val3 W main_v3 (by decide)] at h
  exact (A_val4 W main_v17 (by decide)).trans h

set_option maxRecDepth 8192 in
set_option maxHeartbeats 2000000 in
theorem stage_main_v18 (V : Valuation τ sig (Elt F)) :
    after (opsS4 : List (HloOp τ sig (Elt F))) V (Proc.devRef .tc main_v18) = ((subf : (⟨S1600000x4, .f32⟩ : BufTy).Contents (Elt F) → (⟨S1600000x4, .f32⟩ : BufTy).Contents (Elt F) → (⟨S1600000x4, .f32⟩ : BufTy).Contents (Elt F)) (V (Proc.devRef .tc main_v10)) (V (Proc.devRef .tc main_v17))) := by
  simp only [opsS4]
  after_results_simp
  all_goals rfl
/-- `main_v18` after the program, from what its stage reads. -/
theorem loc_main_v18 (W : Valuation τ sig (Elt F)) :
    after ops W (Proc.devRef .tc main_v18) = ((subf : (⟨S1600000x4, .f32⟩ : BufTy).Contents (Elt F) → (⟨S1600000x4, .f32⟩ : BufTy).Contents (Elt F) → (⟨S1600000x4, .f32⟩ : BufTy).Contents (Elt F)) (after ops W (Proc.devRef .tc main_v10)) (after ops W (Proc.devRef .tc main_v17))) := by
  have h := stage_main_v18 (val4 W)
  rw [← A_val4 W main_v10 (by decide), ← A_val4 W main_v17 (by decide)] at h
  exact (A_val5 W main_v18 (by decide)).trans h

set_option maxRecDepth 8192 in
set_option maxHeartbeats 2000000 in
theorem stage_main_v31 (V : Valuation τ sig (Elt F)) :
    after (opsS5 : List (HloOp τ sig (Elt F))) V (Proc.devRef .tc main_v31) = ((mulf : (⟨S1600000, .f32⟩ : BufTy).Contents (Elt F) → (⟨S1600000, .f32⟩ : BufTy).Contents (Elt F) → (⟨S1600000, .f32⟩ : BufTy).Contents (Elt F)) ((Host.sign : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (extractStridedSlice S1600000x1 ![0, 0] ((mulf : (⟨S1600000x4, .f32⟩ : BufTy).Contents (Elt F) → (⟨S1600000x4, .f32⟩ : BufTy).Contents (Elt F) → (⟨S1600000x4, .f32⟩ : BufTy).Contents (Elt F)) (V (Proc.devRef .tc main_v18)) (V (Proc.devRef .tc main_v18))) slices_S1600000x4_S1600000x1_0_0 : (⟨S1600000x1, .f32⟩ : BufTy).Contents (Elt F)) shapeCasts_S1600000x1_S1600000 : (⟨S1600000, .f32⟩ : BufTy).Contents (Elt F))) (Host.reduceAdd ((mulf : (⟨S1600000x4, .f32⟩ : BufTy).Contents (Elt F) → (⟨S1600000x4, .f32⟩ : BufTy).Contents (Elt F) → (⟨S1600000x4, .f32⟩ : BufTy).Contents (Elt F)) (V (Proc.devRef .tc main_v18)) (V (Proc.devRef .tc main_v18))) (constant S_ .f32 0x00000000#32 : (⟨S_, .f32⟩ : BufTy).Contents (Elt F)) reducesTo_S1600000x4_S1600000_d1 h_S_ : (⟨S1600000, .f32⟩ : BufTy).Contents (Elt F)))) ((Host.log : (⟨S1600000, .f32⟩ : BufTy).Contents (Elt F) → (⟨S1600000, .f32⟩ : BufTy).Contents (Elt F)) ((addf : (⟨S1600000, .f32⟩ : BufTy).Contents (Elt F) → (⟨S1600000, .f32⟩ : BufTy).Contents (Elt F) → (⟨S1600000, .f32⟩ : BufTy).Contents (Elt F)) ((Host.absf : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (extractStridedSlice S1600000x1 ![0, 0] ((mulf : (⟨S1600000x4, .f32⟩ : BufTy).Contents (Elt F) → (⟨S1600000x4, .f32⟩ : BufTy).Contents (Elt F) → (⟨S1600000x4, .f32⟩ : BufTy).Contents (Elt F)) (V (Proc.devRef .tc main_v18)) (V (Proc.devRef .tc main_v18))) slices_S1600000x4_S1600000x1_0_0 : (⟨S1600000x1, .f32⟩ : BufTy).Contents (Elt F)) shapeCasts_S1600000x1_S1600000 : (⟨S1600000, .f32⟩ : BufTy).Contents (Elt F))) (Host.reduceAdd ((mulf : (⟨S1600000x4, .f32⟩ : BufTy).Contents (Elt F) → (⟨S1600000x4, .f32⟩ : BufTy).Contents (Elt F) → (⟨S1600000x4, .f32⟩ : BufTy).Contents (Elt F)) (V (Proc.devRef .tc main_v18)) (V (Proc.devRef .tc main_v18))) (constant S_ .f32 0x00000000#32 : (⟨S_, .f32⟩ : BufTy).Contents (Elt F)) reducesTo_S1600000x4_S1600000_d1 h_S_ : (⟨S1600000, .f32⟩ : BufTy).Contents (Elt F)))) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))))) := by
  simp only [opsS5]
  after_results_simp
  all_goals rfl
/-- `main_v31` after the program, from what its stage reads. -/
theorem loc_main_v31 (W : Valuation τ sig (Elt F)) :
    after ops W (Proc.devRef .tc main_v31) = ((mulf : (⟨S1600000, .f32⟩ : BufTy).Contents (Elt F) → (⟨S1600000, .f32⟩ : BufTy).Contents (Elt F) → (⟨S1600000, .f32⟩ : BufTy).Contents (Elt F)) ((Host.sign : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (extractStridedSlice S1600000x1 ![0, 0] ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v18)) (after ops W (Proc.devRef .tc main_v18))) slices_S1600000x4_S1600000x1_0_0 : (⟨S1600000x1, .f32⟩ : BufTy).Contents (Elt F)) shapeCasts_S1600000x1_S1600000 : (⟨S1600000, .f32⟩ : BufTy).Contents (Elt F))) (Host.reduceAdd ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v18)) (after ops W (Proc.devRef .tc main_v18))) (constant S_ .f32 0x00000000#32 : (⟨S_, .f32⟩ : BufTy).Contents (Elt F)) reducesTo_S1600000x4_S1600000_d1 h_S_ : (⟨S1600000, .f32⟩ : BufTy).Contents (Elt F)))) ((Host.log : (⟨S1600000, .f32⟩ : BufTy).Contents (Elt F) → (⟨S1600000, .f32⟩ : BufTy).Contents (Elt F)) ((addf : (⟨S1600000, .f32⟩ : BufTy).Contents (Elt F) → (⟨S1600000, .f32⟩ : BufTy).Contents (Elt F) → (⟨S1600000, .f32⟩ : BufTy).Contents (Elt F)) ((Host.absf : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (extractStridedSlice S1600000x1 ![0, 0] ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v18)) (after ops W (Proc.devRef .tc main_v18))) slices_S1600000x4_S1600000x1_0_0 : (⟨S1600000x1, .f32⟩ : BufTy).Contents (Elt F)) shapeCasts_S1600000x1_S1600000 : (⟨S1600000, .f32⟩ : BufTy).Contents (Elt F))) (Host.reduceAdd ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v18)) (after ops W (Proc.devRef .tc main_v18))) (constant S_ .f32 0x00000000#32 : (⟨S_, .f32⟩ : BufTy).Contents (Elt F)) reducesTo_S1600000x4_S1600000_d1 h_S_ : (⟨S1600000, .f32⟩ : BufTy).Contents (Elt F)))) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))))) := by
  have h := stage_main_v31 (val5 W)
  rw [← A_val5 W main_v18 (by decide)] at h
  exact (A_val6 W main_v31 (by decide)).trans h

set_option maxRecDepth 8192 in
set_option maxHeartbeats 2000000 in
theorem stage_main_v32 (V : Valuation τ sig (Elt F)) :
    after (opsS6 : List (HloOp τ sig (Elt F))) V (Proc.devRef .tc main_v32) = ((broadcastInDim S1600000x1 ![0] bcast_S1600000_S1600000x1_0 : (⟨S1600000, .f32⟩ : BufTy).Contents (Elt F) → (⟨S1600000x1, .f32⟩ : BufTy).Contents (Elt F)) (V (Proc.devRef .tc main_v31))) := by
  simp only [opsS6]
  after_results_simp
  all_goals rfl
/-- `main_v32` after the program, from what its stage reads. -/
theorem loc_main_v32 (W : Valuation τ sig (Elt F)) :
    after ops W (Proc.devRef .tc main_v32) = ((broadcastInDim S1600000x1 ![0] bcast_S1600000_S1600000x1_0 : (⟨S1600000, .f32⟩ : BufTy).Contents (Elt F) → (⟨S1600000x1, .f32⟩ : BufTy).Contents (Elt F)) (after ops W (Proc.devRef .tc main_v31))) := by
  have h := stage_main_v32 (val6 W)
  rw [← A_val6 W main_v31 (by decide)] at h
  exact (A_val7 W main_v32 (by decide)).trans h

set_option maxRecDepth 8192 in
set_option maxHeartbeats 2000000 in
theorem stage_main_v39 (V : Valuation τ sig (Elt F)) :
    after (opsS6 : List (HloOp τ sig (Elt F))) V (Proc.devRef .tc main_v39) = (Host.gather gather_S50000x4_S1600000x1_S1600000x4_1_0_n_n_0_1_14 (V (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (V (Proc.devRef .tc main_v1)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (V (Proc.devRef .tc main_v1)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (V (Proc.devRef .tc main_v1)))) : (⟨S1600000x4, .f32⟩ : BufTy).Contents (Elt F)) := by
  simp only [opsS6]
  after_results_simp
  all_goals rfl
/-- `main_v39` after the program, from what its stage reads. -/
theorem loc_main_v39 (W : Valuation τ sig (Elt F)) :
    after ops W (Proc.devRef .tc main_v39) = (Host.gather gather_S50000x4_S1600000x1_S1600000x4_1_0_n_n_0_1_14 (W (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v1)))) : (⟨S1600000x4, .f32⟩ : BufTy).Contents (Elt F)) := by
  have h := stage_main_v39 (val6 W)
  rw [(A_val6 W main_arg1 (by decide)).symm.trans (kept W main_arg1 (by decide)), ← A_val6 W main_v1 (by decide)] at h
  exact (A_val7 W main_v39 (by decide)).trans h

set_option maxRecDepth 8192 in
set_option maxHeartbeats 2000000 in
theorem stage_main_v46 (V : Valuation τ sig (Elt F)) :
    after (opsS7 : List (HloOp τ sig (Elt F))) V (Proc.devRef .tc main_v46) = (Host.gather gather_S50000x4_S1600000x1_S1600000x4_1_0_n_n_0_1_14 (V (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (V (Proc.devRef .tc main_v3)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (V (Proc.devRef .tc main_v3)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (V (Proc.devRef .tc main_v3)))) : (⟨S1600000x4, .f32⟩ : BufTy).Contents (Elt F)) := by
  simp only [opsS7]
  after_results_simp
  all_goals rfl
/-- `main_v46` after the program, from what its stage reads. -/
theorem loc_main_v46 (W : Valuation τ sig (Elt F)) :
    after ops W (Proc.devRef .tc main_v46) = (Host.gather gather_S50000x4_S1600000x1_S1600000x4_1_0_n_n_0_1_14 (W (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v3)))) : (⟨S1600000x4, .f32⟩ : BufTy).Contents (Elt F)) := by
  have h := stage_main_v46 (val7 W)
  rw [(A_val7 W main_arg1 (by decide)).symm.trans (kept W main_arg1 (by decide)), ← A_val7 W main_v3 (by decide)] at h
  exact (A_val8 W main_v46 (by decide)).trans h

set_option maxRecDepth 8192 in
set_option maxHeartbeats 2000000 in
theorem stage_main_v47 (V : Valuation τ sig (Elt F)) :
    after (opsS8 : List (HloOp τ sig (Elt F))) V (Proc.devRef .tc main_v47) = ((mulf : (⟨S1600000x4, .f32⟩ : BufTy).Contents (Elt F) → (⟨S1600000x4, .f32⟩ : BufTy).Contents (Elt F) → (⟨S1600000x4, .f32⟩ : BufTy).Contents (Elt F)) (V (Proc.devRef .tc main_v39)) (V (Proc.devRef .tc main_v46))) := by
  simp only [opsS8]
  after_results_simp
  all_goals rfl
/-- `main_v47` after the program, from what its stage reads. -/
theorem loc_main_v47 (W : Valuation τ sig (Elt F)) :
    after ops W (Proc.devRef .tc main_v47) = ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v39)) (after ops W (Proc.devRef .tc main_v46))) := by
  have h := stage_main_v47 (val8 W)
  rw [← A_val8 W main_v39 (by decide), ← A_val8 W main_v46 (by decide)] at h
  exact (A_val9 W main_v47 (by decide)).trans h

set_option maxRecDepth 8192 in
set_option maxHeartbeats 2000000 in
theorem stage_main_v48 (V : Valuation τ sig (Elt F)) :
    after (opsS8 : List (HloOp τ sig (Elt F))) V (Proc.devRef .tc main_v48) = (extractStridedSlice S1600000x1 ![0, 0] ((mulf : (⟨S1600000x4, .f32⟩ : BufTy).Contents (Elt F) → (⟨S1600000x4, .f32⟩ : BufTy).Contents (Elt F) → (⟨S1600000x4, .f32⟩ : BufTy).Contents (Elt F)) (V (Proc.devRef .tc main_v39)) (V (Proc.devRef .tc main_v46))) slices_S1600000x4_S1600000x1_0_0 : (⟨S1600000x1, .f32⟩ : BufTy).Contents (Elt F)) := by
  simp only [opsS8]
  after_results_simp
  all_goals rfl
/-- `main_v48` after the program, from what its stage reads. -/
theorem loc_main_v48 (W : Valuation τ sig (Elt F)) :
    after ops W (Proc.devRef .tc main_v48) = (extractStridedSlice S1600000x1 ![0, 0] ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v39)) (after ops W (Proc.devRef .tc main_v46))) slices_S1600000x4_S1600000x1_0_0 : (⟨S1600000x1, .f32⟩ : BufTy).Contents (Elt F)) := by
  have h := stage_main_v48 (val8 W)
  rw [← A_val8 W main_v39 (by decide), ← A_val8 W main_v46 (by decide)] at h
  exact (A_val9 W main_v48 (by decide)).trans h

set_option maxRecDepth 8192 in
set_option maxHeartbeats 2000000 in
theorem stage_main_v59 (V : Valuation τ sig (Elt F)) :
    after (opsS9 : List (HloOp τ sig (Elt F))) V (Proc.devRef .tc main_v59) = ((mulf : (⟨S1600000, .f32⟩ : BufTy).Contents (Elt F) → (⟨S1600000, .f32⟩ : BufTy).Contents (Elt F) → (⟨S1600000, .f32⟩ : BufTy).Contents (Elt F)) ((Host.sign : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (V (Proc.devRef .tc main_v48)) shapeCasts_S1600000x1_S1600000 : (⟨S1600000, .f32⟩ : BufTy).Contents (Elt F))) (Host.reduceAdd (V (Proc.devRef .tc main_v47)) (constant S_ .f32 0x00000000#32 : (⟨S_, .f32⟩ : BufTy).Contents (Elt F)) reducesTo_S1600000x4_S1600000_d1 h_S_ : (⟨S1600000, .f32⟩ : BufTy).Contents (Elt F)))) ((Host.log : (⟨S1600000, .f32⟩ : BufTy).Contents (Elt F) → (⟨S1600000, .f32⟩ : BufTy).Contents (Elt F)) ((addf : (⟨S1600000, .f32⟩ : BufTy).Contents (Elt F) → (⟨S1600000, .f32⟩ : BufTy).Contents (Elt F) → (⟨S1600000, .f32⟩ : BufTy).Contents (Elt F)) ((Host.absf : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (V (Proc.devRef .tc main_v48)) shapeCasts_S1600000x1_S1600000 : (⟨S1600000, .f32⟩ : BufTy).Contents (Elt F))) (Host.reduceAdd (V (Proc.devRef .tc main_v47)) (constant S_ .f32 0x00000000#32 : (⟨S_, .f32⟩ : BufTy).Contents (Elt F)) reducesTo_S1600000x4_S1600000_d1 h_S_ : (⟨S1600000, .f32⟩ : BufTy).Contents (Elt F)))) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))))) := by
  simp only [opsS9]
  after_results_simp
  all_goals rfl
/-- `main_v59` after the program, from what its stage reads. -/
theorem loc_main_v59 (W : Valuation τ sig (Elt F)) :
    after ops W (Proc.devRef .tc main_v59) = ((mulf : (⟨S1600000, .f32⟩ : BufTy).Contents (Elt F) → (⟨S1600000, .f32⟩ : BufTy).Contents (Elt F) → (⟨S1600000, .f32⟩ : BufTy).Contents (Elt F)) ((Host.sign : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (after ops W (Proc.devRef .tc main_v48)) shapeCasts_S1600000x1_S1600000 : (⟨S1600000, .f32⟩ : BufTy).Contents (Elt F))) (Host.reduceAdd (after ops W (Proc.devRef .tc main_v47)) (constant S_ .f32 0x00000000#32 : (⟨S_, .f32⟩ : BufTy).Contents (Elt F)) reducesTo_S1600000x4_S1600000_d1 h_S_ : (⟨S1600000, .f32⟩ : BufTy).Contents (Elt F)))) ((Host.log : (⟨S1600000, .f32⟩ : BufTy).Contents (Elt F) → (⟨S1600000, .f32⟩ : BufTy).Contents (Elt F)) ((addf : (⟨S1600000, .f32⟩ : BufTy).Contents (Elt F) → (⟨S1600000, .f32⟩ : BufTy).Contents (Elt F) → (⟨S1600000, .f32⟩ : BufTy).Contents (Elt F)) ((Host.absf : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (after ops W (Proc.devRef .tc main_v48)) shapeCasts_S1600000x1_S1600000 : (⟨S1600000, .f32⟩ : BufTy).Contents (Elt F))) (Host.reduceAdd (after ops W (Proc.devRef .tc main_v47)) (constant S_ .f32 0x00000000#32 : (⟨S_, .f32⟩ : BufTy).Contents (Elt F)) reducesTo_S1600000x4_S1600000_d1 h_S_ : (⟨S1600000, .f32⟩ : BufTy).Contents (Elt F)))) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))))) := by
  have h := stage_main_v59 (val9 W)
  rw [← A_val9 W main_v48 (by decide), ← A_val9 W main_v47 (by decide)] at h
  exact (A_val10 W main_v59 (by decide)).trans h

set_option maxRecDepth 8192 in
set_option maxHeartbeats 2000000 in
theorem stage_main_v60 (V : Valuation τ sig (Elt F)) :
    after (opsS10 : List (HloOp τ sig (Elt F))) V (Proc.devRef .tc main_v60) = ((broadcastInDim S1600000x1 ![0] bcast_S1600000_S1600000x1_0 : (⟨S1600000, .f32⟩ : BufTy).Contents (Elt F) → (⟨S1600000x1, .f32⟩ : BufTy).Contents (Elt F)) (V (Proc.devRef .tc main_v59))) := by
  simp only [opsS10]
  after_results_simp
  all_goals rfl
/-- `main_v60` after the program, from what its stage reads. -/
theorem loc_main_v60 (W : Valuation τ sig (Elt F)) :
    after ops W (Proc.devRef .tc main_v60) = ((broadcastInDim S1600000x1 ![0] bcast_S1600000_S1600000x1_0 : (⟨S1600000, .f32⟩ : BufTy).Contents (Elt F) → (⟨S1600000x1, .f32⟩ : BufTy).Contents (Elt F)) (after ops W (Proc.devRef .tc main_v59))) := by
  have h := stage_main_v60 (val10 W)
  rw [← A_val10 W main_v59 (by decide)] at h
  exact (A_val11 W main_v60 (by decide)).trans h

set_option maxRecDepth 8192 in
set_option maxHeartbeats 2000000 in
theorem stage_main_v67 (V : Valuation τ sig (Elt F)) :
    after (opsS10 : List (HloOp τ sig (Elt F))) V (Proc.devRef .tc main_v67) = (Host.gather gather_S50000x72_S1600000x1_S1600000x72_1_0_n_n_0_1_172 (V (Proc.devRef .tc main_arg0)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (V (Proc.devRef .tc main_v1)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (V (Proc.devRef .tc main_v1)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (V (Proc.devRef .tc main_v1)))) : (⟨S1600000x72, .f32⟩ : BufTy).Contents (Elt F)) := by
  simp only [opsS10]
  after_results_simp
  all_goals rfl
/-- `main_v67` after the program, from what its stage reads. -/
theorem loc_main_v67 (W : Valuation τ sig (Elt F)) :
    after ops W (Proc.devRef .tc main_v67) = (Host.gather gather_S50000x72_S1600000x1_S1600000x72_1_0_n_n_0_1_172 (W (Proc.devRef .tc main_arg0)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v1)))) : (⟨S1600000x72, .f32⟩ : BufTy).Contents (Elt F)) := by
  have h := stage_main_v67 (val10 W)
  rw [(A_val10 W main_arg0 (by decide)).symm.trans (kept W main_arg0 (by decide)), ← A_val10 W main_v1 (by decide)] at h
  exact (A_val11 W main_v67 (by decide)).trans h

set_option maxRecDepth 8192 in
set_option maxHeartbeats 2000000 in
theorem stage_main_v74 (V : Valuation τ sig (Elt F)) :
    after (opsS11 : List (HloOp τ sig (Elt F))) V (Proc.devRef .tc main_v74) = (Host.gather gather_S50000x72_S1600000x1_S1600000x72_1_0_n_n_0_1_172 (V (Proc.devRef .tc main_arg0)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (V (Proc.devRef .tc main_v3)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (V (Proc.devRef .tc main_v3)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (V (Proc.devRef .tc main_v3)))) : (⟨S1600000x72, .f32⟩ : BufTy).Contents (Elt F)) := by
  simp only [opsS11]
  after_results_simp
  all_goals rfl
/-- `main_v74` after the program, from what its stage reads. -/
theorem loc_main_v74 (W : Valuation τ sig (Elt F)) :
    after ops W (Proc.devRef .tc main_v74) = (Host.gather gather_S50000x72_S1600000x1_S1600000x72_1_0_n_n_0_1_172 (W (Proc.devRef .tc main_arg0)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v3)))) : (⟨S1600000x72, .f32⟩ : BufTy).Contents (Elt F)) := by
  have h := stage_main_v74 (val11 W)
  rw [(A_val11 W main_arg0 (by decide)).symm.trans (kept W main_arg0 (by decide)), ← A_val11 W main_v3 (by decide)] at h
  exact (A_val12 W main_v74 (by decide)).trans h

set_option maxRecDepth 8192 in
set_option maxHeartbeats 2000000 in
theorem stage_main_v75 (V : Valuation τ sig (Elt F)) :
    after (opsS12 : List (HloOp τ sig (Elt F))) V (Proc.devRef .tc main_v75) = (concatenate S1600000x146 1 [⟨S1600000x72, (V (Proc.devRef .tc main_v67))⟩, ⟨S1600000x72, (V (Proc.devRef .tc main_v74))⟩, ⟨S1600000x1, (V (Proc.devRef .tc main_v32))⟩, ⟨S1600000x1, (V (Proc.devRef .tc main_v60))⟩] concatenates_S1600000x72_S1600000x72_S1600000x1_S1600000x1_S1600000x146_d1 : (⟨S1600000x146, .f32⟩ : BufTy).Contents (Elt F)) := by
  simp only [opsS12]
  after_results_simp
  try dsimp only [Matrix.cons_val]
  try after_results_simp
  all_goals rfl
/-- `main_v75` after the program, from what its stage reads. -/
theorem loc_main_v75 (W : Valuation τ sig (Elt F)) :
    after ops W (Proc.devRef .tc main_v75) = (concatenate S1600000x146 1 [⟨S1600000x72, (after ops W (Proc.devRef .tc main_v67))⟩, ⟨S1600000x72, (after ops W (Proc.devRef .tc main_v74))⟩, ⟨S1600000x1, (after ops W (Proc.devRef .tc main_v32))⟩, ⟨S1600000x1, (after ops W (Proc.devRef .tc main_v60))⟩] concatenates_S1600000x72_S1600000x72_S1600000x1_S1600000x1_S1600000x146_d1 : (⟨S1600000x146, .f32⟩ : BufTy).Contents (Elt F)) := by
  have h := stage_main_v75 (val12 W)
  rw [← A_val12 W main_v67 (by decide), ← A_val12 W main_v74 (by decide), ← A_val12 W main_v32 (by decide), ← A_val12 W main_v60 (by decide)] at h
  exact (A_val13 W main_v75 (by decide)).trans h

set_option maxRecDepth 8192 in
set_option maxHeartbeats 2000000 in
theorem stage_main_v76 (V : Valuation τ sig (Elt F)) :
    after (opsS13 : List (HloOp τ sig (Elt F))) V (Proc.devRef .tc main_v76) = (Host.dotGeneral dot_S1600000x146_S146x72_S1600000x72_1_0_0_1_n_n none (V (Proc.devRef .tc main_v75)) (V (Proc.devRef .tc main_arg4)) : (⟨S1600000x72, .f32⟩ : BufTy).Contents (Elt F)) := by
  simp only [opsS13]
  after_results_simp
  all_goals rfl
/-- `main_v76` after the program, from what its stage reads. -/
theorem loc_main_v76 (W : Valuation τ sig (Elt F)) :
    after ops W (Proc.devRef .tc main_v76) = (Host.dotGeneral dot_S1600000x146_S146x72_S1600000x72_1_0_0_1_n_n none (after ops W (Proc.devRef .tc main_v75)) (W (Proc.devRef .tc main_arg4)) : (⟨S1600000x72, .f32⟩ : BufTy).Contents (Elt F)) := by
  have h := stage_main_v76 (val13 W)
  rw [← A_val13 W main_v75 (by decide), (A_val13 W main_arg4 (by decide)).symm.trans (kept W main_arg4 (by decide))] at h
  exact (A_val14 W main_v76 (by decide)).trans h

set_option maxRecDepth 8192 in
set_option maxHeartbeats 2000000 in
theorem stage_main_v79 (V : Valuation τ sig (Elt F)) :
    after (opsS14 : List (HloOp τ sig (Elt F))) V (Proc.devRef .tc main_v79) = ((Host.divf : (⟨S72, .f32⟩ : BufTy).Contents (Elt F) → (⟨S72, .f32⟩ : BufTy).Contents (Elt F) → (⟨S72, .f32⟩ : BufTy).Contents (Elt F)) (Host.reduceAdd (V (Proc.devRef .tc main_v76)) (constant S_ .f32 0x00000000#32 : (⟨S_, .f32⟩ : BufTy).Contents (Elt F)) reducesTo_S1600000x72_S72_d0 h_S_ : (⟨S72, .f32⟩ : BufTy).Contents (Elt F)) ((broadcastInDim S72 ![] bcast_S_S72 : (⟨S_, .f32⟩ : BufTy).Contents (Elt F) → (⟨S72, .f32⟩ : BufTy).Contents (Elt F)) (constant S_ .f32 0x49C35000#32 : (⟨S_, .f32⟩ : BufTy).Contents (Elt F)))) := by
  simp only [opsS14]
  after_results_simp
  all_goals rfl
/-- `main_v79` after the program, from what its stage reads. -/
theorem loc_main_v79 (W : Valuation τ sig (Elt F)) :
    after ops W (Proc.devRef .tc main_v79) = ((Host.divf : (⟨S72, .f32⟩ : BufTy).Contents (Elt F) → (⟨S72, .f32⟩ : BufTy).Contents (Elt F) → (⟨S72, .f32⟩ : BufTy).Contents (Elt F)) (Host.reduceAdd (after ops W (Proc.devRef .tc main_v76)) (constant S_ .f32 0x00000000#32 : (⟨S_, .f32⟩ : BufTy).Contents (Elt F)) reducesTo_S1600000x72_S72_d0 h_S_ : (⟨S72, .f32⟩ : BufTy).Contents (Elt F)) ((broadcastInDim S72 ![] bcast_S_S72 : (⟨S_, .f32⟩ : BufTy).Contents (Elt F) → (⟨S72, .f32⟩ : BufTy).Contents (Elt F)) (constant S_ .f32 0x49C35000#32 : (⟨S_, .f32⟩ : BufTy).Contents (Elt F)))) := by
  have h := stage_main_v79 (val14 W)
  rw [← A_val14 W main_v76 (by decide)] at h
  exact (A_val15 W main_v79 (by decide)).trans h

set_option maxRecDepth 8192 in
set_option maxHeartbeats 2000000 in
theorem stage_main_v80 (V : Valuation τ sig (Elt F)) :
    after (opsS15 : List (HloOp τ sig (Elt F))) V (Proc.devRef .tc main_v80) = (select (broadcastInDim S72 ![] bcast_S_S72 ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x49C35000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F)))) ((Host.divf : (⟨S72, .f32⟩ : BufTy).Contents (Elt F) → (⟨S72, .f32⟩ : BufTy).Contents (Elt F) → (⟨S72, .f32⟩ : BufTy).Contents (Elt F)) (Host.reduceAdd ((mulf : (⟨S1600000x72, .f32⟩ : BufTy).Contents (Elt F) → (⟨S1600000x72, .f32⟩ : BufTy).Contents (Elt F) → (⟨S1600000x72, .f32⟩ : BufTy).Contents (Elt F)) ((subf : (⟨S1600000x72, .f32⟩ : BufTy).Contents (Elt F) → (⟨S1600000x72, .f32⟩ : BufTy).Contents (Elt F) → (⟨S1600000x72, .f32⟩ : BufTy).Contents (Elt F)) (V (Proc.devRef .tc main_v76)) ((broadcastInDim S1600000x72 ![0, 1] bcast_S1x72_S1600000x72_0_1 : (⟨S1x72, .f32⟩ : BufTy).Contents (Elt F) → (⟨S1600000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (V (Proc.devRef .tc main_v76)) (constant S_ .f32 0x00000000#32 : (⟨S_, .f32⟩ : BufTy).Contents (Elt F)) reducesTo_S1600000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x49C35000#32 : (⟨S_, .f32⟩ : BufTy).Contents (Elt F)))))) ((subf : (⟨S1600000x72, .f32⟩ : BufTy).Contents (Elt F) → (⟨S1600000x72, .f32⟩ : BufTy).Contents (Elt F) → (⟨S1600000x72, .f32⟩ : BufTy).Contents (Elt F)) (V (Proc.devRef .tc main_v76)) ((broadcastInDim S1600000x72 ![0, 1] bcast_S1x72_S1600000x72_0_1 : (⟨S1x72, .f32⟩ : BufTy).Contents (Elt F) → (⟨S1600000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (V (Proc.devRef .tc main_v76)) (constant S_ .f32 0x00000000#32 : (⟨S_, .f32⟩ : BufTy).Contents (Elt F)) reducesTo_S1600000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x49C35000#32 : (⟨S_, .f32⟩ : BufTy).Contents (Elt F))))))) (constant S_ .f32 0x00000000#32 : (⟨S_, .f32⟩ : BufTy).Contents (Elt F)) reducesTo_S1600000x72_S72_d0 h_S_ : (⟨S72, .f32⟩ : BufTy).Contents (Elt F)) ((broadcastInDim S72 ![] bcast_S_S72 : (⟨S_, .f32⟩ : BufTy).Contents (Elt F) → (⟨S72, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x49C35000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S72 ![] bcast_S_S72 : (⟨S_, .f32⟩ : BufTy).Contents (Elt F) → (⟨S72, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))) : (⟨S72, .f32⟩ : BufTy).Contents (Elt F)) := by
  simp only [opsS15]
  after_results_simp
  all_goals rfl
/-- `main_v80` after the program, from what its stage reads. -/
theorem loc_main_v80 (W : Valuation τ sig (Elt F)) :
    after ops W (Proc.devRef .tc main_v80) = (select (broadcastInDim S72 ![] bcast_S_S72 ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x49C35000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F)))) ((Host.divf : (⟨S72, .f32⟩ : BufTy).Contents (Elt F) → (⟨S72, .f32⟩ : BufTy).Contents (Elt F) → (⟨S72, .f32⟩ : BufTy).Contents (Elt F)) (Host.reduceAdd ((mulf : (⟨S1600000x72, .f32⟩ : BufTy).Contents (Elt F) → (⟨S1600000x72, .f32⟩ : BufTy).Contents (Elt F) → (⟨S1600000x72, .f32⟩ : BufTy).Contents (Elt F)) ((subf : (⟨S1600000x72, .f32⟩ : BufTy).Contents (Elt F) → (⟨S1600000x72, .f32⟩ : BufTy).Contents (Elt F) → (⟨S1600000x72, .f32⟩ : BufTy).Contents (Elt F)) (after ops W (Proc.devRef .tc main_v76)) ((broadcastInDim S1600000x72 ![0, 1] bcast_S1x72_S1600000x72_0_1 : (⟨S1x72, .f32⟩ : BufTy).Contents (Elt F) → (⟨S1600000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (after ops W (Proc.devRef .tc main_v76)) (constant S_ .f32 0x00000000#32 : (⟨S_, .f32⟩ : BufTy).Contents (Elt F)) reducesTo_S1600000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x49C35000#32 : (⟨S_, .f32⟩ : BufTy).Contents (Elt F)))))) ((subf : (⟨S1600000x72, .f32⟩ : BufTy).Contents (Elt F) → (⟨S1600000x72, .f32⟩ : BufTy).Contents (Elt F) → (⟨S1600000x72, .f32⟩ : BufTy).Contents (Elt F)) (after ops W (Proc.devRef .tc main_v76)) ((broadcastInDim S1600000x72 ![0, 1] bcast_S1x72_S1600000x72_0_1 : (⟨S1x72, .f32⟩ : BufTy).Contents (Elt F) → (⟨S1600000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (after ops W (Proc.devRef .tc main_v76)) (constant S_ .f32 0x00000000#32 : (⟨S_, .f32⟩ : BufTy).Contents (Elt F)) reducesTo_S1600000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x49C35000#32 : (⟨S_, .f32⟩ : BufTy).Contents (Elt F))))))) (constant S_ .f32 0x00000000#32 : (⟨S_, .f32⟩ : BufTy).Contents (Elt F)) reducesTo_S1600000x72_S72_d0 h_S_ : (⟨S72, .f32⟩ : BufTy).Contents (Elt F)) ((broadcastInDim S72 ![] bcast_S_S72 : (⟨S_, .f32⟩ : BufTy).Contents (Elt F) → (⟨S72, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x49C35000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S72 ![] bcast_S_S72 : (⟨S_, .f32⟩ : BufTy).Contents (Elt F) → (⟨S72, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))) : (⟨S72, .f32⟩ : BufTy).Contents (Elt F)) := by
  have h := stage_main_v80 (val15 W)
  rw [← A_val15 W main_v76 (by decide)] at h
  exact (A_val16 W main_v80 (by decide)).trans h

set_option maxRecDepth 8192 in
set_option maxHeartbeats 2000000 in
theorem stage_main_v96 (V : Valuation τ sig (Elt F)) :
    after (opsS16 : List (HloOp τ sig (Elt F))) V (Proc.devRef .tc main_v96) = ((maximumf : (⟨S1600000x72, .f32⟩ : BufTy).Contents (Elt F) → (⟨S1600000x72, .f32⟩ : BufTy).Contents (Elt F) → (⟨S1600000x72, .f32⟩ : BufTy).Contents (Elt F)) ((addf : (⟨S1600000x72, .f32⟩ : BufTy).Contents (Elt F) → (⟨S1600000x72, .f32⟩ : BufTy).Contents (Elt F) → (⟨S1600000x72, .f32⟩ : BufTy).Contents (Elt F)) ((mulf : (⟨S1600000x72, .f32⟩ : BufTy).Contents (Elt F) → (⟨S1600000x72, .f32⟩ : BufTy).Contents (Elt F) → (⟨S1600000x72, .f32⟩ : BufTy).Contents (Elt F)) ((mulf : (⟨S1600000x72, .f32⟩ : BufTy).Contents (Elt F) → (⟨S1600000x72, .f32⟩ : BufTy).Contents (Elt F) → (⟨S1600000x72, .f32⟩ : BufTy).Contents (Elt F)) ((subf : (⟨S1600000x72, .f32⟩ : BufTy).Contents (Elt F) → (⟨S1600000x72, .f32⟩ : BufTy).Contents (Elt F) → (⟨S1600000x72, .f32⟩ : BufTy).Contents (Elt F)) (V (Proc.devRef .tc main_v76)) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (V (Proc.devRef .tc main_v79))))) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) ((Host.rsqrt : (⟨S72, .f32⟩ : BufTy).Contents (Elt F) → (⟨S72, .f32⟩ : BufTy).Contents (Elt F)) ((addf : (⟨S72, .f32⟩ : BufTy).Contents (Elt F) → (⟨S72, .f32⟩ : BufTy).Contents (Elt F) → (⟨S72, .f32⟩ : BufTy).Contents (Elt F)) (V (Proc.devRef .tc main_v80)) ((broadcastInDim S72 ![] bcast_S_S72 : (⟨S_, .f32⟩ : BufTy).Contents (Elt F) → (⟨S72, .f32⟩ : BufTy).Contents (Elt F)) (constant S_ .f32 0x3727C5AC#32 : (⟨S_, .f32⟩ : BufTy).Contents (Elt F)))))))) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (V (Proc.devRef .tc main_arg5))))) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (V (Proc.devRef .tc main_arg6))))) ((broadcastInDim S1600000x72 ![] bcast_S_S1600000x72 : (⟨S_, .f32⟩ : BufTy).Contents (Elt F) → (⟨S1600000x72, .f32⟩ : BufTy).Contents (Elt F)) (constant S_ .f32 0x00000000#32 : (⟨S_, .f32⟩ : BufTy).Contents (Elt F)))) := by
  simp only [opsS16]
  after_results_simp
  all_goals rfl
/-- `main_v96` after the program, from what its stage reads. -/
theorem loc_main_v96 (W : Valuation τ sig (Elt F)) :
    after ops W (Proc.devRef .tc main_v96) = ((maximumf : (⟨S1600000x72, .f32⟩ : BufTy).Contents (Elt F) → (⟨S1600000x72, .f32⟩ : BufTy).Contents (Elt F) → (⟨S1600000x72, .f32⟩ : BufTy).Contents (Elt F)) ((addf : (⟨S1600000x72, .f32⟩ : BufTy).Contents (Elt F) → (⟨S1600000x72, .f32⟩ : BufTy).Contents (Elt F) → (⟨S1600000x72, .f32⟩ : BufTy).Contents (Elt F)) ((mulf : (⟨S1600000x72, .f32⟩ : BufTy).Contents (Elt F) → (⟨S1600000x72, .f32⟩ : BufTy).Contents (Elt F) → (⟨S1600000x72, .f32⟩ : BufTy).Contents (Elt F)) ((mulf : (⟨S1600000x72, .f32⟩ : BufTy).Contents (Elt F) → (⟨S1600000x72, .f32⟩ : BufTy).Contents (Elt F) → (⟨S1600000x72, .f32⟩ : BufTy).Contents (Elt F)) ((subf : (⟨S1600000x72, .f32⟩ : BufTy).Contents (Elt F) → (⟨S1600000x72, .f32⟩ : BufTy).Contents (Elt F) → (⟨S1600000x72, .f32⟩ : BufTy).Contents (Elt F)) (after ops W (Proc.devRef .tc main_v76)) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (after ops W (Proc.devRef .tc main_v79))))) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) ((Host.rsqrt : (⟨S72, .f32⟩ : BufTy).Contents (Elt F) → (⟨S72, .f32⟩ : BufTy).Contents (Elt F)) ((addf : (⟨S72, .f32⟩ : BufTy).Contents (Elt F) → (⟨S72, .f32⟩ : BufTy).Contents (Elt F) → (⟨S72, .f32⟩ : BufTy).Contents (Elt F)) (after ops W (Proc.devRef .tc main_v80)) ((broadcastInDim S72 ![] bcast_S_S72 : (⟨S_, .f32⟩ : BufTy).Contents (Elt F) → (⟨S72, .f32⟩ : BufTy).Contents (Elt F)) (constant S_ .f32 0x3727C5AC#32 : (⟨S_, .f32⟩ : BufTy).Contents (Elt F)))))))) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg5))))) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg6))))) ((broadcastInDim S1600000x72 ![] bcast_S_S1600000x72 : (⟨S_, .f32⟩ : BufTy).Contents (Elt F) → (⟨S1600000x72, .f32⟩ : BufTy).Contents (Elt F)) (constant S_ .f32 0x00000000#32 : (⟨S_, .f32⟩ : BufTy).Contents (Elt F)))) := by
  have h := stage_main_v96 (val16 W)
  rw [← A_val16 W main_v76 (by decide), ← A_val16 W main_v79 (by decide), ← A_val16 W main_v80 (by decide), (A_val16 W main_arg5 (by decide)).symm.trans (kept W main_arg5 (by decide)), (A_val16 W main_arg6 (by decide)).symm.trans (kept W main_arg6 (by decide))] at h
  exact (A_val17 W main_v96 (by decide)).trans h

set_option maxRecDepth 8192 in
set_option maxHeartbeats 2000000 in
theorem stage_main_v97 (V : Valuation τ sig (Elt F)) :
    after (opsS17 : List (HloOp τ sig (Elt F))) V (Proc.devRef .tc main_v97) = (Host.dotGeneral dot_S1600000x72_S72x72_S1600000x72_1_0_0_1_n_n none (V (Proc.devRef .tc main_v96)) (V (Proc.devRef .tc main_arg7)) : (⟨S1600000x72, .f32⟩ : BufTy).Contents (Elt F)) := by
  simp only [opsS17]
  after_results_simp
  all_goals rfl
/-- `main_v97` after the program, from what its stage reads. -/
theorem loc_main_v97 (W : Valuation τ sig (Elt F)) :
    after ops W (Proc.devRef .tc main_v97) = (Host.dotGeneral dot_S1600000x72_S72x72_S1600000x72_1_0_0_1_n_n none (after ops W (Proc.devRef .tc main_v96)) (W (Proc.devRef .tc main_arg7)) : (⟨S1600000x72, .f32⟩ : BufTy).Contents (Elt F)) := by
  have h := stage_main_v97 (val17 W)
  rw [← A_val17 W main_v96 (by decide), (A_val17 W main_arg7 (by decide)).symm.trans (kept W main_arg7 (by decide))] at h
  exact (A_val18 W main_v97 (by decide)).trans h

set_option maxRecDepth 8192 in
set_option maxHeartbeats 2000000 in
theorem stage_main_v101 (V : Valuation τ sig (Elt F)) :
    after (opsS18 : List (HloOp τ sig (Elt F))) V (Proc.devRef .tc main_v101) = ((maximumf : (⟨S1600000x72, .f32⟩ : BufTy).Contents (Elt F) → (⟨S1600000x72, .f32⟩ : BufTy).Contents (Elt F) → (⟨S1600000x72, .f32⟩ : BufTy).Contents (Elt F)) ((addf : (⟨S1600000x72, .f32⟩ : BufTy).Contents (Elt F) → (⟨S1600000x72, .f32⟩ : BufTy).Contents (Elt F) → (⟨S1600000x72, .f32⟩ : BufTy).Contents (Elt F)) (V (Proc.devRef .tc main_v97)) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (V (Proc.devRef .tc main_arg8))))) ((broadcastInDim S1600000x72 ![] bcast_S_S1600000x72 : (⟨S_, .f32⟩ : BufTy).Contents (Elt F) → (⟨S1600000x72, .f32⟩ : BufTy).Contents (Elt F)) (constant S_ .f32 0x00000000#32 : (⟨S_, .f32⟩ : BufTy).Contents (Elt F)))) := by
  simp only [opsS18]
  after_results_simp
  all_goals rfl
/-- `main_v101` after the program, from what its stage reads. -/
theorem loc_main_v101 (W : Valuation τ sig (Elt F)) :
    after ops W (Proc.devRef .tc main_v101) = ((maximumf : (⟨S1600000x72, .f32⟩ : BufTy).Contents (Elt F) → (⟨S1600000x72, .f32⟩ : BufTy).Contents (Elt F) → (⟨S1600000x72, .f32⟩ : BufTy).Contents (Elt F)) ((addf : (⟨S1600000x72, .f32⟩ : BufTy).Contents (Elt F) → (⟨S1600000x72, .f32⟩ : BufTy).Contents (Elt F) → (⟨S1600000x72, .f32⟩ : BufTy).Contents (Elt F)) (after ops W (Proc.devRef .tc main_v97)) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg8))))) ((broadcastInDim S1600000x72 ![] bcast_S_S1600000x72 : (⟨S_, .f32⟩ : BufTy).Contents (Elt F) → (⟨S1600000x72, .f32⟩ : BufTy).Contents (Elt F)) (constant S_ .f32 0x00000000#32 : (⟨S_, .f32⟩ : BufTy).Contents (Elt F)))) := by
  have h := stage_main_v101 (val18 W)
  rw [← A_val18 W main_v97 (by decide), (A_val18 W main_arg8 (by decide)).symm.trans (kept W main_arg8 (by decide))] at h
  exact (A_val19 W main_v101 (by decide)).trans h

set_option maxRecDepth 8192 in
set_option maxHeartbeats 2000000 in
theorem stage_main_v111 (V : Valuation τ sig (Elt F)) :
    after (opsS19 : List (HloOp τ sig (Elt F))) V (Proc.devRef .tc main_v111) = ((Host.divf : (⟨S1600000x1, .f32⟩ : BufTy).Contents (Elt F) → (⟨S1600000x1, .f32⟩ : BufTy).Contents (Elt F) → (⟨S1600000x1, .f32⟩ : BufTy).Contents (Elt F)) ((broadcastInDim S1600000x1 ![] bcast_S_S1600000x1 : (⟨S_, .f32⟩ : BufTy).Contents (Elt F) → (⟨S1600000x1, .f32⟩ : BufTy).Contents (Elt F)) (constant S_ .f32 0x3F800000#32 : (⟨S_, .f32⟩ : BufTy).Contents (Elt F))) ((addf : (⟨S1600000x1, .f32⟩ : BufTy).Contents (Elt F) → (⟨S1600000x1, .f32⟩ : BufTy).Contents (Elt F) → (⟨S1600000x1, .f32⟩ : BufTy).Contents (Elt F)) ((broadcastInDim S1600000x1 ![] bcast_S_S1600000x1 : (⟨S_, .f32⟩ : BufTy).Contents (Elt F) → (⟨S1600000x1, .f32⟩ : BufTy).Contents (Elt F)) (constant S_ .f32 0x3F800000#32 : (⟨S_, .f32⟩ : BufTy).Contents (Elt F))) ((Host.exp : (⟨S1600000x1, .f32⟩ : BufTy).Contents (Elt F) → (⟨S1600000x1, .f32⟩ : BufTy).Contents (Elt F)) ((Host.negf : (⟨S1600000x1, .f32⟩ : BufTy).Contents (Elt F) → (⟨S1600000x1, .f32⟩ : BufTy).Contents (Elt F)) ((addf : (⟨S1600000x1, .f32⟩ : BufTy).Contents (Elt F) → (⟨S1600000x1, .f32⟩ : BufTy).Contents (Elt F) → (⟨S1600000x1, .f32⟩ : BufTy).Contents (Elt F)) (Host.dotGeneral dot_S1600000x72_S72x1_S1600000x1_1_0_0_1_n_n none (V (Proc.devRef .tc main_v101)) (V (Proc.devRef .tc main_arg18)) : (⟨S1600000x1, .f32⟩ : BufTy).Contents (Elt F)) ((broadcastInDim S1600000x1 ![0, 1] bcast_S1x1_S1600000x1_0_1 : (⟨S1x1, .f32⟩ : BufTy).Contents (Elt F) → (⟨S1600000x1, .f32⟩ : BufTy).Contents (Elt F)) ((broadcastInDim S1x1 ![1] bcast_S1_S1x1_1 : (⟨S1, .f32⟩ : BufTy).Contents (Elt F) → (⟨S1x1, .f32⟩ : BufTy).Contents (Elt F)) (V (Proc.devRef .tc main_arg19))))))))) := by
  simp only [opsS19]
  after_results_simp
  all_goals rfl
/-- `main_v111` after the program, from what its stage reads. -/
theorem loc_main_v111 (W : Valuation τ sig (Elt F)) :
    after ops W (Proc.devRef .tc main_v111) = ((Host.divf : (⟨S1600000x1, .f32⟩ : BufTy).Contents (Elt F) → (⟨S1600000x1, .f32⟩ : BufTy).Contents (Elt F) → (⟨S1600000x1, .f32⟩ : BufTy).Contents (Elt F)) ((broadcastInDim S1600000x1 ![] bcast_S_S1600000x1 : (⟨S_, .f32⟩ : BufTy).Contents (Elt F) → (⟨S1600000x1, .f32⟩ : BufTy).Contents (Elt F)) (constant S_ .f32 0x3F800000#32 : (⟨S_, .f32⟩ : BufTy).Contents (Elt F))) ((addf : (⟨S1600000x1, .f32⟩ : BufTy).Contents (Elt F) → (⟨S1600000x1, .f32⟩ : BufTy).Contents (Elt F) → (⟨S1600000x1, .f32⟩ : BufTy).Contents (Elt F)) ((broadcastInDim S1600000x1 ![] bcast_S_S1600000x1 : (⟨S_, .f32⟩ : BufTy).Contents (Elt F) → (⟨S1600000x1, .f32⟩ : BufTy).Contents (Elt F)) (constant S_ .f32 0x3F800000#32 : (⟨S_, .f32⟩ : BufTy).Contents (Elt F))) ((Host.exp : (⟨S1600000x1, .f32⟩ : BufTy).Contents (Elt F) → (⟨S1600000x1, .f32⟩ : BufTy).Contents (Elt F)) ((Host.negf : (⟨S1600000x1, .f32⟩ : BufTy).Contents (Elt F) → (⟨S1600000x1, .f32⟩ : BufTy).Contents (Elt F)) ((addf : (⟨S1600000x1, .f32⟩ : BufTy).Contents (Elt F) → (⟨S1600000x1, .f32⟩ : BufTy).Contents (Elt F) → (⟨S1600000x1, .f32⟩ : BufTy).Contents (Elt F)) (Host.dotGeneral dot_S1600000x72_S72x1_S1600000x1_1_0_0_1_n_n none (after ops W (Proc.devRef .tc main_v101)) (W (Proc.devRef .tc main_arg18)) : (⟨S1600000x1, .f32⟩ : BufTy).Contents (Elt F)) ((broadcastInDim S1600000x1 ![0, 1] bcast_S1x1_S1600000x1_0_1 : (⟨S1x1, .f32⟩ : BufTy).Contents (Elt F) → (⟨S1600000x1, .f32⟩ : BufTy).Contents (Elt F)) ((broadcastInDim S1x1 ![1] bcast_S1_S1x1_1 : (⟨S1, .f32⟩ : BufTy).Contents (Elt F) → (⟨S1x1, .f32⟩ : BufTy).Contents (Elt F)) (W (Proc.devRef .tc main_arg19))))))))) := by
  have h := stage_main_v111 (val19 W)
  rw [← A_val19 W main_v101 (by decide), (A_val19 W main_arg18 (by decide)).symm.trans (kept W main_arg18 (by decide)), (A_val19 W main_arg19 (by decide)).symm.trans (kept W main_arg19 (by decide))] at h
  exact (A_val20 W main_v111 (by decide)).trans h

set_option maxRecDepth 8192 in
set_option maxHeartbeats 2000000 in
theorem stage_main_v113 (V : Valuation τ sig (Elt F)) :
    after (opsS20 : List (HloOp τ sig (Elt F))) V (Proc.devRef .tc main_v113) = ((mulf : (⟨S1600000x72, .f32⟩ : BufTy).Contents (Elt F) → (⟨S1600000x72, .f32⟩ : BufTy).Contents (Elt F) → (⟨S1600000x72, .f32⟩ : BufTy).Contents (Elt F)) (V (Proc.devRef .tc main_v101)) ((broadcastInDim S1600000x72 ![0, 1] bcast_S1600000x1_S1600000x72_0_1 : (⟨S1600000x1, .f32⟩ : BufTy).Contents (Elt F) → (⟨S1600000x72, .f32⟩ : BufTy).Contents (Elt F)) (V (Proc.devRef .tc main_v111)))) := by
  simp only [opsS20]
  after_results_simp
  all_goals rfl
/-- `main_v113` after the program, from what its stage reads. -/
theorem loc_main_v113 (W : Valuation τ sig (Elt F)) :
    after ops W (Proc.devRef .tc main_v113) = ((mulf : (⟨S1600000x72, .f32⟩ : BufTy).Contents (Elt F) → (⟨S1600000x72, .f32⟩ : BufTy).Contents (Elt F) → (⟨S1600000x72, .f32⟩ : BufTy).Contents (Elt F)) (after ops W (Proc.devRef .tc main_v101)) ((broadcastInDim S1600000x72 ![0, 1] bcast_S1600000x1_S1600000x72_0_1 : (⟨S1600000x1, .f32⟩ : BufTy).Contents (Elt F) → (⟨S1600000x72, .f32⟩ : BufTy).Contents (Elt F)) (after ops W (Proc.devRef .tc main_v111)))) := by
  have h := stage_main_v113 (val20 W)
  rw [← A_val20 W main_v101 (by decide), ← A_val20 W main_v111 (by decide)] at h
  exact (A_val21 W main_v113 (by decide)).trans h

set_option maxRecDepth 8192 in
set_option maxHeartbeats 2000000 in
theorem stage_main_v119 (V : Valuation τ sig (Elt F)) :
    after (opsS21 : List (HloOp τ sig (Elt F))) V (Proc.devRef .tc main_v119) = (Host.dotGeneral dot_S1600000x72_S72x1_S1600000x1_1_0_0_1_n_n none ((maximumf : (⟨S1600000x72, .f32⟩ : BufTy).Contents (Elt F) → (⟨S1600000x72, .f32⟩ : BufTy).Contents (Elt F) → (⟨S1600000x72, .f32⟩ : BufTy).Contents (Elt F)) ((addf : (⟨S1600000x72, .f32⟩ : BufTy).Contents (Elt F) → (⟨S1600000x72, .f32⟩ : BufTy).Contents (Elt F) → (⟨S1600000x72, .f32⟩ : BufTy).Contents (Elt F)) (Host.dotGeneral dot_S1600000x72_S72x72_S1600000x72_1_0_0_1_n_n none (V (Proc.devRef .tc main_v113)) (V (Proc.devRef .tc main_arg15)) : (⟨S1600000x72, .f32⟩ : BufTy).Contents (Elt F)) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (V (Proc.devRef .tc main_arg16))))) ((broadcastInDim S1600000x72 ![] bcast_S_S1600000x72 : (⟨S_, .f32⟩ : BufTy).Contents (Elt F) → (⟨S1600000x72, .f32⟩ : BufTy).Contents (Elt F)) (constant S_ .f32 0x00000000#32 : (⟨S_, .f32⟩ : BufTy).Contents (Elt F)))) (V (Proc.devRef .tc main_arg17)) : (⟨S1600000x1, .f32⟩ : BufTy).Contents (Elt F)) := by
  simp only [opsS21]
  after_results_simp
  all_goals rfl
/-- `main_v119` after the program, from what its stage reads. -/
theorem loc_main_v119 (W : Valuation τ sig (Elt F)) :
    after ops W (Proc.devRef .tc main_v119) = (Host.dotGeneral dot_S1600000x72_S72x1_S1600000x1_1_0_0_1_n_n none ((maximumf : (⟨S1600000x72, .f32⟩ : BufTy).Contents (Elt F) → (⟨S1600000x72, .f32⟩ : BufTy).Contents (Elt F) → (⟨S1600000x72, .f32⟩ : BufTy).Contents (Elt F)) ((addf : (⟨S1600000x72, .f32⟩ : BufTy).Contents (Elt F) → (⟨S1600000x72, .f32⟩ : BufTy).Contents (Elt F) → (⟨S1600000x72, .f32⟩ : BufTy).Contents (Elt F)) (Host.dotGeneral dot_S1600000x72_S72x72_S1600000x72_1_0_0_1_n_n none (after ops W (Proc.devRef .tc main_v113)) (W (Proc.devRef .tc main_arg15)) : (⟨S1600000x72, .f32⟩ : BufTy).Contents (Elt F)) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg16))))) ((broadcastInDim S1600000x72 ![] bcast_S_S1600000x72 : (⟨S_, .f32⟩ : BufTy).Contents (Elt F) → (⟨S1600000x72, .f32⟩ : BufTy).Contents (Elt F)) (constant S_ .f32 0x00000000#32 : (⟨S_, .f32⟩ : BufTy).Contents (Elt F)))) (W (Proc.devRef .tc main_arg17)) : (⟨S1600000x1, .f32⟩ : BufTy).Contents (Elt F)) := by
  have h := stage_main_v119 (val21 W)
  rw [← A_val21 W main_v113 (by decide), (A_val21 W main_arg15 (by decide)).symm.trans (kept W main_arg15 (by decide)), (A_val21 W main_arg16 (by decide)).symm.trans (kept W main_arg16 (by decide)), (A_val21 W main_arg17 (by decide)).symm.trans (kept W main_arg17 (by decide))] at h
  exact (A_val22 W main_v119 (by decide)).trans h

set_option maxRecDepth 8192 in
set_option maxHeartbeats 2000000 in
theorem stage_main_v122 (V : Valuation τ sig (Elt F)) :
    after (opsS22 : List (HloOp τ sig (Elt F))) V (Proc.devRef .tc main_v122) = ((minimumf : (⟨S1600000x4, .f32⟩ : BufTy).Contents (Elt F) → (⟨S1600000x4, .f32⟩ : BufTy).Contents (Elt F) → (⟨S1600000x4, .f32⟩ : BufTy).Contents (Elt F)) ((broadcastInDim S1600000x4 ![] bcast_S_S1600000x4 : (⟨S_, .f32⟩ : BufTy).Contents (Elt F) → (⟨S1600000x4, .f32⟩ : BufTy).Contents (Elt F)) ((id : (⟨S_, .f32⟩ : BufTy).Contents (Elt F) → (⟨S_, .f32⟩ : BufTy).Contents (Elt F)) (constant S_ .f32 0x42C80000#32 : (⟨S_, .f32⟩ : BufTy).Contents (Elt F)))) ((maximumf : (⟨S1600000x4, .f32⟩ : BufTy).Contents (Elt F) → (⟨S1600000x4, .f32⟩ : BufTy).Contents (Elt F) → (⟨S1600000x4, .f32⟩ : BufTy).Contents (Elt F)) ((broadcastInDim S1600000x4 ![] bcast_S_S1600000x4 : (⟨S_, .f32⟩ : BufTy).Contents (Elt F) → (⟨S1600000x4, .f32⟩ : BufTy).Contents (Elt F)) ((id : (⟨S_, .f32⟩ : BufTy).Contents (Elt F) → (⟨S_, .f32⟩ : BufTy).Contents (Elt F)) (constant S_ .f32 0xC2C80000#32 : (⟨S_, .f32⟩ : BufTy).Contents (Elt F)))) ((mulf : (⟨S1600000x4, .f32⟩ : BufTy).Contents (Elt F) → (⟨S1600000x4, .f32⟩ : BufTy).Contents (Elt F) → (⟨S1600000x4, .f32⟩ : BufTy).Contents (Elt F)) (V (Proc.devRef .tc main_v18)) ((broadcastInDim S1600000x4 ![0, 1] bcast_S1600000x1_S1600000x4_0_1 : (⟨S1600000x1, .f32⟩ : BufTy).Contents (Elt F) → (⟨S1600000x4, .f32⟩ : BufTy).Contents (Elt F)) (V (Proc.devRef .tc main_v119)))))) := by
  simp only [opsS22]
  after_results_simp
  all_goals rfl
/-- `main_v122` after the program, from what its stage reads. -/
theorem loc_main_v122 (W : Valuation τ sig (Elt F)) :
    after ops W (Proc.devRef .tc main_v122) = ((minimumf : (⟨S1600000x4, .f32⟩ : BufTy).Contents (Elt F) → (⟨S1600000x4, .f32⟩ : BufTy).Contents (Elt F) → (⟨S1600000x4, .f32⟩ : BufTy).Contents (Elt F)) ((broadcastInDim S1600000x4 ![] bcast_S_S1600000x4 : (⟨S_, .f32⟩ : BufTy).Contents (Elt F) → (⟨S1600000x4, .f32⟩ : BufTy).Contents (Elt F)) ((id : (⟨S_, .f32⟩ : BufTy).Contents (Elt F) → (⟨S_, .f32⟩ : BufTy).Contents (Elt F)) (constant S_ .f32 0x42C80000#32 : (⟨S_, .f32⟩ : BufTy).Contents (Elt F)))) ((maximumf : (⟨S1600000x4, .f32⟩ : BufTy).Contents (Elt F) → (⟨S1600000x4, .f32⟩ : BufTy).Contents (Elt F) → (⟨S1600000x4, .f32⟩ : BufTy).Contents (Elt F)) ((broadcastInDim S1600000x4 ![] bcast_S_S1600000x4 : (⟨S_, .f32⟩ : BufTy).Contents (Elt F) → (⟨S1600000x4, .f32⟩ : BufTy).Contents (Elt F)) ((id : (⟨S_, .f32⟩ : BufTy).Contents (Elt F) → (⟨S_, .f32⟩ : BufTy).Contents (Elt F)) (constant S_ .f32 0xC2C80000#32 : (⟨S_, .f32⟩ : BufTy).Contents (Elt F)))) ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v18)) ((broadcastInDim S1600000x4 ![0, 1] bcast_S1600000x1_S1600000x4_0_1 : (⟨S1600000x1, .f32⟩ : BufTy).Contents (Elt F) → (⟨S1600000x4, .f32⟩ : BufTy).Contents (Elt F)) (after ops W (Proc.devRef .tc main_v119)))))) := by
  have h := stage_main_v122 (val22 W)
  rw [← A_val22 W main_v18 (by decide), ← A_val22 W main_v119 (by decide)] at h
  exact (A_val23 W main_v122 (by decide)).trans h

set_option maxRecDepth 8192 in
set_option maxHeartbeats 2000000 in
theorem stage_main_v126 (V : Valuation τ sig (Elt F)) :
    after (opsS23 : List (HloOp τ sig (Elt F))) V (Proc.devRef .tc main_v126) = (Host.scatterAdd scatter_S50000_S1600000x1_S1600000_n_0_0_1 ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (V (Proc.devRef .tc main_v1))) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F))) : (⟨S50000, .f32⟩ : BufTy).Contents (Elt F)) := by
  simp only [opsS23]
  after_results_simp
  all_goals rfl
/-- `main_v126` after the program, from what its stage reads. -/
theorem loc_main_v126 (W : Valuation τ sig (Elt F)) :
    after ops W (Proc.devRef .tc main_v126) = (Host.scatterAdd scatter_S50000_S1600000x1_S1600000_n_0_0_1 ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (after ops W (Proc.devRef .tc main_v1))) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F))) : (⟨S50000, .f32⟩ : BufTy).Contents (Elt F)) := by
  have h := stage_main_v126 (val23 W)
  rw [← A_val23 W main_v1 (by decide)] at h
  exact (A_val24 W main_v126 (by decide)).trans h

set_option maxRecDepth 8192 in
set_option maxHeartbeats 2000000 in
theorem stage_main_v129 (V : Valuation τ sig (Elt F)) :
    after (opsS24 : List (HloOp τ sig (Elt F))) V (Proc.devRef .tc main_v129) = (Host.scatterAdd scatter_S50000x4_S1600000x1_S1600000x4_1_0_0_1 ((broadcastInDim S50000x4 ![] bcast_S_S50000x4 : (⟨S_, .f32⟩ : BufTy).Contents (Elt F) → (⟨S50000x4, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (V (Proc.devRef .tc main_v1))) (V (Proc.devRef .tc main_v122)) : (⟨S50000x4, .f32⟩ : BufTy).Contents (Elt F)) := by
  simp only [opsS24]
  after_results_simp
  all_goals rfl
/-- `main_v129` after the program, from what its stage reads. -/
theorem loc_main_v129 (W : Valuation τ sig (Elt F)) :
    after ops W (Proc.devRef .tc main_v129) = (Host.scatterAdd scatter_S50000x4_S1600000x1_S1600000x4_1_0_0_1 ((broadcastInDim S50000x4 ![] bcast_S_S50000x4 : (⟨S_, .f32⟩ : BufTy).Contents (Elt F) → (⟨S50000x4, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (after ops W (Proc.devRef .tc main_v1))) (after ops W (Proc.devRef .tc main_v122)) : (⟨S50000x4, .f32⟩ : BufTy).Contents (Elt F)) := by
  have h := stage_main_v129 (val24 W)
  rw [← A_val24 W main_v1 (by decide), ← A_val24 W main_v122 (by decide)] at h
  exact (A_val25 W main_v129 (by decide)).trans h

set_option maxRecDepth 8192 in
set_option maxHeartbeats 2000000 in
theorem stage_main_v137 (V : Valuation τ sig (Elt F)) :
    after (opsS25 : List (HloOp τ sig (Elt F))) V (Proc.devRef .tc main_v137) = ((addf : (⟨S50000x4, .f32⟩ : BufTy).Contents (Elt F) → (⟨S50000x4, .f32⟩ : BufTy).Contents (Elt F) → (⟨S50000x4, .f32⟩ : BufTy).Contents (Elt F)) (V (Proc.devRef .tc main_arg1)) ((mulf : (⟨S50000x4, .f32⟩ : BufTy).Contents (Elt F) → (⟨S50000x4, .f32⟩ : BufTy).Contents (Elt F) → (⟨S50000x4, .f32⟩ : BufTy).Contents (Elt F)) ((Host.divf : (⟨S50000x4, .f32⟩ : BufTy).Contents (Elt F) → (⟨S50000x4, .f32⟩ : BufTy).Contents (Elt F) → (⟨S50000x4, .f32⟩ : BufTy).Contents (Elt F)) (V (Proc.devRef .tc main_v129)) ((broadcastInDim S50000x4 ![0, 1] bcast_S50000x1_S50000x4_0_1 : (⟨S50000x1, .f32⟩ : BufTy).Contents (Elt F) → (⟨S50000x4, .f32⟩ : BufTy).Contents (Elt F)) ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (V (Proc.devRef .tc main_v126)) ((broadcastInDim S50000 ![] bcast_S_S50000 : (⟨S_, .f32⟩ : BufTy).Contents (Elt F) → (⟨S50000, .f32⟩ : BufTy).Contents (Elt F)) (constant S_ .f32 0x3F800000#32 : (⟨S_, .f32⟩ : BufTy).Contents (Elt F))))))) ((broadcastInDim S50000x4 ![] bcast_S_S50000x4 : (⟨S_, .f32⟩ : BufTy).Contents (Elt F) → (⟨S50000x4, .f32⟩ : BufTy).Contents (Elt F)) (constant S_ .f32 0x3F800000#32 : (⟨S_, .f32⟩ : BufTy).Contents (Elt F))))) := by
  simp only [opsS25]
  after_results_simp
  all_goals rfl
/-- `main_v137` after the program, from what its stage reads. -/
theorem loc_main_v137 (W : Valuation τ sig (Elt F)) :
    after ops W (Proc.devRef .tc main_v137) = ((addf : (⟨S50000x4, .f32⟩ : BufTy).Contents (Elt F) → (⟨S50000x4, .f32⟩ : BufTy).Contents (Elt F) → (⟨S50000x4, .f32⟩ : BufTy).Contents (Elt F)) (W (Proc.devRef .tc main_arg1)) ((mulf : (⟨S50000x4, .f32⟩ : BufTy).Contents (Elt F) → (⟨S50000x4, .f32⟩ : BufTy).Contents (Elt F) → (⟨S50000x4, .f32⟩ : BufTy).Contents (Elt F)) ((Host.divf : (⟨S50000x4, .f32⟩ : BufTy).Contents (Elt F) → (⟨S50000x4, .f32⟩ : BufTy).Contents (Elt F) → (⟨S50000x4, .f32⟩ : BufTy).Contents (Elt F)) (after ops W (Proc.devRef .tc main_v129)) ((broadcastInDim S50000x4 ![0, 1] bcast_S50000x1_S50000x4_0_1 : (⟨S50000x1, .f32⟩ : BufTy).Contents (Elt F) → (⟨S50000x4, .f32⟩ : BufTy).Contents (Elt F)) ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (after ops W (Proc.devRef .tc main_v126)) ((broadcastInDim S50000 ![] bcast_S_S50000 : (⟨S_, .f32⟩ : BufTy).Contents (Elt F) → (⟨S50000, .f32⟩ : BufTy).Contents (Elt F)) (constant S_ .f32 0x3F800000#32 : (⟨S_, .f32⟩ : BufTy).Contents (Elt F))))))) ((broadcastInDim S50000x4 ![] bcast_S_S50000x4 : (⟨S_, .f32⟩ : BufTy).Contents (Elt F) → (⟨S50000x4, .f32⟩ : BufTy).Contents (Elt F)) (constant S_ .f32 0x3F800000#32 : (⟨S_, .f32⟩ : BufTy).Contents (Elt F))))) := by
  have h := stage_main_v137 (val25 W)
  rw [(A_val25 W main_arg1 (by decide)).symm.trans (kept W main_arg1 (by decide)), ← A_val25 W main_v129 (by decide), ← A_val25 W main_v126 (by decide)] at h
  exact (A_val26 W main_v137 (by decide)).trans h

set_option maxRecDepth 8192 in
set_option maxHeartbeats 2000000 in
theorem stage_main_v140 (V : Valuation τ sig (Elt F)) :
    after (opsS26 : List (HloOp τ sig (Elt F))) V (Proc.devRef .tc main_v140) = (Host.scatterAdd scatter_S50000x72_S1600000x1_S1600000x72_1_0_0_1 ((broadcastInDim S50000x72 ![] bcast_S_S50000x72 : (⟨S_, .f32⟩ : BufTy).Contents (Elt F) → (⟨S50000x72, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (V (Proc.devRef .tc main_v1))) (V (Proc.devRef .tc main_v113)) : (⟨S50000x72, .f32⟩ : BufTy).Contents (Elt F)) := by
  simp only [opsS26]
  after_results_simp
  all_goals rfl
/-- `main_v140` after the program, from what its stage reads. -/
theorem loc_main_v140 (W : Valuation τ sig (Elt F)) :
    after ops W (Proc.devRef .tc main_v140) = (Host.scatterAdd scatter_S50000x72_S1600000x1_S1600000x72_1_0_0_1 ((broadcastInDim S50000x72 ![] bcast_S_S50000x72 : (⟨S_, .f32⟩ : BufTy).Contents (Elt F) → (⟨S50000x72, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (after ops W (Proc.devRef .tc main_v1))) (after ops W (Proc.devRef .tc main_v113)) : (⟨S50000x72, .f32⟩ : BufTy).Contents (Elt F)) := by
  have h := stage_main_v140 (val26 W)
  rw [← A_val26 W main_v1 (by decide), ← A_val26 W main_v113 (by decide)] at h
  exact (A_val27 W main_v140 (by decide)).trans h

set_option maxRecDepth 8192 in
set_option maxHeartbeats 2000000 in
theorem stage_main_v145 (V : Valuation τ sig (Elt F)) :
    after (opsS27 : List (HloOp τ sig (Elt F))) V (Proc.devRef .tc main_v145) = ((addf : (⟨S50000x72, .f32⟩ : BufTy).Contents (Elt F) → (⟨S50000x72, .f32⟩ : BufTy).Contents (Elt F) → (⟨S50000x72, .f32⟩ : BufTy).Contents (Elt F)) (Host.dotGeneral dot_S50000x152_S152x72_S50000x72_1_0_0_1_n_n none (concatenate S50000x152 1 [⟨S50000x72, (V (Proc.devRef .tc main_arg0))⟩, ⟨S50000x72, (V (Proc.devRef .tc main_v140))⟩, ⟨S50000x8, (V (Proc.devRef .tc main_arg2))⟩] concatenates_S50000x72_S50000x72_S50000x8_S50000x152_d1 : (⟨S50000x152, .f32⟩ : BufTy).Contents (Elt F)) (V (Proc.devRef .tc main_arg9)) : (⟨S50000x72, .f32⟩ : BufTy).Contents (Elt F)) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (V (Proc.devRef .tc main_arg10))))) := by
  simp only [opsS27]
  after_results_simp
  try dsimp only [Matrix.cons_val]
  try after_results_simp
  all_goals rfl
/-- `main_v145` after the program, from what its stage reads. -/
theorem loc_main_v145 (W : Valuation τ sig (Elt F)) :
    after ops W (Proc.devRef .tc main_v145) = ((addf : (⟨S50000x72, .f32⟩ : BufTy).Contents (Elt F) → (⟨S50000x72, .f32⟩ : BufTy).Contents (Elt F) → (⟨S50000x72, .f32⟩ : BufTy).Contents (Elt F)) (Host.dotGeneral dot_S50000x152_S152x72_S50000x72_1_0_0_1_n_n none (concatenate S50000x152 1 [⟨S50000x72, (W (Proc.devRef .tc main_arg0))⟩, ⟨S50000x72, (after ops W (Proc.devRef .tc main_v140))⟩, ⟨S50000x8, (W (Proc.devRef .tc main_arg2))⟩] concatenates_S50000x72_S50000x72_S50000x8_S50000x152_d1 : (⟨S50000x152, .f32⟩ : BufTy).Contents (Elt F)) (W (Proc.devRef .tc main_arg9)) : (⟨S50000x72, .f32⟩ : BufTy).Contents (Elt F)) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg10))))) := by
  have h := stage_main_v145 (val27 W)
  rw [(A_val27 W main_arg0 (by decide)).symm.trans (kept W main_arg0 (by decide)), ← A_val27 W main_v140 (by decide), (A_val27 W main_arg2 (by decide)).symm.trans (kept W main_arg2 (by decide)), (A_val27 W main_arg9 (by decide)).symm.trans (kept W main_arg9 (by decide)), (A_val27 W main_arg10 (by decide)).symm.trans (kept W main_arg10 (by decide))] at h
  exact (A_val28 W main_v145 (by decide)).trans h

set_option maxRecDepth 8192 in
set_option maxHeartbeats 2000000 in
theorem stage_main_v146 (V : Valuation τ sig (Elt F)) :
    after (opsS28 : List (HloOp τ sig (Elt F))) V (Proc.devRef .tc main_v146) = (Host.reduceAdd (V (Proc.devRef .tc main_v145)) (constant S_ .f32 0x00000000#32 : (⟨S_, .f32⟩ : BufTy).Contents (Elt F)) reducesTo_S50000x72_S72_d0 h_S_ : (⟨S72, .f32⟩ : BufTy).Contents (Elt F)) := by
  simp only [opsS28]
  after_results_simp
  all_goals rfl
/-- `main_v146` after the program, from what its stage reads. -/
theorem loc_main_v146 (W : Valuation τ sig (Elt F)) :
    after ops W (Proc.devRef .tc main_v146) = (Host.reduceAdd (after ops W (Proc.devRef .tc main_v145)) (constant S_ .f32 0x00000000#32 : (⟨S_, .f32⟩ : BufTy).Contents (Elt F)) reducesTo_S50000x72_S72_d0 h_S_ : (⟨S72, .f32⟩ : BufTy).Contents (Elt F)) := by
  have h := stage_main_v146 (val28 W)
  rw [← A_val28 W main_v145 (by decide)] at h
  exact (A_val29 W main_v146 (by decide)).trans h

set_option maxRecDepth 8192 in
set_option maxHeartbeats 2000000 in
theorem stage_main_v148 (V : Valuation τ sig (Elt F)) :
    after (opsS29 : List (HloOp τ sig (Elt F))) V (Proc.devRef .tc main_v148) = ((Host.divf : (⟨S72, .f32⟩ : BufTy).Contents (Elt F) → (⟨S72, .f32⟩ : BufTy).Contents (Elt F) → (⟨S72, .f32⟩ : BufTy).Contents (Elt F)) (V (Proc.devRef .tc main_v146)) ((broadcastInDim S72 ![] bcast_S_S72 : (⟨S_, .f32⟩ : BufTy).Contents (Elt F) → (⟨S72, .f32⟩ : BufTy).Contents (Elt F)) (constant S_ .f32 0x47435000#32 : (⟨S_, .f32⟩ : BufTy).Contents (Elt F)))) := by
  simp only [opsS29]
  after_results_simp
  all_goals rfl
/-- `main_v148` after the program, from what its stage reads. -/
theorem loc_main_v148 (W : Valuation τ sig (Elt F)) :
    after ops W (Proc.devRef .tc main_v148) = ((Host.divf : (⟨S72, .f32⟩ : BufTy).Contents (Elt F) → (⟨S72, .f32⟩ : BufTy).Contents (Elt F) → (⟨S72, .f32⟩ : BufTy).Contents (Elt F)) (after ops W (Proc.devRef .tc main_v146)) ((broadcastInDim S72 ![] bcast_S_S72 : (⟨S_, .f32⟩ : BufTy).Contents (Elt F) → (⟨S72, .f32⟩ : BufTy).Contents (Elt F)) (constant S_ .f32 0x47435000#32 : (⟨S_, .f32⟩ : BufTy).Contents (Elt F)))) := by
  have h := stage_main_v148 (val29 W)
  rw [← A_val29 W main_v146 (by decide)] at h
  exact (A_val30 W main_v148 (by decide)).trans h

set_option maxRecDepth 8192 in
set_option maxHeartbeats 2000000 in
theorem stage_main_v149 (V : Valuation τ sig (Elt F)) :
    after (opsS30 : List (HloOp τ sig (Elt F))) V (Proc.devRef .tc main_v149) = (select (broadcastInDim S72 ![] bcast_S_S72 ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47435000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F)))) ((Host.divf : (⟨S72, .f32⟩ : BufTy).Contents (Elt F) → (⟨S72, .f32⟩ : BufTy).Contents (Elt F) → (⟨S72, .f32⟩ : BufTy).Contents (Elt F)) (Host.reduceAdd ((mulf : (⟨S50000x72, .f32⟩ : BufTy).Contents (Elt F) → (⟨S50000x72, .f32⟩ : BufTy).Contents (Elt F) → (⟨S50000x72, .f32⟩ : BufTy).Contents (Elt F)) ((subf : (⟨S50000x72, .f32⟩ : BufTy).Contents (Elt F) → (⟨S50000x72, .f32⟩ : BufTy).Contents (Elt F) → (⟨S50000x72, .f32⟩ : BufTy).Contents (Elt F)) (V (Proc.devRef .tc main_v145)) ((broadcastInDim S50000x72 ![0, 1] bcast_S1x72_S50000x72_0_1 : (⟨S1x72, .f32⟩ : BufTy).Contents (Elt F) → (⟨S50000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (V (Proc.devRef .tc main_v145)) (constant S_ .f32 0x00000000#32 : (⟨S_, .f32⟩ : BufTy).Contents (Elt F)) reducesTo_S50000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x47435000#32 : (⟨S_, .f32⟩ : BufTy).Contents (Elt F)))))) ((subf : (⟨S50000x72, .f32⟩ : BufTy).Contents (Elt F) → (⟨S50000x72, .f32⟩ : BufTy).Contents (Elt F) → (⟨S50000x72, .f32⟩ : BufTy).Contents (Elt F)) (V (Proc.devRef .tc main_v145)) ((broadcastInDim S50000x72 ![0, 1] bcast_S1x72_S50000x72_0_1 : (⟨S1x72, .f32⟩ : BufTy).Contents (Elt F) → (⟨S50000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (V (Proc.devRef .tc main_v145)) (constant S_ .f32 0x00000000#32 : (⟨S_, .f32⟩ : BufTy).Contents (Elt F)) reducesTo_S50000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x47435000#32 : (⟨S_, .f32⟩ : BufTy).Contents (Elt F))))))) (constant S_ .f32 0x00000000#32 : (⟨S_, .f32⟩ : BufTy).Contents (Elt F)) reducesTo_S50000x72_S72_d0 h_S_ : (⟨S72, .f32⟩ : BufTy).Contents (Elt F)) ((broadcastInDim S72 ![] bcast_S_S72 : (⟨S_, .f32⟩ : BufTy).Contents (Elt F) → (⟨S72, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47435000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S72 ![] bcast_S_S72 : (⟨S_, .f32⟩ : BufTy).Contents (Elt F) → (⟨S72, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))) : (⟨S72, .f32⟩ : BufTy).Contents (Elt F)) := by
  simp only [opsS30]
  after_results_simp
  all_goals rfl
/-- `main_v149` after the program, from what its stage reads. -/
theorem loc_main_v149 (W : Valuation τ sig (Elt F)) :
    after ops W (Proc.devRef .tc main_v149) = (select (broadcastInDim S72 ![] bcast_S_S72 ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47435000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F)))) ((Host.divf : (⟨S72, .f32⟩ : BufTy).Contents (Elt F) → (⟨S72, .f32⟩ : BufTy).Contents (Elt F) → (⟨S72, .f32⟩ : BufTy).Contents (Elt F)) (Host.reduceAdd ((mulf : (⟨S50000x72, .f32⟩ : BufTy).Contents (Elt F) → (⟨S50000x72, .f32⟩ : BufTy).Contents (Elt F) → (⟨S50000x72, .f32⟩ : BufTy).Contents (Elt F)) ((subf : (⟨S50000x72, .f32⟩ : BufTy).Contents (Elt F) → (⟨S50000x72, .f32⟩ : BufTy).Contents (Elt F) → (⟨S50000x72, .f32⟩ : BufTy).Contents (Elt F)) (after ops W (Proc.devRef .tc main_v145)) ((broadcastInDim S50000x72 ![0, 1] bcast_S1x72_S50000x72_0_1 : (⟨S1x72, .f32⟩ : BufTy).Contents (Elt F) → (⟨S50000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (after ops W (Proc.devRef .tc main_v145)) (constant S_ .f32 0x00000000#32 : (⟨S_, .f32⟩ : BufTy).Contents (Elt F)) reducesTo_S50000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x47435000#32 : (⟨S_, .f32⟩ : BufTy).Contents (Elt F)))))) ((subf : (⟨S50000x72, .f32⟩ : BufTy).Contents (Elt F) → (⟨S50000x72, .f32⟩ : BufTy).Contents (Elt F) → (⟨S50000x72, .f32⟩ : BufTy).Contents (Elt F)) (after ops W (Proc.devRef .tc main_v145)) ((broadcastInDim S50000x72 ![0, 1] bcast_S1x72_S50000x72_0_1 : (⟨S1x72, .f32⟩ : BufTy).Contents (Elt F) → (⟨S50000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (after ops W (Proc.devRef .tc main_v145)) (constant S_ .f32 0x00000000#32 : (⟨S_, .f32⟩ : BufTy).Contents (Elt F)) reducesTo_S50000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x47435000#32 : (⟨S_, .f32⟩ : BufTy).Contents (Elt F))))))) (constant S_ .f32 0x00000000#32 : (⟨S_, .f32⟩ : BufTy).Contents (Elt F)) reducesTo_S50000x72_S72_d0 h_S_ : (⟨S72, .f32⟩ : BufTy).Contents (Elt F)) ((broadcastInDim S72 ![] bcast_S_S72 : (⟨S_, .f32⟩ : BufTy).Contents (Elt F) → (⟨S72, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47435000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S72 ![] bcast_S_S72 : (⟨S_, .f32⟩ : BufTy).Contents (Elt F) → (⟨S72, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))) : (⟨S72, .f32⟩ : BufTy).Contents (Elt F)) := by
  have h := stage_main_v149 (val30 W)
  rw [← A_val30 W main_v145 (by decide)] at h
  exact (A_val31 W main_v149 (by decide)).trans h

set_option maxRecDepth 8192 in
set_option maxHeartbeats 2000000 in
theorem stage_main_v165 (V : Valuation τ sig (Elt F)) :
    after (opsS31 : List (HloOp τ sig (Elt F))) V (Proc.devRef .tc main_v165) = ((maximumf : (⟨S50000x72, .f32⟩ : BufTy).Contents (Elt F) → (⟨S50000x72, .f32⟩ : BufTy).Contents (Elt F) → (⟨S50000x72, .f32⟩ : BufTy).Contents (Elt F)) ((addf : (⟨S50000x72, .f32⟩ : BufTy).Contents (Elt F) → (⟨S50000x72, .f32⟩ : BufTy).Contents (Elt F) → (⟨S50000x72, .f32⟩ : BufTy).Contents (Elt F)) ((mulf : (⟨S50000x72, .f32⟩ : BufTy).Contents (Elt F) → (⟨S50000x72, .f32⟩ : BufTy).Contents (Elt F) → (⟨S50000x72, .f32⟩ : BufTy).Contents (Elt F)) ((mulf : (⟨S50000x72, .f32⟩ : BufTy).Contents (Elt F) → (⟨S50000x72, .f32⟩ : BufTy).Contents (Elt F) → (⟨S50000x72, .f32⟩ : BufTy).Contents (Elt F)) ((subf : (⟨S50000x72, .f32⟩ : BufTy).Contents (Elt F) → (⟨S50000x72, .f32⟩ : BufTy).Contents (Elt F) → (⟨S50000x72, .f32⟩ : BufTy).Contents (Elt F)) (V (Proc.devRef .tc main_v145)) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (V (Proc.devRef .tc main_v148))))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) ((Host.rsqrt : (⟨S72, .f32⟩ : BufTy).Contents (Elt F) → (⟨S72, .f32⟩ : BufTy).Contents (Elt F)) ((addf : (⟨S72, .f32⟩ : BufTy).Contents (Elt F) → (⟨S72, .f32⟩ : BufTy).Contents (Elt F) → (⟨S72, .f32⟩ : BufTy).Contents (Elt F)) (V (Proc.devRef .tc main_v149)) ((broadcastInDim S72 ![] bcast_S_S72 : (⟨S_, .f32⟩ : BufTy).Contents (Elt F) → (⟨S72, .f32⟩ : BufTy).Contents (Elt F)) (constant S_ .f32 0x3727C5AC#32 : (⟨S_, .f32⟩ : BufTy).Contents (Elt F)))))))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (V (Proc.devRef .tc main_arg11))))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (V (Proc.devRef .tc main_arg12))))) ((broadcastInDim S50000x72 ![] bcast_S_S50000x72 : (⟨S_, .f32⟩ : BufTy).Contents (Elt F) → (⟨S50000x72, .f32⟩ : BufTy).Contents (Elt F)) (constant S_ .f32 0x00000000#32 : (⟨S_, .f32⟩ : BufTy).Contents (Elt F)))) := by
  simp only [opsS31]
  after_results_simp
  all_goals rfl
/-- `main_v165` after the program, from what its stage reads. -/
theorem loc_main_v165 (W : Valuation τ sig (Elt F)) :
    after ops W (Proc.devRef .tc main_v165) = ((maximumf : (⟨S50000x72, .f32⟩ : BufTy).Contents (Elt F) → (⟨S50000x72, .f32⟩ : BufTy).Contents (Elt F) → (⟨S50000x72, .f32⟩ : BufTy).Contents (Elt F)) ((addf : (⟨S50000x72, .f32⟩ : BufTy).Contents (Elt F) → (⟨S50000x72, .f32⟩ : BufTy).Contents (Elt F) → (⟨S50000x72, .f32⟩ : BufTy).Contents (Elt F)) ((mulf : (⟨S50000x72, .f32⟩ : BufTy).Contents (Elt F) → (⟨S50000x72, .f32⟩ : BufTy).Contents (Elt F) → (⟨S50000x72, .f32⟩ : BufTy).Contents (Elt F)) ((mulf : (⟨S50000x72, .f32⟩ : BufTy).Contents (Elt F) → (⟨S50000x72, .f32⟩ : BufTy).Contents (Elt F) → (⟨S50000x72, .f32⟩ : BufTy).Contents (Elt F)) ((subf : (⟨S50000x72, .f32⟩ : BufTy).Contents (Elt F) → (⟨S50000x72, .f32⟩ : BufTy).Contents (Elt F) → (⟨S50000x72, .f32⟩ : BufTy).Contents (Elt F)) (after ops W (Proc.devRef .tc main_v145)) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (after ops W (Proc.devRef .tc main_v148))))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) ((Host.rsqrt : (⟨S72, .f32⟩ : BufTy).Contents (Elt F) → (⟨S72, .f32⟩ : BufTy).Contents (Elt F)) ((addf : (⟨S72, .f32⟩ : BufTy).Contents (Elt F) → (⟨S72, .f32⟩ : BufTy).Contents (Elt F) → (⟨S72, .f32⟩ : BufTy).Contents (Elt F)) (after ops W (Proc.devRef .tc main_v149)) ((broadcastInDim S72 ![] bcast_S_S72 : (⟨S_, .f32⟩ : BufTy).Contents (Elt F) → (⟨S72, .f32⟩ : BufTy).Contents (Elt F)) (constant S_ .f32 0x3727C5AC#32 : (⟨S_, .f32⟩ : BufTy).Contents (Elt F)))))))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg11))))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg12))))) ((broadcastInDim S50000x72 ![] bcast_S_S50000x72 : (⟨S_, .f32⟩ : BufTy).Contents (Elt F) → (⟨S50000x72, .f32⟩ : BufTy).Contents (Elt F)) (constant S_ .f32 0x00000000#32 : (⟨S_, .f32⟩ : BufTy).Contents (Elt F)))) := by
  have h := stage_main_v165 (val31 W)
  rw [← A_val31 W main_v145 (by decide), ← A_val31 W main_v148 (by decide), ← A_val31 W main_v149 (by decide), (A_val31 W main_arg11 (by decide)).symm.trans (kept W main_arg11 (by decide)), (A_val31 W main_arg12 (by decide)).symm.trans (kept W main_arg12 (by decide))] at h
  exact (A_val32 W main_v165 (by decide)).trans h

set_option maxRecDepth 8192 in
set_option maxHeartbeats 2000000 in
theorem stage_main_v170 (V : Valuation τ sig (Elt F)) :
    after (opsS32 : List (HloOp τ sig (Elt F))) V (Proc.devRef .tc main_v170) = ((addf : (⟨S50000x72, .f32⟩ : BufTy).Contents (Elt F) → (⟨S50000x72, .f32⟩ : BufTy).Contents (Elt F) → (⟨S50000x72, .f32⟩ : BufTy).Contents (Elt F)) ((addf : (⟨S50000x72, .f32⟩ : BufTy).Contents (Elt F) → (⟨S50000x72, .f32⟩ : BufTy).Contents (Elt F) → (⟨S50000x72, .f32⟩ : BufTy).Contents (Elt F)) (V (Proc.devRef .tc main_arg0)) (Host.dotGeneral dot_S50000x72_S72x72_S50000x72_1_0_0_1_n_n none (V (Proc.devRef .tc main_v165)) (V (Proc.devRef .tc main_arg13)) : (⟨S50000x72, .f32⟩ : BufTy).Contents (Elt F))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (V (Proc.devRef .tc main_arg14))))) := by
  simp only [opsS32]
  after_results_simp
  all_goals rfl
/-- `main_v170` after the program, from what its stage reads. -/
theorem loc_main_v170 (W : Valuation τ sig (Elt F)) :
    after ops W (Proc.devRef .tc main_v170) = ((addf : (⟨S50000x72, .f32⟩ : BufTy).Contents (Elt F) → (⟨S50000x72, .f32⟩ : BufTy).Contents (Elt F) → (⟨S50000x72, .f32⟩ : BufTy).Contents (Elt F)) ((addf : (⟨S50000x72, .f32⟩ : BufTy).Contents (Elt F) → (⟨S50000x72, .f32⟩ : BufTy).Contents (Elt F) → (⟨S50000x72, .f32⟩ : BufTy).Contents (Elt F)) (W (Proc.devRef .tc main_arg0)) (Host.dotGeneral dot_S50000x72_S72x72_S50000x72_1_0_0_1_n_n none (after ops W (Proc.devRef .tc main_v165)) (W (Proc.devRef .tc main_arg13)) : (⟨S50000x72, .f32⟩ : BufTy).Contents (Elt F))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg14))))) := by
  have h := stage_main_v170 (val32 W)
  rw [(A_val32 W main_arg0 (by decide)).symm.trans (kept W main_arg0 (by decide)), ← A_val32 W main_v165 (by decide), (A_val32 W main_arg13 (by decide)).symm.trans (kept W main_arg13 (by decide)), (A_val32 W main_arg14 (by decide)).symm.trans (kept W main_arg14 (by decide))] at h
  exact (A_val33 W main_v170 (by decide)).trans h

/-! ## The stage-boundary buffers, each from the earlier boundary buffers and the arguments -/

theorem eq_main_v1 (W : Valuation τ sig (Elt F)) :
    after ops W (Proc.devRef .tc main_v1) = (shapeCast S1600000 (extractStridedSlice S1x1600000 ![0, 0] (W (Proc.devRef .tc main_arg3)) slices_S2x1600000_S1x1600000_0_0 : (⟨S1x1600000, .i32⟩ : BufTy).Contents (Elt F)) shapeCasts_S1x1600000_S1600000 : (⟨S1600000, .i32⟩ : BufTy).Contents (Elt F)) := by
  rw [loc_main_v1 W]

theorem eq_main_v3 (W : Valuation τ sig (Elt F)) :
    after ops W (Proc.devRef .tc main_v3) = (shapeCast S1600000 (extractStridedSlice S1x1600000 ![1, 0] (W (Proc.devRef .tc main_arg3)) slices_S2x1600000_S1x1600000_1_0 : (⟨S1x1600000, .i32⟩ : BufTy).Contents (Elt F)) shapeCasts_S1x1600000_S1600000 : (⟨S1600000, .i32⟩ : BufTy).Contents (Elt F)) := by
  rw [loc_main_v3 W]

theorem eq_main_v10 (W : Valuation τ sig (Elt F)) :
    after ops W (Proc.devRef .tc main_v10) = (Host.gather gather_S50000x4_S1600000x1_S1600000x4_1_0_n_n_0_1_14 (W (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v1)))) : (⟨S1600000x4, .f32⟩ : BufTy).Contents (Elt F)) := by
  rw [loc_main_v10 W]

theorem eq_main_v17 (W : Valuation τ sig (Elt F)) :
    after ops W (Proc.devRef .tc main_v17) = (Host.gather gather_S50000x4_S1600000x1_S1600000x4_1_0_n_n_0_1_14 (W (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v3)))) : (⟨S1600000x4, .f32⟩ : BufTy).Contents (Elt F)) := by
  rw [loc_main_v17 W]

theorem eq_main_v18 (W : Valuation τ sig (Elt F)) :
    after ops W (Proc.devRef .tc main_v18) = ((subf : (⟨S1600000x4, .f32⟩ : BufTy).Contents (Elt F) → (⟨S1600000x4, .f32⟩ : BufTy).Contents (Elt F) → (⟨S1600000x4, .f32⟩ : BufTy).Contents (Elt F)) (after ops W (Proc.devRef .tc main_v10)) (after ops W (Proc.devRef .tc main_v17))) := by
  rw [loc_main_v18 W]

theorem eq_main_v31 (W : Valuation τ sig (Elt F)) :
    after ops W (Proc.devRef .tc main_v31) = ((mulf : (⟨S1600000, .f32⟩ : BufTy).Contents (Elt F) → (⟨S1600000, .f32⟩ : BufTy).Contents (Elt F) → (⟨S1600000, .f32⟩ : BufTy).Contents (Elt F)) ((Host.sign : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (extractStridedSlice S1600000x1 ![0, 0] ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v18)) (after ops W (Proc.devRef .tc main_v18))) slices_S1600000x4_S1600000x1_0_0 : (⟨S1600000x1, .f32⟩ : BufTy).Contents (Elt F)) shapeCasts_S1600000x1_S1600000 : (⟨S1600000, .f32⟩ : BufTy).Contents (Elt F))) (Host.reduceAdd ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v18)) (after ops W (Proc.devRef .tc main_v18))) (constant S_ .f32 0x00000000#32 : (⟨S_, .f32⟩ : BufTy).Contents (Elt F)) reducesTo_S1600000x4_S1600000_d1 h_S_ : (⟨S1600000, .f32⟩ : BufTy).Contents (Elt F)))) ((Host.log : (⟨S1600000, .f32⟩ : BufTy).Contents (Elt F) → (⟨S1600000, .f32⟩ : BufTy).Contents (Elt F)) ((addf : (⟨S1600000, .f32⟩ : BufTy).Contents (Elt F) → (⟨S1600000, .f32⟩ : BufTy).Contents (Elt F) → (⟨S1600000, .f32⟩ : BufTy).Contents (Elt F)) ((Host.absf : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (extractStridedSlice S1600000x1 ![0, 0] ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v18)) (after ops W (Proc.devRef .tc main_v18))) slices_S1600000x4_S1600000x1_0_0 : (⟨S1600000x1, .f32⟩ : BufTy).Contents (Elt F)) shapeCasts_S1600000x1_S1600000 : (⟨S1600000, .f32⟩ : BufTy).Contents (Elt F))) (Host.reduceAdd ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v18)) (after ops W (Proc.devRef .tc main_v18))) (constant S_ .f32 0x00000000#32 : (⟨S_, .f32⟩ : BufTy).Contents (Elt F)) reducesTo_S1600000x4_S1600000_d1 h_S_ : (⟨S1600000, .f32⟩ : BufTy).Contents (Elt F)))) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))))) := by
  rw [loc_main_v31 W]

theorem eq_main_v39 (W : Valuation τ sig (Elt F)) :
    after ops W (Proc.devRef .tc main_v39) = (Host.gather gather_S50000x4_S1600000x1_S1600000x4_1_0_n_n_0_1_14 (W (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v1)))) : (⟨S1600000x4, .f32⟩ : BufTy).Contents (Elt F)) := by
  rw [loc_main_v39 W]

theorem eq_main_v46 (W : Valuation τ sig (Elt F)) :
    after ops W (Proc.devRef .tc main_v46) = (Host.gather gather_S50000x4_S1600000x1_S1600000x4_1_0_n_n_0_1_14 (W (Proc.devRef .tc main_arg1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v3)))) : (⟨S1600000x4, .f32⟩ : BufTy).Contents (Elt F)) := by
  rw [loc_main_v46 W]

theorem eq_main_v59 (W : Valuation τ sig (Elt F)) :
    after ops W (Proc.devRef .tc main_v59) = ((mulf : (⟨S1600000, .f32⟩ : BufTy).Contents (Elt F) → (⟨S1600000, .f32⟩ : BufTy).Contents (Elt F) → (⟨S1600000, .f32⟩ : BufTy).Contents (Elt F)) ((Host.sign : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (extractStridedSlice S1600000x1 ![0, 0] ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v39)) (after ops W (Proc.devRef .tc main_v46))) slices_S1600000x4_S1600000x1_0_0 : (⟨S1600000x1, .f32⟩ : BufTy).Contents (Elt F)) shapeCasts_S1600000x1_S1600000 : (⟨S1600000, .f32⟩ : BufTy).Contents (Elt F))) (Host.reduceAdd ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v39)) (after ops W (Proc.devRef .tc main_v46))) (constant S_ .f32 0x00000000#32 : (⟨S_, .f32⟩ : BufTy).Contents (Elt F)) reducesTo_S1600000x4_S1600000_d1 h_S_ : (⟨S1600000, .f32⟩ : BufTy).Contents (Elt F)))) ((Host.log : (⟨S1600000, .f32⟩ : BufTy).Contents (Elt F) → (⟨S1600000, .f32⟩ : BufTy).Contents (Elt F)) ((addf : (⟨S1600000, .f32⟩ : BufTy).Contents (Elt F) → (⟨S1600000, .f32⟩ : BufTy).Contents (Elt F) → (⟨S1600000, .f32⟩ : BufTy).Contents (Elt F)) ((Host.absf : (⟨S1600000, .f32⟩ : BufTy).Contents (Elt F) → (⟨S1600000, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x40000000#32 : (⟨S_, .f32⟩ : BufTy).Contents (Elt F))) (shapeCast S1600000 (extractStridedSlice S1600000x1 ![0, 0] ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v39)) (after ops W (Proc.devRef .tc main_v46))) slices_S1600000x4_S1600000x1_0_0 : (⟨S1600000x1, .f32⟩ : BufTy).Contents (Elt F)) shapeCasts_S1600000x1_S1600000 : (⟨S1600000, .f32⟩ : BufTy).Contents (Elt F))) (Host.reduceAdd ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v39)) (after ops W (Proc.devRef .tc main_v46))) (constant S_ .f32 0x00000000#32 : (⟨S_, .f32⟩ : BufTy).Contents (Elt F)) reducesTo_S1600000x4_S1600000_d1 h_S_ : (⟨S1600000, .f32⟩ : BufTy).Contents (Elt F)))) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))))) := by
  rw [loc_main_v59 W, loc_main_v48 W, loc_main_v47 W]

theorem eq_main_v67 (W : Valuation τ sig (Elt F)) :
    after ops W (Proc.devRef .tc main_v67) = (Host.gather gather_S50000x72_S1600000x1_S1600000x72_1_0_n_n_0_1_172 (W (Proc.devRef .tc main_arg0)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v1)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v1)))) : (⟨S1600000x72, .f32⟩ : BufTy).Contents (Elt F)) := by
  rw [loc_main_v67 W]

theorem eq_main_v74 (W : Valuation τ sig (Elt F)) :
    after ops W (Proc.devRef .tc main_v74) = (Host.gather gather_S50000x72_S1600000x1_S1600000x72_1_0_n_n_0_1_172 (W (Proc.devRef .tc main_arg0)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (after ops W (Proc.devRef .tc main_v3)) ((broadcastInDim S1600000 ![] bcast_S_S1600000 : (⟨S_, .i32⟩ : BufTy).Contents (Elt F) → (⟨S1600000, .i32⟩ : BufTy).Contents (Elt F)) (constantI S_ 32 50000#32 : (⟨S_, .i32⟩ : BufTy).Contents (Elt F)))) (after ops W (Proc.devRef .tc main_v3)))) : (⟨S1600000x72, .f32⟩ : BufTy).Contents (Elt F)) := by
  rw [loc_main_v74 W]

theorem eq_main_v75 (W : Valuation τ sig (Elt F)) :
    after ops W (Proc.devRef .tc main_v75) = (concatenate S1600000x146 1 [⟨S1600000x72, (after ops W (Proc.devRef .tc main_v67))⟩, ⟨S1600000x72, (after ops W (Proc.devRef .tc main_v74))⟩, ⟨S1600000x1, ((broadcastInDim S1600000x1 ![0] bcast_S1600000_S1600000x1_0 : (⟨S1600000, .f32⟩ : BufTy).Contents (Elt F) → (⟨S1600000x1, .f32⟩ : BufTy).Contents (Elt F)) (after ops W (Proc.devRef .tc main_v31)))⟩, ⟨S1600000x1, ((broadcastInDim S1600000x1 ![0] bcast_S1600000_S1600000x1_0 : (⟨S1600000, .f32⟩ : BufTy).Contents (Elt F) → (⟨S1600000x1, .f32⟩ : BufTy).Contents (Elt F)) (after ops W (Proc.devRef .tc main_v59)))⟩] concatenates_S1600000x72_S1600000x72_S1600000x1_S1600000x1_S1600000x146_d1 : (⟨S1600000x146, .f32⟩ : BufTy).Contents (Elt F)) := by
  rw [loc_main_v75 W, loc_main_v60 W, loc_main_v32 W]

theorem eq_main_v76 (W : Valuation τ sig (Elt F)) :
    after ops W (Proc.devRef .tc main_v76) = (Host.dotGeneral dot_S1600000x146_S146x72_S1600000x72_1_0_0_1_n_n none (after ops W (Proc.devRef .tc main_v75)) (W (Proc.devRef .tc main_arg4)) : (⟨S1600000x72, .f32⟩ : BufTy).Contents (Elt F)) := by
  rw [loc_main_v76 W]

theorem eq_main_v79 (W : Valuation τ sig (Elt F)) :
    after ops W (Proc.devRef .tc main_v79) = ((Host.divf : (⟨S72, .f32⟩ : BufTy).Contents (Elt F) → (⟨S72, .f32⟩ : BufTy).Contents (Elt F) → (⟨S72, .f32⟩ : BufTy).Contents (Elt F)) (Host.reduceAdd (after ops W (Proc.devRef .tc main_v76)) (constant S_ .f32 0x00000000#32 : (⟨S_, .f32⟩ : BufTy).Contents (Elt F)) reducesTo_S1600000x72_S72_d0 h_S_ : (⟨S72, .f32⟩ : BufTy).Contents (Elt F)) ((broadcastInDim S72 ![] bcast_S_S72 : (⟨S_, .f32⟩ : BufTy).Contents (Elt F) → (⟨S72, .f32⟩ : BufTy).Contents (Elt F)) (constant S_ .f32 0x49C35000#32 : (⟨S_, .f32⟩ : BufTy).Contents (Elt F)))) := by
  rw [loc_main_v79 W]

theorem eq_main_v80 (W : Valuation τ sig (Elt F)) :
    after ops W (Proc.devRef .tc main_v80) = (select (broadcastInDim S72 ![] bcast_S_S72 ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x49C35000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F)))) ((Host.divf : (⟨S72, .f32⟩ : BufTy).Contents (Elt F) → (⟨S72, .f32⟩ : BufTy).Contents (Elt F) → (⟨S72, .f32⟩ : BufTy).Contents (Elt F)) (Host.reduceAdd ((mulf : (⟨S1600000x72, .f32⟩ : BufTy).Contents (Elt F) → (⟨S1600000x72, .f32⟩ : BufTy).Contents (Elt F) → (⟨S1600000x72, .f32⟩ : BufTy).Contents (Elt F)) ((subf : (⟨S1600000x72, .f32⟩ : BufTy).Contents (Elt F) → (⟨S1600000x72, .f32⟩ : BufTy).Contents (Elt F) → (⟨S1600000x72, .f32⟩ : BufTy).Contents (Elt F)) (after ops W (Proc.devRef .tc main_v76)) ((broadcastInDim S1600000x72 ![0, 1] bcast_S1x72_S1600000x72_0_1 : (⟨S1x72, .f32⟩ : BufTy).Contents (Elt F) → (⟨S1600000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (after ops W (Proc.devRef .tc main_v76)) (constant S_ .f32 0x00000000#32 : (⟨S_, .f32⟩ : BufTy).Contents (Elt F)) reducesTo_S1600000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x49C35000#32 : (⟨S_, .f32⟩ : BufTy).Contents (Elt F)))))) ((subf : (⟨S1600000x72, .f32⟩ : BufTy).Contents (Elt F) → (⟨S1600000x72, .f32⟩ : BufTy).Contents (Elt F) → (⟨S1600000x72, .f32⟩ : BufTy).Contents (Elt F)) (after ops W (Proc.devRef .tc main_v76)) ((broadcastInDim S1600000x72 ![0, 1] bcast_S1x72_S1600000x72_0_1 : (⟨S1x72, .f32⟩ : BufTy).Contents (Elt F) → (⟨S1600000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (after ops W (Proc.devRef .tc main_v76)) (constant S_ .f32 0x00000000#32 : (⟨S_, .f32⟩ : BufTy).Contents (Elt F)) reducesTo_S1600000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x49C35000#32 : (⟨S_, .f32⟩ : BufTy).Contents (Elt F))))))) (constant S_ .f32 0x00000000#32 : (⟨S_, .f32⟩ : BufTy).Contents (Elt F)) reducesTo_S1600000x72_S72_d0 h_S_ : (⟨S72, .f32⟩ : BufTy).Contents (Elt F)) ((broadcastInDim S72 ![] bcast_S_S72 : (⟨S_, .f32⟩ : BufTy).Contents (Elt F) → (⟨S72, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x49C35000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S72 ![] bcast_S_S72 : (⟨S_, .f32⟩ : BufTy).Contents (Elt F) → (⟨S72, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))) : (⟨S72, .f32⟩ : BufTy).Contents (Elt F)) := by
  rw [loc_main_v80 W]

theorem eq_main_v96 (W : Valuation τ sig (Elt F)) :
    after ops W (Proc.devRef .tc main_v96) = ((maximumf : (⟨S1600000x72, .f32⟩ : BufTy).Contents (Elt F) → (⟨S1600000x72, .f32⟩ : BufTy).Contents (Elt F) → (⟨S1600000x72, .f32⟩ : BufTy).Contents (Elt F)) ((addf : (⟨S1600000x72, .f32⟩ : BufTy).Contents (Elt F) → (⟨S1600000x72, .f32⟩ : BufTy).Contents (Elt F) → (⟨S1600000x72, .f32⟩ : BufTy).Contents (Elt F)) ((mulf : (⟨S1600000x72, .f32⟩ : BufTy).Contents (Elt F) → (⟨S1600000x72, .f32⟩ : BufTy).Contents (Elt F) → (⟨S1600000x72, .f32⟩ : BufTy).Contents (Elt F)) ((mulf : (⟨S1600000x72, .f32⟩ : BufTy).Contents (Elt F) → (⟨S1600000x72, .f32⟩ : BufTy).Contents (Elt F) → (⟨S1600000x72, .f32⟩ : BufTy).Contents (Elt F)) ((subf : (⟨S1600000x72, .f32⟩ : BufTy).Contents (Elt F) → (⟨S1600000x72, .f32⟩ : BufTy).Contents (Elt F) → (⟨S1600000x72, .f32⟩ : BufTy).Contents (Elt F)) (after ops W (Proc.devRef .tc main_v76)) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (after ops W (Proc.devRef .tc main_v79))))) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) ((Host.rsqrt : (⟨S72, .f32⟩ : BufTy).Contents (Elt F) → (⟨S72, .f32⟩ : BufTy).Contents (Elt F)) ((addf : (⟨S72, .f32⟩ : BufTy).Contents (Elt F) → (⟨S72, .f32⟩ : BufTy).Contents (Elt F) → (⟨S72, .f32⟩ : BufTy).Contents (Elt F)) (after ops W (Proc.devRef .tc main_v80)) ((broadcastInDim S72 ![] bcast_S_S72 : (⟨S_, .f32⟩ : BufTy).Contents (Elt F) → (⟨S72, .f32⟩ : BufTy).Contents (Elt F)) (constant S_ .f32 0x3727C5AC#32 : (⟨S_, .f32⟩ : BufTy).Contents (Elt F)))))))) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg5))))) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg6))))) ((broadcastInDim S1600000x72 ![] bcast_S_S1600000x72 : (⟨S_, .f32⟩ : BufTy).Contents (Elt F) → (⟨S1600000x72, .f32⟩ : BufTy).Contents (Elt F)) (constant S_ .f32 0x00000000#32 : (⟨S_, .f32⟩ : BufTy).Contents (Elt F)))) := by
  rw [loc_main_v96 W]

theorem eq_main_v101 (W : Valuation τ sig (Elt F)) :
    after ops W (Proc.devRef .tc main_v101) = ((maximumf : (⟨S1600000x72, .f32⟩ : BufTy).Contents (Elt F) → (⟨S1600000x72, .f32⟩ : BufTy).Contents (Elt F) → (⟨S1600000x72, .f32⟩ : BufTy).Contents (Elt F)) ((addf : (⟨S1600000x72, .f32⟩ : BufTy).Contents (Elt F) → (⟨S1600000x72, .f32⟩ : BufTy).Contents (Elt F) → (⟨S1600000x72, .f32⟩ : BufTy).Contents (Elt F)) (Host.dotGeneral dot_S1600000x72_S72x72_S1600000x72_1_0_0_1_n_n none (after ops W (Proc.devRef .tc main_v96)) (W (Proc.devRef .tc main_arg7)) : (⟨S1600000x72, .f32⟩ : BufTy).Contents (Elt F)) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg8))))) ((broadcastInDim S1600000x72 ![] bcast_S_S1600000x72 : (⟨S_, .f32⟩ : BufTy).Contents (Elt F) → (⟨S1600000x72, .f32⟩ : BufTy).Contents (Elt F)) (constant S_ .f32 0x00000000#32 : (⟨S_, .f32⟩ : BufTy).Contents (Elt F)))) := by
  rw [loc_main_v101 W, loc_main_v97 W]

theorem eq_main_v111 (W : Valuation τ sig (Elt F)) :
    after ops W (Proc.devRef .tc main_v111) = ((Host.divf : (⟨S1600000x1, .f32⟩ : BufTy).Contents (Elt F) → (⟨S1600000x1, .f32⟩ : BufTy).Contents (Elt F) → (⟨S1600000x1, .f32⟩ : BufTy).Contents (Elt F)) ((broadcastInDim S1600000x1 ![] bcast_S_S1600000x1 : (⟨S_, .f32⟩ : BufTy).Contents (Elt F) → (⟨S1600000x1, .f32⟩ : BufTy).Contents (Elt F)) (constant S_ .f32 0x3F800000#32 : (⟨S_, .f32⟩ : BufTy).Contents (Elt F))) ((addf : (⟨S1600000x1, .f32⟩ : BufTy).Contents (Elt F) → (⟨S1600000x1, .f32⟩ : BufTy).Contents (Elt F) → (⟨S1600000x1, .f32⟩ : BufTy).Contents (Elt F)) ((broadcastInDim S1600000x1 ![] bcast_S_S1600000x1 : (⟨S_, .f32⟩ : BufTy).Contents (Elt F) → (⟨S1600000x1, .f32⟩ : BufTy).Contents (Elt F)) (constant S_ .f32 0x3F800000#32 : (⟨S_, .f32⟩ : BufTy).Contents (Elt F))) ((Host.exp : (⟨S1600000x1, .f32⟩ : BufTy).Contents (Elt F) → (⟨S1600000x1, .f32⟩ : BufTy).Contents (Elt F)) ((Host.negf : (⟨S1600000x1, .f32⟩ : BufTy).Contents (Elt F) → (⟨S1600000x1, .f32⟩ : BufTy).Contents (Elt F)) ((addf : (⟨S1600000x1, .f32⟩ : BufTy).Contents (Elt F) → (⟨S1600000x1, .f32⟩ : BufTy).Contents (Elt F) → (⟨S1600000x1, .f32⟩ : BufTy).Contents (Elt F)) (Host.dotGeneral dot_S1600000x72_S72x1_S1600000x1_1_0_0_1_n_n none (after ops W (Proc.devRef .tc main_v101)) (W (Proc.devRef .tc main_arg18)) : (⟨S1600000x1, .f32⟩ : BufTy).Contents (Elt F)) ((broadcastInDim S1600000x1 ![0, 1] bcast_S1x1_S1600000x1_0_1 : (⟨S1x1, .f32⟩ : BufTy).Contents (Elt F) → (⟨S1600000x1, .f32⟩ : BufTy).Contents (Elt F)) ((broadcastInDim S1x1 ![1] bcast_S1_S1x1_1 : (⟨S1, .f32⟩ : BufTy).Contents (Elt F) → (⟨S1x1, .f32⟩ : BufTy).Contents (Elt F)) (W (Proc.devRef .tc main_arg19))))))))) := by
  rw [loc_main_v111 W]

theorem eq_main_v113 (W : Valuation τ sig (Elt F)) :
    after ops W (Proc.devRef .tc main_v113) = ((mulf : (⟨S1600000x72, .f32⟩ : BufTy).Contents (Elt F) → (⟨S1600000x72, .f32⟩ : BufTy).Contents (Elt F) → (⟨S1600000x72, .f32⟩ : BufTy).Contents (Elt F)) (after ops W (Proc.devRef .tc main_v101)) ((broadcastInDim S1600000x72 ![0, 1] bcast_S1600000x1_S1600000x72_0_1 : (⟨S1600000x1, .f32⟩ : BufTy).Contents (Elt F) → (⟨S1600000x72, .f32⟩ : BufTy).Contents (Elt F)) (after ops W (Proc.devRef .tc main_v111)))) := by
  rw [loc_main_v113 W]

theorem eq_main_v119 (W : Valuation τ sig (Elt F)) :
    after ops W (Proc.devRef .tc main_v119) = (Host.dotGeneral dot_S1600000x72_S72x1_S1600000x1_1_0_0_1_n_n none ((maximumf : (⟨S1600000x72, .f32⟩ : BufTy).Contents (Elt F) → (⟨S1600000x72, .f32⟩ : BufTy).Contents (Elt F) → (⟨S1600000x72, .f32⟩ : BufTy).Contents (Elt F)) ((addf : (⟨S1600000x72, .f32⟩ : BufTy).Contents (Elt F) → (⟨S1600000x72, .f32⟩ : BufTy).Contents (Elt F) → (⟨S1600000x72, .f32⟩ : BufTy).Contents (Elt F)) (Host.dotGeneral dot_S1600000x72_S72x72_S1600000x72_1_0_0_1_n_n none (after ops W (Proc.devRef .tc main_v113)) (W (Proc.devRef .tc main_arg15)) : (⟨S1600000x72, .f32⟩ : BufTy).Contents (Elt F)) ((broadcastInDim S1600000x72 ![0, 1] bcast_S1x72_S1600000x72_0_1 : (⟨S1x72, .f32⟩ : BufTy).Contents (Elt F) → (⟨S1600000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg16))))) ((broadcastInDim S1600000x72 ![] bcast_S_S1600000x72 : (⟨S_, .f32⟩ : BufTy).Contents (Elt F) → (⟨S1600000x72, .f32⟩ : BufTy).Contents (Elt F)) (constant S_ .f32 0x00000000#32 : (⟨S_, .f32⟩ : BufTy).Contents (Elt F)))) (W (Proc.devRef .tc main_arg17)) : (⟨S1600000x1, .f32⟩ : BufTy).Contents (Elt F)) := by
  rw [loc_main_v119 W]

theorem eq_main_v122 (W : Valuation τ sig (Elt F)) :
    after ops W (Proc.devRef .tc main_v122) = ((minimumf : (⟨S1600000x4, .f32⟩ : BufTy).Contents (Elt F) → (⟨S1600000x4, .f32⟩ : BufTy).Contents (Elt F) → (⟨S1600000x4, .f32⟩ : BufTy).Contents (Elt F)) ((broadcastInDim S1600000x4 ![] bcast_S_S1600000x4 : (⟨S_, .f32⟩ : BufTy).Contents (Elt F) → (⟨S1600000x4, .f32⟩ : BufTy).Contents (Elt F)) ((id : (⟨S_, .f32⟩ : BufTy).Contents (Elt F) → (⟨S_, .f32⟩ : BufTy).Contents (Elt F)) (constant S_ .f32 0x42C80000#32 : (⟨S_, .f32⟩ : BufTy).Contents (Elt F)))) ((maximumf : (⟨S1600000x4, .f32⟩ : BufTy).Contents (Elt F) → (⟨S1600000x4, .f32⟩ : BufTy).Contents (Elt F) → (⟨S1600000x4, .f32⟩ : BufTy).Contents (Elt F)) ((broadcastInDim S1600000x4 ![] bcast_S_S1600000x4 : (⟨S_, .f32⟩ : BufTy).Contents (Elt F) → (⟨S1600000x4, .f32⟩ : BufTy).Contents (Elt F)) ((id : (⟨S_, .f32⟩ : BufTy).Contents (Elt F) → (⟨S_, .f32⟩ : BufTy).Contents (Elt F)) (constant S_ .f32 0xC2C80000#32 : (⟨S_, .f32⟩ : BufTy).Contents (Elt F)))) ((mulf : (⟨S1600000x4, .f32⟩ : BufTy).Contents (Elt F) → (⟨S1600000x4, .f32⟩ : BufTy).Contents (Elt F) → (⟨S1600000x4, .f32⟩ : BufTy).Contents (Elt F)) (after ops W (Proc.devRef .tc main_v18)) ((broadcastInDim S1600000x4 ![0, 1] bcast_S1600000x1_S1600000x4_0_1 : (⟨S1600000x1, .f32⟩ : BufTy).Contents (Elt F) → (⟨S1600000x4, .f32⟩ : BufTy).Contents (Elt F)) (after ops W (Proc.devRef .tc main_v119)))))) := by
  rw [loc_main_v122 W]

theorem eq_main_v126 (W : Valuation τ sig (Elt F)) :
    after ops W (Proc.devRef .tc main_v126) = (Host.scatterAdd scatter_S50000_S1600000x1_S1600000_n_0_0_1 ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (after ops W (Proc.devRef .tc main_v1))) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F))) : (⟨S50000, .f32⟩ : BufTy).Contents (Elt F)) := by
  rw [loc_main_v126 W]

theorem eq_main_v129 (W : Valuation τ sig (Elt F)) :
    after ops W (Proc.devRef .tc main_v129) = (Host.scatterAdd scatter_S50000x4_S1600000x1_S1600000x4_1_0_0_1 ((broadcastInDim S50000x4 ![] bcast_S_S50000x4 : (⟨S_, .f32⟩ : BufTy).Contents (Elt F) → (⟨S50000x4, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (after ops W (Proc.devRef .tc main_v1))) (after ops W (Proc.devRef .tc main_v122)) : (⟨S50000x4, .f32⟩ : BufTy).Contents (Elt F)) := by
  rw [loc_main_v129 W]

theorem eq_main_v137 (W : Valuation τ sig (Elt F)) :
    after ops W (Proc.devRef .tc main_v137) = ((addf : (⟨S50000x4, .f32⟩ : BufTy).Contents (Elt F) → (⟨S50000x4, .f32⟩ : BufTy).Contents (Elt F) → (⟨S50000x4, .f32⟩ : BufTy).Contents (Elt F)) (W (Proc.devRef .tc main_arg1)) ((mulf : (⟨S50000x4, .f32⟩ : BufTy).Contents (Elt F) → (⟨S50000x4, .f32⟩ : BufTy).Contents (Elt F) → (⟨S50000x4, .f32⟩ : BufTy).Contents (Elt F)) ((Host.divf : (⟨S50000x4, .f32⟩ : BufTy).Contents (Elt F) → (⟨S50000x4, .f32⟩ : BufTy).Contents (Elt F) → (⟨S50000x4, .f32⟩ : BufTy).Contents (Elt F)) (after ops W (Proc.devRef .tc main_v129)) ((broadcastInDim S50000x4 ![0, 1] bcast_S50000x1_S50000x4_0_1 : (⟨S50000x1, .f32⟩ : BufTy).Contents (Elt F) → (⟨S50000x4, .f32⟩ : BufTy).Contents (Elt F)) ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (after ops W (Proc.devRef .tc main_v126)) ((broadcastInDim S50000 ![] bcast_S_S50000 : (⟨S_, .f32⟩ : BufTy).Contents (Elt F) → (⟨S50000, .f32⟩ : BufTy).Contents (Elt F)) (constant S_ .f32 0x3F800000#32 : (⟨S_, .f32⟩ : BufTy).Contents (Elt F))))))) ((broadcastInDim S50000x4 ![] bcast_S_S50000x4 : (⟨S_, .f32⟩ : BufTy).Contents (Elt F) → (⟨S50000x4, .f32⟩ : BufTy).Contents (Elt F)) (constant S_ .f32 0x3F800000#32 : (⟨S_, .f32⟩ : BufTy).Contents (Elt F))))) := by
  rw [loc_main_v137 W]

theorem eq_main_v140 (W : Valuation τ sig (Elt F)) :
    after ops W (Proc.devRef .tc main_v140) = (Host.scatterAdd scatter_S50000x72_S1600000x1_S1600000x72_1_0_0_1 ((broadcastInDim S50000x72 ![] bcast_S_S50000x72 : (⟨S_, .f32⟩ : BufTy).Contents (Elt F) → (⟨S50000x72, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (after ops W (Proc.devRef .tc main_v1))) (after ops W (Proc.devRef .tc main_v113)) : (⟨S50000x72, .f32⟩ : BufTy).Contents (Elt F)) := by
  rw [loc_main_v140 W]

theorem eq_main_v145 (W : Valuation τ sig (Elt F)) :
    after ops W (Proc.devRef .tc main_v145) = ((addf : (⟨S50000x72, .f32⟩ : BufTy).Contents (Elt F) → (⟨S50000x72, .f32⟩ : BufTy).Contents (Elt F) → (⟨S50000x72, .f32⟩ : BufTy).Contents (Elt F)) (Host.dotGeneral dot_S50000x152_S152x72_S50000x72_1_0_0_1_n_n none (concatenate S50000x152 1 [⟨S50000x72, (W (Proc.devRef .tc main_arg0))⟩, ⟨S50000x72, (after ops W (Proc.devRef .tc main_v140))⟩, ⟨S50000x8, (W (Proc.devRef .tc main_arg2))⟩] concatenates_S50000x72_S50000x72_S50000x8_S50000x152_d1 : (⟨S50000x152, .f32⟩ : BufTy).Contents (Elt F)) (W (Proc.devRef .tc main_arg9)) : (⟨S50000x72, .f32⟩ : BufTy).Contents (Elt F)) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg10))))) := by
  rw [loc_main_v145 W]

theorem eq_main_v148 (W : Valuation τ sig (Elt F)) :
    after ops W (Proc.devRef .tc main_v148) = ((Host.divf : (⟨S72, .f32⟩ : BufTy).Contents (Elt F) → (⟨S72, .f32⟩ : BufTy).Contents (Elt F) → (⟨S72, .f32⟩ : BufTy).Contents (Elt F)) (Host.reduceAdd (after ops W (Proc.devRef .tc main_v145)) (constant S_ .f32 0x00000000#32 : (⟨S_, .f32⟩ : BufTy).Contents (Elt F)) reducesTo_S50000x72_S72_d0 h_S_ : (⟨S72, .f32⟩ : BufTy).Contents (Elt F)) ((broadcastInDim S72 ![] bcast_S_S72 : (⟨S_, .f32⟩ : BufTy).Contents (Elt F) → (⟨S72, .f32⟩ : BufTy).Contents (Elt F)) (constant S_ .f32 0x47435000#32 : (⟨S_, .f32⟩ : BufTy).Contents (Elt F)))) := by
  rw [loc_main_v148 W, loc_main_v146 W]

theorem eq_main_v149 (W : Valuation τ sig (Elt F)) :
    after ops W (Proc.devRef .tc main_v149) = (select (broadcastInDim S72 ![] bcast_S_S72 ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47435000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F)))) ((Host.divf : (⟨S72, .f32⟩ : BufTy).Contents (Elt F) → (⟨S72, .f32⟩ : BufTy).Contents (Elt F) → (⟨S72, .f32⟩ : BufTy).Contents (Elt F)) (Host.reduceAdd ((mulf : (⟨S50000x72, .f32⟩ : BufTy).Contents (Elt F) → (⟨S50000x72, .f32⟩ : BufTy).Contents (Elt F) → (⟨S50000x72, .f32⟩ : BufTy).Contents (Elt F)) ((subf : (⟨S50000x72, .f32⟩ : BufTy).Contents (Elt F) → (⟨S50000x72, .f32⟩ : BufTy).Contents (Elt F) → (⟨S50000x72, .f32⟩ : BufTy).Contents (Elt F)) (after ops W (Proc.devRef .tc main_v145)) ((broadcastInDim S50000x72 ![0, 1] bcast_S1x72_S50000x72_0_1 : (⟨S1x72, .f32⟩ : BufTy).Contents (Elt F) → (⟨S50000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (after ops W (Proc.devRef .tc main_v145)) (constant S_ .f32 0x00000000#32 : (⟨S_, .f32⟩ : BufTy).Contents (Elt F)) reducesTo_S50000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x47435000#32 : (⟨S_, .f32⟩ : BufTy).Contents (Elt F)))))) ((subf : (⟨S50000x72, .f32⟩ : BufTy).Contents (Elt F) → (⟨S50000x72, .f32⟩ : BufTy).Contents (Elt F) → (⟨S50000x72, .f32⟩ : BufTy).Contents (Elt F)) (after ops W (Proc.devRef .tc main_v145)) ((broadcastInDim S50000x72 ![0, 1] bcast_S1x72_S50000x72_0_1 : (⟨S1x72, .f32⟩ : BufTy).Contents (Elt F) → (⟨S50000x72, .f32⟩ : BufTy).Contents (Elt F)) ((Host.divf : (⟨S1x72, .f32⟩ : BufTy).Contents (Elt F) → (⟨S1x72, .f32⟩ : BufTy).Contents (Elt F) → (⟨S1x72, .f32⟩ : BufTy).Contents (Elt F)) ((broadcastInDim S1x72 ![1] bcast_S72_S1x72_1 : (⟨S72, .f32⟩ : BufTy).Contents (Elt F) → (⟨S1x72, .f32⟩ : BufTy).Contents (Elt F)) (Host.reduceAdd (after ops W (Proc.devRef .tc main_v145)) (constant S_ .f32 0x00000000#32 : (⟨S_, .f32⟩ : BufTy).Contents (Elt F)) reducesTo_S50000x72_S72_d0 h_S_ : (⟨S72, .f32⟩ : BufTy).Contents (Elt F))) ((broadcastInDim S1x72 ![] bcast_S_S1x72 : (⟨S_, .f32⟩ : BufTy).Contents (Elt F) → (⟨S1x72, .f32⟩ : BufTy).Contents (Elt F)) (constant S_ .f32 0x47435000#32 : (⟨S_, .f32⟩ : BufTy).Contents (Elt F))))))) (constant S_ .f32 0x00000000#32 : (⟨S_, .f32⟩ : BufTy).Contents (Elt F)) reducesTo_S50000x72_S72_d0 h_S_ : (⟨S72, .f32⟩ : BufTy).Contents (Elt F)) ((broadcastInDim S72 ![] bcast_S_S72 : (⟨S_, .f32⟩ : BufTy).Contents (Elt F) → (⟨S72, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47435000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S72 ![] bcast_S_S72 : (⟨S_, .f32⟩ : BufTy).Contents (Elt F) → (⟨S72, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))) : (⟨S72, .f32⟩ : BufTy).Contents (Elt F)) := by
  rw [loc_main_v149 W]

theorem eq_main_v165 (W : Valuation τ sig (Elt F)) :
    after ops W (Proc.devRef .tc main_v165) = ((maximumf : (⟨S50000x72, .f32⟩ : BufTy).Contents (Elt F) → (⟨S50000x72, .f32⟩ : BufTy).Contents (Elt F) → (⟨S50000x72, .f32⟩ : BufTy).Contents (Elt F)) ((addf : (⟨S50000x72, .f32⟩ : BufTy).Contents (Elt F) → (⟨S50000x72, .f32⟩ : BufTy).Contents (Elt F) → (⟨S50000x72, .f32⟩ : BufTy).Contents (Elt F)) ((mulf : (⟨S50000x72, .f32⟩ : BufTy).Contents (Elt F) → (⟨S50000x72, .f32⟩ : BufTy).Contents (Elt F) → (⟨S50000x72, .f32⟩ : BufTy).Contents (Elt F)) ((mulf : (⟨S50000x72, .f32⟩ : BufTy).Contents (Elt F) → (⟨S50000x72, .f32⟩ : BufTy).Contents (Elt F) → (⟨S50000x72, .f32⟩ : BufTy).Contents (Elt F)) ((subf : (⟨S50000x72, .f32⟩ : BufTy).Contents (Elt F) → (⟨S50000x72, .f32⟩ : BufTy).Contents (Elt F) → (⟨S50000x72, .f32⟩ : BufTy).Contents (Elt F)) (after ops W (Proc.devRef .tc main_v145)) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (after ops W (Proc.devRef .tc main_v148))))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) ((Host.rsqrt : (⟨S72, .f32⟩ : BufTy).Contents (Elt F) → (⟨S72, .f32⟩ : BufTy).Contents (Elt F)) ((addf : (⟨S72, .f32⟩ : BufTy).Contents (Elt F) → (⟨S72, .f32⟩ : BufTy).Contents (Elt F) → (⟨S72, .f32⟩ : BufTy).Contents (Elt F)) (after ops W (Proc.devRef .tc main_v149)) ((broadcastInDim S72 ![] bcast_S_S72 : (⟨S_, .f32⟩ : BufTy).Contents (Elt F) → (⟨S72, .f32⟩ : BufTy).Contents (Elt F)) (constant S_ .f32 0x3727C5AC#32 : (⟨S_, .f32⟩ : BufTy).Contents (Elt F)))))))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg11))))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg12))))) ((broadcastInDim S50000x72 ![] bcast_S_S50000x72 : (⟨S_, .f32⟩ : BufTy).Contents (Elt F) → (⟨S50000x72, .f32⟩ : BufTy).Contents (Elt F)) (constant S_ .f32 0x00000000#32 : (⟨S_, .f32⟩ : BufTy).Contents (Elt F)))) := by
  rw [loc_main_v165 W]

theorem eq_main_v170 (W : Valuation τ sig (Elt F)) :
    after ops W (Proc.devRef .tc main_v170) = ((addf : (⟨S50000x72, .f32⟩ : BufTy).Contents (Elt F) → (⟨S50000x72, .f32⟩ : BufTy).Contents (Elt F) → (⟨S50000x72, .f32⟩ : BufTy).Contents (Elt F)) ((addf : (⟨S50000x72, .f32⟩ : BufTy).Contents (Elt F) → (⟨S50000x72, .f32⟩ : BufTy).Contents (Elt F) → (⟨S50000x72, .f32⟩ : BufTy).Contents (Elt F)) (W (Proc.devRef .tc main_arg0)) (Host.dotGeneral dot_S50000x72_S72x72_S50000x72_1_0_0_1_n_n none (after ops W (Proc.devRef .tc main_v165)) (W (Proc.devRef .tc main_arg13)) : (⟨S50000x72, .f32⟩ : BufTy).Contents (Elt F))) ((broadcastInDim S50000x72 ![0, 1] bcast_S1x72_S50000x72_0_1 : (⟨S1x72, .f32⟩ : BufTy).Contents (Elt F) → (⟨S50000x72, .f32⟩ : BufTy).Contents (Elt F)) ((broadcastInDim S1x72 ![1] bcast_S72_S1x72_1 : (⟨S72, .f32⟩ : BufTy).Contents (Elt F) → (⟨S1x72, .f32⟩ : BufTy).Contents (Elt F)) (W (Proc.devRef .tc main_arg14))))) := by
  rw [loc_main_v170 W]

end Cert.ReferenceIdeal.RefStages

end
-- ==== Proof.BridgeNodeStats.lean ====
/-
  Column statistics of the graph layer, host program against the tiled program's host glue.

  Both take the column sums of an array, divide by the number of rows, subtract the resulting row from every row,
  square, take column sums again and divide by the same count (guarded by the same comparison, which both make on the
  same constants). One spreads the vector of 72 column sums to a one-row matrix BEFORE dividing, the other keeps a
  vector and spreads it where it is used; at column k the two hold the same quotient of the same sum. The sums
  themselves are never opened.
-/
import proofs.«128591_j87351044866445_2_alg».proof.Proof.Gen.ReferenceIdeal
import proofs.«128591_j87351044866445_2_alg».proof.Proof.KernelFold
import proofs.«128591_j87351044866445_2_alg».proof.Proof.SpecNode
import Idealize.ShloMosaic.Lib.Pipeline.Value

noncomputable section

namespace Cert.BridgeNode

open Idealize.ShloMosaic Idealize.ShloMosaic.ValueIdx

/-- A vector spread along axis 1 of a one-row matrix: entry (0, k) of the row is entry k of the vector. -/
theorem rowOfVec_apply {α : Type} {n : Nat} (h : (⟨1, ![n]⟩ : Shape).BroadcastsInDim ⟨2, ![1, n]⟩ ![1])
    (b : (⟨1, ![n]⟩ : Shape).Idx → α) (k : Fin n) :
    broadcastInDim ⟨2, ![1, n]⟩ ![1] h b (ix2 (0 : Fin 1) k) = b (ix1 k) := by
  refine broadcastInDim_apply ![1] h b (ix2 (0 : Fin 1) k) (ix1 k) ?_
  intro a
  match a with
  | ⟨0, _⟩ =>
    show k.val = if n = 1 then 0 else k.val
    split
    · have := k.isLt; omega
    · rfl

/-! ## The host program's stages, as functions of the arrays they read -/

section HostStages

open Cert.ReferenceIdeal Cert.ReferenceIdeal.Gen

variable {F : FTy → Type} [FloatOps F]

/-- Column means of an [N, 72] array, a vector. -/
def refMeanN (z : (⟨S50000x72, .f32⟩ : BufTy).Contents (Elt F)) : (⟨S72, .f32⟩ : BufTy).Contents (Elt F) :=
  Host.divf (Host.reduceAdd z (constant S_ .f32 0x00000000#32) reducesTo_S50000x72_S72_d0 h_S_)
    (broadcastInDim S72 ![] bcast_S_S72 (constant S_ .f32 0x47435000#32))

/-- Column variances of an [N, 72] array, a vector. -/
def refVarN (z : (⟨S50000x72, .f32⟩ : BufTy).Contents (Elt F)) : (⟨S72, .f32⟩ : BufTy).Contents (Elt F) :=
  select (broadcastInDim S72 ![] bcast_S_S72 (cmpf (F := F) .ogt (subf (constant S_ .f32 0x47435000#32) (sitofp .f32 (constantI S_ 32 0#32))) (constant S_ .f32 0x00000000#32)))
    (Host.divf
      (Host.reduceAdd
        (mulf
          (subf z (broadcastInDim S50000x72 ![0, 1] bcast_S1x72_S50000x72_0_1 (Host.divf (broadcastInDim S1x72 ![1] bcast_S72_S1x72_1 (Host.reduceAdd z (constant S_ .f32 0x00000000#32) reducesTo_S50000x72_S72_d0 h_S_)) (broadcastInDim S1x72 ![] bcast_S_S1x72 (constant S_ .f32 0x47435000#32)))))
          (subf z (broadcastInDim S50000x72 ![0, 1] bcast_S1x72_S50000x72_0_1 (Host.divf (broadcastInDim S1x72 ![1] bcast_S72_S1x72_1 (Host.reduceAdd z (constant S_ .f32 0x00000000#32) reducesTo_S50000x72_S72_d0 h_S_)) (broadcastInDim S1x72 ![] bcast_S_S1x72 (constant S_ .f32 0x47435000#32))))))
        (constant S_ .f32 0x00000000#32) reducesTo_S50000x72_S72_d0 h_S_)
      (broadcastInDim S72 ![] bcast_S_S72 (subf (constant S_ .f32 0x47435000#32) (sitofp .f32 (constantI S_ 32 0#32)))))
    (broadcastInDim S72 ![] bcast_S_S72 (id (constant S_ .f32 0x7FC00000#32)))

/-- Column means of an [E, 72] array, a vector. -/
def refMeanE (z : (⟨S1600000x72, .f32⟩ : BufTy).Contents (Elt F)) : (⟨S72, .f32⟩ : BufTy).Contents (Elt F) :=
  Host.divf (Host.reduceAdd z (constant S_ .f32 0x00000000#32) reducesTo_S1600000x72_S72_d0 h_S_)
    (broadcastInDim S72 ![] bcast_S_S72 (constant S_ .f32 0x49C35000#32))

/-- Column variances of an [E, 72] array, a vector. -/
def refVarE (z : (⟨S1600000x72, .f32⟩ : BufTy).Contents (Elt F)) : (⟨S72, .f32⟩ : BufTy).Contents (Elt F) :=
  select (broadcastInDim S72 ![] bcast_S_S72 (cmpf (F := F) .ogt (subf (constant S_ .f32 0x49C35000#32) (sitofp .f32 (constantI S_ 32 0#32))) (constant S_ .f32 0x00000000#32)))
    (Host.divf
      (Host.reduceAdd
        (mulf
          (subf z (broadcastInDim S1600000x72 ![0, 1] bcast_S1x72_S1600000x72_0_1 (Host.divf (broadcastInDim S1x72 ![1] bcast_S72_S1x72_1 (Host.reduceAdd z (constant S_ .f32 0x00000000#32) reducesTo_S1600000x72_S72_d0 h_S_)) (broadcastInDim S1x72 ![] bcast_S_S1x72 (constant S_ .f32 0x49C35000#32)))))
          (subf z (broadcastInDim S1600000x72 ![0, 1] bcast_S1x72_S1600000x72_0_1 (Host.divf (broadcastInDim S1x72 ![1] bcast_S72_S1x72_1 (Host.reduceAdd z (constant S_ .f32 0x00000000#32) reducesTo_S1600000x72_S72_d0 h_S_)) (broadcastInDim S1x72 ![] bcast_S_S1x72 (constant S_ .f32 0x49C35000#32))))))
        (constant S_ .f32 0x00000000#32) reducesTo_S1600000x72_S72_d0 h_S_)
      (broadcastInDim S72 ![] bcast_S_S72 (subf (constant S_ .f32 0x49C35000#32) (sitofp .f32 (constantI S_ 32 0#32)))))
    (broadcastInDim S72 ![] bcast_S_S72 (id (constant S_ .f32 0x7FC00000#32)))

end HostStages

/-! ## Column statistics: the row kept by the tiled program's host glue, at column k, is the host program's vector at k -/

section Stats

open Cert.KernelIdeal Cert.KernelIdeal.Gen Cert.KernelIdeal.Fold

theorem meanN_eq (z : (⟨S50000x72, .f32⟩ : BufTy).Contents (Elt Ideal)) (k : Fin 72) :
    colMeanN (F := Ideal) z (ix2 (0 : Fin 1) k) = refMeanN (F := Ideal) z (ix1 k) := by
  unfold colMeanN refMeanN
  show FloatOps.hostDivf (F := Ideal) (φ := .f32)
        (broadcastInDim S1x72 ![1] bcast_S72_S1x72_1
          (Host.reduceAdd (F := Ideal) z (constant S_ .f32 0x00000000#32) reducesTo_S50000x72_S72_d0 h_S_) (ix2 (0 : Fin 1) k))
        (Ideal.ofBits .f32 0x47435000#32)
      = FloatOps.hostDivf (F := Ideal) (φ := .f32)
        (Host.reduceAdd (F := Ideal) z (constant S_ .f32 0x00000000#32) reducesTo_S50000x72_S72_d0 h_S_ (ix1 k))
        (Ideal.ofBits .f32 0x47435000#32)
  rw [rowOfVec_apply]

theorem meanE_eq (z : (⟨S1600000x72, .f32⟩ : BufTy).Contents (Elt Ideal)) (k : Fin 72) :
    colMeanE (F := Ideal) z (ix2 (0 : Fin 1) k) = refMeanE (F := Ideal) z (ix1 k) := by
  unfold colMeanE refMeanE
  show FloatOps.hostDivf (F := Ideal) (φ := .f32)
        (broadcastInDim S1x72 ![1] bcast_S72_S1x72_1
          (Host.reduceAdd (F := Ideal) z (constant S_ .f32 0x00000000#32) reducesTo_S1600000x72_S72_d0 h_S_) (ix2 (0 : Fin 1) k))
        (Ideal.ofBits .f32 0x49C35000#32)
      = FloatOps.hostDivf (F := Ideal) (φ := .f32)
        (Host.reduceAdd (F := Ideal) z (constant S_ .f32 0x00000000#32) reducesTo_S1600000x72_S72_d0 h_S_ (ix1 k))
        (Ideal.ofBits .f32 0x49C35000#32)
  rw [rowOfVec_apply]

theorem varN_eq (z : (⟨S50000x72, .f32⟩ : BufTy).Contents (Elt Ideal)) (k : Fin 72) :
    colVarN (F := Ideal) z (constantI S_ 32 0#32) (ix2 (0 : Fin 1) k) = refVarN (F := Ideal) z (ix1 k) := by
  unfold colVarN refVarN
  show Scalar.select (FloatOps.cmpf (F := Ideal) (φ := .f32) .ogt (dofN (F := Ideal) (constantI S_ 32 0#32) ix0) (Ideal.ofBits .f32 0x00000000#32))
        (FloatOps.hostDivf (F := Ideal) (φ := .f32)
          (broadcastInDim S1x72 ![1] bcast_S72_S1x72_1 (colSqDevN (F := Ideal) z) (ix2 (0 : Fin 1) k))
          (dofN (F := Ideal) (constantI S_ 32 0#32) ix0))
        (Ideal.ofBits .f32 0x7FC00000#32)
      = Scalar.select (FloatOps.cmpf (F := Ideal) (φ := .f32) .ogt (dofN (F := Ideal) (constantI S_ 32 0#32) ix0) (Ideal.ofBits .f32 0x00000000#32))
        (FloatOps.hostDivf (F := Ideal) (φ := .f32) (colSqDevN (F := Ideal) z (ix1 k)) (dofN (F := Ideal) (constantI S_ 32 0#32) ix0))
        (Ideal.ofBits .f32 0x7FC00000#32)
  rw [rowOfVec_apply]

theorem varE_eq (z : (⟨S1600000x72, .f32⟩ : BufTy).Contents (Elt Ideal)) (k : Fin 72) :
    colVarE (F := Ideal) z (constantI S_ 32 0#32) (ix2 (0 : Fin 1) k) = refVarE (F := Ideal) z (ix1 k) := by
  unfold colVarE refVarE
  show Scalar.select (FloatOps.cmpf (F := Ideal) (φ := .f32) .ogt (dofE (F := Ideal) (constantI S_ 32 0#32) ix0) (Ideal.ofBits .f32 0x00000000#32))
        (FloatOps.hostDivf (F := Ideal) (φ := .f32)
          (broadcastInDim S1x72 ![1] bcast_S72_S1x72_1 (colSqDevE (F := Ideal) z) (ix2 (0 : Fin 1) k))
          (dofE (F := Ideal) (constantI S_ 32 0#32) ix0))
        (Ideal.ofBits .f32 0x7FC00000#32)
      = Scalar.select (FloatOps.cmpf (F := Ideal) (φ := .f32) .ogt (dofE (F := Ideal) (constantI S_ 32 0#32) ix0) (Ideal.ofBits .f32 0x00000000#32))
        (FloatOps.hostDivf (F := Ideal) (φ := .f32) (colSqDevE (F := Ideal) z (ix1 k)) (dofE (F := Ideal) (constantI S_ 32 0#32) ix0))
        (Ideal.ofBits .f32 0x7FC00000#32)
  rw [rowOfVec_apply]

end Stats

end Cert.BridgeNode

end
-- ==== Proof.BridgeNode.lean ====
/-
  The two node stages of the graph layer, host program against tiled program: entry by entry the two read the same
  numbers.

  The first node stage. The host program multiplies the concatenation [h | agg | attr] (152 columns) by one stacked
  weight matrix (152 rows) and adds the bias; the tiled program multiplies the three pieces by the three row blocks of
  that matrix and adds the products left to right. A sum over 152 positions splits as (72 + 72) + 8, position j of
  the concatenation being column j, j − 72 or j − 144 of its piece and row j of the stacked matrix being row j,
  j − 72 or j − 144 of its block.

  The second node stage. Both normalize, scale, shift and rectify entry by entry and take the product with the same
  weight matrix; the host program adds h first and the bias last, the tiled program adds the bias to the product and
  that to h: one use of associativity of addition, which the extended reals have without any finiteness.
-/
import proofs.«128591_j87351044866445_2_alg».proof.Proof.BridgeNodeStats

noncomputable section

namespace Cert.BridgeNode

open Idealize.ShloMosaic Idealize.ShloMosaic.ValueIdx Cert.Dense Cert.NodeSpec

/-! ## The host program's stages, as functions of the arrays they read -/

section HostStages

open Cert.ReferenceIdeal Cert.ReferenceIdeal.Gen

variable {F : FTy → Type} [FloatOps F]

/-- The first node stage of the host program. -/
def refZh (h agg : (⟨S50000x72, .f32⟩ : BufTy).Contents (Elt F)) (attr : (⟨S50000x8, .f32⟩ : BufTy).Contents (Elt F))
    (Wh1 : (⟨S152x72, .f32⟩ : BufTy).Contents (Elt F)) (bh1 : (⟨S72, .f32⟩ : BufTy).Contents (Elt F)) :
    (⟨S50000x72, .f32⟩ : BufTy).Contents (Elt F) :=
  addf
    (Host.dotGeneral dot_S50000x152_S152x72_S50000x72_1_0_0_1_n_n none
      (concatenate S50000x152 1 [⟨S50000x72, h⟩, ⟨S50000x72, agg⟩, ⟨S50000x8, attr⟩]
        concatenates_S50000x72_S50000x72_S50000x8_S50000x152_d1) Wh1)
    (broadcastInDim S50000x72 ![0, 1] bcast_S1x72_S50000x72_0_1 (broadcastInDim S1x72 ![1] bcast_S72_S1x72_1 bh1))

/-- The normalized, scaled, shifted and rectified array of the host program. -/
def refNorm (zh : (⟨S50000x72, .f32⟩ : BufTy).Contents (Elt F)) (mu va g b : (⟨S72, .f32⟩ : BufTy).Contents (Elt F)) :
    (⟨S50000x72, .f32⟩ : BufTy).Contents (Elt F) :=
  maximumf
    (addf
      (mulf
        (mulf
          (subf zh (broadcastInDim S50000x72 ![0, 1] bcast_S1x72_S50000x72_0_1 (broadcastInDim S1x72 ![1] bcast_S72_S1x72_1 mu)))
          (broadcastInDim S50000x72 ![0, 1] bcast_S1x72_S50000x72_0_1 (broadcastInDim S1x72 ![1] bcast_S72_S1x72_1
            (Host.rsqrt (addf va (broadcastInDim S72 ![] bcast_S_S72 (constant S_ .f32 0x3727C5AC#32)))))))
        (broadcastInDim S50000x72 ![0, 1] bcast_S1x72_S50000x72_0_1 (broadcastInDim S1x72 ![1] bcast_S72_S1x72_1 g)))
      (broadcastInDim S50000x72 ![0, 1] bcast_S1x72_S50000x72_0_1 (broadcastInDim S1x72 ![1] bcast_S72_S1x72_1 b)))
    (broadcastInDim S50000x72 ![] bcast_S_S50000x72 (constant S_ .f32 0x00000000#32))

/-- The second node stage of the host program, from the normalized array x. -/
def refHout (h : (⟨S50000x72, .f32⟩ : BufTy).Contents (Elt F)) (Wh2 : (⟨S72x72, .f32⟩ : BufTy).Contents (Elt F))
    (bh2 : (⟨S72, .f32⟩ : BufTy).Contents (Elt F)) (x : (⟨S50000x72, .f32⟩ : BufTy).Contents (Elt F)) :
    (⟨S50000x72, .f32⟩ : BufTy).Contents (Elt F) :=
  addf (addf h (Host.dotGeneral dot_S50000x72_S72x72_S50000x72_1_0_0_1_n_n none x Wh2))
    (broadcastInDim S50000x72 ![0, 1] bcast_S1x72_S50000x72_0_1 (broadcastInDim S1x72 ![1] bcast_S72_S1x72_1 bh2))

end HostStages

/-! ## A sum over 152 positions as three sums -/

theorem sum152 (f : Fin 152 → EReal) :
    ∑ j : Fin 152, f j
      = (∑ k : Fin 72, f ⟨k.val, by have := k.isLt; omega⟩ + ∑ k : Fin 72, f ⟨72 + k.val, by have := k.isLt; omega⟩)
        + ∑ k : Fin 8, f ⟨144 + k.val, by have := k.isLt; omega⟩ := by
  have e := Fin.sum_univ_add (M := EReal) (a := 72 + 72) (b := 8) f
  rw [Fin.sum_univ_add (M := EReal) (a := 72) (b := 72) fun i => f (Fin.castAdd 8 i)] at e
  exact e

/-! ## The concatenation [h | agg | attr] at a column, and the stacked weight matrix at a row -/

section Pieces

open Cert.ReferenceIdeal Cert.ReferenceIdeal.Gen

variable {α : Type}

/-- Columns 0 … 71 of the concatenation are h. -/
theorem cat_h (h agg : S50000x72.Idx → α) (attr : S50000x8.Idx → α) (p : Fin 50000) (k : Fin 72) :
    concatenate S50000x152 1 [⟨S50000x72, h⟩, ⟨S50000x72, agg⟩, ⟨S50000x8, attr⟩]
        concatenates_S50000x72_S50000x72_S50000x8_S50000x152_d1 (ix2 p (⟨k.val, by have := k.isLt; omega⟩ : Fin 152))
      = h (ix2 p k) :=
  concatenate_apply_piece (t := S50000x152) (1 : Fin 2) [⟨S50000x72, h⟩, ⟨S50000x72, agg⟩, ⟨S50000x8, attr⟩] concatenates_S50000x72_S50000x72_S50000x8_S50000x152_d1
    (ix2 p (⟨k.val, by have := k.isLt; omega⟩ : Fin 152)) 0 (by show (0 : Nat) < 3; omega) S50000x72 h rfl rfl 0 rfl (ix2 p k)
    (fun b hb => by
      match b with
      | ⟨0, _⟩ => rfl
      | ⟨1, _⟩ => exact absurd (Fin.ext rfl) hb)
    (Nat.zero_add _)

/-- Columns 72 … 143 are agg. -/
theorem cat_agg (h agg : S50000x72.Idx → α) (attr : S50000x8.Idx → α) (p : Fin 50000) (k : Fin 72) :
    concatenate S50000x152 1 [⟨S50000x72, h⟩, ⟨S50000x72, agg⟩, ⟨S50000x8, attr⟩]
        concatenates_S50000x72_S50000x72_S50000x8_S50000x152_d1 (ix2 p (⟨72 + k.val, by have := k.isLt; omega⟩ : Fin 152))
      = agg (ix2 p k) :=
  concatenate_apply_piece (t := S50000x152) (1 : Fin 2) [⟨S50000x72, h⟩, ⟨S50000x72, agg⟩, ⟨S50000x8, attr⟩] concatenates_S50000x72_S50000x72_S50000x8_S50000x152_d1
    (ix2 p (⟨72 + k.val, by have := k.isLt; omega⟩ : Fin 152)) 1 (by show (1 : Nat) < 3; omega) S50000x72 agg rfl rfl 72 rfl (ix2 p k)
    (fun b hb => by
      match b with
      | ⟨0, _⟩ => rfl
      | ⟨1, _⟩ => exact absurd (Fin.ext rfl) hb)
    rfl

/-- Columns 144 … 151 are attr. -/
theorem cat_attr (h agg : S50000x72.Idx → α) (attr : S50000x8.Idx → α) (p : Fin 50000) (k : Fin 8) :
    concatenate S50000x152 1 [⟨S50000x72, h⟩, ⟨S50000x72, agg⟩, ⟨S50000x8, attr⟩]
        concatenates_S50000x72_S50000x72_S50000x8_S50000x152_d1 (ix2 p (⟨144 + k.val, by have := k.isLt; omega⟩ : Fin 152))
      = attr (ix2 p k) :=
  concatenate_apply_piece (t := S50000x152) (1 : Fin 2) [⟨S50000x72, h⟩, ⟨S50000x72, agg⟩, ⟨S50000x8, attr⟩] concatenates_S50000x72_S50000x72_S50000x8_S50000x152_d1
    (ix2 p (⟨144 + k.val, by have := k.isLt; omega⟩ : Fin 152)) 2 (by show (2 : Nat) < 3; omega) S50000x8 attr rfl rfl 144 rfl (ix2 p k)
    (fun b hb => by
      match b with
      | ⟨0, _⟩ => rfl
      | ⟨1, _⟩ => exact absurd (Fin.ext rfl) hb)
    rfl

end Pieces

section Blocks

open Cert.KernelIdeal Cert.KernelIdeal.Gen

variable {α : Type}

/-- Rows 0 … 71 of the stacked matrix are its first block. -/
theorem block0_apply (W : S152x72.Idx → α) (k q : Fin 72) :
    extractStridedSlice S72x72 ![0, 0] W slices_S152x72_S72x72_0_0 (ix2 k q)
      = W (ix2 (⟨k.val, by have := k.isLt; omega⟩ : Fin 152) q) :=
  extractStridedSlice_apply _ W _ (ix2 k q) (ix2 (⟨k.val, by have := k.isLt; omega⟩ : Fin 152) q) fun a => by
    match a with
    | ⟨0, _⟩ => exact (Nat.zero_add _).symm
    | ⟨1, _⟩ => exact (Nat.zero_add _).symm

/-- Rows 72 … 143 are its second block. -/
theorem block1_apply (W : S152x72.Idx → α) (k q : Fin 72) :
    extractStridedSlice S72x72 ![72, 0] W slices_S152x72_S72x72_72_0 (ix2 k q)
      = W (ix2 (⟨72 + k.val, by have := k.isLt; omega⟩ : Fin 152) q) :=
  extractStridedSlice_apply _ W _ (ix2 k q) (ix2 (⟨72 + k.val, by have := k.isLt; omega⟩ : Fin 152) q) fun a => by
    match a with
    | ⟨0, _⟩ => rfl
    | ⟨1, _⟩ => exact (Nat.zero_add _).symm

/-- Rows 144 … 151 are its third block. -/
theorem block2_apply (W : S152x72.Idx → α) (k : Fin 8) (q : Fin 72) :
    extractStridedSlice S8x72 ![144, 0] W slices_S152x72_S8x72_144_0 (ix2 k q)
      = W (ix2 (⟨144 + k.val, by have := k.isLt; omega⟩ : Fin 152) q) :=
  extractStridedSlice_apply _ W _ (ix2 k q) (ix2 (⟨144 + k.val, by have := k.isLt; omega⟩ : Fin 152) q) fun a => by
    match a with
    | ⟨0, _⟩ => rfl
    | ⟨1, _⟩ => exact (Nat.zero_add _).symm

end Blocks

/-! ## The first node stage -/

section Stages

open Cert.KernelIdeal Cert.KernelIdeal.Gen

/-- The host program's first node stage is nodeLinear of h, agg, attr, the three row blocks of the stacked weight
    matrix and the bias as a one-row matrix. -/
theorem zh_eq (h agg : (⟨S50000x72, .f32⟩ : BufTy).Contents (Elt Ideal))
    (attr : (⟨S50000x8, .f32⟩ : BufTy).Contents (Elt Ideal)) (Wh1 : (⟨S152x72, .f32⟩ : BufTy).Contents (Elt Ideal))
    (bh1 : (⟨S72, .f32⟩ : BufTy).Contents (Elt Ideal)) :
    refZh (F := Ideal) h agg attr Wh1 bh1
      = nodeLinear h agg attr (extractStridedSlice S72x72 ![0, 0] Wh1 slices_S152x72_S72x72_0_0)
          (extractStridedSlice S72x72 ![72, 0] Wh1 slices_S152x72_S72x72_72_0)
          (extractStridedSlice S8x72 ![144, 0] Wh1 slices_S152x72_S8x72_144_0)
          (shapeCast S1x72 bh1 shapeCasts_S72_S1x72) := by
  funext i
  obtain ⟨p, q, rfl⟩ : ∃ (p : Fin 50000) (q : Fin 72), i = ix2 p q := ⟨i 0, i 1, eq_ix2 i⟩
  rw [nodeLinear_apply]
  unfold refZh
  show addf (F := Ideal) (φ := .f32)
        (Host.dotGeneral (F := Ideal) (DotDims.plain 50000 152 72) none
          (concatenate Cert.ReferenceIdeal.S50000x152 1 [⟨Cert.ReferenceIdeal.S50000x72, h⟩, ⟨Cert.ReferenceIdeal.S50000x72, agg⟩, ⟨Cert.ReferenceIdeal.S50000x8, attr⟩]
            Cert.ReferenceIdeal.Gen.concatenates_S50000x72_S50000x72_S50000x8_S50000x152_d1) Wh1)
        (broadcastInDim Cert.ReferenceIdeal.S50000x72 ![0, 1] Cert.ReferenceIdeal.Gen.bcast_S1x72_S50000x72_0_1 (broadcastInDim Cert.ReferenceIdeal.S1x72 ![1] Cert.ReferenceIdeal.Gen.bcast_S72_S1x72_1 bh1)) (ix2 p q) = _
  rw [hostAddRow_apply, hostProduct_apply, sum152, Cert.LibLreluRows.rowCast_apply]
  refine congrArg₂ (· + ·) (congrArg₂ (· + ·) (congrArg₂ (· + ·) ?_ ?_) ?_) rfl
  · exact Finset.sum_congr rfl fun k _ => by rw [cat_h h agg attr p k, block0_apply Wh1 k q]
  · exact Finset.sum_congr rfl fun k _ => by rw [cat_agg h agg attr p k, block1_apply Wh1 k q]
  · exact Finset.sum_congr rfl fun k _ => by rw [cat_attr h agg attr p k, block2_apply Wh1 k q]

/-! ## The second node stage -/

/-- The host program's normalized array at entry (p, k). -/
theorem refNorm_apply (zh : (⟨S50000x72, .f32⟩ : BufTy).Contents (Elt Ideal))
    (mu va g b : (⟨S72, .f32⟩ : BufTy).Contents (Elt Ideal)) (p : Fin 50000) (k : Fin 72) :
    refNorm (F := Ideal) zh mu va g b (ix2 p k)
      = max (((zh (ix2 p k) - mu (ix1 k)) * Ideal.rsqrt (va (ix1 k) + Ideal.ofBits .f32 0x3727C5AC#32)) * g (ix1 k)
          + b (ix1 k)) 0 := by
  unfold refNorm
  rw [hostRelu_apply]
  refine congrArg (fun z => max z 0) ?_
  show ((zh (ix2 p k) - (broadcastInDim Cert.ReferenceIdeal.S50000x72 ![0, 1] Cert.ReferenceIdeal.Gen.bcast_S1x72_S50000x72_0_1 (broadcastInDim Cert.ReferenceIdeal.S1x72 ![1] Cert.ReferenceIdeal.Gen.bcast_S72_S1x72_1 mu)) (ix2 p k))
          * (broadcastInDim Cert.ReferenceIdeal.S50000x72 ![0, 1] Cert.ReferenceIdeal.Gen.bcast_S1x72_S50000x72_0_1 (broadcastInDim Cert.ReferenceIdeal.S1x72 ![1] Cert.ReferenceIdeal.Gen.bcast_S72_S1x72_1 (Host.rsqrt (addf va (broadcastInDim Cert.ReferenceIdeal.S72 ![] Cert.ReferenceIdeal.Gen.bcast_S_S72 (constant (F := Ideal) Cert.ReferenceIdeal.S_ .f32 0x3727C5AC#32)))))) (ix2 p k))
        * (broadcastInDim Cert.ReferenceIdeal.S50000x72 ![0, 1] Cert.ReferenceIdeal.Gen.bcast_S1x72_S50000x72_0_1 (broadcastInDim Cert.ReferenceIdeal.S1x72 ![1] Cert.ReferenceIdeal.Gen.bcast_S72_S1x72_1 g)) (ix2 p k)
      + (broadcastInDim Cert.ReferenceIdeal.S50000x72 ![0, 1] Cert.ReferenceIdeal.Gen.bcast_S1x72_S50000x72_0_1 (broadcastInDim Cert.ReferenceIdeal.S1x72 ![1] Cert.ReferenceIdeal.Gen.bcast_S72_S1x72_1 b)) (ix2 p k) = _
  rw [Cert.LibLreluRows.biasRows_apply, Cert.LibLreluRows.biasRows_apply, Cert.LibLreluRows.biasRows_apply,
    Cert.LibLreluRows.biasRows_apply]
  rfl

/-- The host program's second node stage is nodeUpdate of z, h, any one-row mean and variance that agree with the
    host program's vectors column by column, and the scale, shift and bias as one-row matrices. -/
theorem hout_eq (zh h : (⟨S50000x72, .f32⟩ : BufTy).Contents (Elt Ideal))
    (mu va g b bh2 : (⟨S72, .f32⟩ : BufTy).Contents (Elt Ideal)) (Wh2 : (⟨S72x72, .f32⟩ : BufTy).Contents (Elt Ideal))
    (mean var : (⟨S1x72, .f32⟩ : BufTy).Contents (Elt Ideal))
    (hmean : ∀ k : Fin 72, mean (ix2 (0 : Fin 1) k) = mu (ix1 k))
    (hvar : ∀ k : Fin 72, var (ix2 (0 : Fin 1) k) = va (ix1 k)) :
    refHout (F := Ideal) h Wh2 bh2 (refNorm (F := Ideal) zh mu va g b)
      = nodeUpdate zh h mean var (shapeCast S1x72 g shapeCasts_S72_S1x72) (shapeCast S1x72 b shapeCasts_S72_S1x72) Wh2
          (shapeCast S1x72 bh2 shapeCasts_S72_S1x72) := by
  funext i
  obtain ⟨p, q, rfl⟩ : ∃ (p : Fin 50000) (q : Fin 72), i = ix2 p q := ⟨i 0, i 1, eq_ix2 i⟩
  rw [nodeUpdate_apply]
  unfold refHout
  show addf (F := Ideal) (φ := .f32)
        (addf (F := Ideal) (φ := .f32) h (Host.dotGeneral (F := Ideal) (DotDims.plain 50000 72 72) none (refNorm (F := Ideal) zh mu va g b) Wh2))
        (broadcastInDim Cert.ReferenceIdeal.S50000x72 ![0, 1] Cert.ReferenceIdeal.Gen.bcast_S1x72_S50000x72_0_1 (broadcastInDim Cert.ReferenceIdeal.S1x72 ![1] Cert.ReferenceIdeal.Gen.bcast_S72_S1x72_1 bh2)) (ix2 p q) = _
  rw [hostAddRow_apply]
  show h (ix2 p q) + Host.dotGeneral (F := Ideal) (DotDims.plain 50000 72 72) none (refNorm (F := Ideal) zh mu va g b) Wh2 (ix2 p q)
      + bh2 (ix1 q) = _
  rw [hostProduct_apply, Cert.LibLreluRows.rowCast_apply, add_assoc]
  simp only [refNorm_apply, normRelu_apply, hmean, hvar, Cert.LibLreluRows.rowCast_apply]

end Stages

end Cert.BridgeNode

end
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.BridgeEdgeLin.lean ====
/-
  The linear stage of the edge update, as a host program spells it, equals its entry-by-entry description.

  The host program lays the two gathered feature blocks (72 columns each) and two signed-logarithm columns side by
  side into a 146-column array and multiplies by one 146-by-72 weight matrix. Entry (e, c) of the product is a sum over
  the 146 columns; cut at 72, 144 and 145 it is the two feature products against the weight's first two 72-row bands
  plus each signed-logarithm value times its weight row. Only commutativity-free regrouping of a finite sum is used:
  Σ over 146 = (Σ over the first 72 + Σ over the next 72) + the 145th term + the 146th term, in that order.

  A signed-logarithm column is ψ(2·P[e,0] − (0 + Σ_k P[e,k])) of a four-column array P of products (the squared
  coordinate differences, or the coordinate products), the 2 and the 1 inside ψ being single-precision patterns.
-/
import proofs.«128591_j87351044866445_2_alg».proof.Proof.Gen.ReferenceIdeal
import proofs.«128591_j87351044866445_2_alg».proof.Proof.Gen.KernelIdeal
import proofs.«128591_j87351044866445_2_alg».proof.Proof.SpecEdge
import proofs.«128591_j87351044866445_2_alg».proof.Proof.LibDenseRows
import proofs.«128591_j87351044866445_2_alg».proof.Proof.LibKeepdims
import proofs.«128591_j87351044866445_2_alg».proof.Proof.LibRowFold
import proofs.«128591_j87351044866445_2_alg».proof.Proof.LibColumn
import Idealize.ShloMosaic.Lib.Pipeline.Value

noncomputable section

namespace Cert.BridgeEdgeLin

open Idealize.ShloMosaic Idealize.ShloMosaic.ValueIdx Cert.Dense Cert.SpecEdge
open Cert.ReferenceIdeal (S_ S1600000 S1600000x1 S1600000x4 S1600000x72 S1600000x146 S146x72
  dot_S1600000x146_S146x72_S1600000x72_1_0_0_1_n_n)
open Cert.ReferenceIdeal.Gen (bcast_S_S1600000 bcast_S1600000_S1600000x1_0 slices_S1600000x4_S1600000x1_0_0
  shapeCasts_S1600000x1_S1600000 reducesTo_S1600000x4_S1600000_d1 h_S_
  concatenates_S1600000x72_S1600000x72_S1600000x1_S1600000x1_S1600000x146_d1)

/-! ## The coordinate difference -/

theorem xdiff_eq (xi xj : FVec Ideal S1600000x4 .f32) : subf xi xj = Cert.SpecEdge.xdiff xi xj := rfl

/-! ## A sum over 146 columns, cut at 72, 144 and 145 -/

theorem sum_fin146 (f : Fin 146 → EReal) :
    ∑ k : Fin 146, f k
      = ((∑ k : Fin 72, f ⟨k.val, by omega⟩ + ∑ k : Fin 72, f ⟨72 + k.val, by omega⟩) + f ⟨144, by decide⟩)
          + f ⟨145, by decide⟩ := by
  rw [Fin.sum_univ_castSucc, Fin.sum_univ_castSucc]
  congr 1; congr 1
  rw [← Fin.sum_congr' (fun i : Fin 144 => f i.castSucc.castSucc) (show 72 + 72 = 144 from rfl), Fin.sum_univ_add]
  rfl

/-! ## The host product at one entry -/

theorem refDot_apply (X : FVec Ideal S1600000x146 .f32) (W : FVec Ideal S146x72 .f32) (e : Fin 1600000) (c : Fin 72) :
    Host.dotGeneral dot_S1600000x146_S146x72_S1600000x72_1_0_0_1_n_n none X W (ix2 e c)
      = ∑ k : Fin 146, X (ix2 e k) * W (ix2 k c) :=
  hostProduct_apply 1600000 146 72 none X W e c

/-! ## The four-piece concatenation read at a column -/

section Feat

variable (a b : FVec Ideal S1600000x72 .f32) (u v : FVec Ideal S1600000x1 .f32)

/-- The four pieces side by side. -/
abbrev feat : FVec Ideal S1600000x146 .f32 :=
  concatenate S1600000x146 1 [⟨S1600000x72, a⟩, ⟨S1600000x72, b⟩, ⟨S1600000x1, u⟩, ⟨S1600000x1, v⟩]
    concatenates_S1600000x72_S1600000x72_S1600000x1_S1600000x1_S1600000x146_d1

theorem feat_first (e : Fin 1600000) (k : Fin 72) : feat a b u v (ix2 e ⟨k.val, by omega⟩) = a (ix2 e k) :=
  concatenate_apply_piece (1 : Fin S1600000x146.rank) _ _ _ 0 (by show (0 : ℕ) < 4; omega) S1600000x72 a rfl rfl 0 rfl (ix2 e k)
    (fun d hd => by fin_cases d; exacts [rfl, absurd rfl hd]) (Nat.zero_add _)

theorem feat_second (e : Fin 1600000) (k : Fin 72) : feat a b u v (ix2 e ⟨72 + k.val, by omega⟩) = b (ix2 e k) :=
  concatenate_apply_piece (1 : Fin S1600000x146.rank) _ _ _ 1 (by show (1 : ℕ) < 4; omega) S1600000x72 b rfl rfl 72 rfl (ix2 e k)
    (fun d hd => by fin_cases d; exacts [rfl, absurd rfl hd]) rfl

theorem feat_third (e : Fin 1600000) : feat a b u v (ix2 e ⟨144, by decide⟩) = u (ix2 e (0 : Fin 1)) :=
  concatenate_apply_piece (1 : Fin S1600000x146.rank) _ _ _ 2 (by show (2 : ℕ) < 4; omega) S1600000x1 u rfl rfl 144 rfl (ix2 e (0 : Fin 1))
    (fun d hd => by fin_cases d; exacts [rfl, absurd rfl hd]) rfl

theorem feat_fourth (e : Fin 1600000) : feat a b u v (ix2 e ⟨145, by decide⟩) = v (ix2 e (0 : Fin 1)) :=
  concatenate_apply_piece (1 : Fin S1600000x146.rank) _ _ _ 3 (by show (3 : ℕ) < 4; omega) S1600000x1 v rfl rfl 145 rfl (ix2 e (0 : Fin 1))
    (fun d hd => by fin_cases d; exacts [rfl, absurd rfl hd]) rfl

end Feat

/-! ## The weight matrix's row bands -/

section Bands

variable (W : FVec Ideal S146x72 .f32)

theorem band_first (k c : Fin 72) :
    W (ix2 ⟨k.val, by omega⟩ c)
      = extractStridedSlice Cert.KernelIdeal.S72x72 ![0, 0] W Cert.KernelIdeal.Gen.slices_S146x72_S72x72_0_0 (ix2 k c) :=
  (extractStridedSlice_apply ![0, 0] W _ (ix2 k c) (ix2 ⟨k.val, by omega⟩ c)
    (fun d => by fin_cases d <;> exact (Nat.zero_add _).symm)).symm

theorem band_second (k c : Fin 72) :
    W (ix2 ⟨72 + k.val, by omega⟩ c)
      = extractStridedSlice Cert.KernelIdeal.S72x72 ![72, 0] W Cert.KernelIdeal.Gen.slices_S146x72_S72x72_72_0 (ix2 k c) :=
  (extractStridedSlice_apply ![72, 0] W _ (ix2 k c) (ix2 ⟨72 + k.val, by omega⟩ c)
    (fun d => by fin_cases d; exacts [rfl, (Nat.zero_add _).symm])).symm

theorem band_third (c : Fin 72) :
    W (ix2 ⟨144, by decide⟩ c)
      = extractStridedSlice Cert.KernelIdeal.S1x72 ![144, 0] W Cert.KernelIdeal.Gen.slices_S146x72_S1x72_144_0 (ix2 (0 : Fin 1) c) :=
  (extractStridedSlice_apply ![144, 0] W _ (ix2 (0 : Fin 1) c) (ix2 ⟨144, by decide⟩ c)
    (fun d => by fin_cases d; exacts [rfl, (Nat.zero_add _).symm])).symm

theorem band_fourth (c : Fin 72) :
    W (ix2 ⟨145, by decide⟩ c)
      = extractStridedSlice Cert.KernelIdeal.S1x72 ![145, 0] W Cert.KernelIdeal.Gen.slices_S146x72_S1x72_145_0 (ix2 (0 : Fin 1) c) :=
  (extractStridedSlice_apply ![145, 0] W _ (ix2 (0 : Fin 1) c) (ix2 ⟨145, by decide⟩ c)
    (fun d => by fin_cases d; exacts [rfl, (Nat.zero_add _).symm])).symm

end Bands

/-! ## A signed-logarithm column -/

section Psi

variable (P : FVec Ideal S1600000x4 .f32)

/-- 2·P[·,0] − (0 + Σ_k P[·,k]), row by row, as the host program spells it. -/
abbrev minkCol : FVec Ideal S1600000 .f32 :=
  subf (mulf (broadcastInDim S1600000 ![] bcast_S_S1600000 (constant (F := Ideal) S_ .f32 0x40000000#32))
      (shapeCast S1600000 (extractStridedSlice S1600000x1 ![0, 0] P slices_S1600000x4_S1600000x1_0_0) shapeCasts_S1600000x1_S1600000))
    (Host.reduceAdd P (constant (F := Ideal) S_ .f32 0x00000000#32) reducesTo_S1600000x4_S1600000_d1 h_S_)

theorem minkCol_apply (e : Fin 1600000) : minkCol P (ix1 e) = mink fun k => P (ix2 e k) := by
  show Ideal.ofBits .f32 0x40000000#32
        * shapeCast S1600000 (extractStridedSlice S1600000x1 ![0, 0] P slices_S1600000x4_S1600000x1_0_0) shapeCasts_S1600000x1_S1600000 (ix1 e)
      - Host.reduceAdd P (constant (F := Ideal) S_ .f32 0x00000000#32) reducesTo_S1600000x4_S1600000_d1 h_S_ (ix1 e)
    = Ideal.ofBits .f32 0x40000000#32 * P (ix2 e (0 : Fin 4)) - ∑ k : Fin 4, P (ix2 e k)
  rw [Cert.LibColumn.shapeCast_a1_a_apply,
    extractStridedSlice_apply ![0, 0] P _ (ix2 e (0 : Fin 1)) (ix2 e (0 : Fin 4)) (fun d => by fin_cases d <;> exact (Nat.zero_add _).symm),
    Cert.Lib.RowFold.hostReduceAdd_row P _ _ (by decide) h_S_ e]
  show _ - (Ideal.ofBits .f32 0x00000000#32 + _) = _
  rw [Ideal.ofBits_zero_f32, zero_add]

/-- The signed logarithm of that, row by row, as the host program spells it. -/
abbrev psiCol : FVec Ideal S1600000 .f32 :=
  mulf (Host.sign (minkCol P))
    (Host.log (addf (Host.absf (minkCol P)) (broadcastInDim S1600000 ![] bcast_S_S1600000 (constant (F := Ideal) S_ .f32 0x3F800000#32))))

theorem psiCol_apply (e : Fin 1600000) : psiCol P (ix1 e) = psi (mink fun k => P (ix2 e k)) := by
  rw [← minkCol_apply P e]; rfl

/-- The column laid out as an [E, 1] array, at row e. -/
theorem psiSpread_apply (e : Fin 1600000) :
    broadcastInDim S1600000x1 ![0] bcast_S1600000_S1600000x1_0 (psiCol P) (ix2 e (0 : Fin 1)) = psi (mink fun k => P (ix2 e k)) := by
  rw [Cert.Lib.Keepdims.broadcastInDim_a_a1_apply, psiCol_apply]

end Psi

/-! ## The linear stage -/

/-- The host program's feat · We1 — the product of the four-piece concatenation (the two gathered feature blocks and
    the two signed-logarithm columns) with the whole weight matrix — is the linear stage of the two feature blocks
    against the weight's two 72-row bands, plus the two signed logarithms times the weight's last two rows. -/
theorem z_eq (hi hj : FVec Ideal S1600000x72 .f32) (xi xj : FVec Ideal S1600000x4 .f32) (We1 : FVec Ideal S146x72 .f32) :
    (Host.dotGeneral dot_S1600000x146_S146x72_S1600000x72_1_0_0_1_n_n none (concatenate S1600000x146 1 [⟨S1600000x72, hi⟩, ⟨S1600000x72, hj⟩, ⟨S1600000x1, (broadcastInDim S1600000x1 ![0] bcast_S1600000_S1600000x1_0 (mulf (Host.sign (subf (mulf (broadcastInDim S1600000 ![] bcast_S_S1600000 (constant (F := Ideal) S_ .f32 0x40000000#32)) (shapeCast S1600000 (extractStridedSlice S1600000x1 ![0, 0] (mulf (subf xi xj) (subf xi xj)) slices_S1600000x4_S1600000x1_0_0) shapeCasts_S1600000x1_S1600000)) (Host.reduceAdd (mulf (subf xi xj) (subf xi xj)) (constant (F := Ideal) S_ .f32 0x00000000#32) reducesTo_S1600000x4_S1600000_d1 h_S_))) (Host.log (addf (Host.absf (subf (mulf (broadcastInDim S1600000 ![] bcast_S_S1600000 (constant (F := Ideal) S_ .f32 0x40000000#32)) (shapeCast S1600000 (extractStridedSlice S1600000x1 ![0, 0] (mulf (subf xi xj) (subf xi xj)) slices_S1600000x4_S1600000x1_0_0) shapeCasts_S1600000x1_S1600000)) (Host.reduceAdd (mulf (subf xi xj) (subf xi xj)) (constant (F := Ideal) S_ .f32 0x00000000#32) reducesTo_S1600000x4_S1600000_d1 h_S_))) (broadcastInDim S1600000 ![] bcast_S_S1600000 (constant (F := Ideal) S_ .f32 0x3F800000#32))))))⟩, ⟨S1600000x1, (broadcastInDim S1600000x1 ![0] bcast_S1600000_S1600000x1_0 (mulf (Host.sign (subf (mulf (broadcastInDim S1600000 ![] bcast_S_S1600000 (constant (F := Ideal) S_ .f32 0x40000000#32)) (shapeCast S1600000 (extractStridedSlice S1600000x1 ![0, 0] (mulf xi xj) slices_S1600000x4_S1600000x1_0_0) shapeCasts_S1600000x1_S1600000)) (Host.reduceAdd (mulf xi xj) (constant (F := Ideal) S_ .f32 0x00000000#32) reducesTo_S1600000x4_S1600000_d1 h_S_))) (Host.log (addf (Host.absf (subf (mulf (broadcastInDim S1600000 ![] bcast_S_S1600000 (constant (F := Ideal) S_ .f32 0x40000000#32)) (shapeCast S1600000 (extractStridedSlice S1600000x1 ![0, 0] (mulf xi xj) slices_S1600000x4_S1600000x1_0_0) shapeCasts_S1600000x1_S1600000)) (Host.reduceAdd (mulf xi xj) (constant (F := Ideal) S_ .f32 0x00000000#32) reducesTo_S1600000x4_S1600000_d1 h_S_))) (broadcastInDim S1600000 ![] bcast_S_S1600000 (constant (F := Ideal) S_ .f32 0x3F800000#32))))))⟩] concatenates_S1600000x72_S1600000x72_S1600000x1_S1600000x1_S1600000x146_d1) We1)
      = Cert.SpecEdge.edgeLin hi hj xi xj
        (extractStridedSlice Cert.KernelIdeal.S72x72 ![0, 0] We1 Cert.KernelIdeal.Gen.slices_S146x72_S72x72_0_0)
        (extractStridedSlice Cert.KernelIdeal.S72x72 ![72, 0] We1 Cert.KernelIdeal.Gen.slices_S146x72_S72x72_72_0)
        (extractStridedSlice Cert.KernelIdeal.S1x72 ![144, 0] We1 Cert.KernelIdeal.Gen.slices_S146x72_S1x72_144_0)
        (extractStridedSlice Cert.KernelIdeal.S1x72 ![145, 0] We1 Cert.KernelIdeal.Gen.slices_S146x72_S1x72_145_0) := by
  funext i
  obtain ⟨e, c, rfl⟩ : ∃ (e : Fin 1600000) (c : Fin 72), i = ix2 e c := ⟨_, _, eq_ix2 i⟩
  show Host.dotGeneral dot_S1600000x146_S146x72_S1600000x72_1_0_0_1_n_n none
      (feat hi hj (broadcastInDim S1600000x1 ![0] bcast_S1600000_S1600000x1_0 (psiCol (mulf (subf xi xj) (subf xi xj))))
        (broadcastInDim S1600000x1 ![0] bcast_S1600000_S1600000x1_0 (psiCol (mulf xi xj)))) We1 (ix2 e c) = _
  rw [refDot_apply, sum_fin146, edgeLin_apply]
  congr 1; congr 1; congr 1
  · exact Finset.sum_congr rfl fun k _ => by rw [feat_first, band_first We1]
  · exact Finset.sum_congr rfl fun k _ => by rw [feat_second, band_second We1]
  · rw [feat_third, band_third We1, psiSpread_apply]; rfl
  · rw [feat_fourth, band_fourth We1, psiSpread_apply]; rfl

end Cert.BridgeEdgeLin

end
-- ==== Proof.BridgeEdgeMlp.lean ====
/-
  The multilayer stage of the edge update, as a host program spells it, equals its entry-by-entry description.

  The host program normalises z column by column with a mean vector and a variance vector (each laid along every row
  by two broadcasts), scales and shifts by two more vectors, rectifies, multiplies by a 72-by-72 matrix, adds a bias
  vector along the rows and rectifies again (the hidden features e2); the gate is 1 / (1 + exp(−t)) of
  t = (e2·Wm)[e, 0] + bm[0], the ones being single-precision patterns, which is the logistic function of t; the message
  is e2 times its row's gate. The translation runs the message through one more rectified affine layer and a 72-by-1
  product, multiplies the coordinate differences by the result row by row, and clips to [−100, 100].

  The description takes the statistics and the affine vectors as one-row matrices: a vector cast to a one-row matrix
  reads at (0, k) as the vector at k, and the two statistics rows are assumed to hold the vectors' entries.
-/
import proofs.«128591_j87351044866445_2_alg».proof.Proof.Gen.ReferenceIdeal
import proofs.«128591_j87351044866445_2_alg».proof.Proof.Gen.KernelIdeal
import proofs.«128591_j87351044866445_2_alg».proof.Proof.SpecEdge
import proofs.«128591_j87351044866445_2_alg».proof.Proof.LibDenseRows
import proofs.«128591_j87351044866445_2_alg».proof.Proof.LibKeepdims
import proofs.«128591_j87351044866445_2_alg».proof.Proof.LibLreluRows
import Idealize.ShloMosaic.Lib.IdealHost
import Idealize.ShloMosaic.Lib.Pipeline.Value

noncomputable section

namespace Cert.BridgeEdgeMlp

open Idealize.ShloMosaic Idealize.ShloMosaic.ValueIdx Cert.Dense Cert.SpecEdge
open Cert.ReferenceIdeal (S_ S1 S72 S1x1 S1x72 S72x1 S72x72 S1600000x1 S1600000x4 S1600000x72
  dot_S1600000x72_S72x72_S1600000x72_1_0_0_1_n_n dot_S1600000x72_S72x1_S1600000x1_1_0_0_1_n_n)
open Cert.ReferenceIdeal.Gen (bcast_S1x72_S1600000x72_0_1 bcast_S72_S1x72_1 bcast_S_S72 bcast_S_S1600000x72
  bcast_S_S1600000x1 bcast_S1x1_S1600000x1_0_1 bcast_S1_S1x1_1 bcast_S1600000x1_S1600000x72_0_1 bcast_S_S1600000x4
  bcast_S1600000x1_S1600000x4_0_1)

/-! ## The host program's pieces -/

/-- A vector laid along every row of an [E, 72] array. -/
abbrev rows (v : FVec Ideal S72 .f32) : FVec Ideal S1600000x72 .f32 :=
  broadcastInDim S1600000x72 ![0, 1] bcast_S1x72_S1600000x72_0_1 (broadcastInDim S1x72 ![1] bcast_S72_S1x72_1 v)

theorem rows_apply (v : FVec Ideal S72 .f32) (e : Fin 1600000) (c : Fin 72) : rows v (ix2 e c) = v (ix1 c) :=
  Cert.LibLreluRows.biasRows_apply _ _ v e c

/-- The [E, 72] array of zeros. -/
abbrev zeros : FVec Ideal S1600000x72 .f32 :=
  broadcastInDim S1600000x72 ![] bcast_S_S1600000x72 (constant (F := Ideal) S_ .f32 0x00000000#32)

/-- The normalised, scaled, shifted and rectified z. -/
abbrev refE1 (z : FVec Ideal S1600000x72 .f32) (mu va g b : FVec Ideal S72 .f32) : FVec Ideal S1600000x72 .f32 :=
  maximumf (addf (mulf (mulf (subf z (rows mu))
      (rows (Host.rsqrt (addf va (broadcastInDim S72 ![] bcast_S_S72 (constant (F := Ideal) S_ .f32 0x3727C5AC#32))))))
    (rows g)) (rows b)) zeros

/-- A rectified affine layer: x·W plus a bias vector along the rows, rectified. -/
abbrev refLayer (x : FVec Ideal S1600000x72 .f32) (W : FVec Ideal S72x72 .f32) (bias : FVec Ideal S72 .f32) :
    FVec Ideal S1600000x72 .f32 :=
  maximumf (addf (Host.dotGeneral dot_S1600000x72_S72x72_S1600000x72_1_0_0_1_n_n none x W) (rows bias)) zeros

/-- The gate column 1 / (1 + exp(−(e2·Wm + bm))). -/
abbrev refGate (e2 : FVec Ideal S1600000x72 .f32) (Wm : FVec Ideal S72x1 .f32) (bm : FVec Ideal S1 .f32) :
    FVec Ideal S1600000x1 .f32 :=
  Host.divf (broadcastInDim S1600000x1 ![] bcast_S_S1600000x1 (constant (F := Ideal) S_ .f32 0x3F800000#32))
    (addf (broadcastInDim S1600000x1 ![] bcast_S_S1600000x1 (constant (F := Ideal) S_ .f32 0x3F800000#32))
      (Host.exp (Host.negf (addf (Host.dotGeneral dot_S1600000x72_S72x1_S1600000x1_1_0_0_1_n_n none e2 Wm)
        (broadcastInDim S1600000x1 ![0, 1] bcast_S1x1_S1600000x1_0_1 (broadcastInDim S1x1 ![1] bcast_S1_S1x1_1 bm))))))

/-- The gated message. -/
abbrev refMsg (e2 : FVec Ideal S1600000x72 .f32) (Wm : FVec Ideal S72x1 .f32) (bm : FVec Ideal S1 .f32) :
    FVec Ideal S1600000x72 .f32 :=
  mulf e2 (broadcastInDim S1600000x72 ![0, 1] bcast_S1600000x1_S1600000x72_0_1 (refGate e2 Wm bm))

/-- The clipped product of the coordinate differences with a column. -/
abbrev refClip (xd : FVec Ideal S1600000x4 .f32) (col : FVec Ideal S1600000x1 .f32) : FVec Ideal S1600000x4 .f32 :=
  minimumf (broadcastInDim S1600000x4 ![] bcast_S_S1600000x4 (id (constant (F := Ideal) S_ .f32 0x42C80000#32)))
    (maximumf (broadcastInDim S1600000x4 ![] bcast_S_S1600000x4 (id (constant (F := Ideal) S_ .f32 0xC2C80000#32)))
      (mulf xd (broadcastInDim S1600000x4 ![0, 1] bcast_S1600000x1_S1600000x4_0_1 col)))

/-! ## Each piece, entry by entry -/

theorem dot72_apply (x : FVec Ideal S1600000x72 .f32) (W : FVec Ideal S72x72 .f32) (e : Fin 1600000) (c : Fin 72) :
    Host.dotGeneral dot_S1600000x72_S72x72_S1600000x72_1_0_0_1_n_n none x W (ix2 e c)
      = ∑ k : Fin 72, x (ix2 e k) * W (ix2 k c) :=
  hostProduct_apply 1600000 72 72 none x W e c

theorem dot1_apply (x : FVec Ideal S1600000x72 .f32) (W : FVec Ideal S72x1 .f32) (e : Fin 1600000) (c : Fin 1) :
    Host.dotGeneral dot_S1600000x72_S72x1_S1600000x1_1_0_0_1_n_n none x W (ix2 e c)
      = ∑ k : Fin 72, x (ix2 e k) * W (ix2 k c) :=
  hostProduct_apply 1600000 72 1 none x W e c

/-- The normalisation with the statistics as vectors is the one with them as one-row matrices. -/
theorem e1_eq (z : FVec Ideal S1600000x72 .f32) (mu va g b : FVec Ideal S72 .f32) (mean var : FVec Ideal S1x72 .f32)
    (hmean : ∀ k : Fin 72, mean (ix2 (0 : Fin 1) k) = mu (ix1 k)) (hvar : ∀ k : Fin 72, var (ix2 (0 : Fin 1) k) = va (ix1 k)) :
    refE1 z mu va g b = relu (normed z mean var (shapeCast Cert.KernelIdeal.S1x72 g Cert.KernelIdeal.Gen.shapeCasts_S72_S1x72) (shapeCast Cert.KernelIdeal.S1x72 b Cert.KernelIdeal.Gen.shapeCasts_S72_S1x72)) := by
  funext i
  obtain ⟨e, c, rfl⟩ : ∃ (e : Fin 1600000) (c : Fin 72), i = ix2 e c := ⟨_, _, eq_ix2 i⟩
  show max ((z (ix2 e c) - rows mu (ix2 e c))
        * rows (Host.rsqrt (addf va (broadcastInDim S72 ![] bcast_S_S72 (constant (F := Ideal) S_ .f32 0x3727C5AC#32)))) (ix2 e c)
        * rows g (ix2 e c) + rows b (ix2 e c)) (Ideal.ofBits .f32 0x00000000#32) = _
  rw [rows_apply, rows_apply, rows_apply, rows_apply, Ideal.ofBits_zero_f32, relu_apply, normed_apply, hmean c, hvar c,
    Cert.LibLreluRows.rowCast_apply _ g, Cert.LibLreluRows.rowCast_apply _ b]
  rfl

/-- A rectified affine layer is the matrix product, a one-row bias along the rows, the rectifier. -/
theorem layer_eq (x : FVec Ideal S1600000x72 .f32) (W : FVec Ideal S72x72 .f32) (bias : FVec Ideal S72 .f32) :
    refLayer x W bias = actRow (mm x W) (shapeCast Cert.KernelIdeal.S1x72 bias Cert.KernelIdeal.Gen.shapeCasts_S72_S1x72) := by
  funext i
  obtain ⟨e, c, rfl⟩ : ∃ (e : Fin 1600000) (c : Fin 72), i = ix2 e c := ⟨_, _, eq_ix2 i⟩
  show max (Host.dotGeneral dot_S1600000x72_S72x72_S1600000x72_1_0_0_1_n_n none x W (ix2 e c) + rows bias (ix2 e c))
      (Ideal.ofBits .f32 0x00000000#32) = _
  rw [dot72_apply, rows_apply, Ideal.ofBits_zero_f32, actRow_apply, mm_apply, Cert.LibLreluRows.rowCast_apply _ bias]

/-- The gate is the logistic function of the row's (e2·Wm + bm), and the message is e2 times it. -/
theorem msg_eq (e2 : FVec Ideal S1600000x72 .f32) (Wm : FVec Ideal S72x1 .f32) (bm : FVec Ideal S1 .f32) :
    refMsg e2 Wm bm = message e2 Wm (shapeCast Cert.KernelIdeal.S1x1 bm Cert.KernelIdeal.Gen.shapeCasts_S1_S1x1) := by
  funext i
  obtain ⟨e, c, rfl⟩ : ∃ (e : Fin 1600000) (c : Fin 72), i = ix2 e c := ⟨_, _, eq_ix2 i⟩
  show e2 (ix2 e c) * broadcastInDim S1600000x72 ![0, 1] bcast_S1600000x1_S1600000x72_0_1 (refGate e2 Wm bm) (ix2 e c) = _
  rw [Cert.Lib.Keepdims.broadcastInDim_a1_ab_apply, message_apply]
  congr 1
  show Ideal.div (Ideal.ofBits .f32 0x3F800000#32) (Ideal.ofBits .f32 0x3F800000#32
      + Ideal.exp (-(Host.dotGeneral dot_S1600000x72_S72x1_S1600000x1_1_0_0_1_n_n none e2 Wm (ix2 e (0 : Fin 1))
          + broadcastInDim S1600000x1 ![0, 1] bcast_S1x1_S1600000x1_0_1 (broadcastInDim S1x1 ![1] bcast_S1_S1x1_1 bm) (ix2 e (0 : Fin 1)))))
    = Ideal.logistic (mm e2 Wm (ix2 e (0 : Fin 1)) + (shapeCast Cert.KernelIdeal.S1x1 bm Cert.KernelIdeal.Gen.shapeCasts_S1_S1x1) (ix2 (0 : Fin 1) (0 : Fin 1)))
  rw [Ideal.ofBits_one_f32, dot1_apply, Cert.LibLreluRows.biasRows_apply, Cert.LibLreluRows.rowCast_apply _ bm, mm_apply]
  rfl

/-- The clipped product, entry by entry. -/
theorem clip_eq (xd : FVec Ideal S1600000x4 .f32) (h1 : FVec Ideal S1600000x72 .f32) (Wx2 : FVec Ideal S72x1 .f32) :
    refClip xd (Host.dotGeneral dot_S1600000x72_S72x1_S1600000x1_1_0_0_1_n_n none h1 Wx2)
      = fun i => min (Ideal.ofBits .f32 0x42C80000#32)
          (max (Ideal.ofBits .f32 0xC2C80000#32) (xd i * mm h1 Wx2 (ix2 (rowOf i) (0 : Fin 1)))) := by
  funext i
  obtain ⟨e, k, rfl⟩ : ∃ (e : Fin 1600000) (k : Fin 4), i = ix2 e k := ⟨_, _, eq_ix2 i⟩
  show min (Ideal.ofBits .f32 0x42C80000#32) (max (Ideal.ofBits .f32 0xC2C80000#32)
      (xd (ix2 e k) * broadcastInDim S1600000x4 ![0, 1] bcast_S1600000x1_S1600000x4_0_1
        (Host.dotGeneral dot_S1600000x72_S72x1_S1600000x1_1_0_0_1_n_n none h1 Wx2) (ix2 e k))) = _
  rw [Cert.Lib.Keepdims.broadcastInDim_a1_ab_apply, dot1_apply]
  rfl

/-! ## The multilayer stage -/

/-- The host program's message is the description's. -/
theorem m_eq (z : FVec Ideal S1600000x72 .f32) (mu va g b be2 : FVec Ideal S72 .f32) (We2 : FVec Ideal S72x72 .f32)
    (Wm : FVec Ideal S72x1 .f32) (bm : FVec Ideal S1 .f32) (mean var : FVec Ideal S1x72 .f32)
    (hmean : ∀ k : Fin 72, mean (ix2 (0 : Fin 1) k) = mu (ix1 k)) (hvar : ∀ k : Fin 72, var (ix2 (0 : Fin 1) k) = va (ix1 k)) :
    (mulf (maximumf (addf (Host.dotGeneral dot_S1600000x72_S72x72_S1600000x72_1_0_0_1_n_n none (maximumf (addf (mulf (mulf (subf z (broadcastInDim S1600000x72 ![0, 1] bcast_S1x72_S1600000x72_0_1 (broadcastInDim S1x72 ![1] bcast_S72_S1x72_1 mu))) (broadcastInDim S1600000x72 ![0, 1] bcast_S1x72_S1600000x72_0_1 (broadcastInDim S1x72 ![1] bcast_S72_S1x72_1 (Host.rsqrt (addf va (broadcastInDim S72 ![] bcast_S_S72 (constant (F := Ideal) S_ .f32 0x3727C5AC#32))))))) (broadcastInDim S1600000x72 ![0, 1] bcast_S1x72_S1600000x72_0_1 (broadcastInDim S1x72 ![1] bcast_S72_S1x72_1 g))) (broadcastInDim S1600000x72 ![0, 1] bcast_S1x72_S1600000x72_0_1 (broadcastInDim S1x72 ![1] bcast_S72_S1x72_1 b))) (broadcastInDim S1600000x72 ![] bcast_S_S1600000x72 (constant (F := Ideal) S_ .f32 0x00000000#32))) We2) (broadcastInDim S1600000x72 ![0, 1] bcast_S1x72_S1600000x72_0_1 (broadcastInDim S1x72 ![1] bcast_S72_S1x72_1 be2))) (broadcastInDim S1600000x72 ![] bcast_S_S1600000x72 (constant (F := Ideal) S_ .f32 0x00000000#32))) (broadcastInDim S1600000x72 ![0, 1] bcast_S1600000x1_S1600000x72_0_1 (Host.divf (broadcastInDim S1600000x1 ![] bcast_S_S1600000x1 (constant (F := Ideal) S_ .f32 0x3F800000#32)) (addf (broadcastInDim S1600000x1 ![] bcast_S_S1600000x1 (constant (F := Ideal) S_ .f32 0x3F800000#32)) (Host.exp (Host.negf (addf (Host.dotGeneral dot_S1600000x72_S72x1_S1600000x1_1_0_0_1_n_n none (maximumf (addf (Host.dotGeneral dot_S1600000x72_S72x72_S1600000x72_1_0_0_1_n_n none (maximumf (addf (mulf (mulf (subf z (broadcastInDim S1600000x72 ![0, 1] bcast_S1x72_S1600000x72_0_1 (broadcastInDim S1x72 ![1] bcast_S72_S1x72_1 mu))) (broadcastInDim S1600000x72 ![0, 1] bcast_S1x72_S1600000x72_0_1 (broadcastInDim S1x72 ![1] bcast_S72_S1x72_1 (Host.rsqrt (addf va (broadcastInDim S72 ![] bcast_S_S72 (constant (F := Ideal) S_ .f32 0x3727C5AC#32))))))) (broadcastInDim S1600000x72 ![0, 1] bcast_S1x72_S1600000x72_0_1 (broadcastInDim S1x72 ![1] bcast_S72_S1x72_1 g))) (broadcastInDim S1600000x72 ![0, 1] bcast_S1x72_S1600000x72_0_1 (broadcastInDim S1x72 ![1] bcast_S72_S1x72_1 b))) (broadcastInDim S1600000x72 ![] bcast_S_S1600000x72 (constant (F := Ideal) S_ .f32 0x00000000#32))) We2) (broadcastInDim S1600000x72 ![0, 1] bcast_S1x72_S1600000x72_0_1 (broadcastInDim S1x72 ![1] bcast_S72_S1x72_1 be2))) (broadcastInDim S1600000x72 ![] bcast_S_S1600000x72 (constant (F := Ideal) S_ .f32 0x00000000#32))) Wm) (broadcastInDim S1600000x1 ![0, 1] bcast_S1x1_S1600000x1_0_1 (broadcastInDim S1x1 ![1] bcast_S1_S1x1_1 bm)))))))))
      = Cert.SpecEdge.edgeMsg z mean var (shapeCast Cert.KernelIdeal.S1x72 g Cert.KernelIdeal.Gen.shapeCasts_S72_S1x72) (shapeCast Cert.KernelIdeal.S1x72 b Cert.KernelIdeal.Gen.shapeCasts_S72_S1x72) We2 (shapeCast Cert.KernelIdeal.S1x72 be2 Cert.KernelIdeal.Gen.shapeCasts_S72_S1x72) Wm (shapeCast Cert.KernelIdeal.S1x1 bm Cert.KernelIdeal.Gen.shapeCasts_S1_S1x1) := by
  show refMsg (refLayer (refE1 z mu va g b) We2 be2) Wm bm = _
  rw [e1_eq z mu va g b mean var hmean hvar, layer_eq, msg_eq]
  rfl

/-- The host program's clipped translation is the description's. -/
theorem trans_eq (z : FVec Ideal S1600000x72 .f32) (mu va g b be2 : FVec Ideal S72 .f32) (We2 : FVec Ideal S72x72 .f32)
    (Wm : FVec Ideal S72x1 .f32) (bm : FVec Ideal S1 .f32) (mean var : FVec Ideal S1x72 .f32)
    (hmean : ∀ k : Fin 72, mean (ix2 (0 : Fin 1) k) = mu (ix1 k)) (hvar : ∀ k : Fin 72, var (ix2 (0 : Fin 1) k) = va (ix1 k))
    (xd : FVec Ideal S1600000x4 .f32) (Wx1 : FVec Ideal S72x72 .f32) (bx1 : FVec Ideal S72 .f32) (Wx2 : FVec Ideal S72x1 .f32) :
    (minimumf (broadcastInDim S1600000x4 ![] bcast_S_S1600000x4 (id (constant (F := Ideal) S_ .f32 0x42C80000#32))) (maximumf (broadcastInDim S1600000x4 ![] bcast_S_S1600000x4 (id (constant (F := Ideal) S_ .f32 0xC2C80000#32))) (mulf xd (broadcastInDim S1600000x4 ![0, 1] bcast_S1600000x1_S1600000x4_0_1 (Host.dotGeneral dot_S1600000x72_S72x1_S1600000x1_1_0_0_1_n_n none (maximumf (addf (Host.dotGeneral dot_S1600000x72_S72x72_S1600000x72_1_0_0_1_n_n none (mulf (maximumf (addf (Host.dotGeneral dot_S1600000x72_S72x72_S1600000x72_1_0_0_1_n_n none (maximumf (addf (mulf (mulf (subf z (broadcastInDim S1600000x72 ![0, 1] bcast_S1x72_S1600000x72_0_1 (broadcastInDim S1x72 ![1] bcast_S72_S1x72_1 mu))) (broadcastInDim S1600000x72 ![0, 1] bcast_S1x72_S1600000x72_0_1 (broadcastInDim S1x72 ![1] bcast_S72_S1x72_1 (Host.rsqrt (addf va (broadcastInDim S72 ![] bcast_S_S72 (constant (F := Ideal) S_ .f32 0x3727C5AC#32))))))) (broadcastInDim S1600000x72 ![0, 1] bcast_S1x72_S1600000x72_0_1 (broadcastInDim S1x72 ![1] bcast_S72_S1x72_1 g))) (broadcastInDim S1600000x72 ![0, 1] bcast_S1x72_S1600000x72_0_1 (broadcastInDim S1x72 ![1] bcast_S72_S1x72_1 b))) (broadcastInDim S1600000x72 ![] bcast_S_S1600000x72 (constant (F := Ideal) S_ .f32 0x00000000#32))) We2) (broadcastInDim S1600000x72 ![0, 1] bcast_S1x72_S1600000x72_0_1 (broadcastInDim S1x72 ![1] bcast_S72_S1x72_1 be2))) (broadcastInDim S1600000x72 ![] bcast_S_S1600000x72 (constant (F := Ideal) S_ .f32 0x00000000#32))) (broadcastInDim S1600000x72 ![0, 1] bcast_S1600000x1_S1600000x72_0_1 (Host.divf (broadcastInDim S1600000x1 ![] bcast_S_S1600000x1 (constant (F := Ideal) S_ .f32 0x3F800000#32)) (addf (broadcastInDim S1600000x1 ![] bcast_S_S1600000x1 (constant (F := Ideal) S_ .f32 0x3F800000#32)) (Host.exp (Host.negf (addf (Host.dotGeneral dot_S1600000x72_S72x1_S1600000x1_1_0_0_1_n_n none (maximumf (addf (Host.dotGeneral dot_S1600000x72_S72x72_S1600000x72_1_0_0_1_n_n none (maximumf (addf (mulf (mulf (subf z (broadcastInDim S1600000x72 ![0, 1] bcast_S1x72_S1600000x72_0_1 (broadcastInDim S1x72 ![1] bcast_S72_S1x72_1 mu))) (broadcastInDim S1600000x72 ![0, 1] bcast_S1x72_S1600000x72_0_1 (broadcastInDim S1x72 ![1] bcast_S72_S1x72_1 (Host.rsqrt (addf va (broadcastInDim S72 ![] bcast_S_S72 (constant (F := Ideal) S_ .f32 0x3727C5AC#32))))))) (broadcastInDim S1600000x72 ![0, 1] bcast_S1x72_S1600000x72_0_1 (broadcastInDim S1x72 ![1] bcast_S72_S1x72_1 g))) (broadcastInDim S1600000x72 ![0, 1] bcast_S1x72_S1600000x72_0_1 (broadcastInDim S1x72 ![1] bcast_S72_S1x72_1 b))) (broadcastInDim S1600000x72 ![] bcast_S_S1600000x72 (constant (F := Ideal) S_ .f32 0x00000000#32))) We2) (broadcastInDim S1600000x72 ![0, 1] bcast_S1x72_S1600000x72_0_1 (broadcastInDim S1x72 ![1] bcast_S72_S1x72_1 be2))) (broadcastInDim S1600000x72 ![] bcast_S_S1600000x72 (constant (F := Ideal) S_ .f32 0x00000000#32))) Wm) (broadcastInDim S1600000x1 ![0, 1] bcast_S1x1_S1600000x1_0_1 (broadcastInDim S1x1 ![1] bcast_S1_S1x1_1 bm))))))))) Wx1) (broadcastInDim S1600000x72 ![0, 1] bcast_S1x72_S1600000x72_0_1 (broadcastInDim S1x72 ![1] bcast_S72_S1x72_1 bx1))) (broadcastInDim S1600000x72 ![] bcast_S_S1600000x72 (constant (F := Ideal) S_ .f32 0x00000000#32))) Wx2)))))
      = Cert.SpecEdge.edgeTrans z xd mean var (shapeCast Cert.KernelIdeal.S1x72 g Cert.KernelIdeal.Gen.shapeCasts_S72_S1x72) (shapeCast Cert.KernelIdeal.S1x72 b Cert.KernelIdeal.Gen.shapeCasts_S72_S1x72) We2 (shapeCast Cert.KernelIdeal.S1x72 be2 Cert.KernelIdeal.Gen.shapeCasts_S72_S1x72) Wm (shapeCast Cert.KernelIdeal.S1x1 bm Cert.KernelIdeal.Gen.shapeCasts_S1_S1x1) Wx1 (shapeCast Cert.KernelIdeal.S1x72 bx1 Cert.KernelIdeal.Gen.shapeCasts_S72_S1x72) Wx2 := by
  show refClip xd (Host.dotGeneral dot_S1600000x72_S72x1_S1600000x1_1_0_0_1_n_n none
      (refLayer (refMsg (refLayer (refE1 z mu va g b) We2 be2) Wm bm) Wx1 bx1) Wx2) = _
  rw [clip_eq, e1_eq z mu va g b mean var hmean hvar, layer_eq, msg_eq, layer_eq]
  rfl

end Cert.BridgeEdgeMlp

end
-- ==== Proof.RefValue.lean ====
/-
  The reference program's three results as the SAME functions of the twenty argument arrays that the kernel's results
  are.  The reference gathers the end points' rows, forms the Minkowski features, concatenates, and applies each dense
  layer as one matrix product; stage by stage its buffers are the kernel's arrays: the index rows and the gathers are the
  same operations, the dense stages agree entry by entry (the bridge modules), the segment sums are the same sums of
  equal summands.
-/
import proofs.«128591_j87351044866445_2_alg».proof.Proof.RefStages
import proofs.«128591_j87351044866445_2_alg».proof.Proof.KernelValue
import proofs.«128591_j87351044866445_2_alg».proof.Proof.BridgeNode
import proofs.«128591_j87351044866445_2_alg».proof.Proof.BridgeEdgeLin
import proofs.«128591_j87351044866445_2_alg».proof.Proof.BridgeEdgeMlp

set_option maxRecDepth 16384

noncomputable section

namespace Cert.ReferenceIdeal.Whole

open Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo Idealize.ShloMosaic.ValueIdx
open Cert.KernelIdeal.Whole (Args zK xdK mK trK xoutK zhK houtK)

variable (W : Valuation τ sig (Elt Ideal))

/-- The argument arrays a valuation of the reference's buffers holds. -/
def argsOfVal : Args where
  h := W (Proc.devRef .tc main_arg0)
  x := W (Proc.devRef .tc main_arg1)
  attr := W (Proc.devRef .tc main_arg2)
  edges := W (Proc.devRef .tc main_arg3)
  We1 := W (Proc.devRef .tc main_arg4)
  ge := W (Proc.devRef .tc main_arg5)
  be := W (Proc.devRef .tc main_arg6)
  We2 := W (Proc.devRef .tc main_arg7)
  be2 := W (Proc.devRef .tc main_arg8)
  Wh1 := W (Proc.devRef .tc main_arg9)
  bh1 := W (Proc.devRef .tc main_arg10)
  gh := W (Proc.devRef .tc main_arg11)
  bhh := W (Proc.devRef .tc main_arg12)
  Wh2 := W (Proc.devRef .tc main_arg13)
  bh2 := W (Proc.devRef .tc main_arg14)
  Wx1 := W (Proc.devRef .tc main_arg15)
  bx1 := W (Proc.devRef .tc main_arg16)
  Wx2 := W (Proc.devRef .tc main_arg17)
  Wm := W (Proc.devRef .tc main_arg18)
  bm := W (Proc.devRef .tc main_arg19)

/-! ## The index rows and the gathered rows: the same operations -/

theorem row0 : after ops W (Proc.devRef .tc main_v1) = Cert.KernelIdeal.Fold.edgeRow0 (argsOfVal W).edges := (eq_main_v1 W).trans rfl
theorem row1 : after ops W (Proc.devRef .tc main_v3) = Cert.KernelIdeal.Fold.edgeRow1 (argsOfVal W).edges := (eq_main_v3 W).trans rfl

theorem xi : after ops W (Proc.devRef .tc main_v10) = Cert.KernelIdeal.Fold.rows4 (argsOfVal W).x (Cert.KernelIdeal.Fold.edgeRow0 (argsOfVal W).edges) := by
  rw [eq_main_v10 W, row0 W]; rfl
theorem xj : after ops W (Proc.devRef .tc main_v17) = Cert.KernelIdeal.Fold.rows4 (argsOfVal W).x (Cert.KernelIdeal.Fold.edgeRow1 (argsOfVal W).edges) := by
  rw [eq_main_v17 W, row1 W]; rfl
theorem xi' : after ops W (Proc.devRef .tc main_v39) = Cert.KernelIdeal.Fold.rows4 (argsOfVal W).x (Cert.KernelIdeal.Fold.edgeRow0 (argsOfVal W).edges) := by
  rw [eq_main_v39 W, row0 W]; rfl
theorem xj' : after ops W (Proc.devRef .tc main_v46) = Cert.KernelIdeal.Fold.rows4 (argsOfVal W).x (Cert.KernelIdeal.Fold.edgeRow1 (argsOfVal W).edges) := by
  rw [eq_main_v46 W, row1 W]; rfl
theorem hi : after ops W (Proc.devRef .tc main_v67) = Cert.KernelIdeal.Fold.rows72 (argsOfVal W).h (Cert.KernelIdeal.Fold.edgeRow0 (argsOfVal W).edges) := by
  rw [eq_main_v67 W, row0 W]; rfl
theorem hj : after ops W (Proc.devRef .tc main_v74) = Cert.KernelIdeal.Fold.rows72 (argsOfVal W).h (Cert.KernelIdeal.Fold.edgeRow1 (argsOfVal W).edges) := by
  rw [eq_main_v74 W, row1 W]; rfl

/-! ## The first dense stage -/

theorem xd : after ops W (Proc.devRef .tc main_v18) = xdK (argsOfVal W) := by
  rw [eq_main_v18 W, xi W, xj W]
  exact Cert.BridgeEdgeLin.xdiff_eq _ _

theorem z : after ops W (Proc.devRef .tc main_v76) = zK (argsOfVal W) := by
  rw [eq_main_v76 W, eq_main_v75 W, eq_main_v31 W, eq_main_v59 W, eq_main_v18 W, hi W, hj W, xi W, xj W, xi' W, xj' W]
  exact Cert.BridgeEdgeLin.z_eq _ _ _ _ _

/-- The reference's column means [72] are the kernel's, which it keeps as one row [1, 72]. -/
theorem meanE (k : Fin 72) : Cert.KernelIdeal.Fold.colMeanE (F := Ideal) (zK (argsOfVal W)) (ix2 (0 : Fin 1) k) = after ops W (Proc.devRef .tc main_v79) (ix1 k) := by
  rw [eq_main_v79 W, z W]
  exact Cert.BridgeNode.meanE_eq _ k
theorem varE (k : Fin 72) : Cert.KernelIdeal.Fold.colVarE (F := Ideal) (zK (argsOfVal W)) (constantI S_ 32 0#32) (ix2 (0 : Fin 1) k) = after ops W (Proc.devRef .tc main_v80) (ix1 k) := by
  rw [eq_main_v80 W, z W]
  exact Cert.BridgeNode.varE_eq _ k

/-! ## The rest of the edge network -/

theorem msg : after ops W (Proc.devRef .tc main_v113) = mK (argsOfVal W) := by
  rw [eq_main_v113 W, eq_main_v111 W, eq_main_v101 W, eq_main_v96 W, z W]
  exact Cert.BridgeEdgeMlp.m_eq _ _ _ _ _ _ _ _ _ _ _ (meanE W) (varE W)

theorem tr : after ops W (Proc.devRef .tc main_v122) = trK (argsOfVal W) := by
  rw [eq_main_v122 W, eq_main_v119 W, eq_main_v113 W, eq_main_v111 W, eq_main_v101 W, eq_main_v96 W, z W, xd W]
  exact Cert.BridgeEdgeMlp.trans_eq _ _ _ _ _ _ _ _ _ _ _ (meanE W) (varE W) _ _ _ _

/-! ## The segment sums and the new coordinates: the same operations on equal arrays -/

theorem agg : after ops W (Proc.devRef .tc main_v140) = Cert.KernelIdeal.Fold.segSum72 (Cert.KernelIdeal.Fold.edgeRow0 (argsOfVal W).edges) (mK (argsOfVal W)) := by
  rw [eq_main_v140 W, row0 W, msg W]; rfl

/-- The second result. -/
theorem ref_x : after ops W (Proc.devRef .tc main_v137) = xoutK (argsOfVal W) := by
  rw [eq_main_v137 W, eq_main_v129 W, eq_main_v126 W, row0 W, tr W]; rfl

/-- The third result. -/
theorem ref_m : after ops W (Proc.devRef .tc main_v113) = mK (argsOfVal W) := msg W

/-! ## The node network -/

theorem zh : after ops W (Proc.devRef .tc main_v145) = zhK (argsOfVal W) := by
  rw [eq_main_v145 W, agg W]
  exact Cert.BridgeNode.zh_eq _ _ _ _ _

theorem meanN (k : Fin 72) : Cert.KernelIdeal.Fold.colMeanN (F := Ideal) (zhK (argsOfVal W)) (ix2 (0 : Fin 1) k) = after ops W (Proc.devRef .tc main_v148) (ix1 k) := by
  rw [eq_main_v148 W, zh W]
  exact Cert.BridgeNode.meanN_eq _ k
theorem varN (k : Fin 72) : Cert.KernelIdeal.Fold.colVarN (F := Ideal) (zhK (argsOfVal W)) (constantI S_ 32 0#32) (ix2 (0 : Fin 1) k) = after ops W (Proc.devRef .tc main_v149) (ix1 k) := by
  rw [eq_main_v149 W, zh W]
  exact Cert.BridgeNode.varN_eq _ k

/-- The first result. -/
theorem ref_h : after ops W (Proc.devRef .tc main_v170) = houtK (argsOfVal W) := by
  rw [eq_main_v170 W, eq_main_v165 W, zh W]
  exact Cert.BridgeNode.hout_eq _ _ _ _ _ _ _ _ _ _ (meanN W) (varN W)

end Cert.ReferenceIdeal.Whole

end
-- ==== Proof.lean ====
/-
  A message-passing layer on a graph of 50000 nodes and 1600000 edges, computed by four tiled kernels with gathers and
  segment sums between them, against the same layer written with whole-array operations.

  Both programs, read on the extended reals, compute: for each edge the first linear layer of the edge network on the two
  end points' features and the two signed-log Minkowski features of their coordinates; its batch normalization over all
  edges, rectification, a second linear layer, a logistic gate — the message — and from the message a scalar that scales
  the coordinate difference, clipped to [-100, 100]; for each node the sum of the messages and the mean of the
  translations of the edges leaving it; the node network's first linear layer on (features, summed messages, attributes),
  its batch normalization over all nodes, rectification, a second linear layer and the residual.

  The kernel's side: every weakly fair execution of its twelve segments terminates and leaves each result at the
  composition of the four regions' closed forms with the host glue between them.  The reference's side: its run, read
  stage by stage.  The two compositions are one function of the twenty arguments: where the reference multiplies a
  concatenation of blocks by one matrix the kernel adds the blocks' products with the matrix's row slices — a finite sum
  split by commutativity and associativity of addition on the extended reals, which asks no finiteness —, a change of
  float format is the identity, the kernel's sign written with comparisons is the sign, its logistic is the reference's
  quotient 1 / (1 + exp(-x)), and the column statistics differ only in whether a vector is laid as a row before or after a
  division.  The sign-bit rewrites that made the kernel readable on the extended reals are the rule's own statement.
-/
import proofs.«128591_j87351044866445_2_alg».proof.Defs
import proofs.«128591_j87351044866445_2_alg».proof.Proof.Gen.Kernel
import proofs.«128591_j87351044866445_2_alg».proof.Proof.Gen.Kernel.Frame
import proofs.«128591_j87351044866445_2_alg».proof.Proof.Gen.KernelIdeal
import proofs.«128591_j87351044866445_2_alg».proof.Proof.Gen.KernelIdeal.Frame
import proofs.«128591_j87351044866445_2_alg».proof.Proof.Gen.ReferenceIdeal
import proofs.«128591_j87351044866445_2_alg».proof.Proof.Gen.Pre_finite_inputs
import proofs.«128591_j87351044866445_2_alg».proof.Proof.KernelRun
import proofs.«128591_j87351044866445_2_alg».proof.Proof.KernelValue
import proofs.«128591_j87351044866445_2_alg».proof.Proof.RefValue
import Idealize.ShloMosaic.Adequacy
import Idealize.ShloMosaic.Init

set_option maxRecDepth 16384

noncomputable section

namespace Cert.Proof

open Idealize.ShloMosaic Idealize.SL.Sem

/-! ## The three frames -/

theorem frame_k : Cert.frame_Kernel := fun m ρ _ => Cert.Kernel.Gen.frame m ρ
theorem frame_ki : Cert.frame_KernelIdeal := fun m ρ _ => Cert.KernelIdeal.Gen.frame m ρ
/-- The reference writes none of its arguments: each holds after the run what it held at launch. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.arg0_kept _),
     (h c Cert.ReferenceIdeal.main_arg1).trans (Cert.ReferenceIdeal.RefRun.arg1_kept _),
     (h c Cert.ReferenceIdeal.main_arg2).trans (Cert.ReferenceIdeal.RefRun.arg2_kept _),
     (h c Cert.ReferenceIdeal.main_arg3).trans (Cert.ReferenceIdeal.RefRun.arg3_kept _),
     (h c Cert.ReferenceIdeal.main_arg4).trans (Cert.ReferenceIdeal.RefRun.arg4_kept _),
     (h c Cert.ReferenceIdeal.main_arg5).trans (Cert.ReferenceIdeal.RefRun.arg5_kept _),
     (h c Cert.ReferenceIdeal.main_arg6).trans (Cert.ReferenceIdeal.RefRun.arg6_kept _),
     (h c Cert.ReferenceIdeal.main_arg7).trans (Cert.ReferenceIdeal.RefRun.arg7_kept _),
     (h c Cert.ReferenceIdeal.main_arg8).trans (Cert.ReferenceIdeal.RefRun.arg8_kept _),
     (h c Cert.ReferenceIdeal.main_arg9).trans (Cert.ReferenceIdeal.RefRun.arg9_kept _),
     (h c Cert.ReferenceIdeal.main_arg10).trans (Cert.ReferenceIdeal.RefRun.arg10_kept _),
     (h c Cert.ReferenceIdeal.main_arg11).trans (Cert.ReferenceIdeal.RefRun.arg11_kept _),
     (h c Cert.ReferenceIdeal.main_arg12).trans (Cert.ReferenceIdeal.RefRun.arg12_kept _),
     (h c Cert.ReferenceIdeal.main_arg13).trans (Cert.ReferenceIdeal.RefRun.arg13_kept _),
     (h c Cert.ReferenceIdeal.main_arg14).trans (Cert.ReferenceIdeal.RefRun.arg14_kept _),
     (h c Cert.ReferenceIdeal.main_arg15).trans (Cert.ReferenceIdeal.RefRun.arg15_kept _),
     (h c Cert.ReferenceIdeal.main_arg16).trans (Cert.ReferenceIdeal.RefRun.arg16_kept _),
     (h c Cert.ReferenceIdeal.main_arg17).trans (Cert.ReferenceIdeal.RefRun.arg17_kept _),
     (h c Cert.ReferenceIdeal.main_arg18).trans (Cert.ReferenceIdeal.RefRun.arg18_kept _),
     (h c Cert.ReferenceIdeal.main_arg19).trans (Cert.ReferenceIdeal.RefRun.arg19_kept _)⟩)
    (Cert.ReferenceIdeal.RefRun.run (F := Ideal) m ρ)

/-! ## The idealization's two rewrites -/

/-- Both entries of the ledger are the sign-bit rule at a column of 4000 entries. -/
theorem preserves : Cert.preserves_Kernel_KernelIdeal :=
  ⟨IdealRules.sign_bit.statement Cert.KernelIdeal.S4000x1 .f32, IdealRules.sign_bit.statement Cert.KernelIdeal.S4000x1 .f32⟩

/-! ## Equal results -/

open Cert.KernelIdeal.Whole in
/-- From memories that agree on the arguments both programs run, and each result is the one function of the arguments. -/
theorem algebraic : Cert.algebraic_KernelIdeal_ReferenceIdeal := by
  intro m ρ m' ρ' _ hagree
  refine ⟨fun c => houtK (argsOf m ρ c), fun c => xoutK (argsOf m ρ c), fun c => mK (argsOf m ρ c), ?_, ?_⟩
  · refine (θ_run Cert.KernelIdeal.defs _ _).mono (fun _ h c => ?_) (Cert.KernelIdeal.ValueRun.run (F := Ideal) m ρ)
    exact ⟨(h c Cert.KernelIdeal.main_v79 (by decide)).trans (kernel_h m ρ c),
      (h c Cert.KernelIdeal.main_v65 (by decide)).trans (kernel_x m ρ c),
      (h c Cert.KernelIdeal.main_v47_0 (by decide)).trans (kernel_m m ρ c),
      (h c Cert.KernelIdeal.main_arg0 (by decide)).trans (Cert.KernelIdeal.Gen.W12_main_arg0 m ρ c),
      (h c Cert.KernelIdeal.main_arg1 (by decide)).trans (Cert.KernelIdeal.Gen.W12_main_arg1 m ρ c),
      (h c Cert.KernelIdeal.main_arg2 (by decide)).trans (Cert.KernelIdeal.Gen.W12_main_arg2 m ρ c),
      (h c Cert.KernelIdeal.main_arg3 (by decide)).trans (Cert.KernelIdeal.Gen.W12_main_arg3 m ρ c),
      (h c Cert.KernelIdeal.main_arg4 (by decide)).trans (Cert.KernelIdeal.Gen.W12_main_arg4 m ρ c),
      (h c Cert.KernelIdeal.main_arg5 (by decide)).trans (Cert.KernelIdeal.Gen.W12_main_arg5 m ρ c),
      (h c Cert.KernelIdeal.main_arg6 (by decide)).trans (Cert.KernelIdeal.Gen.W12_main_arg6 m ρ c),
      (h c Cert.KernelIdeal.main_arg7 (by decide)).trans (Cert.KernelIdeal.Gen.W12_main_arg7 m ρ c),
      (h c Cert.KernelIdeal.main_arg8 (by decide)).trans (Cert.KernelIdeal.Gen.W12_main_arg8 m ρ c),
      (h c Cert.KernelIdeal.main_arg9 (by decide)).trans (Cert.KernelIdeal.Gen.W12_main_arg9 m ρ c),
      (h c Cert.KernelIdeal.main_arg10 (by decide)).trans (Cert.KernelIdeal.Gen.W12_main_arg10 m ρ c),
      (h c Cert.KernelIdeal.main_arg11 (by decide)).trans (Cert.KernelIdeal.Gen.W12_main_arg11 m ρ c),
      (h c Cert.KernelIdeal.main_arg12 (by decide)).trans (Cert.KernelIdeal.Gen.W12_main_arg12 m ρ c),
      (h c Cert.KernelIdeal.main_arg13 (by decide)).trans (Cert.KernelIdeal.Gen.W12_main_arg13 m ρ c),
      (h c Cert.KernelIdeal.main_arg14 (by decide)).trans (Cert.KernelIdeal.Gen.W12_main_arg14 m ρ c),
      (h c Cert.KernelIdeal.main_arg15 (by decide)).trans (Cert.KernelIdeal.Gen.W12_main_arg15 m ρ c),
      (h c Cert.KernelIdeal.main_arg16 (by decide)).trans (Cert.KernelIdeal.Gen.W12_main_arg16 m ρ c),
      (h c Cert.KernelIdeal.main_arg17 (by decide)).trans (Cert.KernelIdeal.Gen.W12_main_arg17 m ρ c),
      (h c Cert.KernelIdeal.main_arg18 (by decide)).trans (Cert.KernelIdeal.Gen.W12_main_arg18 m ρ c),
      (h c Cert.KernelIdeal.main_arg19 (by decide)).trans (Cert.KernelIdeal.Gen.W12_main_arg19 m ρ c)⟩
  · refine (θ_run Cert.ReferenceIdeal.defs _ _).mono (fun _ h c => ?_) (Cert.ReferenceIdeal.RefRun.run (F := Ideal) m' ρ')
    have ha : Cert.ReferenceIdeal.Whole.argsOfVal (StableHlo.launchContents m' c) = argsOf m ρ c := by
      obtain ⟨h0, h1, h2, h3, h4, h5, h6, h7, h8, h9, h10, h11, h12, h13, h14, h15, h16, h17, h18, h19⟩ := hagree c
      unfold Cert.ReferenceIdeal.Whole.argsOfVal Cert.KernelIdeal.Whole.argsOf
      congr 1
    exact ⟨(h c Cert.ReferenceIdeal.main_v170).trans ((Cert.ReferenceIdeal.Whole.ref_h _).trans (congrArg houtK ha)),
      (h c Cert.ReferenceIdeal.main_v137).trans ((Cert.ReferenceIdeal.Whole.ref_x _).trans (congrArg xoutK ha)),
      (h c Cert.ReferenceIdeal.main_v113).trans ((Cert.ReferenceIdeal.Whole.ref_m _).trans (congrArg mK ha)),
      (h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _),
      (h c Cert.ReferenceIdeal.main_arg11).trans (Cert.ReferenceIdeal.RefRun.arg11_kept _),
      (h c Cert.ReferenceIdeal.main_arg12).trans (Cert.ReferenceIdeal.RefRun.arg12_kept _),
      (h c Cert.ReferenceIdeal.main_arg13).trans (Cert.ReferenceIdeal.RefRun.arg13_kept _),
      (h c Cert.ReferenceIdeal.main_arg14).trans (Cert.ReferenceIdeal.RefRun.arg14_kept _),
      (h c Cert.ReferenceIdeal.main_arg15).trans (Cert.ReferenceIdeal.RefRun.arg15_kept _),
      (h c Cert.ReferenceIdeal.main_arg16).trans (Cert.ReferenceIdeal.RefRun.arg16_kept _),
      (h c Cert.ReferenceIdeal.main_arg17).trans (Cert.ReferenceIdeal.RefRun.arg17_kept _),
      (h c Cert.ReferenceIdeal.main_arg18).trans (Cert.ReferenceIdeal.RefRun.arg18_kept _),
      (h c Cert.ReferenceIdeal.main_arg19).trans (Cert.ReferenceIdeal.RefRun.arg19_kept _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
